-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x33554432 : Shape := ⟨3, ![1, 1, 33554432]⟩
abbrev S_ : Shape := ⟨0, ![]⟩

class Facts : Prop where
  bcast_S_S1x1x33554432 : S_.BroadcastsInDim S1x1x33554432 (![] : Fin 0 → Fin S1x1x33554432.rank)
  reducesTo_S1x1x33554432_S_d0_1_2 : S1x1x33554432.ReducesTo [0, 1, 2] S_
  h_S_ : 0 < S_.numel

variable [Facts]

def fn {F : FTy → Type} [FloatOps F] (main_arg0 : FVec F S1x1x33554432 .f32) : IVec S_ 1 :=
  let main_v0 : FVec F S1x1x33554432 .f32 := Host.absf main_arg0
  let main_cst : FVec F S_ .f32 := constant S_ .f32 0x7F800000#32
  let main_v1 : FVec F S1x1x33554432 .f32 := broadcastInDim S1x1x33554432 ![] bcast_S_S1x1x33554432 main_cst
  let main_v2 : IVec S1x1x33554432 1 := cmpf .olt main_v0 main_v1
  let main_c : IVec S_ 1 := constantI S_ 1 1#1
  let main_v3 : IVec S_ 1 := (fun x v => Host.reduce IntOp.andi x v reducesTo_S1x1x33554432_S_d0_1_2 h_S_) main_v2 main_c
  main_v3
-- ==== Kernel.lean ====
abbrev S1x1x33554432 : Shape := ⟨3, ![1, 1, 33554432]⟩
abbrev S0 : Shape := ⟨1, ![0]⟩
abbrev S33554432 : Shape := ⟨1, ![33554432]⟩
abbrev S262144x128 : Shape := ⟨2, ![262144, 128]⟩
abbrev S8192x128 : Shape := ⟨2, ![8192, 128]⟩
abbrev S1048576 : Shape := ⟨1, ![1048576]⟩
abbrev S1048576x1 : Shape := ⟨2, ![1048576, 1]⟩
abbrev S1048576x2 : Shape := ⟨2, ![1048576, 2]⟩
abbrev S2097152 : Shape := ⟨1, ![2097152]⟩
abbrev S_ : Shape := ⟨0, ![]⟩
abbrev S1 : Shape := ⟨1, ![1]⟩
abbrev S16384x128 : Shape := ⟨2, ![16384, 128]⟩
abbrev S2097152x1 : Shape := ⟨2, ![2097152, 1]⟩
abbrev S2097152x2 : Shape := ⟨2, ![2097152, 2]⟩
abbrev S4194304 : Shape := ⟨1, ![4194304]⟩
abbrev S32768x128 : Shape := ⟨2, ![32768, 128]⟩
abbrev S4194304x1 : Shape := ⟨2, ![4194304, 1]⟩
abbrev S4194304x2 : Shape := ⟨2, ![4194304, 2]⟩
abbrev S8388608 : Shape := ⟨1, ![8388608]⟩
abbrev S65536x128 : Shape := ⟨2, ![65536, 128]⟩
abbrev S8388608x1 : Shape := ⟨2, ![8388608, 1]⟩
abbrev S8388608x2 : Shape := ⟨2, ![8388608, 2]⟩
abbrev S16777216 : Shape := ⟨1, ![16777216]⟩
abbrev S131072x128 : Shape := ⟨2, ![131072, 128]⟩
abbrev S16777216x1 : Shape := ⟨2, ![16777216, 1]⟩
abbrev S16777216x2 : Shape := ⟨2, ![16777216, 2]⟩
abbrev S4096x128 : Shape := ⟨2, ![4096, 128]⟩

abbrev nBuf : Space → Nat
  | .hbm => 62
  | .vmem => 40
  | .smem => 0
  | _ => 0

abbrev bufTy : (tb : Table) → Fin (tcTables nBuf tb) → BufTy
  | .hbm, ⟨0, _⟩ => ⟨S1x1x33554432, .f32⟩
  | .hbm, ⟨1, _⟩ => ⟨S0, .i32⟩
  | .hbm, ⟨2, _⟩ => ⟨S33554432, .f32⟩
  | .hbm, ⟨3, _⟩ => ⟨S262144x128, .f32⟩
  | .hbm, ⟨4, _⟩ => ⟨S8192x128, .f32⟩
  | .hbm, ⟨5, _⟩ => ⟨S8192x128, .f32⟩
  | .hbm, ⟨6, _⟩ => ⟨S1048576, .f32⟩
  | .hbm, ⟨7, _⟩ => ⟨S1048576, .f32⟩
  | .hbm, ⟨8, _⟩ => ⟨S1048576x1, .f32⟩
  | .hbm, ⟨9, _⟩ => ⟨S1048576x1, .f32⟩
  | .hbm, ⟨10, _⟩ => ⟨S1048576x2, .f32⟩
  | .hbm, ⟨11, _⟩ => ⟨S2097152, .f32⟩
  | .hbm, ⟨12, _⟩ => ⟨S_, .i32⟩
  | .hbm, ⟨13, _⟩ => ⟨S1, .i32⟩
  | .hbm, ⟨14, _⟩ => ⟨S33554432, .f32⟩
  | .hbm, ⟨15, _⟩ => ⟨S262144x128, .f32⟩
  | .hbm, ⟨16, _⟩ => ⟨S16384x128, .f32⟩
  | .hbm, ⟨17, _⟩ => ⟨S16384x128, .f32⟩
  | .hbm, ⟨18, _⟩ => ⟨S2097152, .f32⟩
  | .hbm, ⟨19, _⟩ => ⟨S2097152, .f32⟩
  | .hbm, ⟨20, _⟩ => ⟨S2097152x1, .f32⟩
  | .hbm, ⟨21, _⟩ => ⟨S2097152x1, .f32⟩
  | .hbm, ⟨22, _⟩ => ⟨S2097152x2, .f32⟩
  | .hbm, ⟨23, _⟩ => ⟨S4194304, .f32⟩
  | .hbm, ⟨24, _⟩ => ⟨S_, .i32⟩
  | .hbm, ⟨25, _⟩ => ⟨S1, .i32⟩
  | .hbm, ⟨26, _⟩ => ⟨S33554432, .f32⟩
  | .hbm, ⟨27, _⟩ => ⟨S262144x128, .f32⟩
  | .hbm, ⟨28, _⟩ => ⟨S32768x128, .f32⟩
  | .hbm, ⟨29, _⟩ => ⟨S32768x128, .f32⟩
  | .hbm, ⟨30, _⟩ => ⟨S4194304, .f32⟩
  | .hbm, ⟨31, _⟩ => ⟨S4194304, .f32⟩
  | .hbm, ⟨32, _⟩ => ⟨S4194304x1, .f32⟩
  | .hbm, ⟨33, _⟩ => ⟨S4194304x1, .f32⟩
  | .hbm, ⟨34, _⟩ => ⟨S4194304x2, .f32⟩
  | .hbm, ⟨35, _⟩ => ⟨S8388608, .f32⟩
  | .hbm, ⟨36, _⟩ => ⟨S_, .i32⟩
  | .hbm, ⟨37, _⟩ => ⟨S1, .i32⟩
  | .hbm, ⟨38, _⟩ => ⟨S33554432, .f32⟩
  | .hbm, ⟨39, _⟩ => ⟨S262144x128, .f32⟩
  | .hbm, ⟨40, _⟩ => ⟨S65536x128, .f32⟩
  | .hbm, ⟨41, _⟩ => ⟨S65536x128, .f32⟩
  | .hbm, ⟨42, _⟩ => ⟨S8388608, .f32⟩
  | .hbm, ⟨43, _⟩ => ⟨S8388608, .f32⟩
  | .hbm, ⟨44, _⟩ => ⟨S8388608x1, .f32⟩
  | .hbm, ⟨45, _⟩ => ⟨S8388608x1, .f32⟩
  | .hbm, ⟨46, _⟩ => ⟨S8388608x2, .f32⟩
  | .hbm, ⟨47, _⟩ => ⟨S16777216, .f32⟩
  | .hbm, ⟨48, _⟩ => ⟨S_, .i32⟩
  | .hbm, ⟨49, _⟩ => ⟨S1, .i32⟩
  | .hbm, ⟨50, _⟩ => ⟨S33554432, .f32⟩
  | .hbm, ⟨51, _⟩ => ⟨S262144x128, .f32⟩
  | .hbm, ⟨52, _⟩ => ⟨S131072x128, .f32⟩
  | .hbm, ⟨53, _⟩ => ⟨S131072x128, .f32⟩
  | .hbm, ⟨54, _⟩ => ⟨S16777216, .f32⟩
  | .hbm, ⟨55, _⟩ => ⟨S16777216, .f32⟩
  | .hbm, ⟨56, _⟩ => ⟨S16777216x1, .f32⟩
  | .hbm, ⟨57, _⟩ => ⟨S16777216x1, .f32⟩
  | .hbm, ⟨58, _⟩ => ⟨S16777216x2, .f32⟩
  | .hbm, ⟨59, _⟩ => ⟨S33554432, .f32⟩
  | .hbm, ⟨60, _⟩ => ⟨S33554432, .f32⟩
  | .hbm, ⟨61, _⟩ => ⟨S1x1x33554432, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | .local _ .vmem, ⟨20, _⟩ => ⟨S4096x128, .f32⟩
  | .local _ .vmem, ⟨21, _⟩ => ⟨S4096x128, .f32⟩
  | .local _ .vmem, ⟨22, _⟩ => ⟨S4096x128, .f32⟩
  | .local _ .vmem, ⟨23, _⟩ => ⟨S4096x128, .f32⟩
  | .local _ .vmem, ⟨24, _⟩ => ⟨S4096x128, .f32⟩
  | .local _ .vmem, ⟨25, _⟩ => ⟨S4096x128, .f32⟩
  | .local _ .vmem, ⟨26, _⟩ => ⟨S4096x128, .f32⟩
  | .local _ .vmem, ⟨27, _⟩ => ⟨S4096x128, .f32⟩
  | .local _ .vmem, ⟨28, _⟩ => ⟨S4096x128, .f32⟩
  | .local _ .vmem, ⟨29, _⟩ => ⟨S4096x128, .f32⟩
  | .local _ .vmem, ⟨30, _⟩ => ⟨S4096x128, .f32⟩
  | .local _ .vmem, ⟨31, _⟩ => ⟨S4096x128, .f32⟩
  | .local _ .vmem, ⟨32, _⟩ => ⟨S4096x128, .f32⟩
  | .local _ .vmem, ⟨33, _⟩ => ⟨S4096x128, .f32⟩
  | .local _ .vmem, ⟨34, _⟩ => ⟨S4096x128, .f32⟩
  | .local _ .vmem, ⟨35, _⟩ => ⟨S4096x128, .f32⟩
  | .local _ .vmem, ⟨36, _⟩ => ⟨S4096x128, .f32⟩
  | .local _ .vmem, ⟨37, _⟩ => ⟨S4096x128, .f32⟩
  | .local _ .vmem, ⟨38, _⟩ => ⟨S4096x128, .f32⟩
  | .local _ .vmem, ⟨39, _⟩ => ⟨S4096x128, .f32⟩
  | _, _ => ⟨S1x1x33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_call0_c : Ref sig .tc := ⟨.hbm, 1, rfl⟩
abbrev main_call0_v0 : Ref sig .tc := ⟨.hbm, 2, rfl⟩
abbrev main_call0_v1 : Ref sig .tc := ⟨.hbm, 3, rfl⟩
abbrev main_call0_v2_0 : Ref sig .tc := ⟨.hbm, 4, rfl⟩
abbrev main_call0_v2_1 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_c_0 : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_v12_0 : Ref sig .tc := ⟨.hbm, 16, rfl⟩
abbrev main_call0_v12_1 : Ref sig .tc := ⟨.hbm, 17, rfl⟩
abbrev main_call0_v13 : Ref sig .tc := ⟨.hbm, 18, rfl⟩
abbrev main_call0_v14 : Ref sig .tc := ⟨.hbm, 19, rfl⟩
abbrev main_call0_v15 : Ref sig .tc := ⟨.hbm, 20, rfl⟩
abbrev main_call0_v16 : Ref sig .tc := ⟨.hbm, 21, rfl⟩
abbrev main_call0_v17 : Ref sig .tc := ⟨.hbm, 22, rfl⟩
abbrev main_call0_v18 : Ref sig .tc := ⟨.hbm, 23, rfl⟩
abbrev main_call0_c_1 : Ref sig .tc := ⟨.hbm, 24, rfl⟩
abbrev main_call0_v19 : Ref sig .tc := ⟨.hbm, 25, rfl⟩
abbrev main_call0_v20 : Ref sig .tc := ⟨.hbm, 26, rfl⟩
abbrev main_call0_v21 : Ref sig .tc := ⟨.hbm, 27, rfl⟩
abbrev main_call0_v22_0 : Ref sig .tc := ⟨.hbm, 28, rfl⟩
abbrev main_call0_v22_1 : Ref sig .tc := ⟨.hbm, 29, rfl⟩
abbrev main_call0_v23 : Ref sig .tc := ⟨.hbm, 30, rfl⟩
abbrev main_call0_v24 : Ref sig .tc := ⟨.hbm, 31, rfl⟩
abbrev main_call0_v25 : Ref sig .tc := ⟨.hbm, 32, rfl⟩
abbrev main_call0_v26 : Ref sig .tc := ⟨.hbm, 33, rfl⟩
abbrev main_call0_v27 : Ref sig .tc := ⟨.hbm, 34, rfl⟩
abbrev main_call0_v28 : Ref sig .tc := ⟨.hbm, 35, rfl⟩
abbrev main_call0_c_2 : Ref sig .tc := ⟨.hbm, 36, rfl⟩
abbrev main_call0_v29 : Ref sig .tc := ⟨.hbm, 37, rfl⟩
abbrev main_call0_v30 : Ref sig .tc := ⟨.hbm, 38, rfl⟩
abbrev main_call0_v31 : Ref sig .tc := ⟨.hbm, 39, rfl⟩
abbrev main_call0_v32_0 : Ref sig .tc := ⟨.hbm, 40, rfl⟩
abbrev main_call0_v32_1 : Ref sig .tc := ⟨.hbm, 41, rfl⟩
abbrev main_call0_v33 : Ref sig .tc := ⟨.hbm, 42, rfl⟩
abbrev main_call0_v34 : Ref sig .tc := ⟨.hbm, 43, rfl⟩
abbrev main_call0_v35 : Ref sig .tc := ⟨.hbm, 44, rfl⟩
abbrev main_call0_v36 : Ref sig .tc := ⟨.hbm, 45, rfl⟩
abbrev main_call0_v37 : Ref sig .tc := ⟨.hbm, 46, rfl⟩
abbrev main_call0_v38 : Ref sig .tc := ⟨.hbm, 47, rfl⟩
abbrev main_call0_c_3 : Ref sig .tc := ⟨.hbm, 48, rfl⟩
abbrev main_call0_v39 : Ref sig .tc := ⟨.hbm, 49, rfl⟩
abbrev main_call0_v40 : Ref sig .tc := ⟨.hbm, 50, rfl⟩
abbrev main_call0_v41 : Ref sig .tc := ⟨.hbm, 51, rfl⟩
abbrev main_call0_v42_0 : Ref sig .tc := ⟨.hbm, 52, rfl⟩
abbrev main_call0_v42_1 : Ref sig .tc := ⟨.hbm, 53, rfl⟩
abbrev main_call0_v43 : Ref sig .tc := ⟨.hbm, 54, rfl⟩
abbrev main_call0_v44 : Ref sig .tc := ⟨.hbm, 55, rfl⟩
abbrev main_call0_v45 : Ref sig .tc := ⟨.hbm, 56, rfl⟩
abbrev main_call0_v46 : Ref sig .tc := ⟨.hbm, 57, rfl⟩
abbrev main_call0_v47 : Ref sig .tc := ⟨.hbm, 58, rfl⟩
abbrev main_call0_v48 : Ref sig .tc := ⟨.hbm, 59, rfl⟩
abbrev main_call0_v49 : Ref sig .tc := ⟨.hbm, 60, rfl⟩
abbrev main_v0 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg3_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4096x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4096x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4096x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4096x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4096x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S4096x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  hz_S0 : S0.numel = 0
  shapeCasts_S1x1x33554432_S33554432 : S1x1x33554432.ShapeCasts S33554432
  shapeCasts_S33554432_S262144x128 : S33554432.ShapeCasts S262144x128
  shapeCasts_S8192x128_S1048576 : S8192x128.ShapeCasts S1048576
  bcast_S1048576_S1048576x1_0 : S1048576.BroadcastsInDim S1048576x1 (![0] : Fin 1 → Fin S1048576x1.rank)
  concatenates_S1048576x1_S1048576x1_S1048576x2_d1 : Shape.Concatenates [S1048576x1, S1048576x1] S1048576x2 1
  shapeCasts_S1048576x2_S2097152 : S1048576x2.ShapeCasts S2097152
  bcast_S_S1 : S_.BroadcastsInDim S1 (![] : Fin 0 → Fin S1.rank)
  shapeCasts_S16384x128_S2097152 : S16384x128.ShapeCasts S2097152
  bcast_S2097152_S2097152x1_0 : S2097152.BroadcastsInDim S2097152x1 (![0] : Fin 1 → Fin S2097152x1.rank)
  concatenates_S2097152x1_S2097152x1_S2097152x2_d1 : Shape.Concatenates [S2097152x1, S2097152x1] S2097152x2 1
  shapeCasts_S2097152x2_S4194304 : S2097152x2.ShapeCasts S4194304
  shapeCasts_S32768x128_S4194304 : S32768x128.ShapeCasts S4194304
  bcast_S4194304_S4194304x1_0 : S4194304.BroadcastsInDim S4194304x1 (![0] : Fin 1 → Fin S4194304x1.rank)
  concatenates_S4194304x1_S4194304x1_S4194304x2_d1 : Shape.Concatenates [S4194304x1, S4194304x1] S4194304x2 1
  shapeCasts_S4194304x2_S8388608 : S4194304x2.ShapeCasts S8388608
  shapeCasts_S65536x128_S8388608 : S65536x128.ShapeCasts S8388608
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1
  shapeCasts_S8388608x2_S16777216 : S8388608x2.ShapeCasts S16777216
  shapeCasts_S131072x128_S16777216 : S131072x128.ShapeCasts S16777216
  bcast_S16777216_S16777216x1_0 : S16777216.BroadcastsInDim S16777216x1 (![0] : Fin 1 → Fin S16777216x1.rank)
  concatenates_S16777216x1_S16777216x1_S16777216x2_d1 : Shape.Concatenates [S16777216x1, S16777216x1] S16777216x2 1
  shapeCasts_S16777216x2_S33554432 : S16777216x2.ShapeCasts S33554432
  shapeCasts_S33554432_S1x1x33554432 : S33554432.ShapeCasts S1x1x33554432
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  scatter_S33554432_S1_S2097152_0_n_0_0_wf : ScatterDims.WF S33554432 S1 S2097152 [0] [] [0] 0
  scatter_S33554432_S1_S4194304_0_n_0_0_wf : ScatterDims.WF S33554432 S1 S4194304 [0] [] [0] 0
  scatter_S33554432_S1_S8388608_0_n_0_0_wf : ScatterDims.WF S33554432 S1 S8388608 [0] [] [0] 0
  scatter_S33554432_S1_S16777216_0_n_0_0_wf : ScatterDims.WF S33554432 S1 S16777216 [0] [] [0] 0
  scatter_S33554432_S0_S33554432_0_n_n_0_wf : ScatterDims.WF S33554432 S0 S33554432 [0] [] [] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .f32 = 32 ∨ (Rect.block (s := S262144x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S8192x128.size a
  hwx0_2 : ∀ i : grid0.Coords, EltTy.bits .f32 = 32 ∨ (Rect.block (s := S8192x128) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S8192x128.size a
  hwx0_3 : ∀ i : grid0.Coords, EltTy.bits .f32 = 32 ∨ (Rect.block (s := S8192x128) S4096x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S262144x128.size a
  hwx1_0 : ∀ i : grid1.Coords, EltTy.bits .f32 = 32 ∨ (Rect.block (s := S262144x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S262144x128.size a
  hwx1_1 : ∀ i : grid1.Coords, EltTy.bits .f32 = 32 ∨ (Rect.block (s := S262144x128) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S16384x128.size a
  hwx1_2 : ∀ i : grid1.Coords, EltTy.bits .f32 = 32 ∨ (Rect.block (s := S16384x128) S4096x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x128.size a ≤ S16384x128.size a
  hwx1_3 : ∀ i : grid1.Coords, EltTy.bits .f32 = 32 ∨ (Rect.block (s := S16384x128) S4096x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S262144x128.size a
  hwx2_0 : ∀ i : grid2.Coords, EltTy.bits .f32 = 32 ∨ (Rect.block (s := S262144x128) S4096x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S262144x128.size a
  hwx2_1 : ∀ i : grid2.Coords, EltTy.bits .f32 = 32 ∨ (Rect.block (s := S262144x128) S4096x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x128.size a ≤ S32768x128.size a
  hwx2_2 : ∀ i : grid2.Coords, EltTy.bits .f32 = 32 ∨ (Rect.block (s := S32768x128) S4096x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096x128.size a ≤ S32768x128.size a
  hwx2_3 : ∀ i : grid2.Coords, EltTy.bits .f32 = 32 ∨ (Rect.block (s := S32768x128) S4096x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x128.size a ≤ S262144x128.size a
  hwx3_0 : ∀ i : grid3.Coords, EltTy.bits .f32 = 32 ∨ (Rect.block (s := S262144x128) S4096x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x128.size a ≤ S262144x128.size a
  hwx3_1 : ∀ i : grid3.Coords, EltTy.bits .f32 = 32 ∨ (Rect.block (s := S262144x128) S4096x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096x128.size a ≤ S65536x128.size a
  hwx3_2 : ∀ i : grid3.Coords, EltTy.bits .f32 = 32 ∨ (Rect.block (s := S65536x128) S4096x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4096x128.size a ≤ S65536x128.size a
  hwx3_3 : ∀ i : grid3.Coords, EltTy.bits .f32 = 32 ∨ (Rect.block (s := S65536x128) S4096x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x128.size a ≤ S262144x128.size a
  hwx4_0 : ∀ i : grid4.Coords, EltTy.bits .f32 = 32 ∨ (Rect.block (s := S262144x128) S4096x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x128.size a ≤ S262144x128.size a
  hwx4_1 : ∀ i : grid4.Coords, EltTy.bits .f32 = 32 ∨ (Rect.block (s := S262144x128) S4096x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4096x128.size a ≤ S131072x128.size a
  hwx4_2 : ∀ i : grid4.Coords, EltTy.bits .f32 = 32 ∨ (Rect.block (s := S131072x128) S4096x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4096x128.size a ≤ S131072x128.size a
  hwx4_3 : ∀ i : grid4.Coords, EltTy.bits .f32 = 32 ∨ (Rect.block (s := S131072x128) S4096x128.size (cc4_transform_3 i) (hinb4_3 i)).WholeWords (EltTy.packing .f32)

variable [Facts₀]

def scatter_S33554432_S1_S2097152_0_n_0_0 : ScatterDims S33554432 S1 S2097152 where
  updateWindowDims := [0]
  insertedWindowDims := []
  scatterDimsToOperandDims := [0]
  indexVectorDim := 0
  wf := scatter_S33554432_S1_S2097152_0_n_0_0_wf
def scatter_S33554432_S1_S4194304_0_n_0_0 : ScatterDims S33554432 S1 S4194304 where
  updateWindowDims := [0]
  insertedWindowDims := []
  scatterDimsToOperandDims := [0]
  indexVectorDim := 0
  wf := scatter_S33554432_S1_S4194304_0_n_0_0_wf
def scatter_S33554432_S1_S8388608_0_n_0_0 : ScatterDims S33554432 S1 S8388608 where
  updateWindowDims := [0]
  insertedWindowDims := []
  scatterDimsToOperandDims := [0]
  indexVectorDim := 0
  wf := scatter_S33554432_S1_S8388608_0_n_0_0_wf
def scatter_S33554432_S1_S16777216_0_n_0_0 : ScatterDims S33554432 S1 S16777216 where
  updateWindowDims := [0]
  insertedWindowDims := []
  scatterDimsToOperandDims := [0]
  indexVectorDim := 0
  wf := scatter_S33554432_S1_S16777216_0_n_0_0_wf
def scatter_S33554432_S0_S33554432_0_n_n_0 : ScatterDims S33554432 S0 S33554432 where
  updateWindowDims := [0]
  insertedWindowDims := []
  scatterDimsToOperandDims := []
  indexVectorDim := 0
  wf := scatter_S33554432_S0_S33554432_0_n_n_0_wf

abbrev win0_0 : Pipeline.Window sig grid0 :=
  Pipeline.Window.ofSpec (Memref.whole main_call0_v1) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2_0) S4096x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2_1) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v11) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v11) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v12_0) S4096x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v12_1) S4096x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_call0_v21) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v21) S4096x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v22_0) S4096x128.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v22_1) S4096x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_call0_v31) S4096x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v31) S4096x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v32_0) S4096x128.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_call0_v32_1) S4096x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_call0_v41) S4096x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_call0_v41) S4096x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_call0_v42_0) S4096x128.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_call0_v42_1) S4096x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S1x1x33554432 : Shape := ⟨3, ![1, 1, 33554432]⟩
abbrev S0 : Shape := ⟨1, ![0]⟩
abbrev S1x1x2097152 : Shape := ⟨3, ![1, 1, 2097152]⟩
abbrev S1x1x1048576 : Shape := ⟨3, ![1, 1, 1048576]⟩
abbrev S_ : Shape := ⟨0, ![]⟩
abbrev S1x1x1048576x1 : Shape := ⟨4, ![1, 1, 1048576, 1]⟩
abbrev S1x1x1048576x2 : Shape := ⟨4, ![1, 1, 1048576, 2]⟩
abbrev S1 : Shape := ⟨1, ![1]⟩
abbrev S1x1x4194304 : Shape := ⟨3, ![1, 1, 4194304]⟩
abbrev S1x1x2097152x1 : Shape := ⟨4, ![1, 1, 2097152, 1]⟩
abbrev S1x1x2097152x2 : Shape := ⟨4, ![1, 1, 2097152, 2]⟩
abbrev S1x1x8388608 : Shape := ⟨3, ![1, 1, 8388608]⟩
abbrev S1x1x4194304x1 : Shape := ⟨4, ![1, 1, 4194304, 1]⟩
abbrev S1x1x4194304x2 : Shape := ⟨4, ![1, 1, 4194304, 2]⟩
abbrev S1x1x16777216 : Shape := ⟨3, ![1, 1, 16777216]⟩
abbrev S1x1x8388608x1 : Shape := ⟨4, ![1, 1, 8388608, 1]⟩
abbrev S1x1x8388608x2 : Shape := ⟨4, ![1, 1, 8388608, 2]⟩
abbrev S1x1x16777216x1 : Shape := ⟨4, ![1, 1, 16777216, 1]⟩
abbrev S1x1x16777216x2 : Shape := ⟨4, ![1, 1, 16777216, 2]⟩

abbrev nBuf : Space → Nat
  | .hbm => 89
  | .vmem => 0
  | .smem => 0
  | _ => 0

abbrev bufTy : (tb : Table) → Fin (tcTables nBuf tb) → BufTy
  | .hbm, ⟨0, _⟩ => ⟨S1x1x33554432, .f32⟩
  | .hbm, ⟨1, _⟩ => ⟨S0, .i32⟩
  | .hbm, ⟨2, _⟩ => ⟨S1x1x2097152, .f32⟩
  | .hbm, ⟨3, _⟩ => ⟨S1x1x1048576, .f32⟩
  | .hbm, ⟨4, _⟩ => ⟨S1x1x1048576, .f32⟩
  | .hbm, ⟨5, _⟩ => ⟨S1x1x1048576, .f32⟩
  | .hbm, ⟨6, _⟩ => ⟨S_, .f32⟩
  | .hbm, ⟨7, _⟩ => ⟨S1x1x1048576, .f32⟩
  | .hbm, ⟨8, _⟩ => ⟨S1x1x1048576, .f32⟩
  | .hbm, ⟨9, _⟩ => ⟨S1x1x1048576, .f32⟩
  | .hbm, ⟨10, _⟩ => ⟨S_, .f32⟩
  | .hbm, ⟨11, _⟩ => ⟨S1x1x1048576, .f32⟩
  | .hbm, ⟨12, _⟩ => ⟨S1x1x1048576, .f32⟩
  | .hbm, ⟨13, _⟩ => ⟨S1x1x1048576x1, .f32⟩
  | .hbm, ⟨14, _⟩ => ⟨S1x1x1048576x1, .f32⟩
  | .hbm, ⟨15, _⟩ => ⟨S1x1x1048576x2, .f32⟩
  | .hbm, ⟨16, _⟩ => ⟨S1x1x2097152, .f32⟩
  | .hbm, ⟨17, _⟩ => ⟨S_, .i32⟩
  | .hbm, ⟨18, _⟩ => ⟨S1, .i32⟩
  | .hbm, ⟨19, _⟩ => ⟨S1x1x33554432, .f32⟩
  | .hbm, ⟨20, _⟩ => ⟨S1x1x4194304, .f32⟩
  | .hbm, ⟨21, _⟩ => ⟨S1x1x2097152, .f32⟩
  | .hbm, ⟨22, _⟩ => ⟨S1x1x2097152, .f32⟩
  | .hbm, ⟨23, _⟩ => ⟨S1x1x2097152, .f32⟩
  | .hbm, ⟨24, _⟩ => ⟨S_, .f32⟩
  | .hbm, ⟨25, _⟩ => ⟨S1x1x2097152, .f32⟩
  | .hbm, ⟨26, _⟩ => ⟨S1x1x2097152, .f32⟩
  | .hbm, ⟨27, _⟩ => ⟨S1x1x2097152, .f32⟩
  | .hbm, ⟨28, _⟩ => ⟨S_, .f32⟩
  | .hbm, ⟨29, _⟩ => ⟨S1x1x2097152, .f32⟩
  | .hbm, ⟨30, _⟩ => ⟨S1x1x2097152, .f32⟩
  | .hbm, ⟨31, _⟩ => ⟨S1x1x2097152x1, .f32⟩
  | .hbm, ⟨32, _⟩ => ⟨S1x1x2097152x1, .f32⟩
  | .hbm, ⟨33, _⟩ => ⟨S1x1x2097152x2, .f32⟩
  | .hbm, ⟨34, _⟩ => ⟨S1x1x4194304, .f32⟩
  | .hbm, ⟨35, _⟩ => ⟨S_, .i32⟩
  | .hbm, ⟨36, _⟩ => ⟨S1, .i32⟩
  | .hbm, ⟨37, _⟩ => ⟨S1x1x33554432, .f32⟩
  | .hbm, ⟨38, _⟩ => ⟨S1x1x8388608, .f32⟩
  | .hbm, ⟨39, _⟩ => ⟨S1x1x4194304, .f32⟩
  | .hbm, ⟨40, _⟩ => ⟨S1x1x4194304, .f32⟩
  | .hbm, ⟨41, _⟩ => ⟨S1x1x4194304, .f32⟩
  | .hbm, ⟨42, _⟩ => ⟨S_, .f32⟩
  | .hbm, ⟨43, _⟩ => ⟨S1x1x4194304, .f32⟩
  | .hbm, ⟨44, _⟩ => ⟨S1x1x4194304, .f32⟩
  | .hbm, ⟨45, _⟩ => ⟨S1x1x4194304, .f32⟩
  | .hbm, ⟨46, _⟩ => ⟨S_, .f32⟩
  | .hbm, ⟨47, _⟩ => ⟨S1x1x4194304, .f32⟩
  | .hbm, ⟨48, _⟩ => ⟨S1x1x4194304, .f32⟩
  | .hbm, ⟨49, _⟩ => ⟨S1x1x4194304x1, .f32⟩
  | .hbm, ⟨50, _⟩ => ⟨S1x1x4194304x1, .f32⟩
  | .hbm, ⟨51, _⟩ => ⟨S1x1x4194304x2, .f32⟩
  | .hbm, ⟨52, _⟩ => ⟨S1x1x8388608, .f32⟩
  | .hbm, ⟨53, _⟩ => ⟨S_, .i32⟩
  | .hbm, ⟨54, _⟩ => ⟨S1, .i32⟩
  | .hbm, ⟨55, _⟩ => ⟨S1x1x33554432, .f32⟩
  | .hbm, ⟨56, _⟩ => ⟨S1x1x16777216, .f32⟩
  | .hbm, ⟨57, _⟩ => ⟨S1x1x8388608, .f32⟩
  | .hbm, ⟨58, _⟩ => ⟨S1x1x8388608, .f32⟩
  | .hbm, ⟨59, _⟩ => ⟨S1x1x8388608, .f32⟩
  | .hbm, ⟨60, _⟩ => ⟨S_, .f32⟩
  | .hbm, ⟨61, _⟩ => ⟨S1x1x8388608, .f32⟩
  | .hbm, ⟨62, _⟩ => ⟨S1x1x8388608, .f32⟩
  | .hbm, ⟨63, _⟩ => ⟨S1x1x8388608, .f32⟩
  | .hbm, ⟨64, _⟩ => ⟨S_, .f32⟩
  | .hbm, ⟨65, _⟩ => ⟨S1x1x8388608, .f32⟩
  | .hbm, ⟨66, _⟩ => ⟨S1x1x8388608, .f32⟩
  | .hbm, ⟨67, _⟩ => ⟨S1x1x8388608x1, .f32⟩
  | .hbm, ⟨68, _⟩ => ⟨S1x1x8388608x1, .f32⟩
  | .hbm, ⟨69, _⟩ => ⟨S1x1x8388608x2, .f32⟩
  | .hbm, ⟨70, _⟩ => ⟨S1x1x16777216, .f32⟩
  | .hbm, ⟨71, _⟩ => ⟨S_, .i32⟩
  | .hbm, ⟨72, _⟩ => ⟨S1, .i32⟩
  | .hbm, ⟨73, _⟩ => ⟨S1x1x33554432, .f32⟩
  | .hbm, ⟨74, _⟩ => ⟨S1x1x16777216, .f32⟩
  | .hbm, ⟨75, _⟩ => ⟨S1x1x16777216, .f32⟩
  | .hbm, ⟨76, _⟩ => ⟨S1x1x16777216, .f32⟩
  | .hbm, ⟨77, _⟩ => ⟨S_, .f32⟩
  | .hbm, ⟨78, _⟩ => ⟨S1x1x16777216, .f32⟩
  | .hbm, ⟨79, _⟩ => ⟨S1x1x16777216, .f32⟩
  | .hbm, ⟨80, _⟩ => ⟨S1x1x16777216, .f32⟩
  | .hbm, ⟨81, _⟩ => ⟨S_, .f32⟩
  | .hbm, ⟨82, _⟩ => ⟨S1x1x16777216, .f32⟩
  | .hbm, ⟨83, _⟩ => ⟨S1x1x16777216, .f32⟩
  | .hbm, ⟨84, _⟩ => ⟨S1x1x16777216x1, .f32⟩
  | .hbm, ⟨85, _⟩ => ⟨S1x1x16777216x1, .f32⟩
  | .hbm, ⟨86, _⟩ => ⟨S1x1x16777216x2, .f32⟩
  | .hbm, ⟨87, _⟩ => ⟨S1x1x33554432, .f32⟩
  | .hbm, ⟨88, _⟩ => ⟨S1x1x33554432, .f32⟩
  | _, _ => ⟨S1x1x33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c_4 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_5 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_6 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_c_7 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_8 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_9 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_c_10 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_11 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_12 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩

abbrev nD : Nat := 1
abbrev τ : Topo := Topo.v7x

variable {F : FTy → Type} [FloatOps F]

class Facts₀ : Prop where
  hz_S0 : S0.numel = 0
  slices_S1x1x33554432_S1x1x2097152_0_0_0 : S1x1x33554432.Slices ![0, 0, 0] S1x1x2097152
  slices_S1x1x2097152_S1x1x1048576_0_0_0 : S1x1x2097152.Slices ![0, 0, 0] S1x1x1048576
  slices_S1x1x2097152_S1x1x1048576_0_0_1048576 : S1x1x2097152.Slices ![0, 0, 1048576] S1x1x1048576
  bcast_S_S1x1x1048576 : S_.BroadcastsInDim S1x1x1048576 (![] : Fin 0 → Fin S1x1x1048576.rank)
  bcast_S1x1x1048576_S1x1x1048576x1_0_1_2 : S1x1x1048576.BroadcastsInDim S1x1x1048576x1 (![0, 1, 2] : Fin 3 → Fin S1x1x1048576x1.rank)
  concatenates_S1x1x1048576x1_S1x1x1048576x1_S1x1x1048576x2_d3 : Shape.Concatenates [S1x1x1048576x1, S1x1x1048576x1] S1x1x1048576x2 3
  shapeCasts_S1x1x1048576x2_S1x1x2097152 : S1x1x1048576x2.ShapeCasts S1x1x2097152
  bcast_S_S1 : S_.BroadcastsInDim S1 (![] : Fin 0 → Fin S1.rank)
  slices_S1x1x33554432_S1x1x4194304_0_0_0 : S1x1x33554432.Slices ![0, 0, 0] S1x1x4194304
  slices_S1x1x4194304_S1x1x2097152_0_0_0 : S1x1x4194304.Slices ![0, 0, 0] S1x1x2097152
  slices_S1x1x4194304_S1x1x2097152_0_0_2097152 : S1x1x4194304.Slices ![0, 0, 2097152] S1x1x2097152
  bcast_S_S1x1x2097152 : S_.BroadcastsInDim S1x1x2097152 (![] : Fin 0 → Fin S1x1x2097152.rank)
  bcast_S1x1x2097152_S1x1x2097152x1_0_1_2 : S1x1x2097152.BroadcastsInDim S1x1x2097152x1 (![0, 1, 2] : Fin 3 → Fin S1x1x2097152x1.rank)
  concatenates_S1x1x2097152x1_S1x1x2097152x1_S1x1x2097152x2_d3 : Shape.Concatenates [S1x1x2097152x1, S1x1x2097152x1] S1x1x2097152x2 3
  shapeCasts_S1x1x2097152x2_S1x1x4194304 : S1x1x2097152x2.ShapeCasts S1x1x4194304
  slices_S1x1x33554432_S1x1x8388608_0_0_0 : S1x1x33554432.Slices ![0, 0, 0] S1x1x8388608
  slices_S1x1x8388608_S1x1x4194304_0_0_0 : S1x1x8388608.Slices ![0, 0, 0] S1x1x4194304
  slices_S1x1x8388608_S1x1x4194304_0_0_4194304 : S1x1x8388608.Slices ![0, 0, 4194304] S1x1x4194304
  bcast_S_S1x1x4194304 : S_.BroadcastsInDim S1x1x4194304 (![] : Fin 0 → Fin S1x1x4194304.rank)
  bcast_S1x1x4194304_S1x1x4194304x1_0_1_2 : S1x1x4194304.BroadcastsInDim S1x1x4194304x1 (![0, 1, 2] : Fin 3 → Fin S1x1x4194304x1.rank)
  concatenates_S1x1x4194304x1_S1x1x4194304x1_S1x1x4194304x2_d3 : Shape.Concatenates [S1x1x4194304x1, S1x1x4194304x1] S1x1x4194304x2 3
  shapeCasts_S1x1x4194304x2_S1x1x8388608 : S1x1x4194304x2.ShapeCasts S1x1x8388608
  slices_S1x1x33554432_S1x1x16777216_0_0_0 : S1x1x33554432.Slices ![0, 0, 0] S1x1x16777216
  slices_S1x1x16777216_S1x1x8388608_0_0_0 : S1x1x16777216.Slices ![0, 0, 0] S1x1x8388608
  slices_S1x1x16777216_S1x1x8388608_0_0_8388608 : S1x1x16777216.Slices ![0, 0, 8388608] S1x1x8388608
  bcast_S_S1x1x8388608 : S_.BroadcastsInDim S1x1x8388608 (![] : Fin 0 → Fin S1x1x8388608.rank)
  bcast_S1x1x8388608_S1x1x8388608x1_0_1_2 : S1x1x8388608.BroadcastsInDim S1x1x8388608x1 (![0, 1, 2] : Fin 3 → Fin S1x1x8388608x1.rank)
  concatenates_S1x1x8388608x1_S1x1x8388608x1_S1x1x8388608x2_d3 : Shape.Concatenates [S1x1x8388608x1, S1x1x8388608x1] S1x1x8388608x2 3
  shapeCasts_S1x1x8388608x2_S1x1x16777216 : S1x1x8388608x2.ShapeCasts S1x1x16777216
  slices_S1x1x33554432_S1x1x16777216_0_0_16777216 : S1x1x33554432.Slices ![0, 0, 16777216] S1x1x16777216
  bcast_S_S1x1x16777216 : S_.BroadcastsInDim S1x1x16777216 (![] : Fin 0 → Fin S1x1x16777216.rank)
  bcast_S1x1x16777216_S1x1x16777216x1_0_1_2 : S1x1x16777216.BroadcastsInDim S1x1x16777216x1 (![0, 1, 2] : Fin 3 → Fin S1x1x16777216x1.rank)
  concatenates_S1x1x16777216x1_S1x1x16777216x1_S1x1x16777216x2_d3 : Shape.Concatenates [S1x1x16777216x1, S1x1x16777216x1] S1x1x16777216x2 3
  shapeCasts_S1x1x16777216x2_S1x1x33554432 : S1x1x16777216x2.ShapeCasts S1x1x33554432
  scatter_S1x1x33554432_S1_S1x1x2097152_012_n_2_0_wf : ScatterDims.WF S1x1x33554432 S1 S1x1x2097152 [0, 1, 2] [] [2] 0
  scatter_S1x1x33554432_S1_S1x1x4194304_012_n_2_0_wf : ScatterDims.WF S1x1x33554432 S1 S1x1x4194304 [0, 1, 2] [] [2] 0
  scatter_S1x1x33554432_S1_S1x1x8388608_012_n_2_0_wf : ScatterDims.WF S1x1x33554432 S1 S1x1x8388608 [0, 1, 2] [] [2] 0
  scatter_S1x1x33554432_S1_S1x1x16777216_012_n_2_0_wf : ScatterDims.WF S1x1x33554432 S1 S1x1x16777216 [0, 1, 2] [] [2] 0
  scatter_S1x1x33554432_S0_S1x1x33554432_012_n_n_0_wf : ScatterDims.WF S1x1x33554432 S0 S1x1x33554432 [0, 1, 2] [] [] 0

variable [Facts₀]

def scatter_S1x1x33554432_S1_S1x1x2097152_012_n_2_0 : ScatterDims S1x1x33554432 S1 S1x1x2097152 where
  updateWindowDims := [0, 1, 2]
  insertedWindowDims := []
  scatterDimsToOperandDims := [2]
  indexVectorDim := 0
  wf := scatter_S1x1x33554432_S1_S1x1x2097152_012_n_2_0_wf
def scatter_S1x1x33554432_S1_S1x1x4194304_012_n_2_0 : ScatterDims S1x1x33554432 S1 S1x1x4194304 where
  updateWindowDims := [0, 1, 2]
  insertedWindowDims := []
  scatterDimsToOperandDims := [2]
  indexVectorDim := 0
  wf := scatter_S1x1x33554432_S1_S1x1x4194304_012_n_2_0_wf
def scatter_S1x1x33554432_S1_S1x1x8388608_012_n_2_0 : ScatterDims S1x1x33554432 S1 S1x1x8388608 where
  updateWindowDims := [0, 1, 2]
  insertedWindowDims := []
  scatterDimsToOperandDims := [2]
  indexVectorDim := 0
  wf := scatter_S1x1x33554432_S1_S1x1x8388608_012_n_2_0_wf
def scatter_S1x1x33554432_S1_S1x1x16777216_012_n_2_0 : ScatterDims S1x1x33554432 S1 S1x1x16777216 where
  updateWindowDims := [0, 1, 2]
  insertedWindowDims := []
  scatterDimsToOperandDims := [2]
  indexVectorDim := 0
  wf := scatter_S1x1x33554432_S1_S1x1x16777216_012_n_2_0_wf
def scatter_S1x1x33554432_S0_S1x1x33554432_012_n_n_0 : ScatterDims S1x1x33554432 S0 S1x1x33554432 where
  updateWindowDims := [0, 1, 2]
  insertedWindowDims := []
  scatterDimsToOperandDims := []
  indexVectorDim := 0
  wf := scatter_S1x1x33554432_S0_S1x1x33554432_012_n_n_0_wf

class Facts : Prop extends Facts₀ where

variable [Facts]
-- ==== Proof.KBody0.lean ====
/-
  Region 0 of the program (the butterfly kernel's first launch), at any float instance and for any
  contents `V` of the core's buffers when the region is entered.

  The kernel's grid point `t` reads two blocks of 4096 rows of 128 out of ONE array (the signal as rows): the block
  `t` of its first half and the block `t` of its second half, and writes block `t` of two result arrays: the scaled
  sum and the scaled difference of the two blocks. Here: each window's block at a point, the body run on staging
  buffers holding the two input blocks (it leaves the inputs in place and the two outputs at the payloads of the
  two loaded blocks), and the proof data of the pipeline. Both input windows read the same array, so the pipeline
  holds that array twice, at the two halves of the full share; the result arrays are held whole.
-/
import proofs.«157342_j28784870817852_2_alg».proof.Proof.Gen.Kernel.Launch
import proofs.«157342_j28784870817852_2_alg».proof.Proof.Gen.Kernel.Skeleton
import proofs.«157342_j28784870817852_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point: it is fetched at every point, and the
    body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole staging buffer as a rectangle: every load and store of the body is through it. -/
abbrev r0 : Rect S4096x128 := Rect.unit (s := S4096x128) ![0, 0] S4096x128.size inb_S4096x128_S4096x128_0_0

/-- What the body leaves in the two output buffers, from the two input blocks: the scaled sum and the scaled difference. -/
def out0_2 (x0 : Vec F S4096x128 .f32) (x1 : Vec F S4096x128 .f32) : Vec F S4096x128 .f32 :=
  View.canon [⟨r0, k0_pay3 (View.ld x0 r0) (View.ld x1 r0)⟩]
def out0_3 (x0 : Vec F S4096x128 .f32) (x1 : Vec F S4096x128 .f32) : Vec F S4096x128 .f32 :=
  View.canon [⟨r0, k0_pay4 (View.ld x0 r0) (View.ld x1 r0)⟩]

/-- One store through the whole rectangle covers the buffer. -/
theorem cover0 (p0 : Vec F S4096x128 .f32) (y : S4096x128.Idx) :
    ∃ pc ∈ ([⟨r0, p0⟩] : List (View.Piece (Elt F) S4096x128 .f32)), y ∈ pc.1.set :=
  View.cover_of_tiled [⟨r0, p0⟩] S4096x128.size (by rfl) y

set_option maxHeartbeats 1000000 in
/-- The body on whole staging buffers: the inputs at `x0`, `x1` and the outputs at anything; it ends with the inputs
    as they were and the outputs at the scaled sum and difference of the inputs. -/
theorem sound_kernel0 (c : Dev nD) (E : Set ℕ) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole)
    (x0 : Vec F S4096x128 .f32) (x1 : Vec F S4096x128 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__butterfly_kernel i arg1 harg1 arg2 harg2 arg3 harg3 arg4 harg4) K := by
  simp only [cc0__butterfly_kernel_eq_skeleton]; unfold cc0__butterfly_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  iexists _; isplitr
  swap; · iexact H3
  ipureintro
  exact View.read_writes_eq_canon _ _ _ (cover0 _)

/-- The pipeline's proof data on core `c`: the arrays as the region finds them; after the body at point `t` each input
    buffer at its block and each output buffer at the body's result on the two input blocks; the untouched scoped
    rest and generator register as invariant; nothing owed; the shared input array at the two halves of the full
    share, one per window. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q w := match w with
    | ⟨0, _⟩ => fullShare.left
    | ⟨1, _⟩ => fullShare.right
    | _ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KBase.lean ====
/-
  A valuation of a core's buffers read at the TensorCore's references: the form in which a region's proof data takes
  the contents it is entered with.
-/
import proofs.«157342_j28784870817852_2_alg».proof.Proof.Gen.Kernel.Launch

noncomputable section

namespace Cert.Kernel.Fr

open Idealize.ShloMosaic Idealize.ShloMosaic.TcCoe Idealize.SL.Sem
open Cert.Kernel Cert.Kernel.Gen

variable {F : FTy → Type} [FloatOps F]

/-- A valuation read at the TensorCore's references. -/
abbrev asV (W : Dev nD → Valuation τ sig (Elt F)) : (c : Dev nD) → (b : Ref sig .tc) → Buf (Elt F) ((c : Thread nD τ).loc b) := fun c b => W c b

end Cert.Kernel.Fr

end
-- ==== Proof.KReg0.lean ====
/-
  Region 0 between the thread states before and after it. A core holds every unscoped buffer whole at a valuation
  `W`. At the region's entry the three buffers behind its four windows are split off: the signal's rows, which both
  input windows read, is cut into the two halves of the full share, one per window; the two result arrays go whole.
  At its exit the halves are joined again (an input array is never written, so both still hold the entry contents)
  and the result arrays are put back at what the write-backs left: the valuation `exit0 W`, which differs from `W`
  at the two result arrays only.
-/
import proofs.«157342_j28784870817852_2_alg».proof.Proof.KBody0
import proofs.«157342_j28784870817852_2_alg».proof.Proof.KBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
/-- ENTRY: the unscoped buffers at `W` are the pipeline's arrays at their entry contents, each at its share, and the
    unscoped rest. -/
theorem entry0 (W : Dev nD → Valuation τ sig (Elt F)) (c : Dev nD) :
    (StableHlo.held (c : Thread nD τ) (Pipeline.ucRefs τ sig) (W c) : sProp 𝕄)
      ⊢ iprop((dat0 (asV W) c).arrays (dat0 (asV W) c).A ∗ Pipeline.unscopedRest (Ix := Unit) (Name := ℕ) (U := UR sig nD τ) (Lvl := ℕ) spec0 c (asV W c)) := by
  rw [← Pipeline.unscopedBufs_held, Pipeline.unscopedBufs_split₀ cfgs 0 winFacts₀0.arr_unscoped c]
  refine sep_mono ?_ .rfl
  unfold Pipeline.arrBufs Dat.arrays
  rw [show Finset.univ.image (Pipeline.arrRef (cfgs 0).spec) = {main_call0_v1, main_call0_v2_0, main_call0_v2_1} from by decide]
  rw [bigSep_insert (by decide), bigSep_insert (by decide), bigSep_singleton, bigSep_W0]
  have hs0 : (dat0 (asV W) c).share 0 = fullShare.left := rfl
  have hs1 : (dat0 (asV W) c).share 1 = fullShare.right := rfl
  have hs2 : (dat0 (asV W) c).share 2 = fullShare := rfl
  have hs3 : (dat0 (asV W) c).share 3 = fullShare := rfl
  rw [hs0, hs1, hs2, hs3, A_eq0, A_eq0, A_eq0, A_eq0]
  rw [show (cfg0.win 0).arr.view.set = Finset.univ from (arr_whole0 0).set_eq_univ]
  try rw [show (cfg0.win 1).arr.view.set = Finset.univ from (arr_whole0 1).set_eq_univ]
  rw [show (cfg0.win 2).arr.view.set = Finset.univ from (arr_whole0 2).set_eq_univ, show (cfg0.win 3).arr.view.set = Finset.univ from (arr_whole0 3).set_eq_univ]
  show iprop((((c : Thread nD τ).loc main_call0_v1) ↦{fullShare} asV W c main_call0_v1) ∗ (((c : Thread nD τ).loc main_call0_v2_0) ↦{fullShare} asV W c main_call0_v2_0) ∗ (((c : Thread nD τ).loc main_call0_v2_1) ↦{fullShare} asV W c main_call0_v2_1))
    ⊢ iprop((((c : Thread nD τ).loc main_call0_v1) ↦{fullShare.left} asV W c main_call0_v1) ∗ (((c : Thread nD τ).loc main_call0_v1) ↦{fullShare.right} asV W c main_call0_v1) ∗ (((c : Thread nD τ).loc main_call0_v2_0) ↦{fullShare} asV W c main_call0_v2_0) ∗ (((c : Thread nD τ).loc main_call0_v2_1) ↦{fullShare} asV W c main_call0_v2_1))
  have hsp : ((((c : Thread nD τ).loc main_call0_v1) ↦{fullShare} asV W c main_call0_v1) : sProp 𝕄)
      ⊢ iprop((((c : Thread nD τ).loc main_call0_v1) ↦{fullShare.left} asV W c main_call0_v1) ∗ (((c : Thread nD τ).loc main_call0_v1) ↦{fullShare.right} asV W c main_call0_v1)) :=
    (pointsTo_share (PosShare.mem_left_op_right fullShare)).1
  iintro ⟨H1, H2, H3⟩
  ihave H1' := hsp $$ H1
  icases H1' with ⟨Ha, Hb⟩
  isplitl [Ha]; · iexact Ha
  isplitl [Hb]; · iexact Hb
  isplitl [H2]; · iexact H2
  iexact H3

/-- The core's buffers when the region is left: the two result arrays at what the write-backs leave, every other
    buffer as the region found it. -/
def exit0 (W : Dev nD → Valuation τ sig (Elt F)) (c : Dev nD) : Valuation τ sig (Elt F) :=
  Function.update (Function.update (W c) main_call0_v2_0 ((dat0 (asV W) c).arrAt 2 cfg0.N)) main_call0_v2_1 ((dat0 (asV W) c).arrAt 3 cfg0.N)

theorem exit0_in (W : Dev nD → Valuation τ sig (Elt F)) (c : Dev nD) : exit0 W c (Proc.devRef .tc main_call0_v1) = W c (Proc.devRef .tc main_call0_v1) := by
  unfold exit0
  rw [Function.update_of_ne (StableHlo.devRef_ne_of_ne (by decide)), Function.update_of_ne (StableHlo.devRef_ne_of_ne (by decide))]
theorem exit0_out0 (W : Dev nD → Valuation τ sig (Elt F)) (c : Dev nD) : exit0 W c (Proc.devRef .tc main_call0_v2_0) = (dat0 (asV W) c).arrAt 2 cfg0.N := by
  unfold exit0
  rw [Function.update_of_ne (StableHlo.devRef_ne_of_ne (by decide)), Function.update_self]
theorem exit0_out1 (W : Dev nD → Valuation τ sig (Elt F)) (c : Dev nD) : exit0 W c (Proc.devRef .tc main_call0_v2_1) = (dat0 (asV W) c).arrAt 3 cfg0.N := by
  unfold exit0
  rw [Function.update_self]
theorem exit0_of_ne (W : Dev nD → Valuation τ sig (Elt F)) (c : Dev nD) (b : Ref sig .tc) (h0 : b ≠ main_call0_v2_0) (h1 : b ≠ main_call0_v2_1) :
    exit0 W c (Proc.devRef .tc b) = W c (Proc.devRef .tc b) := by
  unfold exit0
  rw [Function.update_of_ne (StableHlo.devRef_ne_of_ne h1), Function.update_of_ne (StableHlo.devRef_ne_of_ne h0)]

set_option maxHeartbeats 8000000 in
/-- EXIT: the arrays at what the write-backs left and the unscoped rest are the unscoped buffers at `exit0 W`. -/
theorem exit0_held (W : Dev nD → Valuation τ sig (Elt F)) (c : Dev nD) :
    iprop((dat0 (asV W) c).arrays ((dat0 (asV W) c).arrAt · cfg0.N) ∗ Pipeline.unscopedRest (Ix := Unit) (Name := ℕ) (U := UR sig nD τ) (Lvl := ℕ) spec0 c (asV W c))
      ⊢ (StableHlo.held (c : Thread nD τ) (Pipeline.ucRefs τ sig) (exit0 W c) : sProp 𝕄) := by
  rw [← Pipeline.unscopedBufs_held, Pipeline.unscopedBufs_split₀ cfgs 0 winFacts₀0.arr_unscoped c]
  refine sep_mono ?_ (Entails.of_eq ?_)
  · unfold Pipeline.arrBufs Dat.arrays
    rw [show Finset.univ.image (Pipeline.arrRef (cfgs 0).spec) = {main_call0_v1, main_call0_v2_0, main_call0_v2_1} from by decide]
    rw [bigSep_insert (by decide), bigSep_insert (by decide), bigSep_singleton, bigSep_W0]
    have hs0 : (dat0 (asV W) c).share 0 = fullShare.left := rfl
    have hs1 : (dat0 (asV W) c).share 1 = fullShare.right := rfl
    have hs2 : (dat0 (asV W) c).share 2 = fullShare := rfl
    have hs3 : (dat0 (asV W) c).share 3 = fullShare := rfl
    rw [hs0, hs1, hs2, hs3]
    rw [show (cfg0.win 0).arr.view.set = Finset.univ from (arr_whole0 0).set_eq_univ]
    try rw [show (cfg0.win 1).arr.view.set = Finset.univ from (arr_whole0 1).set_eq_univ]
    rw [show (cfg0.win 2).arr.view.set = Finset.univ from (arr_whole0 2).set_eq_univ, show (cfg0.win 3).arr.view.set = Finset.univ from (arr_whole0 3).set_eq_univ]
    show iprop((((c : Thread nD τ).loc main_call0_v1) ↦{fullShare.left} (dat0 (asV W) c).arrAt 0 cfg0.N) ∗ (((c : Thread nD τ).loc main_call0_v1) ↦{fullShare.right} (dat0 (asV W) c).arrAt 1 cfg0.N) ∗ (((c : Thread nD τ).loc main_call0_v2_0) ↦{fullShare} (dat0 (asV W) c).arrAt 2 cfg0.N) ∗ (((c : Thread nD τ).loc main_call0_v2_1) ↦{fullShare} (dat0 (asV W) c).arrAt 3 cfg0.N))
      ⊢ iprop((((c : Thread nD τ).loc main_call0_v1) ↦{fullShare} asV (exit0 W) c main_call0_v1) ∗ (((c : Thread nD τ).loc main_call0_v2_0) ↦{fullShare} asV (exit0 W) c main_call0_v2_0) ∗ (((c : Thread nD τ).loc main_call0_v2_1) ↦{fullShare} asV (exit0 W) c main_call0_v2_1))
    rw [show asV (exit0 W) c main_call0_v1 = asV W c main_call0_v1 from exit0_in W c, show asV (exit0 W) c main_call0_v2_0 = (dat0 (asV W) c).arrAt 2 cfg0.N from exit0_out0 W c,
      show asV (exit0 W) c main_call0_v2_1 = (dat0 (asV W) c).arrAt 3 cfg0.N from exit0_out1 W c,
      (dat0 (asV W) c).arrAt_in 0 rfl cfg0.N, (dat0 (asV W) c).arrAt_in 1 rfl cfg0.N, A_eq0, A_eq0]
    have hjn : iprop((((c : Thread nD τ).loc main_call0_v1) ↦{fullShare.left} asV W c main_call0_v1) ∗ (((c : Thread nD τ).loc main_call0_v1) ↦{fullShare.right} asV W c main_call0_v1))
        ⊢ ((((c : Thread nD τ).loc main_call0_v1) ↦{fullShare} asV W c main_call0_v1) : sProp 𝕄) :=
      (pointsTo_share (PosShare.mem_left_op_right fullShare)).2
    iintro ⟨Ha, Hb, H2, H3⟩
    isplitl [Ha Hb]
    · iapply hjn
      isplitl [Ha]; · iexact Ha
      iexact Hb
    isplitl [H2]; · iexact H2
    iexact H3
  · unfold Pipeline.unscopedRest
    refine bigSep_congr fun b hb => ?_
    have hn : b ∉ Finset.univ.image (Pipeline.arrRef spec0) := (Finset.mem_sdiff.mp hb).2
    have h0 : b ≠ main_call0_v2_0 := fun e => hn (Finset.mem_image.mpr ⟨2, Finset.mem_univ _, e.symm⟩)
    have h1 : b ≠ main_call0_v2_1 := fun e => hn (Finset.mem_image.mpr ⟨3, Finset.mem_univ _, e.symm⟩)
    show (((c : Thread nD τ).loc b) ↦{fullShare} asV W c b : sProp 𝕄) = (((c : Thread nD τ).loc b) ↦{fullShare} asV (exit0 W) c b)
    rw [show asV (exit0 W) c b = asV W c b from exit0_of_ne W c b h0 h1]

end Cert.Kernel.Fr

end
-- ==== Proof.KBody1.lean ====
/-
  Region 1 of the program (the butterfly kernel's next launch), at any float instance and for any
  contents `V` of the core's buffers when the region is entered.

  The kernel's grid point `t` reads two blocks of 4096 rows of 128 out of ONE array (the signal as rows): the block
  `t` of its first half and the block `t` of its second half, and writes block `t` of two result arrays: the scaled
  sum and the scaled difference of the two blocks. Here: each window's block at a point, the body run on staging
  buffers holding the two input blocks (it leaves the inputs in place and the two outputs at the payloads of the
  two loaded blocks), and the proof data of the pipeline. Both input windows read the same array, so the pipeline
  holds that array twice, at the two halves of the full share; the result arrays are held whole.
-/
import proofs.«157342_j28784870817852_2_alg».proof.Proof.Gen.Kernel.Launch
import proofs.«157342_j28784870817852_2_alg».proof.Proof.Gen.Kernel.Skeleton
import proofs.«157342_j28784870817852_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point: it is fetched at every point, and the
    body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole staging buffer as a rectangle: every load and store of the body is through it. -/
abbrev r1 : Rect S4096x128 := Rect.unit (s := S4096x128) ![0, 0] S4096x128.size inb_S4096x128_S4096x128_0_0

/-- What the body leaves in the two output buffers, from the two input blocks: the scaled sum and the scaled difference. -/
def out1_2 (x0 : Vec F S4096x128 .f32) (x1 : Vec F S4096x128 .f32) : Vec F S4096x128 .f32 :=
  View.canon [⟨r1, k1_pay3 (View.ld x0 r1) (View.ld x1 r1)⟩]
def out1_3 (x0 : Vec F S4096x128 .f32) (x1 : Vec F S4096x128 .f32) : Vec F S4096x128 .f32 :=
  View.canon [⟨r1, k1_pay4 (View.ld x0 r1) (View.ld x1 r1)⟩]

/-- One store through the whole rectangle covers the buffer. -/
theorem cover1 (p0 : Vec F S4096x128 .f32) (y : S4096x128.Idx) :
    ∃ pc ∈ ([⟨r1, p0⟩] : List (View.Piece (Elt F) S4096x128 .f32)), y ∈ pc.1.set :=
  View.cover_of_tiled [⟨r1, p0⟩] S4096x128.size (by rfl) y

set_option maxHeartbeats 1000000 in
/-- The body on whole staging buffers: the inputs at `x0`, `x1` and the outputs at anything; it ends with the inputs
    as they were and the outputs at the scaled sum and difference of the inputs. -/
theorem sound_kernel1 (c : Dev nD) (E : Set ℕ) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole)
    (x0 : Vec F S4096x128 .f32) (x1 : Vec F S4096x128 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out1_2 x0 x1) ∗ owns (c : Thread nD τ) arg4 fullShare (out1_3 x0 x1)) -∗ K ⟨⟩))
      ⊢ wp frame (wpE (defs₀ (F := F)) Variants.none c none) E (cc1__butterfly_kernel i arg1 harg1 arg2 harg2 arg3 harg3 arg4 harg4) K := by
  simp only [cc1__butterfly_kernel_eq_skeleton]; unfold cc1__butterfly_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1 _)
  iexists _; isplitr
  swap; · iexact H3
  ipureintro
  exact View.read_writes_eq_canon _ _ _ (cover1 _)

/-- The pipeline's proof data on core `c`: the arrays as the region finds them; after the body at point `t` each input
    buffer at its block and each output buffer at the body's result on the two input blocks; the untouched scoped
    rest and generator register as invariant; nothing owed; the shared input array at the two halves of the full
    share, one per window. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KReg1.lean ====
/-
  Region 1 between the thread states before and after it. A core holds every unscoped buffer whole at a valuation
  `W`. At the region's entry the three buffers behind its four windows are split off: the signal's rows, which both
  input windows read, is cut into the two halves of the full share, one per window; the two result arrays go whole.
  At its exit the halves are joined again (an input array is never written, so both still hold the entry contents)
  and the result arrays are put back at what the write-backs left: the valuation `exit1 W`, which differs from `W`
  at the two result arrays only.
-/
import proofs.«157342_j28784870817852_2_alg».proof.Proof.KBody1
import proofs.«157342_j28784870817852_2_alg».proof.Proof.KBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
/-- ENTRY: the unscoped buffers at `W` are the pipeline's arrays at their entry contents, each at its share, and the
    unscoped rest. -/
theorem entry1 (W : Dev nD → Valuation τ sig (Elt F)) (c : Dev nD) :
    (StableHlo.held (c : Thread nD τ) (Pipeline.ucRefs τ sig) (W c) : sProp 𝕄)
      ⊢ iprop((dat1 (asV W) c).arrays (dat1 (asV W) c).A ∗ Pipeline.unscopedRest (Ix := Unit) (Name := ℕ) (U := UR sig nD τ) (Lvl := ℕ) spec1 c (asV W c)) := by
  rw [← Pipeline.unscopedBufs_held, Pipeline.unscopedBufs_split₀ cfgs 1 winFacts₀1.arr_unscoped c]
  refine sep_mono ?_ .rfl
  unfold Pipeline.arrBufs Dat.arrays
  rw [show Finset.univ.image (Pipeline.arrRef (cfgs 1).spec) = {main_call0_v11, main_call0_v12_0, main_call0_v12_1} from by decide]
  rw [bigSep_insert (by decide), bigSep_insert (by decide), bigSep_singleton, bigSep_W1]
  have hs0 : (dat1 (asV W) c).share 0 = fullShare.left := rfl
  have hs1 : (dat1 (asV W) c).share 1 = fullShare.right := rfl
  have hs2 : (dat1 (asV W) c).share 2 = fullShare := rfl
  have hs3 : (dat1 (asV W) c).share 3 = fullShare := rfl
  rw [hs0, hs1, hs2, hs3, A_eq1, A_eq1, A_eq1, A_eq1]
  rw [show (cfg1.win 0).arr.view.set = Finset.univ from (arr_whole1 0).set_eq_univ]
  try rw [show (cfg1.win 1).arr.view.set = Finset.univ from (arr_whole1 1).set_eq_univ]
  rw [show (cfg1.win 2).arr.view.set = Finset.univ from (arr_whole1 2).set_eq_univ, show (cfg1.win 3).arr.view.set = Finset.univ from (arr_whole1 3).set_eq_univ]
  show iprop((((c : Thread nD τ).loc main_call0_v11) ↦{fullShare} asV W c main_call0_v11) ∗ (((c : Thread nD τ).loc main_call0_v12_0) ↦{fullShare} asV W c main_call0_v12_0) ∗ (((c : Thread nD τ).loc main_call0_v12_1) ↦{fullShare} asV W c main_call0_v12_1))
    ⊢ iprop((((c : Thread nD τ).loc main_call0_v11) ↦{fullShare.left} asV W c main_call0_v11) ∗ (((c : Thread nD τ).loc main_call0_v11) ↦{fullShare.right} asV W c main_call0_v11) ∗ (((c : Thread nD τ).loc main_call0_v12_0) ↦{fullShare} asV W c main_call0_v12_0) ∗ (((c : Thread nD τ).loc main_call0_v12_1) ↦{fullShare} asV W c main_call0_v12_1))
  have hsp : ((((c : Thread nD τ).loc main_call0_v11) ↦{fullShare} asV W c main_call0_v11) : sProp 𝕄)
      ⊢ iprop((((c : Thread nD τ).loc main_call0_v11) ↦{fullShare.left} asV W c main_call0_v11) ∗ (((c : Thread nD τ).loc main_call0_v11) ↦{fullShare.right} asV W c main_call0_v11)) :=
    (pointsTo_share (PosShare.mem_left_op_right fullShare)).1
  iintro ⟨H1, H2, H3⟩
  ihave H1' := hsp $$ H1
  icases H1' with ⟨Ha, Hb⟩
  isplitl [Ha]; · iexact Ha
  isplitl [Hb]; · iexact Hb
  isplitl [H2]; · iexact H2
  iexact H3

/-- The core's buffers when the region is left: the two result arrays at what the write-backs leave, every other
    buffer as the region found it. -/
def exit1 (W : Dev nD → Valuation τ sig (Elt F)) (c : Dev nD) : Valuation τ sig (Elt F) :=
  Function.update (Function.update (W c) main_call0_v12_0 ((dat1 (asV W) c).arrAt 2 cfg1.N)) main_call0_v12_1 ((dat1 (asV W) c).arrAt 3 cfg1.N)

theorem exit1_in (W : Dev nD → Valuation τ sig (Elt F)) (c : Dev nD) : exit1 W c (Proc.devRef .tc main_call0_v11) = W c (Proc.devRef .tc main_call0_v11) := by
  unfold exit1
  rw [Function.update_of_ne (StableHlo.devRef_ne_of_ne (by decide)), Function.update_of_ne (StableHlo.devRef_ne_of_ne (by decide))]
theorem exit1_out0 (W : Dev nD → Valuation τ sig (Elt F)) (c : Dev nD) : exit1 W c (Proc.devRef .tc main_call0_v12_0) = (dat1 (asV W) c).arrAt 2 cfg1.N := by
  unfold exit1
  rw [Function.update_of_ne (StableHlo.devRef_ne_of_ne (by decide)), Function.update_self]
theorem exit1_out1 (W : Dev nD → Valuation τ sig (Elt F)) (c : Dev nD) : exit1 W c (Proc.devRef .tc main_call0_v12_1) = (dat1 (asV W) c).arrAt 3 cfg1.N := by
  unfold exit1
  rw [Function.update_self]
theorem exit1_of_ne (W : Dev nD → Valuation τ sig (Elt F)) (c : Dev nD) (b : Ref sig .tc) (h0 : b ≠ main_call0_v12_0) (h1 : b ≠ main_call0_v12_1) :
    exit1 W c (Proc.devRef .tc b) = W c (Proc.devRef .tc b) := by
  unfold exit1
  rw [Function.update_of_ne (StableHlo.devRef_ne_of_ne h1), Function.update_of_ne (StableHlo.devRef_ne_of_ne h0)]

set_option maxHeartbeats 8000000 in
/-- EXIT: the arrays at what the write-backs left and the unscoped rest are the unscoped buffers at `exit1 W`. -/
theorem exit1_held (W : Dev nD → Valuation τ sig (Elt F)) (c : Dev nD) :
    iprop((dat1 (asV W) c).arrays ((dat1 (asV W) c).arrAt · cfg1.N) ∗ Pipeline.unscopedRest (Ix := Unit) (Name := ℕ) (U := UR sig nD τ) (Lvl := ℕ) spec1 c (asV W c))
      ⊢ (StableHlo.held (c : Thread nD τ) (Pipeline.ucRefs τ sig) (exit1 W c) : sProp 𝕄) := by
  rw [← Pipeline.unscopedBufs_held, Pipeline.unscopedBufs_split₀ cfgs 1 winFacts₀1.arr_unscoped c]
  refine sep_mono ?_ (Entails.of_eq ?_)
  · unfold Pipeline.arrBufs Dat.arrays
    rw [show Finset.univ.image (Pipeline.arrRef (cfgs 1).spec) = {main_call0_v11, main_call0_v12_0, main_call0_v12_1} from by decide]
    rw [bigSep_insert (by decide), bigSep_insert (by decide), bigSep_singleton, bigSep_W1]
    have hs0 : (dat1 (asV W) c).share 0 = fullShare.left := rfl
    have hs1 : (dat1 (asV W) c).share 1 = fullShare.right := rfl
    have hs2 : (dat1 (asV W) c).share 2 = fullShare := rfl
    have hs3 : (dat1 (asV W) c).share 3 = fullShare := rfl
    rw [hs0, hs1, hs2, hs3]
    rw [show (cfg1.win 0).arr.view.set = Finset.univ from (arr_whole1 0).set_eq_univ]
    try rw [show (cfg1.win 1).arr.view.set = Finset.univ from (arr_whole1 1).set_eq_univ]
    rw [show (cfg1.win 2).arr.view.set = Finset.univ from (arr_whole1 2).set_eq_univ, show (cfg1.win 3).arr.view.set = Finset.univ from (arr_whole1 3).set_eq_univ]
    show iprop((((c : Thread nD τ).loc main_call0_v11) ↦{fullShare.left} (dat1 (asV W) c).arrAt 0 cfg1.N) ∗ (((c : Thread nD τ).loc main_call0_v11) ↦{fullShare.right} (dat1 (asV W) c).arrAt 1 cfg1.N) ∗ (((c : Thread nD τ).loc main_call0_v12_0) ↦{fullShare} (dat1 (asV W) c).arrAt 2 cfg1.N) ∗ (((c : Thread nD τ).loc main_call0_v12_1) ↦{fullShare} (dat1 (asV W) c).arrAt 3 cfg1.N))
      ⊢ iprop((((c : Thread nD τ).loc main_call0_v11) ↦{fullShare} asV (exit1 W) c main_call0_v11) ∗ (((c : Thread nD τ).loc main_call0_v12_0) ↦{fullShare} asV (exit1 W) c main_call0_v12_0) ∗ (((c : Thread nD τ).loc main_call0_v12_1) ↦{fullShare} asV (exit1 W) c main_call0_v12_1))
    rw [show asV (exit1 W) c main_call0_v11 = asV W c main_call0_v11 from exit1_in W c, show asV (exit1 W) c main_call0_v12_0 = (dat1 (asV W) c).arrAt 2 cfg1.N from exit1_out0 W c,
      show asV (exit1 W) c main_call0_v12_1 = (dat1 (asV W) c).arrAt 3 cfg1.N from exit1_out1 W c,
      (dat1 (asV W) c).arrAt_in 0 rfl cfg1.N, (dat1 (asV W) c).arrAt_in 1 rfl cfg1.N, A_eq1, A_eq1]
    have hjn : iprop((((c : Thread nD τ).loc main_call0_v11) ↦{fullShare.left} asV W c main_call0_v11) ∗ (((c : Thread nD τ).loc main_call0_v11) ↦{fullShare.right} asV W c main_call0_v11))
        ⊢ ((((c : Thread nD τ).loc main_call0_v11) ↦{fullShare} asV W c main_call0_v11) : sProp 𝕄) :=
      (pointsTo_share (PosShare.mem_left_op_right fullShare)).2
    iintro ⟨Ha, Hb, H2, H3⟩
    isplitl [Ha Hb]
    · iapply hjn
      isplitl [Ha]; · iexact Ha
      iexact Hb
    isplitl [H2]; · iexact H2
    iexact H3
  · unfold Pipeline.unscopedRest
    refine bigSep_congr fun b hb => ?_
    have hn : b ∉ Finset.univ.image (Pipeline.arrRef spec1) := (Finset.mem_sdiff.mp hb).2
    have h0 : b ≠ main_call0_v12_0 := fun e => hn (Finset.mem_image.mpr ⟨2, Finset.mem_univ _, e.symm⟩)
    have h1 : b ≠ main_call0_v12_1 := fun e => hn (Finset.mem_image.mpr ⟨3, Finset.mem_univ _, e.symm⟩)
    show (((c : Thread nD τ).loc b) ↦{fullShare} asV W c b : sProp 𝕄) = (((c : Thread nD τ).loc b) ↦{fullShare} asV (exit1 W) c b)
    rw [show asV (exit1 W) c b = asV W c b from exit1_of_ne W c b h0 h1]

end Cert.Kernel.Fr

end
-- ==== Proof.KBody2.lean ====
/-
  Region 2 of the program (the butterfly kernel's next launch), at any float instance and for any
  contents `V` of the core's buffers when the region is entered.

  The kernel's grid point `t` reads two blocks of 4096 rows of 128 out of ONE array (the signal as rows): the block
  `t` of its first half and the block `t` of its second half, and writes block `t` of two result arrays: the scaled
  sum and the scaled difference of the two blocks. Here: each window's block at a point, the body run on staging
  buffers holding the two input blocks (it leaves the inputs in place and the two outputs at the payloads of the
  two loaded blocks), and the proof data of the pipeline. Both input windows read the same array, so the pipeline
  holds that array twice, at the two halves of the full share; the result arrays are held whole.
-/
import proofs.«157342_j28784870817852_2_alg».proof.Proof.Gen.Kernel.Launch
import proofs.«157342_j28784870817852_2_alg».proof.Proof.Gen.Kernel.Skeleton
import proofs.«157342_j28784870817852_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point: it is fetched at every point, and the
    body leaves it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole staging buffer as a rectangle: every load and store of the body is through it. -/
abbrev r2 : Rect S4096x128 := Rect.unit (s := S4096x128) ![0, 0] S4096x128.size inb_S4096x128_S4096x128_0_0

/-- What the body leaves in the two output buffers, from the two input blocks: the scaled sum and the scaled difference. -/
def out2_2 (x0 : Vec F S4096x128 .f32) (x1 : Vec F S4096x128 .f32) : Vec F S4096x128 .f32 :=
  View.canon [⟨r2, k2_pay3 (View.ld x0 r2) (View.ld x1 r2)⟩]
def out2_3 (x0 : Vec F S4096x128 .f32) (x1 : Vec F S4096x128 .f32) : Vec F S4096x128 .f32 :=
  View.canon [⟨r2, k2_pay4 (View.ld x0 r2) (View.ld x1 r2)⟩]

/-- One store through the whole rectangle covers the buffer. -/
theorem cover2 (p0 : Vec F S4096x128 .f32) (y : S4096x128.Idx) :
    ∃ pc ∈ ([⟨r2, p0⟩] : List (View.Piece (Elt F) S4096x128 .f32)), y ∈ pc.1.set :=
  View.cover_of_tiled [⟨r2, p0⟩] S4096x128.size (by rfl) y

set_option maxHeartbeats 1000000 in
/-- The body on whole staging buffers: the inputs at `x0`, `x1` and the outputs at anything; it ends with the inputs
    as they were and the outputs at the scaled sum and difference of the inputs. -/
theorem sound_kernel2 (c : Dev nD) (E : Set ℕ) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole)
    (x0 : Vec F S4096x128 .f32) (x1 : Vec F S4096x128 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out2_2 x0 x1) ∗ owns (c : Thread nD τ) arg4 fullShare (out2_3 x0 x1)) -∗ K ⟨⟩))
      ⊢ wp frame (wpE (defs₀ (F := F)) Variants.none c none) E (cc2__butterfly_kernel i arg1 harg1 arg2 harg2 arg3 harg3 arg4 harg4) K := by
  simp only [cc2__butterfly_kernel_eq_skeleton]; unfold cc2__butterfly_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2 _)
  iexists _; isplitr
  swap; · iexact H3
  ipureintro
  exact View.read_writes_eq_canon _ _ _ (cover2 _)

/-- The pipeline's proof data on core `c`: the arrays as the region finds them; after the body at point `t` each input
    buffer at its block and each output buffer at the body's result on the two input blocks; the untouched scoped
    rest and generator register as invariant; nothing owed; the shared input array at the two halves of the full
    share, one per window. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => out2_3 (iblk2 V c 0 t) (iblk2 V c 1 t)
  Φ _ := Pipeline.ΦA spec2 c
  q w := match w with
    | ⟨0, _⟩ => fullShare.left
    | ⟨1, _⟩ => fullShare.right
    | _ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem after2_3 (c : Dev nD) (t : Fin cfg2.N) : (dat2 V c).after 3 t = out2_3 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KReg2.lean ====
/-
  Region 2 between the thread states before and after it. A core holds every unscoped buffer whole at a valuation
  `W`. At the region's entry the three buffers behind its four windows are split off: the signal's rows, which both
  input windows read, is cut into the two halves of the full share, one per window; the two result arrays go whole.
  At its exit the halves are joined again (an input array is never written, so both still hold the entry contents)
  and the result arrays are put back at what the write-backs left: the valuation `exit2 W`, which differs from `W`
  at the two result arrays only.
-/
import proofs.«157342_j28784870817852_2_alg».proof.Proof.KBody2
import proofs.«157342_j28784870817852_2_alg».proof.Proof.KBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
/-- ENTRY: the unscoped buffers at `W` are the pipeline's arrays at their entry contents, each at its share, and the
    unscoped rest. -/
theorem entry2 (W : Dev nD → Valuation τ sig (Elt F)) (c : Dev nD) :
    (StableHlo.held (c : Thread nD τ) (Pipeline.ucRefs τ sig) (W c) : sProp 𝕄)
      ⊢ iprop((dat2 (asV W) c).arrays (dat2 (asV W) c).A ∗ Pipeline.unscopedRest (Ix := Unit) (Name := ℕ) (U := UR sig nD τ) (Lvl := ℕ) spec2 c (asV W c)) := by
  rw [← Pipeline.unscopedBufs_held, Pipeline.unscopedBufs_split₀ cfgs 2 winFacts₀2.arr_unscoped c]
  refine sep_mono ?_ .rfl
  unfold Pipeline.arrBufs Dat.arrays
  rw [show Finset.univ.image (Pipeline.arrRef (cfgs 2).spec) = {main_call0_v21, main_call0_v22_0, main_call0_v22_1} from by decide]
  rw [bigSep_insert (by decide), bigSep_insert (by decide), bigSep_singleton, bigSep_W2]
  have hs0 : (dat2 (asV W) c).share 0 = fullShare.left := rfl
  have hs1 : (dat2 (asV W) c).share 1 = fullShare.right := rfl
  have hs2 : (dat2 (asV W) c).share 2 = fullShare := rfl
  have hs3 : (dat2 (asV W) c).share 3 = fullShare := rfl
  rw [hs0, hs1, hs2, hs3, A_eq2, A_eq2, A_eq2, A_eq2]
  rw [show (cfg2.win 0).arr.view.set = Finset.univ from (arr_whole2 0).set_eq_univ]
  try rw [show (cfg2.win 1).arr.view.set = Finset.univ from (arr_whole2 1).set_eq_univ]
  rw [show (cfg2.win 2).arr.view.set = Finset.univ from (arr_whole2 2).set_eq_univ, show (cfg2.win 3).arr.view.set = Finset.univ from (arr_whole2 3).set_eq_univ]
  show iprop((((c : Thread nD τ).loc main_call0_v21) ↦{fullShare} asV W c main_call0_v21) ∗ (((c : Thread nD τ).loc main_call0_v22_0) ↦{fullShare} asV W c main_call0_v22_0) ∗ (((c : Thread nD τ).loc main_call0_v22_1) ↦{fullShare} asV W c main_call0_v22_1))
    ⊢ iprop((((c : Thread nD τ).loc main_call0_v21) ↦{fullShare.left} asV W c main_call0_v21) ∗ (((c : Thread nD τ).loc main_call0_v21) ↦{fullShare.right} asV W c main_call0_v21) ∗ (((c : Thread nD τ).loc main_call0_v22_0) ↦{fullShare} asV W c main_call0_v22_0) ∗ (((c : Thread nD τ).loc main_call0_v22_1) ↦{fullShare} asV W c main_call0_v22_1))
  have hsp : ((((c : Thread nD τ).loc main_call0_v21) ↦{fullShare} asV W c main_call0_v21) : sProp 𝕄)
      ⊢ iprop((((c : Thread nD τ).loc main_call0_v21) ↦{fullShare.left} asV W c main_call0_v21) ∗ (((c : Thread nD τ).loc main_call0_v21) ↦{fullShare.right} asV W c main_call0_v21)) :=
    (pointsTo_share (PosShare.mem_left_op_right fullShare)).1
  iintro ⟨H1, H2, H3⟩
  ihave H1' := hsp $$ H1
  icases H1' with ⟨Ha, Hb⟩
  isplitl [Ha]; · iexact Ha
  isplitl [Hb]; · iexact Hb
  isplitl [H2]; · iexact H2
  iexact H3

/-- The core's buffers when the region is left: the two result arrays at what the write-backs leave, every other
    buffer as the region found it. -/
def exit2 (W : Dev nD → Valuation τ sig (Elt F)) (c : Dev nD) : Valuation τ sig (Elt F) :=
  Function.update (Function.update (W c) main_call0_v22_0 ((dat2 (asV W) c).arrAt 2 cfg2.N)) main_call0_v22_1 ((dat2 (asV W) c).arrAt 3 cfg2.N)

theorem exit2_in (W : Dev nD → Valuation τ sig (Elt F)) (c : Dev nD) : exit2 W c (Proc.devRef .tc main_call0_v21) = W c (Proc.devRef .tc main_call0_v21) := by
  unfold exit2
  rw [Function.update_of_ne (StableHlo.devRef_ne_of_ne (by decide)), Function.update_of_ne (StableHlo.devRef_ne_of_ne (by decide))]
theorem exit2_out0 (W : Dev nD → Valuation τ sig (Elt F)) (c : Dev nD) : exit2 W c (Proc.devRef .tc main_call0_v22_0) = (dat2 (asV W) c).arrAt 2 cfg2.N := by
  unfold exit2
  rw [Function.update_of_ne (StableHlo.devRef_ne_of_ne (by decide)), Function.update_self]
theorem exit2_out1 (W : Dev nD → Valuation τ sig (Elt F)) (c : Dev nD) : exit2 W c (Proc.devRef .tc main_call0_v22_1) = (dat2 (asV W) c).arrAt 3 cfg2.N := by
  unfold exit2
  rw [Function.update_self]
theorem exit2_of_ne (W : Dev nD → Valuation τ sig (Elt F)) (c : Dev nD) (b : Ref sig .tc) (h0 : b ≠ main_call0_v22_0) (h1 : b ≠ main_call0_v22_1) :
    exit2 W c (Proc.devRef .tc b) = W c (Proc.devRef .tc b) := by
  unfold exit2
  rw [Function.update_of_ne (StableHlo.devRef_ne_of_ne h1), Function.update_of_ne (StableHlo.devRef_ne_of_ne h0)]

set_option maxHeartbeats 8000000 in
/-- EXIT: the arrays at what the write-backs left and the unscoped rest are the unscoped buffers at `exit2 W`. -/
theorem exit2_held (W : Dev nD → Valuation τ sig (Elt F)) (c : Dev nD) :
    iprop((dat2 (asV W) c).arrays ((dat2 (asV W) c).arrAt · cfg2.N) ∗ Pipeline.unscopedRest (Ix := Unit) (Name := ℕ) (U := UR sig nD τ) (Lvl := ℕ) spec2 c (asV W c))
      ⊢ (StableHlo.held (c : Thread nD τ) (Pipeline.ucRefs τ sig) (exit2 W c) : sProp 𝕄) := by
  rw [← Pipeline.unscopedBufs_held, Pipeline.unscopedBufs_split₀ cfgs 2 winFacts₀2.arr_unscoped c]
  refine sep_mono ?_ (Entails.of_eq ?_)
  · unfold Pipeline.arrBufs Dat.arrays
    rw [show Finset.univ.image (Pipeline.arrRef (cfgs 2).spec) = {main_call0_v21, main_call0_v22_0, main_call0_v22_1} from by decide]
    rw [bigSep_insert (by decide), bigSep_insert (by decide), bigSep_singleton, bigSep_W2]
    have hs0 : (dat2 (asV W) c).share 0 = fullShare.left := rfl
    have hs1 : (dat2 (asV W) c).share 1 = fullShare.right := rfl
    have hs2 : (dat2 (asV W) c).share 2 = fullShare := rfl
    have hs3 : (dat2 (asV W) c).share 3 = fullShare := rfl
    rw [hs0, hs1, hs2, hs3]
    rw [show (cfg2.win 0).arr.view.set = Finset.univ from (arr_whole2 0).set_eq_univ]
    try rw [show (cfg2.win 1).arr.view.set = Finset.univ from (arr_whole2 1).set_eq_univ]
    rw [show (cfg2.win 2).arr.view.set = Finset.univ from (arr_whole2 2).set_eq_univ, show (cfg2.win 3).arr.view.set = Finset.univ from (arr_whole2 3).set_eq_univ]
    show iprop((((c : Thread nD τ).loc main_call0_v21) ↦{fullShare.left} (dat2 (asV W) c).arrAt 0 cfg2.N) ∗ (((c : Thread nD τ).loc main_call0_v21) ↦{fullShare.right} (dat2 (asV W) c).arrAt 1 cfg2.N) ∗ (((c : Thread nD τ).loc main_call0_v22_0) ↦{fullShare} (dat2 (asV W) c).arrAt 2 cfg2.N) ∗ (((c : Thread nD τ).loc main_call0_v22_1) ↦{fullShare} (dat2 (asV W) c).arrAt 3 cfg2.N))
      ⊢ iprop((((c : Thread nD τ).loc main_call0_v21) ↦{fullShare} asV (exit2 W) c main_call0_v21) ∗ (((c : Thread nD τ).loc main_call0_v22_0) ↦{fullShare} asV (exit2 W) c main_call0_v22_0) ∗ (((c : Thread nD τ).loc main_call0_v22_1) ↦{fullShare} asV (exit2 W) c main_call0_v22_1))
    rw [show asV (exit2 W) c main_call0_v21 = asV W c main_call0_v21 from exit2_in W c, show asV (exit2 W) c main_call0_v22_0 = (dat2 (asV W) c).arrAt 2 cfg2.N from exit2_out0 W c,
      show asV (exit2 W) c main_call0_v22_1 = (dat2 (asV W) c).arrAt 3 cfg2.N from exit2_out1 W c,
      (dat2 (asV W) c).arrAt_in 0 rfl cfg2.N, (dat2 (asV W) c).arrAt_in 1 rfl cfg2.N, A_eq2, A_eq2]
    have hjn : iprop((((c : Thread nD τ).loc main_call0_v21) ↦{fullShare.left} asV W c main_call0_v21) ∗ (((c : Thread nD τ).loc main_call0_v21) ↦{fullShare.right} asV W c main_call0_v21))
        ⊢ ((((c : Thread nD τ).loc main_call0_v21) ↦{fullShare} asV W c main_call0_v21) : sProp 𝕄) :=
      (pointsTo_share (PosShare.mem_left_op_right fullShare)).2
    iintro ⟨Ha, Hb, H2, H3⟩
    isplitl [Ha Hb]
    · iapply hjn
      isplitl [Ha]; · iexact Ha
      iexact Hb
    isplitl [H2]; · iexact H2
    iexact H3
  · unfold Pipeline.unscopedRest
    refine bigSep_congr fun b hb => ?_
    have hn : b ∉ Finset.univ.image (Pipeline.arrRef spec2) := (Finset.mem_sdiff.mp hb).2
    have h0 : b ≠ main_call0_v22_0 := fun e => hn (Finset.mem_image.mpr ⟨2, Finset.mem_univ _, e.symm⟩)
    have h1 : b ≠ main_call0_v22_1 := fun e => hn (Finset.mem_image.mpr ⟨3, Finset.mem_univ _, e.symm⟩)
    show (((c : Thread nD τ).loc b) ↦{fullShare} asV W c b : sProp 𝕄) = (((c : Thread nD τ).loc b) ↦{fullShare} asV (exit2 W) c b)
    rw [show asV (exit2 W) c b = asV W c b from exit2_of_ne W c b h0 h1]

end Cert.Kernel.Fr

end
-- ==== Proof.KBody3.lean ====
/-
  Region 3 of the program (the butterfly kernel's next launch), at any float instance and for any
  contents `V` of the core's buffers when the region is entered.

  The kernel's grid point `t` reads two blocks of 4096 rows of 128 out of ONE array (the signal as rows): the block
  `t` of its first half and the block `t` of its second half, and writes block `t` of two result arrays: the scaled
  sum and the scaled difference of the two blocks. Here: each window's block at a point, the body run on staging
  buffers holding the two input blocks (it leaves the inputs in place and the two outputs at the payloads of the
  two loaded blocks), and the proof data of the pipeline. Both input windows read the same array, so the pipeline
  holds that array twice, at the two halves of the full share; the result arrays are held whole.
-/
import proofs.«157342_j28784870817852_2_alg».proof.Proof.Gen.Kernel.Launch
import proofs.«157342_j28784870817852_2_alg».proof.Proof.Gen.Kernel.Skeleton
import proofs.«157342_j28784870817852_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point: it is fetched at every point, and the
    body leaves it in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole staging buffer as a rectangle: every load and store of the body is through it. -/
abbrev r3 : Rect S4096x128 := Rect.unit (s := S4096x128) ![0, 0] S4096x128.size inb_S4096x128_S4096x128_0_0

/-- What the body leaves in the two output buffers, from the two input blocks: the scaled sum and the scaled difference. -/
def out3_2 (x0 : Vec F S4096x128 .f32) (x1 : Vec F S4096x128 .f32) : Vec F S4096x128 .f32 :=
  View.canon [⟨r3, k3_pay3 (View.ld x0 r3) (View.ld x1 r3)⟩]
def out3_3 (x0 : Vec F S4096x128 .f32) (x1 : Vec F S4096x128 .f32) : Vec F S4096x128 .f32 :=
  View.canon [⟨r3, k3_pay4 (View.ld x0 r3) (View.ld x1 r3)⟩]

/-- One store through the whole rectangle covers the buffer. -/
theorem cover3 (p0 : Vec F S4096x128 .f32) (y : S4096x128.Idx) :
    ∃ pc ∈ ([⟨r3, p0⟩] : List (View.Piece (Elt F) S4096x128 .f32)), y ∈ pc.1.set :=
  View.cover_of_tiled [⟨r3, p0⟩] S4096x128.size (by rfl) y

set_option maxHeartbeats 1000000 in
/-- The body on whole staging buffers: the inputs at `x0`, `x1` and the outputs at anything; it ends with the inputs
    as they were and the outputs at the scaled sum and difference of the inputs. -/
theorem sound_kernel3 (c : Dev nD) (E : Set ℕ) (i : grid3.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole)
    (x0 : Vec F S4096x128 .f32) (x1 : Vec F S4096x128 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out3_2 x0 x1) ∗ owns (c : Thread nD τ) arg4 fullShare (out3_3 x0 x1)) -∗ K ⟨⟩))
      ⊢ wp frame (wpE (defs₀ (F := F)) Variants.none c none) E (cc3__butterfly_kernel i arg1 harg1 arg2 harg2 arg3 harg3 arg4 harg4) K := by
  simp only [cc3__butterfly_kernel_eq_skeleton]; unfold cc3__butterfly_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover3 _)
  iexists _; isplitr
  swap; · iexact H3
  ipureintro
  exact View.read_writes_eq_canon _ _ _ (cover3 _)

/-- The pipeline's proof data on core `c`: the arrays as the region finds them; after the body at point `t` each input
    buffer at its block and each output buffer at the body's result on the two input blocks; the untouched scoped
    rest and generator register as invariant; nothing owed; the shared input array at the two halves of the full
    share, one per window. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
    | ⟨3, _⟩ => out3_3 (iblk3 V c 0 t) (iblk3 V c 1 t)
  Φ _ := Pipeline.ΦA spec3 c
  q w := match w with
    | ⟨0, _⟩ => fullShare.left
    | ⟨1, _⟩ => fullShare.right
    | _ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]
theorem after3_3 (c : Dev nD) (t : Fin cfg3.N) : (dat3 V c).after 3 t = out3_3 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the input buffers hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KReg3.lean ====
/-
  Region 3 between the thread states before and after it. A core holds every unscoped buffer whole at a valuation
  `W`. At the region's entry the three buffers behind its four windows are split off: the signal's rows, which both
  input windows read, is cut into the two halves of the full share, one per window; the two result arrays go whole.
  At its exit the halves are joined again (an input array is never written, so both still hold the entry contents)
  and the result arrays are put back at what the write-backs left: the valuation `exit3 W`, which differs from `W`
  at the two result arrays only.
-/
import proofs.«157342_j28784870817852_2_alg».proof.Proof.KBody3
import proofs.«157342_j28784870817852_2_alg».proof.Proof.KBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
/-- ENTRY: the unscoped buffers at `W` are the pipeline's arrays at their entry contents, each at its share, and the
    unscoped rest. -/
theorem entry3 (W : Dev nD → Valuation τ sig (Elt F)) (c : Dev nD) :
    (StableHlo.held (c : Thread nD τ) (Pipeline.ucRefs τ sig) (W c) : sProp 𝕄)
      ⊢ iprop((dat3 (asV W) c).arrays (dat3 (asV W) c).A ∗ Pipeline.unscopedRest (Ix := Unit) (Name := ℕ) (U := UR sig nD τ) (Lvl := ℕ) spec3 c (asV W c)) := by
  rw [← Pipeline.unscopedBufs_held, Pipeline.unscopedBufs_split₀ cfgs 3 winFacts₀3.arr_unscoped c]
  refine sep_mono ?_ .rfl
  unfold Pipeline.arrBufs Dat.arrays
  rw [show Finset.univ.image (Pipeline.arrRef (cfgs 3).spec) = {main_call0_v31, main_call0_v32_0, main_call0_v32_1} from by decide]
  rw [bigSep_insert (by decide), bigSep_insert (by decide), bigSep_singleton, bigSep_W3]
  have hs0 : (dat3 (asV W) c).share 0 = fullShare.left := rfl
  have hs1 : (dat3 (asV W) c).share 1 = fullShare.right := rfl
  have hs2 : (dat3 (asV W) c).share 2 = fullShare := rfl
  have hs3 : (dat3 (asV W) c).share 3 = fullShare := rfl
  rw [hs0, hs1, hs2, hs3, A_eq3, A_eq3, A_eq3, A_eq3]
  rw [show (cfg3.win 0).arr.view.set = Finset.univ from (arr_whole3 0).set_eq_univ]
  try rw [show (cfg3.win 1).arr.view.set = Finset.univ from (arr_whole3 1).set_eq_univ]
  rw [show (cfg3.win 2).arr.view.set = Finset.univ from (arr_whole3 2).set_eq_univ, show (cfg3.win 3).arr.view.set = Finset.univ from (arr_whole3 3).set_eq_univ]
  show iprop((((c : Thread nD τ).loc main_call0_v31) ↦{fullShare} asV W c main_call0_v31) ∗ (((c : Thread nD τ).loc main_call0_v32_0) ↦{fullShare} asV W c main_call0_v32_0) ∗ (((c : Thread nD τ).loc main_call0_v32_1) ↦{fullShare} asV W c main_call0_v32_1))
    ⊢ iprop((((c : Thread nD τ).loc main_call0_v31) ↦{fullShare.left} asV W c main_call0_v31) ∗ (((c : Thread nD τ).loc main_call0_v31) ↦{fullShare.right} asV W c main_call0_v31) ∗ (((c : Thread nD τ).loc main_call0_v32_0) ↦{fullShare} asV W c main_call0_v32_0) ∗ (((c : Thread nD τ).loc main_call0_v32_1) ↦{fullShare} asV W c main_call0_v32_1))
  have hsp : ((((c : Thread nD τ).loc main_call0_v31) ↦{fullShare} asV W c main_call0_v31) : sProp 𝕄)
      ⊢ iprop((((c : Thread nD τ).loc main_call0_v31) ↦{fullShare.left} asV W c main_call0_v31) ∗ (((c : Thread nD τ).loc main_call0_v31) ↦{fullShare.right} asV W c main_call0_v31)) :=
    (pointsTo_share (PosShare.mem_left_op_right fullShare)).1
  iintro ⟨H1, H2, H3⟩
  ihave H1' := hsp $$ H1
  icases H1' with ⟨Ha, Hb⟩
  isplitl [Ha]; · iexact Ha
  isplitl [Hb]; · iexact Hb
  isplitl [H2]; · iexact H2
  iexact H3

/-- The core's buffers when the region is left: the two result arrays at what the write-backs leave, every other
    buffer as the region found it. -/
def exit3 (W : Dev nD → Valuation τ sig (Elt F)) (c : Dev nD) : Valuation τ sig (Elt F) :=
  Function.update (Function.update (W c) main_call0_v32_0 ((dat3 (asV W) c).arrAt 2 cfg3.N)) main_call0_v32_1 ((dat3 (asV W) c).arrAt 3 cfg3.N)

theorem exit3_in (W : Dev nD → Valuation τ sig (Elt F)) (c : Dev nD) : exit3 W c (Proc.devRef .tc main_call0_v31) = W c (Proc.devRef .tc main_call0_v31) := by
  unfold exit3
  rw [Function.update_of_ne (StableHlo.devRef_ne_of_ne (by decide)), Function.update_of_ne (StableHlo.devRef_ne_of_ne (by decide))]
theorem exit3_out0 (W : Dev nD → Valuation τ sig (Elt F)) (c : Dev nD) : exit3 W c (Proc.devRef .tc main_call0_v32_0) = (dat3 (asV W) c).arrAt 2 cfg3.N := by
  unfold exit3
  rw [Function.update_of_ne (StableHlo.devRef_ne_of_ne (by decide)), Function.update_self]
theorem exit3_out1 (W : Dev nD → Valuation τ sig (Elt F)) (c : Dev nD) : exit3 W c (Proc.devRef .tc main_call0_v32_1) = (dat3 (asV W) c).arrAt 3 cfg3.N := by
  unfold exit3
  rw [Function.update_self]
theorem exit3_of_ne (W : Dev nD → Valuation τ sig (Elt F)) (c : Dev nD) (b : Ref sig .tc) (h0 : b ≠ main_call0_v32_0) (h1 : b ≠ main_call0_v32_1) :
    exit3 W c (Proc.devRef .tc b) = W c (Proc.devRef .tc b) := by
  unfold exit3
  rw [Function.update_of_ne (StableHlo.devRef_ne_of_ne h1), Function.update_of_ne (StableHlo.devRef_ne_of_ne h0)]

set_option maxHeartbeats 8000000 in
/-- EXIT: the arrays at what the write-backs left and the unscoped rest are the unscoped buffers at `exit3 W`. -/
theorem exit3_held (W : Dev nD → Valuation τ sig (Elt F)) (c : Dev nD) :
    iprop((dat3 (asV W) c).arrays ((dat3 (asV W) c).arrAt · cfg3.N) ∗ Pipeline.unscopedRest (Ix := Unit) (Name := ℕ) (U := UR sig nD τ) (Lvl := ℕ) spec3 c (asV W c))
      ⊢ (StableHlo.held (c : Thread nD τ) (Pipeline.ucRefs τ sig) (exit3 W c) : sProp 𝕄) := by
  rw [← Pipeline.unscopedBufs_held, Pipeline.unscopedBufs_split₀ cfgs 3 winFacts₀3.arr_unscoped c]
  refine sep_mono ?_ (Entails.of_eq ?_)
  · unfold Pipeline.arrBufs Dat.arrays
    rw [show Finset.univ.image (Pipeline.arrRef (cfgs 3).spec) = {main_call0_v31, main_call0_v32_0, main_call0_v32_1} from by decide]
    rw [bigSep_insert (by decide), bigSep_insert (by decide), bigSep_singleton, bigSep_W3]
    have hs0 : (dat3 (asV W) c).share 0 = fullShare.left := rfl
    have hs1 : (dat3 (asV W) c).share 1 = fullShare.right := rfl
    have hs2 : (dat3 (asV W) c).share 2 = fullShare := rfl
    have hs3 : (dat3 (asV W) c).share 3 = fullShare := rfl
    rw [hs0, hs1, hs2, hs3]
    rw [show (cfg3.win 0).arr.view.set = Finset.univ from (arr_whole3 0).set_eq_univ]
    try rw [show (cfg3.win 1).arr.view.set = Finset.univ from (arr_whole3 1).set_eq_univ]
    rw [show (cfg3.win 2).arr.view.set = Finset.univ from (arr_whole3 2).set_eq_univ, show (cfg3.win 3).arr.view.set = Finset.univ from (arr_whole3 3).set_eq_univ]
    show iprop((((c : Thread nD τ).loc main_call0_v31) ↦{fullShare.left} (dat3 (asV W) c).arrAt 0 cfg3.N) ∗ (((c : Thread nD τ).loc main_call0_v31) ↦{fullShare.right} (dat3 (asV W) c).arrAt 1 cfg3.N) ∗ (((c : Thread nD τ).loc main_call0_v32_0) ↦{fullShare} (dat3 (asV W) c).arrAt 2 cfg3.N) ∗ (((c : Thread nD τ).loc main_call0_v32_1) ↦{fullShare} (dat3 (asV W) c).arrAt 3 cfg3.N))
      ⊢ iprop((((c : Thread nD τ).loc main_call0_v31) ↦{fullShare} asV (exit3 W) c main_call0_v31) ∗ (((c : Thread nD τ).loc main_call0_v32_0) ↦{fullShare} asV (exit3 W) c main_call0_v32_0) ∗ (((c : Thread nD τ).loc main_call0_v32_1) ↦{fullShare} asV (exit3 W) c main_call0_v32_1))
    rw [show asV (exit3 W) c main_call0_v31 = asV W c main_call0_v31 from exit3_in W c, show asV (exit3 W) c main_call0_v32_0 = (dat3 (asV W) c).arrAt 2 cfg3.N from exit3_out0 W c,
      show asV (exit3 W) c main_call0_v32_1 = (dat3 (asV W) c).arrAt 3 cfg3.N from exit3_out1 W c,
      (dat3 (asV W) c).arrAt_in 0 rfl cfg3.N, (dat3 (asV W) c).arrAt_in 1 rfl cfg3.N, A_eq3, A_eq3]
    have hjn : iprop((((c : Thread nD τ).loc main_call0_v31) ↦{fullShare.left} asV W c main_call0_v31) ∗ (((c : Thread nD τ).loc main_call0_v31) ↦{fullShare.right} asV W c main_call0_v31))
        ⊢ ((((c : Thread nD τ).loc main_call0_v31) ↦{fullShare} asV W c main_call0_v31) : sProp 𝕄) :=
      (pointsTo_share (PosShare.mem_left_op_right fullShare)).2
    iintro ⟨Ha, Hb, H2, H3⟩
    isplitl [Ha Hb]
    · iapply hjn
      isplitl [Ha]; · iexact Ha
      iexact Hb
    isplitl [H2]; · iexact H2
    iexact H3
  · unfold Pipeline.unscopedRest
    refine bigSep_congr fun b hb => ?_
    have hn : b ∉ Finset.univ.image (Pipeline.arrRef spec3) := (Finset.mem_sdiff.mp hb).2
    have h0 : b ≠ main_call0_v32_0 := fun e => hn (Finset.mem_image.mpr ⟨2, Finset.mem_univ _, e.symm⟩)
    have h1 : b ≠ main_call0_v32_1 := fun e => hn (Finset.mem_image.mpr ⟨3, Finset.mem_univ _, e.symm⟩)
    show (((c : Thread nD τ).loc b) ↦{fullShare} asV W c b : sProp 𝕄) = (((c : Thread nD τ).loc b) ↦{fullShare} asV (exit3 W) c b)
    rw [show asV (exit3 W) c b = asV W c b from exit3_of_ne W c b h0 h1]

end Cert.Kernel.Fr

end
-- ==== Proof.KBody4.lean ====
/-
  Region 4 of the program (the butterfly kernel's last launch), at any float instance and for any
  contents `V` of the core's buffers when the region is entered.

  The kernel's grid point `t` reads two blocks of 4096 rows of 128 out of ONE array (the signal as rows): the block
  `t` of its first half and the block `t` of its second half, and writes block `t` of two result arrays: the scaled
  sum and the scaled difference of the two blocks. Here: each window's block at a point, the body run on staging
  buffers holding the two input blocks (it leaves the inputs in place and the two outputs at the payloads of the
  two loaded blocks), and the proof data of the pipeline. Both input windows read the same array, so the pipeline
  holds that array twice, at the two halves of the full share; the result arrays are held whole.
-/
import proofs.«157342_j28784870817852_2_alg».proof.Proof.Gen.Kernel.Launch
import proofs.«157342_j28784870817852_2_alg».proof.Proof.Gen.Kernel.Skeleton
import proofs.«157342_j28784870817852_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point: it is fetched at every point, and the
    body leaves it in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The whole staging buffer as a rectangle: every load and store of the body is through it. -/
abbrev r4 : Rect S4096x128 := Rect.unit (s := S4096x128) ![0, 0] S4096x128.size inb_S4096x128_S4096x128_0_0

/-- What the body leaves in the two output buffers, from the two input blocks: the scaled sum and the scaled difference. -/
def out4_2 (x0 : Vec F S4096x128 .f32) (x1 : Vec F S4096x128 .f32) : Vec F S4096x128 .f32 :=
  View.canon [⟨r4, k4_pay3 (View.ld x0 r4) (View.ld x1 r4)⟩]
def out4_3 (x0 : Vec F S4096x128 .f32) (x1 : Vec F S4096x128 .f32) : Vec F S4096x128 .f32 :=
  View.canon [⟨r4, k4_pay4 (View.ld x0 r4) (View.ld x1 r4)⟩]

/-- One store through the whole rectangle covers the buffer. -/
theorem cover4 (p0 : Vec F S4096x128 .f32) (y : S4096x128.Idx) :
    ∃ pc ∈ ([⟨r4, p0⟩] : List (View.Piece (Elt F) S4096x128 .f32)), y ∈ pc.1.set :=
  View.cover_of_tiled [⟨r4, p0⟩] S4096x128.size (by rfl) y

set_option maxHeartbeats 1000000 in
/-- The body on whole staging buffers: the inputs at `x0`, `x1` and the outputs at anything; it ends with the inputs
    as they were and the outputs at the scaled sum and difference of the inputs. -/
theorem sound_kernel4 (c : Dev nD) (E : Set ℕ) (i : grid4.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole)
    (x0 : Vec F S4096x128 .f32) (x1 : Vec F S4096x128 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out4_2 x0 x1) ∗ owns (c : Thread nD τ) arg4 fullShare (out4_3 x0 x1)) -∗ K ⟨⟩))
      ⊢ wp frame (wpE (defs₀ (F := F)) Variants.none c none) E (cc4__butterfly_kernel i arg1 harg1 arg2 harg2 arg3 harg3 arg4 harg4) K := by
  simp only [cc4__butterfly_kernel_eq_skeleton]; unfold cc4__butterfly_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover4 _)
  iexists _; isplitr
  swap; · iexact H3
  ipureintro
  exact View.read_writes_eq_canon _ _ _ (cover4 _)

/-- The pipeline's proof data on core `c`: the arrays as the region finds them; after the body at point `t` each input
    buffer at its block and each output buffer at the body's result on the two input blocks; the untouched scoped
    rest and generator register as invariant; nothing owed; the shared input array at the two halves of the full
    share, one per window. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
    | ⟨3, _⟩ => out4_3 (iblk4 V c 0 t) (iblk4 V c 1 t)
  Φ _ := Pipeline.ΦA spec4 c
  q w := match w with
    | ⟨0, _⟩ => fullShare.left
    | ⟨1, _⟩ => fullShare.right
    | _ => fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]
theorem after4_3 (c : Dev nD) (t : Fin cfg4.N) : (dat4 V c).after 3 t = out4_3 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the input buffers hold their blocks, so the body's triple applies; the invariant and what
    the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.KReg4.lean ====
/-
  Region 4 between the thread states before and after it. A core holds every unscoped buffer whole at a valuation
  `W`. At the region's entry the three buffers behind its four windows are split off: the signal's rows, which both
  input windows read, is cut into the two halves of the full share, one per window; the two result arrays go whole.
  At its exit the halves are joined again (an input array is never written, so both still hold the entry contents)
  and the result arrays are put back at what the write-backs left: the valuation `exit4 W`, which differs from `W`
  at the two result arrays only.
-/
import proofs.«157342_j28784870817852_2_alg».proof.Proof.KBody4
import proofs.«157342_j28784870817852_2_alg».proof.Proof.KBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
/-- ENTRY: the unscoped buffers at `W` are the pipeline's arrays at their entry contents, each at its share, and the
    unscoped rest. -/
theorem entry4 (W : Dev nD → Valuation τ sig (Elt F)) (c : Dev nD) :
    (StableHlo.held (c : Thread nD τ) (Pipeline.ucRefs τ sig) (W c) : sProp 𝕄)
      ⊢ iprop((dat4 (asV W) c).arrays (dat4 (asV W) c).A ∗ Pipeline.unscopedRest (Ix := Unit) (Name := ℕ) (U := UR sig nD τ) (Lvl := ℕ) spec4 c (asV W c)) := by
  rw [← Pipeline.unscopedBufs_held, Pipeline.unscopedBufs_split₀ cfgs 4 winFacts₀4.arr_unscoped c]
  refine sep_mono ?_ .rfl
  unfold Pipeline.arrBufs Dat.arrays
  rw [show Finset.univ.image (Pipeline.arrRef (cfgs 4).spec) = {main_call0_v41, main_call0_v42_0, main_call0_v42_1} from by decide]
  rw [bigSep_insert (by decide), bigSep_insert (by decide), bigSep_singleton, bigSep_W4]
  have hs0 : (dat4 (asV W) c).share 0 = fullShare.left := rfl
  have hs1 : (dat4 (asV W) c).share 1 = fullShare.right := rfl
  have hs2 : (dat4 (asV W) c).share 2 = fullShare := rfl
  have hs3 : (dat4 (asV W) c).share 3 = fullShare := rfl
  rw [hs0, hs1, hs2, hs3, A_eq4, A_eq4, A_eq4, A_eq4]
  rw [show (cfg4.win 0).arr.view.set = Finset.univ from (arr_whole4 0).set_eq_univ]
  try rw [show (cfg4.win 1).arr.view.set = Finset.univ from (arr_whole4 1).set_eq_univ]
  rw [show (cfg4.win 2).arr.view.set = Finset.univ from (arr_whole4 2).set_eq_univ, show (cfg4.win 3).arr.view.set = Finset.univ from (arr_whole4 3).set_eq_univ]
  show iprop((((c : Thread nD τ).loc main_call0_v41) ↦{fullShare} asV W c main_call0_v41) ∗ (((c : Thread nD τ).loc main_call0_v42_0) ↦{fullShare} asV W c main_call0_v42_0) ∗ (((c : Thread nD τ).loc main_call0_v42_1) ↦{fullShare} asV W c main_call0_v42_1))
    ⊢ iprop((((c : Thread nD τ).loc main_call0_v41) ↦{fullShare.left} asV W c main_call0_v41) ∗ (((c : Thread nD τ).loc main_call0_v41) ↦{fullShare.right} asV W c main_call0_v41) ∗ (((c : Thread nD τ).loc main_call0_v42_0) ↦{fullShare} asV W c main_call0_v42_0) ∗ (((c : Thread nD τ).loc main_call0_v42_1) ↦{fullShare} asV W c main_call0_v42_1))
  have hsp : ((((c : Thread nD τ).loc main_call0_v41) ↦{fullShare} asV W c main_call0_v41) : sProp 𝕄)
      ⊢ iprop((((c : Thread nD τ).loc main_call0_v41) ↦{fullShare.left} asV W c main_call0_v41) ∗ (((c : Thread nD τ).loc main_call0_v41) ↦{fullShare.right} asV W c main_call0_v41)) :=
    (pointsTo_share (PosShare.mem_left_op_right fullShare)).1
  iintro ⟨H1, H2, H3⟩
  ihave H1' := hsp $$ H1
  icases H1' with ⟨Ha, Hb⟩
  isplitl [Ha]; · iexact Ha
  isplitl [Hb]; · iexact Hb
  isplitl [H2]; · iexact H2
  iexact H3

/-- The core's buffers when the region is left: the two result arrays at what the write-backs leave, every other
    buffer as the region found it. -/
def exit4 (W : Dev nD → Valuation τ sig (Elt F)) (c : Dev nD) : Valuation τ sig (Elt F) :=
  Function.update (Function.update (W c) main_call0_v42_0 ((dat4 (asV W) c).arrAt 2 cfg4.N)) main_call0_v42_1 ((dat4 (asV W) c).arrAt 3 cfg4.N)

theorem exit4_in (W : Dev nD → Valuation τ sig (Elt F)) (c : Dev nD) : exit4 W c (Proc.devRef .tc main_call0_v41) = W c (Proc.devRef .tc main_call0_v41) := by
  unfold exit4
  rw [Function.update_of_ne (StableHlo.devRef_ne_of_ne (by decide)), Function.update_of_ne (StableHlo.devRef_ne_of_ne (by decide))]
theorem exit4_out0 (W : Dev nD → Valuation τ sig (Elt F)) (c : Dev nD) : exit4 W c (Proc.devRef .tc main_call0_v42_0) = (dat4 (asV W) c).arrAt 2 cfg4.N := by
  unfold exit4
  rw [Function.update_of_ne (StableHlo.devRef_ne_of_ne (by decide)), Function.update_self]
theorem exit4_out1 (W : Dev nD → Valuation τ sig (Elt F)) (c : Dev nD) : exit4 W c (Proc.devRef .tc main_call0_v42_1) = (dat4 (asV W) c).arrAt 3 cfg4.N := by
  unfold exit4
  rw [Function.update_self]
theorem exit4_of_ne (W : Dev nD → Valuation τ sig (Elt F)) (c : Dev nD) (b : Ref sig .tc) (h0 : b ≠ main_call0_v42_0) (h1 : b ≠ main_call0_v42_1) :
    exit4 W c (Proc.devRef .tc b) = W c (Proc.devRef .tc b) := by
  unfold exit4
  rw [Function.update_of_ne (StableHlo.devRef_ne_of_ne h1), Function.update_of_ne (StableHlo.devRef_ne_of_ne h0)]

set_option maxHeartbeats 8000000 in
/-- EXIT: the arrays at what the write-backs left and the unscoped rest are the unscoped buffers at `exit4 W`. -/
theorem exit4_held (W : Dev nD → Valuation τ sig (Elt F)) (c : Dev nD) :
    iprop((dat4 (asV W) c).arrays ((dat4 (asV W) c).arrAt · cfg4.N) ∗ Pipeline.unscopedRest (Ix := Unit) (Name := ℕ) (U := UR sig nD τ) (Lvl := ℕ) spec4 c (asV W c))
      ⊢ (StableHlo.held (c : Thread nD τ) (Pipeline.ucRefs τ sig) (exit4 W c) : sProp 𝕄) := by
  rw [← Pipeline.unscopedBufs_held, Pipeline.unscopedBufs_split₀ cfgs 4 winFacts₀4.arr_unscoped c]
  refine sep_mono ?_ (Entails.of_eq ?_)
  · unfold Pipeline.arrBufs Dat.arrays
    rw [show Finset.univ.image (Pipeline.arrRef (cfgs 4).spec) = {main_call0_v41, main_call0_v42_0, main_call0_v42_1} from by decide]
    rw [bigSep_insert (by decide), bigSep_insert (by decide), bigSep_singleton, bigSep_W4]
    have hs0 : (dat4 (asV W) c).share 0 = fullShare.left := rfl
    have hs1 : (dat4 (asV W) c).share 1 = fullShare.right := rfl
    have hs2 : (dat4 (asV W) c).share 2 = fullShare := rfl
    have hs3 : (dat4 (asV W) c).share 3 = fullShare := rfl
    rw [hs0, hs1, hs2, hs3]
    rw [show (cfg4.win 0).arr.view.set = Finset.univ from (arr_whole4 0).set_eq_univ]
    try rw [show (cfg4.win 1).arr.view.set = Finset.univ from (arr_whole4 1).set_eq_univ]
    rw [show (cfg4.win 2).arr.view.set = Finset.univ from (arr_whole4 2).set_eq_univ, show (cfg4.win 3).arr.view.set = Finset.univ from (arr_whole4 3).set_eq_univ]
    show iprop((((c : Thread nD τ).loc main_call0_v41) ↦{fullShare.left} (dat4 (asV W) c).arrAt 0 cfg4.N) ∗ (((c : Thread nD τ).loc main_call0_v41) ↦{fullShare.right} (dat4 (asV W) c).arrAt 1 cfg4.N) ∗ (((c : Thread nD τ).loc main_call0_v42_0) ↦{fullShare} (dat4 (asV W) c).arrAt 2 cfg4.N) ∗ (((c : Thread nD τ).loc main_call0_v42_1) ↦{fullShare} (dat4 (asV W) c).arrAt 3 cfg4.N))
      ⊢ iprop((((c : Thread nD τ).loc main_call0_v41) ↦{fullShare} asV (exit4 W) c main_call0_v41) ∗ (((c : Thread nD τ).loc main_call0_v42_0) ↦{fullShare} asV (exit4 W) c main_call0_v42_0) ∗ (((c : Thread nD τ).loc main_call0_v42_1) ↦{fullShare} asV (exit4 W) c main_call0_v42_1))
    rw [show asV (exit4 W) c main_call0_v41 = asV W c main_call0_v41 from exit4_in W c, show asV (exit4 W) c main_call0_v42_0 = (dat4 (asV W) c).arrAt 2 cfg4.N from exit4_out0 W c,
      show asV (exit4 W) c main_call0_v42_1 = (dat4 (asV W) c).arrAt 3 cfg4.N from exit4_out1 W c,
      (dat4 (asV W) c).arrAt_in 0 rfl cfg4.N, (dat4 (asV W) c).arrAt_in 1 rfl cfg4.N, A_eq4, A_eq4]
    have hjn : iprop((((c : Thread nD τ).loc main_call0_v41) ↦{fullShare.left} asV W c main_call0_v41) ∗ (((c : Thread nD τ).loc main_call0_v41) ↦{fullShare.right} asV W c main_call0_v41))
        ⊢ ((((c : Thread nD τ).loc main_call0_v41) ↦{fullShare} asV W c main_call0_v41) : sProp 𝕄) :=
      (pointsTo_share (PosShare.mem_left_op_right fullShare)).2
    iintro ⟨Ha, Hb, H2, H3⟩
    isplitl [Ha Hb]
    · iapply hjn
      isplitl [Ha]; · iexact Ha
      iexact Hb
    isplitl [H2]; · iexact H2
    iexact H3
  · unfold Pipeline.unscopedRest
    refine bigSep_congr fun b hb => ?_
    have hn : b ∉ Finset.univ.image (Pipeline.arrRef spec4) := (Finset.mem_sdiff.mp hb).2
    have h0 : b ≠ main_call0_v42_0 := fun e => hn (Finset.mem_image.mpr ⟨2, Finset.mem_univ _, e.symm⟩)
    have h1 : b ≠ main_call0_v42_1 := fun e => hn (Finset.mem_image.mpr ⟨3, Finset.mem_univ _, e.symm⟩)
    show (((c : Thread nD τ).loc b) ↦{fullShare} asV W c b : sProp 𝕄) = (((c : Thread nD τ).loc b) ↦{fullShare} asV (exit4 W) c b)
    rw [show asV (exit4 W) c b = asV W c b from exit4_of_ne W c b h0 h1]

end Cert.Kernel.Fr

end
-- ==== Proof.KChain.lean ====
/-
  The contents of a core's buffers at each boundary of the program, from the launch to the return: the launch
  memory, then alternately the fold of a stretch of host operations and what a region leaves (its two result arrays
  at what the write-backs left, everything else untouched).
-/
import proofs.«157342_j28784870817852_2_alg».proof.Proof.KReg0
import proofs.«157342_j28784870817852_2_alg».proof.Proof.KReg1
import proofs.«157342_j28784870817852_2_alg».proof.Proof.KReg2
import proofs.«157342_j28784870817852_2_alg».proof.Proof.KReg3
import proofs.«157342_j28784870817852_2_alg».proof.Proof.KReg4

noncomputable section

namespace Cert.Kernel.Fr

open Idealize.ShloMosaic Idealize.ShloMosaic.TcCoe Idealize.SL.Sem
open Cert.Kernel Cert.Kernel.Gen

variable {F : FTy → Type} [FloatOps F]
variable (m : (ℓ : Loc nD τ sig) → Buf (Elt F) ℓ)

/-- At launch. -/
abbrev W0 : Dev nD → Valuation τ sig (Elt F) := fun c b => m (c, b)
/-- After the first host stretch: the signal flattened and cut into rows (region 0's entry). -/
abbrev W1 : Dev nD → Valuation τ sig (Elt F) := fun c => StableHlo.after hostOps0 (W0 m c)
/-- After region 0. -/
def W2 : Dev nD → Valuation τ sig (Elt F) := fun c => exit0 (W1 m) c
/-- After the host stretch that interleaves region 0's results into the signal (region 1's entry). -/
abbrev W3 : Dev nD → Valuation τ sig (Elt F) := fun c => StableHlo.after hostOps1 (W2 m c)
/-- After region 1. -/
def W4 : Dev nD → Valuation τ sig (Elt F) := fun c => exit1 (W3 m) c
abbrev W5 : Dev nD → Valuation τ sig (Elt F) := fun c => StableHlo.after hostOps2 (W4 m c)
/-- After region 2. -/
def W6 : Dev nD → Valuation τ sig (Elt F) := fun c => exit2 (W5 m) c
abbrev W7 : Dev nD → Valuation τ sig (Elt F) := fun c => StableHlo.after hostOps3 (W6 m c)
/-- After region 3. -/
def W8 : Dev nD → Valuation τ sig (Elt F) := fun c => exit3 (W7 m) c
abbrev W9 : Dev nD → Valuation τ sig (Elt F) := fun c => StableHlo.after hostOps4 (W8 m c)
/-- After region 4. -/
def W10 : Dev nD → Valuation τ sig (Elt F) := fun c => exit4 (W9 m) c
/-- At the return. -/
abbrev W11 : Dev nD → Valuation τ sig (Elt F) := fun c => StableHlo.after hostOps5 (W10 m c)

end Cert.Kernel.Fr

end
-- ==== Proof.KRun.lean ====
/-
  The whole run of the program. @main is eleven items: six stretches of host operations and, between them, the five
  launches of the butterfly kernel. Each item takes the core from "every unscoped buffer whole at the boundary's
  contents, the generator register at some state, nothing owed" to the same at the next boundary's contents; a host
  stretch by the fold of its operations, a region by the pipeline's launch rule from the body obligation, its arrays
  split off the buffers at entry and joined back at exit. Chained from the launch, every weakly fair execution
  terminates without a fault and ends with every unscoped buffer at the last boundary's contents.
-/
import proofs.«157342_j28784870817852_2_alg».proof.Proof.KChain
import proofs.«157342_j28784870817852_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pipeline has a prefetched table. -/
abbrev admF : (p : Fin 5) → (pcfgs (F := F) p).Adm := fun p => (cfgs p).toPCfg_adm
/-- Every pipeline's proof data, each at its region's entry contents. -/
def pdatsF : (p : Fin 5) → (c : Dev nD) → Dat τ (Elt F) Unit ℕ (UR sig nD τ) ℕ (Pipeline.pin (pcfgs (F := F)) admF p) c
  | ⟨0, _⟩ => fun c => dat0 (asV (W1 m)) c
  | ⟨1, _⟩ => fun c => dat1 (asV (W3 m)) c
  | ⟨2, _⟩ => fun c => dat2 (asV (W5 m)) c
  | ⟨3, _⟩ => fun c => dat3 (asV (W7 m)) c
  | ⟨4, _⟩ => fun c => dat4 (asV (W9 m)) c
abbrev 𝒱F : Variants := Variants.none
/-- No core owes another anything: no level is assigned. -/
abbrev LF : GSem nD τ sig → Finset Unit := fun _ => ∅
abbrev lvF : GSem nD τ sig → Unit → ℕ := fun _ _ => 0
/-- What rides beside the buffers through every item: the generator register at some state and nothing owed. -/
abbrev RF (c : Dev nD) : sProp 𝕄 := iprop((∃ r, prngReg c r) ∗ ∃ W, owes (c : Thread nD τ) (0 : CellTallies nD τ sig Unit) W)
/-- A host stretch as a segment, from the contents `W`. -/
abbrev hsegF (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱F LF lvF :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RF

-- the library's lemmas over a pinned configuration unify with the printed one only when unification may unfold plain
-- definitions in a metavariable's type
set_option backward.isDefEq.respectTransparency.types false in
/-- Region 0 over the thread state: entered with every unscoped buffer at the boundary's contents before it, left with
    them at the contents after it; its arrays split out at the entry and put back at the exit; the generator register
    into the body's invariant and out; nothing owed; no semaphore of the kernel's own. -/
def reg0 : Pipeline.RegionSeg (pcfgs (F := F)) admF (pdatsF m) () defs₀ 𝒱F LF lvF 0 where
  win := winFacts₀0
  block_pos := block_pos0
  stage_whole := stage_whole0
  K := PEmpty
  osem k := k.elim
  ho := Pipeline.OwnSemFacts.none _
  hbody c := (body_obligation0 (asV (W1 m)) c).loose
  hwaits := Pipeline.hwaits_of_owed_zero _ _ _ _ LF lvF 0 fun _ _ => rfl
  pre c := iprop(StableHlo.held (c : Thread nD τ) (Pipeline.ucRefs τ sig) (W1 m c) ∗ RF c)
  post c := iprop(StableHlo.held (c : Thread nD τ) (Pipeline.ucRefs τ sig) (W2 m c) ∗ RF c)
  X c := iprop(∃ r, prngReg c r)
  Y c := iprop(∃ r, prngReg c r)
  Z c := Pipeline.unscopedRest (Ix := Unit) (Name := ℕ) (U := UR sig nD τ) (Lvl := ℕ) spec0 c (asV (W1 m) c)
  hentry c := by
    rw [Pipeline.ownSems0_none]
    have hsplit := entry0 (W1 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsF m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0_held (W1 m) c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- the library's lemmas over a pinned configuration unify with the printed one only when unification may unfold plain
-- definitions in a metavariable's type
set_option backward.isDefEq.respectTransparency.types false in
/-- Region 1 over the thread state: entered with every unscoped buffer at the boundary's contents before it, left with
    them at the contents after it; its arrays split out at the entry and put back at the exit; the generator register
    into the body's invariant and out; nothing owed; no semaphore of the kernel's own. -/
def reg1 : Pipeline.RegionSeg (pcfgs (F := F)) admF (pdatsF m) () defs₀ 𝒱F LF lvF 1 where
  win := winFacts₀1
  block_pos := block_pos1
  stage_whole := stage_whole1
  K := PEmpty
  osem k := k.elim
  ho := Pipeline.OwnSemFacts.none _
  hbody c := (body_obligation1 (asV (W3 m)) c).loose
  hwaits := Pipeline.hwaits_of_owed_zero _ _ _ _ LF lvF 1 fun _ _ => rfl
  pre c := iprop(StableHlo.held (c : Thread nD τ) (Pipeline.ucRefs τ sig) (W3 m c) ∗ RF c)
  post c := iprop(StableHlo.held (c : Thread nD τ) (Pipeline.ucRefs τ sig) (W4 m c) ∗ RF c)
  X c := iprop(∃ r, prngReg c r)
  Y c := iprop(∃ r, prngReg c r)
  Z c := Pipeline.unscopedRest (Ix := Unit) (Name := ℕ) (U := UR sig nD τ) (Lvl := ℕ) spec1 c (asV (W3 m) c)
  hentry c := by
    rw [Pipeline.ownSems0_none]
    have hsplit := entry1 (W3 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsF m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1_held (W3 m) c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- the library's lemmas over a pinned configuration unify with the printed one only when unification may unfold plain
-- definitions in a metavariable's type
set_option backward.isDefEq.respectTransparency.types false in
/-- Region 2 over the thread state: entered with every unscoped buffer at the boundary's contents before it, left with
    them at the contents after it; its arrays split out at the entry and put back at the exit; the generator register
    into the body's invariant and out; nothing owed; no semaphore of the kernel's own. -/
def reg2 : Pipeline.RegionSeg (pcfgs (F := F)) admF (pdatsF m) () defs₀ 𝒱F LF lvF 2 where
  win := winFacts₀2
  block_pos := block_pos2
  stage_whole := stage_whole2
  K := PEmpty
  osem k := k.elim
  ho := Pipeline.OwnSemFacts.none _
  hbody c := (body_obligation2 (asV (W5 m)) c).loose
  hwaits := Pipeline.hwaits_of_owed_zero _ _ _ _ LF lvF 2 fun _ _ => rfl
  pre c := iprop(StableHlo.held (c : Thread nD τ) (Pipeline.ucRefs τ sig) (W5 m c) ∗ RF c)
  post c := iprop(StableHlo.held (c : Thread nD τ) (Pipeline.ucRefs τ sig) (W6 m c) ∗ RF c)
  X c := iprop(∃ r, prngReg c r)
  Y c := iprop(∃ r, prngReg c r)
  Z c := Pipeline.unscopedRest (Ix := Unit) (Name := ℕ) (U := UR sig nD τ) (Lvl := ℕ) spec2 c (asV (W5 m) c)
  hentry c := by
    rw [Pipeline.ownSems0_none]
    have hsplit := entry2 (W5 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsF m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2_held (W5 m) c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- the library's lemmas over a pinned configuration unify with the printed one only when unification may unfold plain
-- definitions in a metavariable's type
set_option backward.isDefEq.respectTransparency.types false in
/-- Region 3 over the thread state: entered with every unscoped buffer at the boundary's contents before it, left with
    them at the contents after it; its arrays split out at the entry and put back at the exit; the generator register
    into the body's invariant and out; nothing owed; no semaphore of the kernel's own. -/
def reg3 : Pipeline.RegionSeg (pcfgs (F := F)) admF (pdatsF m) () defs₀ 𝒱F LF lvF 3 where
  win := winFacts₀3
  block_pos := block_pos3
  stage_whole := stage_whole3
  K := PEmpty
  osem k := k.elim
  ho := Pipeline.OwnSemFacts.none _
  hbody c := (body_obligation3 (asV (W7 m)) c).loose
  hwaits := Pipeline.hwaits_of_owed_zero _ _ _ _ LF lvF 3 fun _ _ => rfl
  pre c := iprop(StableHlo.held (c : Thread nD τ) (Pipeline.ucRefs τ sig) (W7 m c) ∗ RF c)
  post c := iprop(StableHlo.held (c : Thread nD τ) (Pipeline.ucRefs τ sig) (W8 m c) ∗ RF c)
  X c := iprop(∃ r, prngReg c r)
  Y c := iprop(∃ r, prngReg c r)
  Z c := Pipeline.unscopedRest (Ix := Unit) (Name := ℕ) (U := UR sig nD τ) (Lvl := ℕ) spec3 c (asV (W7 m) c)
  hentry c := by
    rw [Pipeline.ownSems0_none]
    have hsplit := entry3 (W7 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsF m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := exit3_held (W7 m) c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- the library's lemmas over a pinned configuration unify with the printed one only when unification may unfold plain
-- definitions in a metavariable's type
set_option backward.isDefEq.respectTransparency.types false in
/-- Region 4 over the thread state: entered with every unscoped buffer at the boundary's contents before it, left with
    them at the contents after it; its arrays split out at the entry and put back at the exit; the generator register
    into the body's invariant and out; nothing owed; no semaphore of the kernel's own. -/
def reg4 : Pipeline.RegionSeg (pcfgs (F := F)) admF (pdatsF m) () defs₀ 𝒱F LF lvF 4 where
  win := winFacts₀4
  block_pos := block_pos4
  stage_whole := stage_whole4
  K := PEmpty
  osem k := k.elim
  ho := Pipeline.OwnSemFacts.none _
  hbody c := (body_obligation4 (asV (W9 m)) c).loose
  hwaits := Pipeline.hwaits_of_owed_zero _ _ _ _ LF lvF 4 fun _ _ => rfl
  pre c := iprop(StableHlo.held (c : Thread nD τ) (Pipeline.ucRefs τ sig) (W9 m c) ∗ RF c)
  post c := iprop(StableHlo.held (c : Thread nD τ) (Pipeline.ucRefs τ sig) (W10 m c) ∗ RF c)
  X c := iprop(∃ r, prngReg c r)
  Y c := iprop(∃ r, prngReg c r)
  Z c := Pipeline.unscopedRest (Ix := Unit) (Name := ℕ) (U := UR sig nD τ) (Lvl := ℕ) spec4 c (asV (W9 m) c)
  hentry c := by
    rw [Pipeline.ownSems0_none]
    have hsplit := entry4 (W9 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdatsF m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := exit4_held (W9 m) c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- @main's eleven segments in order. -/
abbrev segsF : List (Pipeline.Seg (pcfgs (F := F)) admF (pdatsF m) () defs₀ 𝒱F LF lvF) :=
  [ .host (hsegF hostOps0 hostOps0_sub hostOps0_fresh (W0 m)),
    .region (reg0 m),
    .host (hsegF hostOps1 hostOps1_sub hostOps1_fresh (W2 m)),
    .region (reg1 m),
    .host (hsegF hostOps2 hostOps2_sub hostOps2_fresh (W4 m)),
    .region (reg2 m),
    .host (hsegF hostOps3 hostOps3_sub hostOps3_fresh (W6 m)),
    .region (reg3 m),
    .host (hsegF hostOps4 hostOps4_sub hostOps4_fresh (W8 m)),
    .region (reg4 m),
    .host (hsegF hostOps5 hostOps5_sub hostOps5_fresh (W10 m)) ]

/-- @main is the run of the segments. -/
theorem main_runF (c : Dev nD) : main (F := F) c = Pipeline.Seg.run (segsF m) := (main_chain c).trans (by chain_rfl)

set_option backward.isDefEq.respectTransparency.types false in
/-- THE RUN: from any memory with zero counters, every weakly fair execution of @main on the TensorCores terminates,
    nothing faulting, and every final state has each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit (pcfgs (F := F)) admF (pdatsF m) () cellOf_inj emb₁ defs₀ 𝒱F LF lvF m ρ main (segsF m)
    (fun c Q => by rw [main_runF m c])
    (by simp only [segsF, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RF c))
    (Tₙ := fun c => iprop(StableHlo.held (c : Thread nD τ) (Pipeline.ucRefs τ sig) (W11 m c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W11 m c) ∗ (∃ r, prngReg c r) ∗ ∃ W, owes (c : Thread nD τ) (0 : CellTallies nD τ sig Unit) W)
          ⊢ iprop((StableHlo.held (c : Thread nD τ) (Pipeline.ucRefs τ sig) (W11 m c) ∗ ∃ r, prngReg c r) ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach LF lvF fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h => h)

end Cert.Kernel.Fr

end
-- ==== Proof.KArg.lean ====
/-
  The argument array at the return: no stretch of host operations writes it and no region changes it, so from the
  launch to the return each boundary's contents of it are the one before's.
-/
import proofs.«157342_j28784870817852_2_alg».proof.Proof.KChain
import proofs.«157342_j28784870817852_2_alg».proof.Proof.Gen.Kernel.Regions

noncomputable section

namespace Cert.Kernel.Fr

open Idealize.ShloMosaic Idealize.ShloMosaic.TcCoe Idealize.SL.Sem
open Cert.Kernel Cert.Kernel.Gen

variable {F : FTy → Type} [FloatOps F]
variable (m : (ℓ : Loc nD τ sig) → Buf (Elt F) ℓ)

/-- The argument array holds its launch contents at the return. -/
theorem W11_arg (c : Dev nD) : W11 m c (Proc.devRef .tc main_arg0) = m ((c : Thread nD τ).loc main_arg0) := by
  have h11 : W11 m c (Proc.devRef .tc main_arg0) = W10 m c (Proc.devRef .tc main_arg0) :=
    StableHlo.after_of_writes_sub hostOps5 _ hostOps5_writes (by decide)
  have h10 : W10 m c (Proc.devRef .tc main_arg0) = W9 m c (Proc.devRef .tc main_arg0) := by
    unfold W10; exact exit4_of_ne (W9 m) c main_arg0 (by decide) (by decide)
  have h9 : W9 m c (Proc.devRef .tc main_arg0) = W8 m c (Proc.devRef .tc main_arg0) :=
    StableHlo.after_of_writes_sub hostOps4 _ hostOps4_writes (by decide)
  have h8 : W8 m c (Proc.devRef .tc main_arg0) = W7 m c (Proc.devRef .tc main_arg0) := by
    unfold W8; exact exit3_of_ne (W7 m) c main_arg0 (by decide) (by decide)
  have h7 : W7 m c (Proc.devRef .tc main_arg0) = W6 m c (Proc.devRef .tc main_arg0) :=
    StableHlo.after_of_writes_sub hostOps3 _ hostOps3_writes (by decide)
  have h6 : W6 m c (Proc.devRef .tc main_arg0) = W5 m c (Proc.devRef .tc main_arg0) := by
    unfold W6; exact exit2_of_ne (W5 m) c main_arg0 (by decide) (by decide)
  have h5 : W5 m c (Proc.devRef .tc main_arg0) = W4 m c (Proc.devRef .tc main_arg0) :=
    StableHlo.after_of_writes_sub hostOps2 _ hostOps2_writes (by decide)
  have h4 : W4 m c (Proc.devRef .tc main_arg0) = W3 m c (Proc.devRef .tc main_arg0) := by
    unfold W4; exact exit1_of_ne (W3 m) c main_arg0 (by decide) (by decide)
  have h3 : W3 m c (Proc.devRef .tc main_arg0) = W2 m c (Proc.devRef .tc main_arg0) :=
    StableHlo.after_of_writes_sub hostOps1 _ hostOps1_writes (by decide)
  have h2 : W2 m c (Proc.devRef .tc main_arg0) = W1 m c (Proc.devRef .tc main_arg0) := by
    unfold W2; exact exit0_of_ne (W1 m) c main_arg0 (by decide) (by decide)
  have h1 : W1 m c (Proc.devRef .tc main_arg0) = W0 m c (Proc.devRef .tc main_arg0) :=
    StableHlo.after_of_writes_sub hostOps0 _ hostOps0_writes (by decide)
  exact h11.trans (h10.trans (h9.trans (h8.trans (h7.trans (h6.trans (h5.trans (h4.trans (h3.trans (h2.trans h1)))))))))

end Cert.Kernel.Fr

end
-- ==== Proof.KIBody0.lean ====
/-
  Region 0 of the program (the butterfly kernel's first launch), at any float instance and for any
  contents `V` of the core's buffers when the region is entered.

  The kernel's grid point `t` reads two blocks of 4096 rows of 128 out of ONE array (the signal as rows): the block
  `t` of its first half and the block `t` of its second half, and writes block `t` of two result arrays: the scaled
  sum and the scaled difference of the two blocks. Here: each window's block at a point, the body run on staging
  buffers holding the two input blocks (it leaves the inputs in place and the two outputs at the payloads of the
  two loaded blocks), and the proof data of the pipeline. Both input windows read the same array, so the pipeline
  holds that array twice, at the two halves of the full share; the result arrays are held whole.
-/
import proofs.«157342_j28784870817852_2_alg».proof.Proof.Gen.KernelIdeal.Launch
import proofs.«157342_j28784870817852_2_alg».proof.Proof.Gen.KernelIdeal.Skeleton
import proofs.«157342_j28784870817852_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point: it is fetched at every point, and the
    body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole staging buffer as a rectangle: every load and store of the body is through it. -/
abbrev r0 : Rect S4096x128 := Rect.unit (s := S4096x128) ![0, 0] S4096x128.size inb_S4096x128_S4096x128_0_0

/-- What the body leaves in the two output buffers, from the two input blocks: the scaled sum and the scaled difference. -/
def out0_2 (x0 : Vec F S4096x128 .f32) (x1 : Vec F S4096x128 .f32) : Vec F S4096x128 .f32 :=
  View.canon [⟨r0, k0_pay3 (View.ld x0 r0) (View.ld x1 r0)⟩]
def out0_3 (x0 : Vec F S4096x128 .f32) (x1 : Vec F S4096x128 .f32) : Vec F S4096x128 .f32 :=
  View.canon [⟨r0, k0_pay4 (View.ld x0 r0) (View.ld x1 r0)⟩]

/-- One store through the whole rectangle covers the buffer. -/
theorem cover0 (p0 : Vec F S4096x128 .f32) (y : S4096x128.Idx) :
    ∃ pc ∈ ([⟨r0, p0⟩] : List (View.Piece (Elt F) S4096x128 .f32)), y ∈ pc.1.set :=
  View.cover_of_tiled [⟨r0, p0⟩] S4096x128.size (by rfl) y

set_option maxHeartbeats 1000000 in
/-- The body on whole staging buffers: the inputs at `x0`, `x1` and the outputs at anything; it ends with the inputs
    as they were and the outputs at the scaled sum and difference of the inputs. -/
theorem sound_kernel0 (c : Dev nD) (E : Set ℕ) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole)
    (x0 : Vec F S4096x128 .f32) (x1 : Vec F S4096x128 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__butterfly_kernel i arg1 harg1 arg2 harg2 arg3 harg3 arg4 harg4) K := by
  simp only [cc0__butterfly_kernel_eq_skeleton]; unfold cc0__butterfly_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  iexists _; isplitr
  swap; · iexact H3
  ipureintro
  exact View.read_writes_eq_canon _ _ _ (cover0 _)

/-- The pipeline's proof data on core `c`: the arrays as the region finds them; after the body at point `t` each input
    buffer at its block and each output buffer at the body's result on the two input blocks; the untouched scoped
    rest and generator register as invariant; nothing owed; the shared input array at the two halves of the full
    share, one per window. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q w := match w with
    | ⟨0, _⟩ => fullShare.left
    | ⟨1, _⟩ => fullShare.right
    | _ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KIBase.lean ====
/-
  A valuation of a core's buffers read at the TensorCore's references: the form in which a region's proof data takes
  the contents it is entered with.
-/
import proofs.«157342_j28784870817852_2_alg».proof.Proof.Gen.KernelIdeal.Launch

noncomputable section

namespace Cert.KernelIdeal.Fr

open Idealize.ShloMosaic Idealize.ShloMosaic.TcCoe Idealize.SL.Sem
open Cert.KernelIdeal Cert.KernelIdeal.Gen

variable {F : FTy → Type} [FloatOps F]

/-- A valuation read at the TensorCore's references. -/
abbrev asV (W : Dev nD → Valuation τ sig (Elt F)) : (c : Dev nD) → (b : Ref sig .tc) → Buf (Elt F) ((c : Thread nD τ).loc b) := fun c b => W c b

end Cert.KernelIdeal.Fr

end
-- ==== Proof.KIReg0.lean ====
/-
  Region 0 between the thread states before and after it. A core holds every unscoped buffer whole at a valuation
  `W`. At the region's entry the three buffers behind its four windows are split off: the signal's rows, which both
  input windows read, is cut into the two halves of the full share, one per window; the two result arrays go whole.
  At its exit the halves are joined again (an input array is never written, so both still hold the entry contents)
  and the result arrays are put back at what the write-backs left: the valuation `exit0 W`, which differs from `W`
  at the two result arrays only.
-/
import proofs.«157342_j28784870817852_2_alg».proof.Proof.KIBody0
import proofs.«157342_j28784870817852_2_alg».proof.Proof.KIBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- ENTRY: the unscoped buffers at `W` are the pipeline's arrays at their entry contents, each at its share, and the
    unscoped rest. -/
theorem entry0 (W : Dev nD → Valuation τ sig (Elt F)) (c : Dev nD) :
    (StableHlo.held (c : Thread nD τ) (Pipeline.ucRefs τ sig) (W c) : sProp 𝕄)
      ⊢ iprop((dat0 (asV W) c).arrays (dat0 (asV W) c).A ∗ Pipeline.unscopedRest (Ix := Unit) (Name := ℕ) (U := UR sig nD τ) (Lvl := ℕ) spec0 c (asV W c)) := by
  rw [← Pipeline.unscopedBufs_held, Pipeline.unscopedBufs_split₀ cfgs 0 winFacts₀0.arr_unscoped c]
  refine sep_mono ?_ .rfl
  unfold Pipeline.arrBufs Dat.arrays
  rw [show Finset.univ.image (Pipeline.arrRef (cfgs 0).spec) = {main_call0_v1, main_call0_v2_0, main_call0_v2_1} from by decide]
  rw [bigSep_insert (by decide), bigSep_insert (by decide), bigSep_singleton, bigSep_W0]
  have hs0 : (dat0 (asV W) c).share 0 = fullShare.left := rfl
  have hs1 : (dat0 (asV W) c).share 1 = fullShare.right := rfl
  have hs2 : (dat0 (asV W) c).share 2 = fullShare := rfl
  have hs3 : (dat0 (asV W) c).share 3 = fullShare := rfl
  rw [hs0, hs1, hs2, hs3, A_eq0, A_eq0, A_eq0, A_eq0]
  rw [show (cfg0.win 0).arr.view.set = Finset.univ from (arr_whole0 0).set_eq_univ]
  try rw [show (cfg0.win 1).arr.view.set = Finset.univ from (arr_whole0 1).set_eq_univ]
  rw [show (cfg0.win 2).arr.view.set = Finset.univ from (arr_whole0 2).set_eq_univ, show (cfg0.win 3).arr.view.set = Finset.univ from (arr_whole0 3).set_eq_univ]
  show iprop((((c : Thread nD τ).loc main_call0_v1) ↦{fullShare} asV W c main_call0_v1) ∗ (((c : Thread nD τ).loc main_call0_v2_0) ↦{fullShare} asV W c main_call0_v2_0) ∗ (((c : Thread nD τ).loc main_call0_v2_1) ↦{fullShare} asV W c main_call0_v2_1))
    ⊢ iprop((((c : Thread nD τ).loc main_call0_v1) ↦{fullShare.left} asV W c main_call0_v1) ∗ (((c : Thread nD τ).loc main_call0_v1) ↦{fullShare.right} asV W c main_call0_v1) ∗ (((c : Thread nD τ).loc main_call0_v2_0) ↦{fullShare} asV W c main_call0_v2_0) ∗ (((c : Thread nD τ).loc main_call0_v2_1) ↦{fullShare} asV W c main_call0_v2_1))
  have hsp : ((((c : Thread nD τ).loc main_call0_v1) ↦{fullShare} asV W c main_call0_v1) : sProp 𝕄)
      ⊢ iprop((((c : Thread nD τ).loc main_call0_v1) ↦{fullShare.left} asV W c main_call0_v1) ∗ (((c : Thread nD τ).loc main_call0_v1) ↦{fullShare.right} asV W c main_call0_v1)) :=
    (pointsTo_share (PosShare.mem_left_op_right fullShare)).1
  iintro ⟨H1, H2, H3⟩
  ihave H1' := hsp $$ H1
  icases H1' with ⟨Ha, Hb⟩
  isplitl [Ha]; · iexact Ha
  isplitl [Hb]; · iexact Hb
  isplitl [H2]; · iexact H2
  iexact H3

/-- The core's buffers when the region is left: the two result arrays at what the write-backs leave, every other
    buffer as the region found it. -/
def exit0 (W : Dev nD → Valuation τ sig (Elt F)) (c : Dev nD) : Valuation τ sig (Elt F) :=
  Function.update (Function.update (W c) main_call0_v2_0 ((dat0 (asV W) c).arrAt 2 cfg0.N)) main_call0_v2_1 ((dat0 (asV W) c).arrAt 3 cfg0.N)

theorem exit0_in (W : Dev nD → Valuation τ sig (Elt F)) (c : Dev nD) : exit0 W c (Proc.devRef .tc main_call0_v1) = W c (Proc.devRef .tc main_call0_v1) := by
  unfold exit0
  rw [Function.update_of_ne (StableHlo.devRef_ne_of_ne (by decide)), Function.update_of_ne (StableHlo.devRef_ne_of_ne (by decide))]
theorem exit0_out0 (W : Dev nD → Valuation τ sig (Elt F)) (c : Dev nD) : exit0 W c (Proc.devRef .tc main_call0_v2_0) = (dat0 (asV W) c).arrAt 2 cfg0.N := by
  unfold exit0
  rw [Function.update_of_ne (StableHlo.devRef_ne_of_ne (by decide)), Function.update_self]
theorem exit0_out1 (W : Dev nD → Valuation τ sig (Elt F)) (c : Dev nD) : exit0 W c (Proc.devRef .tc main_call0_v2_1) = (dat0 (asV W) c).arrAt 3 cfg0.N := by
  unfold exit0
  rw [Function.update_self]
theorem exit0_of_ne (W : Dev nD → Valuation τ sig (Elt F)) (c : Dev nD) (b : Ref sig .tc) (h0 : b ≠ main_call0_v2_0) (h1 : b ≠ main_call0_v2_1) :
    exit0 W c (Proc.devRef .tc b) = W c (Proc.devRef .tc b) := by
  unfold exit0
  rw [Function.update_of_ne (StableHlo.devRef_ne_of_ne h1), Function.update_of_ne (StableHlo.devRef_ne_of_ne h0)]

set_option maxHeartbeats 8000000 in
/-- EXIT: the arrays at what the write-backs left and the unscoped rest are the unscoped buffers at `exit0 W`. -/
theorem exit0_held (W : Dev nD → Valuation τ sig (Elt F)) (c : Dev nD) :
    iprop((dat0 (asV W) c).arrays ((dat0 (asV W) c).arrAt · cfg0.N) ∗ Pipeline.unscopedRest (Ix := Unit) (Name := ℕ) (U := UR sig nD τ) (Lvl := ℕ) spec0 c (asV W c))
      ⊢ (StableHlo.held (c : Thread nD τ) (Pipeline.ucRefs τ sig) (exit0 W c) : sProp 𝕄) := by
  rw [← Pipeline.unscopedBufs_held, Pipeline.unscopedBufs_split₀ cfgs 0 winFacts₀0.arr_unscoped c]
  refine sep_mono ?_ (Entails.of_eq ?_)
  · unfold Pipeline.arrBufs Dat.arrays
    rw [show Finset.univ.image (Pipeline.arrRef (cfgs 0).spec) = {main_call0_v1, main_call0_v2_0, main_call0_v2_1} from by decide]
    rw [bigSep_insert (by decide), bigSep_insert (by decide), bigSep_singleton, bigSep_W0]
    have hs0 : (dat0 (asV W) c).share 0 = fullShare.left := rfl
    have hs1 : (dat0 (asV W) c).share 1 = fullShare.right := rfl
    have hs2 : (dat0 (asV W) c).share 2 = fullShare := rfl
    have hs3 : (dat0 (asV W) c).share 3 = fullShare := rfl
    rw [hs0, hs1, hs2, hs3]
    rw [show (cfg0.win 0).arr.view.set = Finset.univ from (arr_whole0 0).set_eq_univ]
    try rw [show (cfg0.win 1).arr.view.set = Finset.univ from (arr_whole0 1).set_eq_univ]
    rw [show (cfg0.win 2).arr.view.set = Finset.univ from (arr_whole0 2).set_eq_univ, show (cfg0.win 3).arr.view.set = Finset.univ from (arr_whole0 3).set_eq_univ]
    show iprop((((c : Thread nD τ).loc main_call0_v1) ↦{fullShare.left} (dat0 (asV W) c).arrAt 0 cfg0.N) ∗ (((c : Thread nD τ).loc main_call0_v1) ↦{fullShare.right} (dat0 (asV W) c).arrAt 1 cfg0.N) ∗ (((c : Thread nD τ).loc main_call0_v2_0) ↦{fullShare} (dat0 (asV W) c).arrAt 2 cfg0.N) ∗ (((c : Thread nD τ).loc main_call0_v2_1) ↦{fullShare} (dat0 (asV W) c).arrAt 3 cfg0.N))
      ⊢ iprop((((c : Thread nD τ).loc main_call0_v1) ↦{fullShare} asV (exit0 W) c main_call0_v1) ∗ (((c : Thread nD τ).loc main_call0_v2_0) ↦{fullShare} asV (exit0 W) c main_call0_v2_0) ∗ (((c : Thread nD τ).loc main_call0_v2_1) ↦{fullShare} asV (exit0 W) c main_call0_v2_1))
    rw [show asV (exit0 W) c main_call0_v1 = asV W c main_call0_v1 from exit0_in W c, show asV (exit0 W) c main_call0_v2_0 = (dat0 (asV W) c).arrAt 2 cfg0.N from exit0_out0 W c,
      show asV (exit0 W) c main_call0_v2_1 = (dat0 (asV W) c).arrAt 3 cfg0.N from exit0_out1 W c,
      (dat0 (asV W) c).arrAt_in 0 rfl cfg0.N, (dat0 (asV W) c).arrAt_in 1 rfl cfg0.N, A_eq0, A_eq0]
    have hjn : iprop((((c : Thread nD τ).loc main_call0_v1) ↦{fullShare.left} asV W c main_call0_v1) ∗ (((c : Thread nD τ).loc main_call0_v1) ↦{fullShare.right} asV W c main_call0_v1))
        ⊢ ((((c : Thread nD τ).loc main_call0_v1) ↦{fullShare} asV W c main_call0_v1) : sProp 𝕄) :=
      (pointsTo_share (PosShare.mem_left_op_right fullShare)).2
    iintro ⟨Ha, Hb, H2, H3⟩
    isplitl [Ha Hb]
    · iapply hjn
      isplitl [Ha]; · iexact Ha
      iexact Hb
    isplitl [H2]; · iexact H2
    iexact H3
  · unfold Pipeline.unscopedRest
    refine bigSep_congr fun b hb => ?_
    have hn : b ∉ Finset.univ.image (Pipeline.arrRef spec0) := (Finset.mem_sdiff.mp hb).2
    have h0 : b ≠ main_call0_v2_0 := fun e => hn (Finset.mem_image.mpr ⟨2, Finset.mem_univ _, e.symm⟩)
    have h1 : b ≠ main_call0_v2_1 := fun e => hn (Finset.mem_image.mpr ⟨3, Finset.mem_univ _, e.symm⟩)
    show (((c : Thread nD τ).loc b) ↦{fullShare} asV W c b : sProp 𝕄) = (((c : Thread nD τ).loc b) ↦{fullShare} asV (exit0 W) c b)
    rw [show asV (exit0 W) c b = asV W c b from exit0_of_ne W c b h0 h1]

end Cert.KernelIdeal.Fr

end
-- ==== Proof.KIBody1.lean ====
/-
  Region 1 of the program (the butterfly kernel's next launch), at any float instance and for any
  contents `V` of the core's buffers when the region is entered.

  The kernel's grid point `t` reads two blocks of 4096 rows of 128 out of ONE array (the signal as rows): the block
  `t` of its first half and the block `t` of its second half, and writes block `t` of two result arrays: the scaled
  sum and the scaled difference of the two blocks. Here: each window's block at a point, the body run on staging
  buffers holding the two input blocks (it leaves the inputs in place and the two outputs at the payloads of the
  two loaded blocks), and the proof data of the pipeline. Both input windows read the same array, so the pipeline
  holds that array twice, at the two halves of the full share; the result arrays are held whole.
-/
import proofs.«157342_j28784870817852_2_alg».proof.Proof.Gen.KernelIdeal.Launch
import proofs.«157342_j28784870817852_2_alg».proof.Proof.Gen.KernelIdeal.Skeleton
import proofs.«157342_j28784870817852_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point: it is fetched at every point, and the
    body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole staging buffer as a rectangle: every load and store of the body is through it. -/
abbrev r1 : Rect S4096x128 := Rect.unit (s := S4096x128) ![0, 0] S4096x128.size inb_S4096x128_S4096x128_0_0

/-- What the body leaves in the two output buffers, from the two input blocks: the scaled sum and the scaled difference. -/
def out1_2 (x0 : Vec F S4096x128 .f32) (x1 : Vec F S4096x128 .f32) : Vec F S4096x128 .f32 :=
  View.canon [⟨r1, k1_pay3 (View.ld x0 r1) (View.ld x1 r1)⟩]
def out1_3 (x0 : Vec F S4096x128 .f32) (x1 : Vec F S4096x128 .f32) : Vec F S4096x128 .f32 :=
  View.canon [⟨r1, k1_pay4 (View.ld x0 r1) (View.ld x1 r1)⟩]

/-- One store through the whole rectangle covers the buffer. -/
theorem cover1 (p0 : Vec F S4096x128 .f32) (y : S4096x128.Idx) :
    ∃ pc ∈ ([⟨r1, p0⟩] : List (View.Piece (Elt F) S4096x128 .f32)), y ∈ pc.1.set :=
  View.cover_of_tiled [⟨r1, p0⟩] S4096x128.size (by rfl) y

set_option maxHeartbeats 1000000 in
/-- The body on whole staging buffers: the inputs at `x0`, `x1` and the outputs at anything; it ends with the inputs
    as they were and the outputs at the scaled sum and difference of the inputs. -/
theorem sound_kernel1 (c : Dev nD) (E : Set ℕ) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole)
    (x0 : Vec F S4096x128 .f32) (x1 : Vec F S4096x128 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out1_2 x0 x1) ∗ owns (c : Thread nD τ) arg4 fullShare (out1_3 x0 x1)) -∗ K ⟨⟩))
      ⊢ wp frame (wpE (defs₀ (F := F)) Variants.none c none) E (cc1__butterfly_kernel i arg1 harg1 arg2 harg2 arg3 harg3 arg4 harg4) K := by
  simp only [cc1__butterfly_kernel_eq_skeleton]; unfold cc1__butterfly_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1 _)
  iexists _; isplitr
  swap; · iexact H3
  ipureintro
  exact View.read_writes_eq_canon _ _ _ (cover1 _)

/-- The pipeline's proof data on core `c`: the arrays as the region finds them; after the body at point `t` each input
    buffer at its block and each output buffer at the body's result on the two input blocks; the untouched scoped
    rest and generator register as invariant; nothing owed; the shared input array at the two halves of the full
    share, one per window. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KIReg1.lean ====
/-
  Region 1 between the thread states before and after it. A core holds every unscoped buffer whole at a valuation
  `W`. At the region's entry the three buffers behind its four windows are split off: the signal's rows, which both
  input windows read, is cut into the two halves of the full share, one per window; the two result arrays go whole.
  At its exit the halves are joined again (an input array is never written, so both still hold the entry contents)
  and the result arrays are put back at what the write-backs left: the valuation `exit1 W`, which differs from `W`
  at the two result arrays only.
-/
import proofs.«157342_j28784870817852_2_alg».proof.Proof.KIBody1
import proofs.«157342_j28784870817852_2_alg».proof.Proof.KIBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- ENTRY: the unscoped buffers at `W` are the pipeline's arrays at their entry contents, each at its share, and the
    unscoped rest. -/
theorem entry1 (W : Dev nD → Valuation τ sig (Elt F)) (c : Dev nD) :
    (StableHlo.held (c : Thread nD τ) (Pipeline.ucRefs τ sig) (W c) : sProp 𝕄)
      ⊢ iprop((dat1 (asV W) c).arrays (dat1 (asV W) c).A ∗ Pipeline.unscopedRest (Ix := Unit) (Name := ℕ) (U := UR sig nD τ) (Lvl := ℕ) spec1 c (asV W c)) := by
  rw [← Pipeline.unscopedBufs_held, Pipeline.unscopedBufs_split₀ cfgs 1 winFacts₀1.arr_unscoped c]
  refine sep_mono ?_ .rfl
  unfold Pipeline.arrBufs Dat.arrays
  rw [show Finset.univ.image (Pipeline.arrRef (cfgs 1).spec) = {main_call0_v11, main_call0_v12_0, main_call0_v12_1} from by decide]
  rw [bigSep_insert (by decide), bigSep_insert (by decide), bigSep_singleton, bigSep_W1]
  have hs0 : (dat1 (asV W) c).share 0 = fullShare.left := rfl
  have hs1 : (dat1 (asV W) c).share 1 = fullShare.right := rfl
  have hs2 : (dat1 (asV W) c).share 2 = fullShare := rfl
  have hs3 : (dat1 (asV W) c).share 3 = fullShare := rfl
  rw [hs0, hs1, hs2, hs3, A_eq1, A_eq1, A_eq1, A_eq1]
  rw [show (cfg1.win 0).arr.view.set = Finset.univ from (arr_whole1 0).set_eq_univ]
  try rw [show (cfg1.win 1).arr.view.set = Finset.univ from (arr_whole1 1).set_eq_univ]
  rw [show (cfg1.win 2).arr.view.set = Finset.univ from (arr_whole1 2).set_eq_univ, show (cfg1.win 3).arr.view.set = Finset.univ from (arr_whole1 3).set_eq_univ]
  show iprop((((c : Thread nD τ).loc main_call0_v11) ↦{fullShare} asV W c main_call0_v11) ∗ (((c : Thread nD τ).loc main_call0_v12_0) ↦{fullShare} asV W c main_call0_v12_0) ∗ (((c : Thread nD τ).loc main_call0_v12_1) ↦{fullShare} asV W c main_call0_v12_1))
    ⊢ iprop((((c : Thread nD τ).loc main_call0_v11) ↦{fullShare.left} asV W c main_call0_v11) ∗ (((c : Thread nD τ).loc main_call0_v11) ↦{fullShare.right} asV W c main_call0_v11) ∗ (((c : Thread nD τ).loc main_call0_v12_0) ↦{fullShare} asV W c main_call0_v12_0) ∗ (((c : Thread nD τ).loc main_call0_v12_1) ↦{fullShare} asV W c main_call0_v12_1))
  have hsp : ((((c : Thread nD τ).loc main_call0_v11) ↦{fullShare} asV W c main_call0_v11) : sProp 𝕄)
      ⊢ iprop((((c : Thread nD τ).loc main_call0_v11) ↦{fullShare.left} asV W c main_call0_v11) ∗ (((c : Thread nD τ).loc main_call0_v11) ↦{fullShare.right} asV W c main_call0_v11)) :=
    (pointsTo_share (PosShare.mem_left_op_right fullShare)).1
  iintro ⟨H1, H2, H3⟩
  ihave H1' := hsp $$ H1
  icases H1' with ⟨Ha, Hb⟩
  isplitl [Ha]; · iexact Ha
  isplitl [Hb]; · iexact Hb
  isplitl [H2]; · iexact H2
  iexact H3

/-- The core's buffers when the region is left: the two result arrays at what the write-backs leave, every other
    buffer as the region found it. -/
def exit1 (W : Dev nD → Valuation τ sig (Elt F)) (c : Dev nD) : Valuation τ sig (Elt F) :=
  Function.update (Function.update (W c) main_call0_v12_0 ((dat1 (asV W) c).arrAt 2 cfg1.N)) main_call0_v12_1 ((dat1 (asV W) c).arrAt 3 cfg1.N)

theorem exit1_in (W : Dev nD → Valuation τ sig (Elt F)) (c : Dev nD) : exit1 W c (Proc.devRef .tc main_call0_v11) = W c (Proc.devRef .tc main_call0_v11) := by
  unfold exit1
  rw [Function.update_of_ne (StableHlo.devRef_ne_of_ne (by decide)), Function.update_of_ne (StableHlo.devRef_ne_of_ne (by decide))]
theorem exit1_out0 (W : Dev nD → Valuation τ sig (Elt F)) (c : Dev nD) : exit1 W c (Proc.devRef .tc main_call0_v12_0) = (dat1 (asV W) c).arrAt 2 cfg1.N := by
  unfold exit1
  rw [Function.update_of_ne (StableHlo.devRef_ne_of_ne (by decide)), Function.update_self]
theorem exit1_out1 (W : Dev nD → Valuation τ sig (Elt F)) (c : Dev nD) : exit1 W c (Proc.devRef .tc main_call0_v12_1) = (dat1 (asV W) c).arrAt 3 cfg1.N := by
  unfold exit1
  rw [Function.update_self]
theorem exit1_of_ne (W : Dev nD → Valuation τ sig (Elt F)) (c : Dev nD) (b : Ref sig .tc) (h0 : b ≠ main_call0_v12_0) (h1 : b ≠ main_call0_v12_1) :
    exit1 W c (Proc.devRef .tc b) = W c (Proc.devRef .tc b) := by
  unfold exit1
  rw [Function.update_of_ne (StableHlo.devRef_ne_of_ne h1), Function.update_of_ne (StableHlo.devRef_ne_of_ne h0)]

set_option maxHeartbeats 8000000 in
/-- EXIT: the arrays at what the write-backs left and the unscoped rest are the unscoped buffers at `exit1 W`. -/
theorem exit1_held (W : Dev nD → Valuation τ sig (Elt F)) (c : Dev nD) :
    iprop((dat1 (asV W) c).arrays ((dat1 (asV W) c).arrAt · cfg1.N) ∗ Pipeline.unscopedRest (Ix := Unit) (Name := ℕ) (U := UR sig nD τ) (Lvl := ℕ) spec1 c (asV W c))
      ⊢ (StableHlo.held (c : Thread nD τ) (Pipeline.ucRefs τ sig) (exit1 W c) : sProp 𝕄) := by
  rw [← Pipeline.unscopedBufs_held, Pipeline.unscopedBufs_split₀ cfgs 1 winFacts₀1.arr_unscoped c]
  refine sep_mono ?_ (Entails.of_eq ?_)
  · unfold Pipeline.arrBufs Dat.arrays
    rw [show Finset.univ.image (Pipeline.arrRef (cfgs 1).spec) = {main_call0_v11, main_call0_v12_0, main_call0_v12_1} from by decide]
    rw [bigSep_insert (by decide), bigSep_insert (by decide), bigSep_singleton, bigSep_W1]
    have hs0 : (dat1 (asV W) c).share 0 = fullShare.left := rfl
    have hs1 : (dat1 (asV W) c).share 1 = fullShare.right := rfl
    have hs2 : (dat1 (asV W) c).share 2 = fullShare := rfl
    have hs3 : (dat1 (asV W) c).share 3 = fullShare := rfl
    rw [hs0, hs1, hs2, hs3]
    rw [show (cfg1.win 0).arr.view.set = Finset.univ from (arr_whole1 0).set_eq_univ]
    try rw [show (cfg1.win 1).arr.view.set = Finset.univ from (arr_whole1 1).set_eq_univ]
    rw [show (cfg1.win 2).arr.view.set = Finset.univ from (arr_whole1 2).set_eq_univ, show (cfg1.win 3).arr.view.set = Finset.univ from (arr_whole1 3).set_eq_univ]
    show iprop((((c : Thread nD τ).loc main_call0_v11) ↦{fullShare.left} (dat1 (asV W) c).arrAt 0 cfg1.N) ∗ (((c : Thread nD τ).loc main_call0_v11) ↦{fullShare.right} (dat1 (asV W) c).arrAt 1 cfg1.N) ∗ (((c : Thread nD τ).loc main_call0_v12_0) ↦{fullShare} (dat1 (asV W) c).arrAt 2 cfg1.N) ∗ (((c : Thread nD τ).loc main_call0_v12_1) ↦{fullShare} (dat1 (asV W) c).arrAt 3 cfg1.N))
      ⊢ iprop((((c : Thread nD τ).loc main_call0_v11) ↦{fullShare} asV (exit1 W) c main_call0_v11) ∗ (((c : Thread nD τ).loc main_call0_v12_0) ↦{fullShare} asV (exit1 W) c main_call0_v12_0) ∗ (((c : Thread nD τ).loc main_call0_v12_1) ↦{fullShare} asV (exit1 W) c main_call0_v12_1))
    rw [show asV (exit1 W) c main_call0_v11 = asV W c main_call0_v11 from exit1_in W c, show asV (exit1 W) c main_call0_v12_0 = (dat1 (asV W) c).arrAt 2 cfg1.N from exit1_out0 W c,
      show asV (exit1 W) c main_call0_v12_1 = (dat1 (asV W) c).arrAt 3 cfg1.N from exit1_out1 W c,
      (dat1 (asV W) c).arrAt_in 0 rfl cfg1.N, (dat1 (asV W) c).arrAt_in 1 rfl cfg1.N, A_eq1, A_eq1]
    have hjn : iprop((((c : Thread nD τ).loc main_call0_v11) ↦{fullShare.left} asV W c main_call0_v11) ∗ (((c : Thread nD τ).loc main_call0_v11) ↦{fullShare.right} asV W c main_call0_v11))
        ⊢ ((((c : Thread nD τ).loc main_call0_v11) ↦{fullShare} asV W c main_call0_v11) : sProp 𝕄) :=
      (pointsTo_share (PosShare.mem_left_op_right fullShare)).2
    iintro ⟨Ha, Hb, H2, H3⟩
    isplitl [Ha Hb]
    · iapply hjn
      isplitl [Ha]; · iexact Ha
      iexact Hb
    isplitl [H2]; · iexact H2
    iexact H3
  · unfold Pipeline.unscopedRest
    refine bigSep_congr fun b hb => ?_
    have hn : b ∉ Finset.univ.image (Pipeline.arrRef spec1) := (Finset.mem_sdiff.mp hb).2
    have h0 : b ≠ main_call0_v12_0 := fun e => hn (Finset.mem_image.mpr ⟨2, Finset.mem_univ _, e.symm⟩)
    have h1 : b ≠ main_call0_v12_1 := fun e => hn (Finset.mem_image.mpr ⟨3, Finset.mem_univ _, e.symm⟩)
    show (((c : Thread nD τ).loc b) ↦{fullShare} asV W c b : sProp 𝕄) = (((c : Thread nD τ).loc b) ↦{fullShare} asV (exit1 W) c b)
    rw [show asV (exit1 W) c b = asV W c b from exit1_of_ne W c b h0 h1]

end Cert.KernelIdeal.Fr

end
-- ==== Proof.KIBody2.lean ====
/-
  Region 2 of the program (the butterfly kernel's next launch), at any float instance and for any
  contents `V` of the core's buffers when the region is entered.

  The kernel's grid point `t` reads two blocks of 4096 rows of 128 out of ONE array (the signal as rows): the block
  `t` of its first half and the block `t` of its second half, and writes block `t` of two result arrays: the scaled
  sum and the scaled difference of the two blocks. Here: each window's block at a point, the body run on staging
  buffers holding the two input blocks (it leaves the inputs in place and the two outputs at the payloads of the
  two loaded blocks), and the proof data of the pipeline. Both input windows read the same array, so the pipeline
  holds that array twice, at the two halves of the full share; the result arrays are held whole.
-/
import proofs.«157342_j28784870817852_2_alg».proof.Proof.Gen.KernelIdeal.Launch
import proofs.«157342_j28784870817852_2_alg».proof.Proof.Gen.KernelIdeal.Skeleton
import proofs.«157342_j28784870817852_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point: it is fetched at every point, and the
    body leaves it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole staging buffer as a rectangle: every load and store of the body is through it. -/
abbrev r2 : Rect S4096x128 := Rect.unit (s := S4096x128) ![0, 0] S4096x128.size inb_S4096x128_S4096x128_0_0

/-- What the body leaves in the two output buffers, from the two input blocks: the scaled sum and the scaled difference. -/
def out2_2 (x0 : Vec F S4096x128 .f32) (x1 : Vec F S4096x128 .f32) : Vec F S4096x128 .f32 :=
  View.canon [⟨r2, k2_pay3 (View.ld x0 r2) (View.ld x1 r2)⟩]
def out2_3 (x0 : Vec F S4096x128 .f32) (x1 : Vec F S4096x128 .f32) : Vec F S4096x128 .f32 :=
  View.canon [⟨r2, k2_pay4 (View.ld x0 r2) (View.ld x1 r2)⟩]

/-- One store through the whole rectangle covers the buffer. -/
theorem cover2 (p0 : Vec F S4096x128 .f32) (y : S4096x128.Idx) :
    ∃ pc ∈ ([⟨r2, p0⟩] : List (View.Piece (Elt F) S4096x128 .f32)), y ∈ pc.1.set :=
  View.cover_of_tiled [⟨r2, p0⟩] S4096x128.size (by rfl) y

set_option maxHeartbeats 1000000 in
/-- The body on whole staging buffers: the inputs at `x0`, `x1` and the outputs at anything; it ends with the inputs
    as they were and the outputs at the scaled sum and difference of the inputs. -/
theorem sound_kernel2 (c : Dev nD) (E : Set ℕ) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole)
    (x0 : Vec F S4096x128 .f32) (x1 : Vec F S4096x128 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out2_2 x0 x1) ∗ owns (c : Thread nD τ) arg4 fullShare (out2_3 x0 x1)) -∗ K ⟨⟩))
      ⊢ wp frame (wpE (defs₀ (F := F)) Variants.none c none) E (cc2__butterfly_kernel i arg1 harg1 arg2 harg2 arg3 harg3 arg4 harg4) K := by
  simp only [cc2__butterfly_kernel_eq_skeleton]; unfold cc2__butterfly_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2 _)
  iexists _; isplitr
  swap; · iexact H3
  ipureintro
  exact View.read_writes_eq_canon _ _ _ (cover2 _)

/-- The pipeline's proof data on core `c`: the arrays as the region finds them; after the body at point `t` each input
    buffer at its block and each output buffer at the body's result on the two input blocks; the untouched scoped
    rest and generator register as invariant; nothing owed; the shared input array at the two halves of the full
    share, one per window. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => out2_3 (iblk2 V c 0 t) (iblk2 V c 1 t)
  Φ _ := Pipeline.ΦA spec2 c
  q w := match w with
    | ⟨0, _⟩ => fullShare.left
    | ⟨1, _⟩ => fullShare.right
    | _ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem after2_3 (c : Dev nD) (t : Fin cfg2.N) : (dat2 V c).after 3 t = out2_3 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KIReg2.lean ====
/-
  Region 2 between the thread states before and after it. A core holds every unscoped buffer whole at a valuation
  `W`. At the region's entry the three buffers behind its four windows are split off: the signal's rows, which both
  input windows read, is cut into the two halves of the full share, one per window; the two result arrays go whole.
  At its exit the halves are joined again (an input array is never written, so both still hold the entry contents)
  and the result arrays are put back at what the write-backs left: the valuation `exit2 W`, which differs from `W`
  at the two result arrays only.
-/
import proofs.«157342_j28784870817852_2_alg».proof.Proof.KIBody2
import proofs.«157342_j28784870817852_2_alg».proof.Proof.KIBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- ENTRY: the unscoped buffers at `W` are the pipeline's arrays at their entry contents, each at its share, and the
    unscoped rest. -/
theorem entry2 (W : Dev nD → Valuation τ sig (Elt F)) (c : Dev nD) :
    (StableHlo.held (c : Thread nD τ) (Pipeline.ucRefs τ sig) (W c) : sProp 𝕄)
      ⊢ iprop((dat2 (asV W) c).arrays (dat2 (asV W) c).A ∗ Pipeline.unscopedRest (Ix := Unit) (Name := ℕ) (U := UR sig nD τ) (Lvl := ℕ) spec2 c (asV W c)) := by
  rw [← Pipeline.unscopedBufs_held, Pipeline.unscopedBufs_split₀ cfgs 2 winFacts₀2.arr_unscoped c]
  refine sep_mono ?_ .rfl
  unfold Pipeline.arrBufs Dat.arrays
  rw [show Finset.univ.image (Pipeline.arrRef (cfgs 2).spec) = {main_call0_v21, main_call0_v22_0, main_call0_v22_1} from by decide]
  rw [bigSep_insert (by decide), bigSep_insert (by decide), bigSep_singleton, bigSep_W2]
  have hs0 : (dat2 (asV W) c).share 0 = fullShare.left := rfl
  have hs1 : (dat2 (asV W) c).share 1 = fullShare.right := rfl
  have hs2 : (dat2 (asV W) c).share 2 = fullShare := rfl
  have hs3 : (dat2 (asV W) c).share 3 = fullShare := rfl
  rw [hs0, hs1, hs2, hs3, A_eq2, A_eq2, A_eq2, A_eq2]
  rw [show (cfg2.win 0).arr.view.set = Finset.univ from (arr_whole2 0).set_eq_univ]
  try rw [show (cfg2.win 1).arr.view.set = Finset.univ from (arr_whole2 1).set_eq_univ]
  rw [show (cfg2.win 2).arr.view.set = Finset.univ from (arr_whole2 2).set_eq_univ, show (cfg2.win 3).arr.view.set = Finset.univ from (arr_whole2 3).set_eq_univ]
  show iprop((((c : Thread nD τ).loc main_call0_v21) ↦{fullShare} asV W c main_call0_v21) ∗ (((c : Thread nD τ).loc main_call0_v22_0) ↦{fullShare} asV W c main_call0_v22_0) ∗ (((c : Thread nD τ).loc main_call0_v22_1) ↦{fullShare} asV W c main_call0_v22_1))
    ⊢ iprop((((c : Thread nD τ).loc main_call0_v21) ↦{fullShare.left} asV W c main_call0_v21) ∗ (((c : Thread nD τ).loc main_call0_v21) ↦{fullShare.right} asV W c main_call0_v21) ∗ (((c : Thread nD τ).loc main_call0_v22_0) ↦{fullShare} asV W c main_call0_v22_0) ∗ (((c : Thread nD τ).loc main_call0_v22_1) ↦{fullShare} asV W c main_call0_v22_1))
  have hsp : ((((c : Thread nD τ).loc main_call0_v21) ↦{fullShare} asV W c main_call0_v21) : sProp 𝕄)
      ⊢ iprop((((c : Thread nD τ).loc main_call0_v21) ↦{fullShare.left} asV W c main_call0_v21) ∗ (((c : Thread nD τ).loc main_call0_v21) ↦{fullShare.right} asV W c main_call0_v21)) :=
    (pointsTo_share (PosShare.mem_left_op_right fullShare)).1
  iintro ⟨H1, H2, H3⟩
  ihave H1' := hsp $$ H1
  icases H1' with ⟨Ha, Hb⟩
  isplitl [Ha]; · iexact Ha
  isplitl [Hb]; · iexact Hb
  isplitl [H2]; · iexact H2
  iexact H3

/-- The core's buffers when the region is left: the two result arrays at what the write-backs leave, every other
    buffer as the region found it. -/
def exit2 (W : Dev nD → Valuation τ sig (Elt F)) (c : Dev nD) : Valuation τ sig (Elt F) :=
  Function.update (Function.update (W c) main_call0_v22_0 ((dat2 (asV W) c).arrAt 2 cfg2.N)) main_call0_v22_1 ((dat2 (asV W) c).arrAt 3 cfg2.N)

theorem exit2_in (W : Dev nD → Valuation τ sig (Elt F)) (c : Dev nD) : exit2 W c (Proc.devRef .tc main_call0_v21) = W c (Proc.devRef .tc main_call0_v21) := by
  unfold exit2
  rw [Function.update_of_ne (StableHlo.devRef_ne_of_ne (by decide)), Function.update_of_ne (StableHlo.devRef_ne_of_ne (by decide))]
theorem exit2_out0 (W : Dev nD → Valuation τ sig (Elt F)) (c : Dev nD) : exit2 W c (Proc.devRef .tc main_call0_v22_0) = (dat2 (asV W) c).arrAt 2 cfg2.N := by
  unfold exit2
  rw [Function.update_of_ne (StableHlo.devRef_ne_of_ne (by decide)), Function.update_self]
theorem exit2_out1 (W : Dev nD → Valuation τ sig (Elt F)) (c : Dev nD) : exit2 W c (Proc.devRef .tc main_call0_v22_1) = (dat2 (asV W) c).arrAt 3 cfg2.N := by
  unfold exit2
  rw [Function.update_self]
theorem exit2_of_ne (W : Dev nD → Valuation τ sig (Elt F)) (c : Dev nD) (b : Ref sig .tc) (h0 : b ≠ main_call0_v22_0) (h1 : b ≠ main_call0_v22_1) :
    exit2 W c (Proc.devRef .tc b) = W c (Proc.devRef .tc b) := by
  unfold exit2
  rw [Function.update_of_ne (StableHlo.devRef_ne_of_ne h1), Function.update_of_ne (StableHlo.devRef_ne_of_ne h0)]

set_option maxHeartbeats 8000000 in
/-- EXIT: the arrays at what the write-backs left and the unscoped rest are the unscoped buffers at `exit2 W`. -/
theorem exit2_held (W : Dev nD → Valuation τ sig (Elt F)) (c : Dev nD) :
    iprop((dat2 (asV W) c).arrays ((dat2 (asV W) c).arrAt · cfg2.N) ∗ Pipeline.unscopedRest (Ix := Unit) (Name := ℕ) (U := UR sig nD τ) (Lvl := ℕ) spec2 c (asV W c))
      ⊢ (StableHlo.held (c : Thread nD τ) (Pipeline.ucRefs τ sig) (exit2 W c) : sProp 𝕄) := by
  rw [← Pipeline.unscopedBufs_held, Pipeline.unscopedBufs_split₀ cfgs 2 winFacts₀2.arr_unscoped c]
  refine sep_mono ?_ (Entails.of_eq ?_)
  · unfold Pipeline.arrBufs Dat.arrays
    rw [show Finset.univ.image (Pipeline.arrRef (cfgs 2).spec) = {main_call0_v21, main_call0_v22_0, main_call0_v22_1} from by decide]
    rw [bigSep_insert (by decide), bigSep_insert (by decide), bigSep_singleton, bigSep_W2]
    have hs0 : (dat2 (asV W) c).share 0 = fullShare.left := rfl
    have hs1 : (dat2 (asV W) c).share 1 = fullShare.right := rfl
    have hs2 : (dat2 (asV W) c).share 2 = fullShare := rfl
    have hs3 : (dat2 (asV W) c).share 3 = fullShare := rfl
    rw [hs0, hs1, hs2, hs3]
    rw [show (cfg2.win 0).arr.view.set = Finset.univ from (arr_whole2 0).set_eq_univ]
    try rw [show (cfg2.win 1).arr.view.set = Finset.univ from (arr_whole2 1).set_eq_univ]
    rw [show (cfg2.win 2).arr.view.set = Finset.univ from (arr_whole2 2).set_eq_univ, show (cfg2.win 3).arr.view.set = Finset.univ from (arr_whole2 3).set_eq_univ]
    show iprop((((c : Thread nD τ).loc main_call0_v21) ↦{fullShare.left} (dat2 (asV W) c).arrAt 0 cfg2.N) ∗ (((c : Thread nD τ).loc main_call0_v21) ↦{fullShare.right} (dat2 (asV W) c).arrAt 1 cfg2.N) ∗ (((c : Thread nD τ).loc main_call0_v22_0) ↦{fullShare} (dat2 (asV W) c).arrAt 2 cfg2.N) ∗ (((c : Thread nD τ).loc main_call0_v22_1) ↦{fullShare} (dat2 (asV W) c).arrAt 3 cfg2.N))
      ⊢ iprop((((c : Thread nD τ).loc main_call0_v21) ↦{fullShare} asV (exit2 W) c main_call0_v21) ∗ (((c : Thread nD τ).loc main_call0_v22_0) ↦{fullShare} asV (exit2 W) c main_call0_v22_0) ∗ (((c : Thread nD τ).loc main_call0_v22_1) ↦{fullShare} asV (exit2 W) c main_call0_v22_1))
    rw [show asV (exit2 W) c main_call0_v21 = asV W c main_call0_v21 from exit2_in W c, show asV (exit2 W) c main_call0_v22_0 = (dat2 (asV W) c).arrAt 2 cfg2.N from exit2_out0 W c,
      show asV (exit2 W) c main_call0_v22_1 = (dat2 (asV W) c).arrAt 3 cfg2.N from exit2_out1 W c,
      (dat2 (asV W) c).arrAt_in 0 rfl cfg2.N, (dat2 (asV W) c).arrAt_in 1 rfl cfg2.N, A_eq2, A_eq2]
    have hjn : iprop((((c : Thread nD τ).loc main_call0_v21) ↦{fullShare.left} asV W c main_call0_v21) ∗ (((c : Thread nD τ).loc main_call0_v21) ↦{fullShare.right} asV W c main_call0_v21))
        ⊢ ((((c : Thread nD τ).loc main_call0_v21) ↦{fullShare} asV W c main_call0_v21) : sProp 𝕄) :=
      (pointsTo_share (PosShare.mem_left_op_right fullShare)).2
    iintro ⟨Ha, Hb, H2, H3⟩
    isplitl [Ha Hb]
    · iapply hjn
      isplitl [Ha]; · iexact Ha
      iexact Hb
    isplitl [H2]; · iexact H2
    iexact H3
  · unfold Pipeline.unscopedRest
    refine bigSep_congr fun b hb => ?_
    have hn : b ∉ Finset.univ.image (Pipeline.arrRef spec2) := (Finset.mem_sdiff.mp hb).2
    have h0 : b ≠ main_call0_v22_0 := fun e => hn (Finset.mem_image.mpr ⟨2, Finset.mem_univ _, e.symm⟩)
    have h1 : b ≠ main_call0_v22_1 := fun e => hn (Finset.mem_image.mpr ⟨3, Finset.mem_univ _, e.symm⟩)
    show (((c : Thread nD τ).loc b) ↦{fullShare} asV W c b : sProp 𝕄) = (((c : Thread nD τ).loc b) ↦{fullShare} asV (exit2 W) c b)
    rw [show asV (exit2 W) c b = asV W c b from exit2_of_ne W c b h0 h1]

end Cert.KernelIdeal.Fr

end
-- ==== Proof.KIBody3.lean ====
/-
  Region 3 of the program (the butterfly kernel's next launch), at any float instance and for any
  contents `V` of the core's buffers when the region is entered.

  The kernel's grid point `t` reads two blocks of 4096 rows of 128 out of ONE array (the signal as rows): the block
  `t` of its first half and the block `t` of its second half, and writes block `t` of two result arrays: the scaled
  sum and the scaled difference of the two blocks. Here: each window's block at a point, the body run on staging
  buffers holding the two input blocks (it leaves the inputs in place and the two outputs at the payloads of the
  two loaded blocks), and the proof data of the pipeline. Both input windows read the same array, so the pipeline
  holds that array twice, at the two halves of the full share; the result arrays are held whole.
-/
import proofs.«157342_j28784870817852_2_alg».proof.Proof.Gen.KernelIdeal.Launch
import proofs.«157342_j28784870817852_2_alg».proof.Proof.Gen.KernelIdeal.Skeleton
import proofs.«157342_j28784870817852_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point: it is fetched at every point, and the
    body leaves it in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole staging buffer as a rectangle: every load and store of the body is through it. -/
abbrev r3 : Rect S4096x128 := Rect.unit (s := S4096x128) ![0, 0] S4096x128.size inb_S4096x128_S4096x128_0_0

/-- What the body leaves in the two output buffers, from the two input blocks: the scaled sum and the scaled difference. -/
def out3_2 (x0 : Vec F S4096x128 .f32) (x1 : Vec F S4096x128 .f32) : Vec F S4096x128 .f32 :=
  View.canon [⟨r3, k3_pay3 (View.ld x0 r3) (View.ld x1 r3)⟩]
def out3_3 (x0 : Vec F S4096x128 .f32) (x1 : Vec F S4096x128 .f32) : Vec F S4096x128 .f32 :=
  View.canon [⟨r3, k3_pay4 (View.ld x0 r3) (View.ld x1 r3)⟩]

/-- One store through the whole rectangle covers the buffer. -/
theorem cover3 (p0 : Vec F S4096x128 .f32) (y : S4096x128.Idx) :
    ∃ pc ∈ ([⟨r3, p0⟩] : List (View.Piece (Elt F) S4096x128 .f32)), y ∈ pc.1.set :=
  View.cover_of_tiled [⟨r3, p0⟩] S4096x128.size (by rfl) y

set_option maxHeartbeats 1000000 in
/-- The body on whole staging buffers: the inputs at `x0`, `x1` and the outputs at anything; it ends with the inputs
    as they were and the outputs at the scaled sum and difference of the inputs. -/
theorem sound_kernel3 (c : Dev nD) (E : Set ℕ) (i : grid3.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole)
    (x0 : Vec F S4096x128 .f32) (x1 : Vec F S4096x128 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out3_2 x0 x1) ∗ owns (c : Thread nD τ) arg4 fullShare (out3_3 x0 x1)) -∗ K ⟨⟩))
      ⊢ wp frame (wpE (defs₀ (F := F)) Variants.none c none) E (cc3__butterfly_kernel i arg1 harg1 arg2 harg2 arg3 harg3 arg4 harg4) K := by
  simp only [cc3__butterfly_kernel_eq_skeleton]; unfold cc3__butterfly_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover3 _)
  iexists _; isplitr
  swap; · iexact H3
  ipureintro
  exact View.read_writes_eq_canon _ _ _ (cover3 _)

/-- The pipeline's proof data on core `c`: the arrays as the region finds them; after the body at point `t` each input
    buffer at its block and each output buffer at the body's result on the two input blocks; the untouched scoped
    rest and generator register as invariant; nothing owed; the shared input array at the two halves of the full
    share, one per window. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
    | ⟨3, _⟩ => out3_3 (iblk3 V c 0 t) (iblk3 V c 1 t)
  Φ _ := Pipeline.ΦA spec3 c
  q w := match w with
    | ⟨0, _⟩ => fullShare.left
    | ⟨1, _⟩ => fullShare.right
    | _ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]
theorem after3_3 (c : Dev nD) (t : Fin cfg3.N) : (dat3 V c).after 3 t = out3_3 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the input buffers hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KIReg3.lean ====
/-
  Region 3 between the thread states before and after it. A core holds every unscoped buffer whole at a valuation
  `W`. At the region's entry the three buffers behind its four windows are split off: the signal's rows, which both
  input windows read, is cut into the two halves of the full share, one per window; the two result arrays go whole.
  At its exit the halves are joined again (an input array is never written, so both still hold the entry contents)
  and the result arrays are put back at what the write-backs left: the valuation `exit3 W`, which differs from `W`
  at the two result arrays only.
-/
import proofs.«157342_j28784870817852_2_alg».proof.Proof.KIBody3
import proofs.«157342_j28784870817852_2_alg».proof.Proof.KIBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- ENTRY: the unscoped buffers at `W` are the pipeline's arrays at their entry contents, each at its share, and the
    unscoped rest. -/
theorem entry3 (W : Dev nD → Valuation τ sig (Elt F)) (c : Dev nD) :
    (StableHlo.held (c : Thread nD τ) (Pipeline.ucRefs τ sig) (W c) : sProp 𝕄)
      ⊢ iprop((dat3 (asV W) c).arrays (dat3 (asV W) c).A ∗ Pipeline.unscopedRest (Ix := Unit) (Name := ℕ) (U := UR sig nD τ) (Lvl := ℕ) spec3 c (asV W c)) := by
  rw [← Pipeline.unscopedBufs_held, Pipeline.unscopedBufs_split₀ cfgs 3 winFacts₀3.arr_unscoped c]
  refine sep_mono ?_ .rfl
  unfold Pipeline.arrBufs Dat.arrays
  rw [show Finset.univ.image (Pipeline.arrRef (cfgs 3).spec) = {main_call0_v31, main_call0_v32_0, main_call0_v32_1} from by decide]
  rw [bigSep_insert (by decide), bigSep_insert (by decide), bigSep_singleton, bigSep_W3]
  have hs0 : (dat3 (asV W) c).share 0 = fullShare.left := rfl
  have hs1 : (dat3 (asV W) c).share 1 = fullShare.right := rfl
  have hs2 : (dat3 (asV W) c).share 2 = fullShare := rfl
  have hs3 : (dat3 (asV W) c).share 3 = fullShare := rfl
  rw [hs0, hs1, hs2, hs3, A_eq3, A_eq3, A_eq3, A_eq3]
  rw [show (cfg3.win 0).arr.view.set = Finset.univ from (arr_whole3 0).set_eq_univ]
  try rw [show (cfg3.win 1).arr.view.set = Finset.univ from (arr_whole3 1).set_eq_univ]
  rw [show (cfg3.win 2).arr.view.set = Finset.univ from (arr_whole3 2).set_eq_univ, show (cfg3.win 3).arr.view.set = Finset.univ from (arr_whole3 3).set_eq_univ]
  show iprop((((c : Thread nD τ).loc main_call0_v31) ↦{fullShare} asV W c main_call0_v31) ∗ (((c : Thread nD τ).loc main_call0_v32_0) ↦{fullShare} asV W c main_call0_v32_0) ∗ (((c : Thread nD τ).loc main_call0_v32_1) ↦{fullShare} asV W c main_call0_v32_1))
    ⊢ iprop((((c : Thread nD τ).loc main_call0_v31) ↦{fullShare.left} asV W c main_call0_v31) ∗ (((c : Thread nD τ).loc main_call0_v31) ↦{fullShare.right} asV W c main_call0_v31) ∗ (((c : Thread nD τ).loc main_call0_v32_0) ↦{fullShare} asV W c main_call0_v32_0) ∗ (((c : Thread nD τ).loc main_call0_v32_1) ↦{fullShare} asV W c main_call0_v32_1))
  have hsp : ((((c : Thread nD τ).loc main_call0_v31) ↦{fullShare} asV W c main_call0_v31) : sProp 𝕄)
      ⊢ iprop((((c : Thread nD τ).loc main_call0_v31) ↦{fullShare.left} asV W c main_call0_v31) ∗ (((c : Thread nD τ).loc main_call0_v31) ↦{fullShare.right} asV W c main_call0_v31)) :=
    (pointsTo_share (PosShare.mem_left_op_right fullShare)).1
  iintro ⟨H1, H2, H3⟩
  ihave H1' := hsp $$ H1
  icases H1' with ⟨Ha, Hb⟩
  isplitl [Ha]; · iexact Ha
  isplitl [Hb]; · iexact Hb
  isplitl [H2]; · iexact H2
  iexact H3

/-- The core's buffers when the region is left: the two result arrays at what the write-backs leave, every other
    buffer as the region found it. -/
def exit3 (W : Dev nD → Valuation τ sig (Elt F)) (c : Dev nD) : Valuation τ sig (Elt F) :=
  Function.update (Function.update (W c) main_call0_v32_0 ((dat3 (asV W) c).arrAt 2 cfg3.N)) main_call0_v32_1 ((dat3 (asV W) c).arrAt 3 cfg3.N)

theorem exit3_in (W : Dev nD → Valuation τ sig (Elt F)) (c : Dev nD) : exit3 W c (Proc.devRef .tc main_call0_v31) = W c (Proc.devRef .tc main_call0_v31) := by
  unfold exit3
  rw [Function.update_of_ne (StableHlo.devRef_ne_of_ne (by decide)), Function.update_of_ne (StableHlo.devRef_ne_of_ne (by decide))]
theorem exit3_out0 (W : Dev nD → Valuation τ sig (Elt F)) (c : Dev nD) : exit3 W c (Proc.devRef .tc main_call0_v32_0) = (dat3 (asV W) c).arrAt 2 cfg3.N := by
  unfold exit3
  rw [Function.update_of_ne (StableHlo.devRef_ne_of_ne (by decide)), Function.update_self]
theorem exit3_out1 (W : Dev nD → Valuation τ sig (Elt F)) (c : Dev nD) : exit3 W c (Proc.devRef .tc main_call0_v32_1) = (dat3 (asV W) c).arrAt 3 cfg3.N := by
  unfold exit3
  rw [Function.update_self]
theorem exit3_of_ne (W : Dev nD → Valuation τ sig (Elt F)) (c : Dev nD) (b : Ref sig .tc) (h0 : b ≠ main_call0_v32_0) (h1 : b ≠ main_call0_v32_1) :
    exit3 W c (Proc.devRef .tc b) = W c (Proc.devRef .tc b) := by
  unfold exit3
  rw [Function.update_of_ne (StableHlo.devRef_ne_of_ne h1), Function.update_of_ne (StableHlo.devRef_ne_of_ne h0)]

set_option maxHeartbeats 8000000 in
/-- EXIT: the arrays at what the write-backs left and the unscoped rest are the unscoped buffers at `exit3 W`. -/
theorem exit3_held (W : Dev nD → Valuation τ sig (Elt F)) (c : Dev nD) :
    iprop((dat3 (asV W) c).arrays ((dat3 (asV W) c).arrAt · cfg3.N) ∗ Pipeline.unscopedRest (Ix := Unit) (Name := ℕ) (U := UR sig nD τ) (Lvl := ℕ) spec3 c (asV W c))
      ⊢ (StableHlo.held (c : Thread nD τ) (Pipeline.ucRefs τ sig) (exit3 W c) : sProp 𝕄) := by
  rw [← Pipeline.unscopedBufs_held, Pipeline.unscopedBufs_split₀ cfgs 3 winFacts₀3.arr_unscoped c]
  refine sep_mono ?_ (Entails.of_eq ?_)
  · unfold Pipeline.arrBufs Dat.arrays
    rw [show Finset.univ.image (Pipeline.arrRef (cfgs 3).spec) = {main_call0_v31, main_call0_v32_0, main_call0_v32_1} from by decide]
    rw [bigSep_insert (by decide), bigSep_insert (by decide), bigSep_singleton, bigSep_W3]
    have hs0 : (dat3 (asV W) c).share 0 = fullShare.left := rfl
    have hs1 : (dat3 (asV W) c).share 1 = fullShare.right := rfl
    have hs2 : (dat3 (asV W) c).share 2 = fullShare := rfl
    have hs3 : (dat3 (asV W) c).share 3 = fullShare := rfl
    rw [hs0, hs1, hs2, hs3]
    rw [show (cfg3.win 0).arr.view.set = Finset.univ from (arr_whole3 0).set_eq_univ]
    try rw [show (cfg3.win 1).arr.view.set = Finset.univ from (arr_whole3 1).set_eq_univ]
    rw [show (cfg3.win 2).arr.view.set = Finset.univ from (arr_whole3 2).set_eq_univ, show (cfg3.win 3).arr.view.set = Finset.univ from (arr_whole3 3).set_eq_univ]
    show iprop((((c : Thread nD τ).loc main_call0_v31) ↦{fullShare.left} (dat3 (asV W) c).arrAt 0 cfg3.N) ∗ (((c : Thread nD τ).loc main_call0_v31) ↦{fullShare.right} (dat3 (asV W) c).arrAt 1 cfg3.N) ∗ (((c : Thread nD τ).loc main_call0_v32_0) ↦{fullShare} (dat3 (asV W) c).arrAt 2 cfg3.N) ∗ (((c : Thread nD τ).loc main_call0_v32_1) ↦{fullShare} (dat3 (asV W) c).arrAt 3 cfg3.N))
      ⊢ iprop((((c : Thread nD τ).loc main_call0_v31) ↦{fullShare} asV (exit3 W) c main_call0_v31) ∗ (((c : Thread nD τ).loc main_call0_v32_0) ↦{fullShare} asV (exit3 W) c main_call0_v32_0) ∗ (((c : Thread nD τ).loc main_call0_v32_1) ↦{fullShare} asV (exit3 W) c main_call0_v32_1))
    rw [show asV (exit3 W) c main_call0_v31 = asV W c main_call0_v31 from exit3_in W c, show asV (exit3 W) c main_call0_v32_0 = (dat3 (asV W) c).arrAt 2 cfg3.N from exit3_out0 W c,
      show asV (exit3 W) c main_call0_v32_1 = (dat3 (asV W) c).arrAt 3 cfg3.N from exit3_out1 W c,
      (dat3 (asV W) c).arrAt_in 0 rfl cfg3.N, (dat3 (asV W) c).arrAt_in 1 rfl cfg3.N, A_eq3, A_eq3]
    have hjn : iprop((((c : Thread nD τ).loc main_call0_v31) ↦{fullShare.left} asV W c main_call0_v31) ∗ (((c : Thread nD τ).loc main_call0_v31) ↦{fullShare.right} asV W c main_call0_v31))
        ⊢ ((((c : Thread nD τ).loc main_call0_v31) ↦{fullShare} asV W c main_call0_v31) : sProp 𝕄) :=
      (pointsTo_share (PosShare.mem_left_op_right fullShare)).2
    iintro ⟨Ha, Hb, H2, H3⟩
    isplitl [Ha Hb]
    · iapply hjn
      isplitl [Ha]; · iexact Ha
      iexact Hb
    isplitl [H2]; · iexact H2
    iexact H3
  · unfold Pipeline.unscopedRest
    refine bigSep_congr fun b hb => ?_
    have hn : b ∉ Finset.univ.image (Pipeline.arrRef spec3) := (Finset.mem_sdiff.mp hb).2
    have h0 : b ≠ main_call0_v32_0 := fun e => hn (Finset.mem_image.mpr ⟨2, Finset.mem_univ _, e.symm⟩)
    have h1 : b ≠ main_call0_v32_1 := fun e => hn (Finset.mem_image.mpr ⟨3, Finset.mem_univ _, e.symm⟩)
    show (((c : Thread nD τ).loc b) ↦{fullShare} asV W c b : sProp 𝕄) = (((c : Thread nD τ).loc b) ↦{fullShare} asV (exit3 W) c b)
    rw [show asV (exit3 W) c b = asV W c b from exit3_of_ne W c b h0 h1]

end Cert.KernelIdeal.Fr

end
-- ==== Proof.KIBody4.lean ====
/-
  Region 4 of the program (the butterfly kernel's last launch), at any float instance and for any
  contents `V` of the core's buffers when the region is entered.

  The kernel's grid point `t` reads two blocks of 4096 rows of 128 out of ONE array (the signal as rows): the block
  `t` of its first half and the block `t` of its second half, and writes block `t` of two result arrays: the scaled
  sum and the scaled difference of the two blocks. Here: each window's block at a point, the body run on staging
  buffers holding the two input blocks (it leaves the inputs in place and the two outputs at the payloads of the
  two loaded blocks), and the proof data of the pipeline. Both input windows read the same array, so the pipeline
  holds that array twice, at the two halves of the full share; the result arrays are held whole.
-/
import proofs.«157342_j28784870817852_2_alg».proof.Proof.Gen.KernelIdeal.Launch
import proofs.«157342_j28784870817852_2_alg».proof.Proof.Gen.KernelIdeal.Skeleton
import proofs.«157342_j28784870817852_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point: it is fetched at every point, and the
    body leaves it in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The whole staging buffer as a rectangle: every load and store of the body is through it. -/
abbrev r4 : Rect S4096x128 := Rect.unit (s := S4096x128) ![0, 0] S4096x128.size inb_S4096x128_S4096x128_0_0

/-- What the body leaves in the two output buffers, from the two input blocks: the scaled sum and the scaled difference. -/
def out4_2 (x0 : Vec F S4096x128 .f32) (x1 : Vec F S4096x128 .f32) : Vec F S4096x128 .f32 :=
  View.canon [⟨r4, k4_pay3 (View.ld x0 r4) (View.ld x1 r4)⟩]
def out4_3 (x0 : Vec F S4096x128 .f32) (x1 : Vec F S4096x128 .f32) : Vec F S4096x128 .f32 :=
  View.canon [⟨r4, k4_pay4 (View.ld x0 r4) (View.ld x1 r4)⟩]

/-- One store through the whole rectangle covers the buffer. -/
theorem cover4 (p0 : Vec F S4096x128 .f32) (y : S4096x128.Idx) :
    ∃ pc ∈ ([⟨r4, p0⟩] : List (View.Piece (Elt F) S4096x128 .f32)), y ∈ pc.1.set :=
  View.cover_of_tiled [⟨r4, p0⟩] S4096x128.size (by rfl) y

set_option maxHeartbeats 1000000 in
/-- The body on whole staging buffers: the inputs at `x0`, `x1` and the outputs at anything; it ends with the inputs
    as they were and the outputs at the scaled sum and difference of the inputs. -/
theorem sound_kernel4 (c : Dev nD) (E : Set ℕ) (i : grid4.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole)
    (x0 : Vec F S4096x128 .f32) (x1 : Vec F S4096x128 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out4_2 x0 x1) ∗ owns (c : Thread nD τ) arg4 fullShare (out4_3 x0 x1)) -∗ K ⟨⟩))
      ⊢ wp frame (wpE (defs₀ (F := F)) Variants.none c none) E (cc4__butterfly_kernel i arg1 harg1 arg2 harg2 arg3 harg3 arg4 harg4) K := by
  simp only [cc4__butterfly_kernel_eq_skeleton]; unfold cc4__butterfly_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover4 _)
  iexists _; isplitr
  swap; · iexact H3
  ipureintro
  exact View.read_writes_eq_canon _ _ _ (cover4 _)

/-- The pipeline's proof data on core `c`: the arrays as the region finds them; after the body at point `t` each input
    buffer at its block and each output buffer at the body's result on the two input blocks; the untouched scoped
    rest and generator register as invariant; nothing owed; the shared input array at the two halves of the full
    share, one per window. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
    | ⟨3, _⟩ => out4_3 (iblk4 V c 0 t) (iblk4 V c 1 t)
  Φ _ := Pipeline.ΦA spec4 c
  q w := match w with
    | ⟨0, _⟩ => fullShare.left
    | ⟨1, _⟩ => fullShare.right
    | _ => fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]
theorem after4_3 (c : Dev nD) (t : Fin cfg4.N) : (dat4 V c).after 3 t = out4_3 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the input buffers hold their blocks, so the body's triple applies; the invariant and what
    the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.KIReg4.lean ====
/-
  Region 4 between the thread states before and after it. A core holds every unscoped buffer whole at a valuation
  `W`. At the region's entry the three buffers behind its four windows are split off: the signal's rows, which both
  input windows read, is cut into the two halves of the full share, one per window; the two result arrays go whole.
  At its exit the halves are joined again (an input array is never written, so both still hold the entry contents)
  and the result arrays are put back at what the write-backs left: the valuation `exit4 W`, which differs from `W`
  at the two result arrays only.
-/
import proofs.«157342_j28784870817852_2_alg».proof.Proof.KIBody4
import proofs.«157342_j28784870817852_2_alg».proof.Proof.KIBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- ENTRY: the unscoped buffers at `W` are the pipeline's arrays at their entry contents, each at its share, and the
    unscoped rest. -/
theorem entry4 (W : Dev nD → Valuation τ sig (Elt F)) (c : Dev nD) :
    (StableHlo.held (c : Thread nD τ) (Pipeline.ucRefs τ sig) (W c) : sProp 𝕄)
      ⊢ iprop((dat4 (asV W) c).arrays (dat4 (asV W) c).A ∗ Pipeline.unscopedRest (Ix := Unit) (Name := ℕ) (U := UR sig nD τ) (Lvl := ℕ) spec4 c (asV W c)) := by
  rw [← Pipeline.unscopedBufs_held, Pipeline.unscopedBufs_split₀ cfgs 4 winFacts₀4.arr_unscoped c]
  refine sep_mono ?_ .rfl
  unfold Pipeline.arrBufs Dat.arrays
  rw [show Finset.univ.image (Pipeline.arrRef (cfgs 4).spec) = {main_call0_v41, main_call0_v42_0, main_call0_v42_1} from by decide]
  rw [bigSep_insert (by decide), bigSep_insert (by decide), bigSep_singleton, bigSep_W4]
  have hs0 : (dat4 (asV W) c).share 0 = fullShare.left := rfl
  have hs1 : (dat4 (asV W) c).share 1 = fullShare.right := rfl
  have hs2 : (dat4 (asV W) c).share 2 = fullShare := rfl
  have hs3 : (dat4 (asV W) c).share 3 = fullShare := rfl
  rw [hs0, hs1, hs2, hs3, A_eq4, A_eq4, A_eq4, A_eq4]
  rw [show (cfg4.win 0).arr.view.set = Finset.univ from (arr_whole4 0).set_eq_univ]
  try rw [show (cfg4.win 1).arr.view.set = Finset.univ from (arr_whole4 1).set_eq_univ]
  rw [show (cfg4.win 2).arr.view.set = Finset.univ from (arr_whole4 2).set_eq_univ, show (cfg4.win 3).arr.view.set = Finset.univ from (arr_whole4 3).set_eq_univ]
  show iprop((((c : Thread nD τ).loc main_call0_v41) ↦{fullShare} asV W c main_call0_v41) ∗ (((c : Thread nD τ).loc main_call0_v42_0) ↦{fullShare} asV W c main_call0_v42_0) ∗ (((c : Thread nD τ).loc main_call0_v42_1) ↦{fullShare} asV W c main_call0_v42_1))
    ⊢ iprop((((c : Thread nD τ).loc main_call0_v41) ↦{fullShare.left} asV W c main_call0_v41) ∗ (((c : Thread nD τ).loc main_call0_v41) ↦{fullShare.right} asV W c main_call0_v41) ∗ (((c : Thread nD τ).loc main_call0_v42_0) ↦{fullShare} asV W c main_call0_v42_0) ∗ (((c : Thread nD τ).loc main_call0_v42_1) ↦{fullShare} asV W c main_call0_v42_1))
  have hsp : ((((c : Thread nD τ).loc main_call0_v41) ↦{fullShare} asV W c main_call0_v41) : sProp 𝕄)
      ⊢ iprop((((c : Thread nD τ).loc main_call0_v41) ↦{fullShare.left} asV W c main_call0_v41) ∗ (((c : Thread nD τ).loc main_call0_v41) ↦{fullShare.right} asV W c main_call0_v41)) :=
    (pointsTo_share (PosShare.mem_left_op_right fullShare)).1
  iintro ⟨H1, H2, H3⟩
  ihave H1' := hsp $$ H1
  icases H1' with ⟨Ha, Hb⟩
  isplitl [Ha]; · iexact Ha
  isplitl [Hb]; · iexact Hb
  isplitl [H2]; · iexact H2
  iexact H3

/-- The core's buffers when the region is left: the two result arrays at what the write-backs leave, every other
    buffer as the region found it. -/
def exit4 (W : Dev nD → Valuation τ sig (Elt F)) (c : Dev nD) : Valuation τ sig (Elt F) :=
  Function.update (Function.update (W c) main_call0_v42_0 ((dat4 (asV W) c).arrAt 2 cfg4.N)) main_call0_v42_1 ((dat4 (asV W) c).arrAt 3 cfg4.N)

theorem exit4_in (W : Dev nD → Valuation τ sig (Elt F)) (c : Dev nD) : exit4 W c (Proc.devRef .tc main_call0_v41) = W c (Proc.devRef .tc main_call0_v41) := by
  unfold exit4
  rw [Function.update_of_ne (StableHlo.devRef_ne_of_ne (by decide)), Function.update_of_ne (StableHlo.devRef_ne_of_ne (by decide))]
theorem exit4_out0 (W : Dev nD → Valuation τ sig (Elt F)) (c : Dev nD) : exit4 W c (Proc.devRef .tc main_call0_v42_0) = (dat4 (asV W) c).arrAt 2 cfg4.N := by
  unfold exit4
  rw [Function.update_of_ne (StableHlo.devRef_ne_of_ne (by decide)), Function.update_self]
theorem exit4_out1 (W : Dev nD → Valuation τ sig (Elt F)) (c : Dev nD) : exit4 W c (Proc.devRef .tc main_call0_v42_1) = (dat4 (asV W) c).arrAt 3 cfg4.N := by
  unfold exit4
  rw [Function.update_self]
theorem exit4_of_ne (W : Dev nD → Valuation τ sig (Elt F)) (c : Dev nD) (b : Ref sig .tc) (h0 : b ≠ main_call0_v42_0) (h1 : b ≠ main_call0_v42_1) :
    exit4 W c (Proc.devRef .tc b) = W c (Proc.devRef .tc b) := by
  unfold exit4
  rw [Function.update_of_ne (StableHlo.devRef_ne_of_ne h1), Function.update_of_ne (StableHlo.devRef_ne_of_ne h0)]

set_option maxHeartbeats 8000000 in
/-- EXIT: the arrays at what the write-backs left and the unscoped rest are the unscoped buffers at `exit4 W`. -/
theorem exit4_held (W : Dev nD → Valuation τ sig (Elt F)) (c : Dev nD) :
    iprop((dat4 (asV W) c).arrays ((dat4 (asV W) c).arrAt · cfg4.N) ∗ Pipeline.unscopedRest (Ix := Unit) (Name := ℕ) (U := UR sig nD τ) (Lvl := ℕ) spec4 c (asV W c))
      ⊢ (StableHlo.held (c : Thread nD τ) (Pipeline.ucRefs τ sig) (exit4 W c) : sProp 𝕄) := by
  rw [← Pipeline.unscopedBufs_held, Pipeline.unscopedBufs_split₀ cfgs 4 winFacts₀4.arr_unscoped c]
  refine sep_mono ?_ (Entails.of_eq ?_)
  · unfold Pipeline.arrBufs Dat.arrays
    rw [show Finset.univ.image (Pipeline.arrRef (cfgs 4).spec) = {main_call0_v41, main_call0_v42_0, main_call0_v42_1} from by decide]
    rw [bigSep_insert (by decide), bigSep_insert (by decide), bigSep_singleton, bigSep_W4]
    have hs0 : (dat4 (asV W) c).share 0 = fullShare.left := rfl
    have hs1 : (dat4 (asV W) c).share 1 = fullShare.right := rfl
    have hs2 : (dat4 (asV W) c).share 2 = fullShare := rfl
    have hs3 : (dat4 (asV W) c).share 3 = fullShare := rfl
    rw [hs0, hs1, hs2, hs3]
    rw [show (cfg4.win 0).arr.view.set = Finset.univ from (arr_whole4 0).set_eq_univ]
    try rw [show (cfg4.win 1).arr.view.set = Finset.univ from (arr_whole4 1).set_eq_univ]
    rw [show (cfg4.win 2).arr.view.set = Finset.univ from (arr_whole4 2).set_eq_univ, show (cfg4.win 3).arr.view.set = Finset.univ from (arr_whole4 3).set_eq_univ]
    show iprop((((c : Thread nD τ).loc main_call0_v41) ↦{fullShare.left} (dat4 (asV W) c).arrAt 0 cfg4.N) ∗ (((c : Thread nD τ).loc main_call0_v41) ↦{fullShare.right} (dat4 (asV W) c).arrAt 1 cfg4.N) ∗ (((c : Thread nD τ).loc main_call0_v42_0) ↦{fullShare} (dat4 (asV W) c).arrAt 2 cfg4.N) ∗ (((c : Thread nD τ).loc main_call0_v42_1) ↦{fullShare} (dat4 (asV W) c).arrAt 3 cfg4.N))
      ⊢ iprop((((c : Thread nD τ).loc main_call0_v41) ↦{fullShare} asV (exit4 W) c main_call0_v41) ∗ (((c : Thread nD τ).loc main_call0_v42_0) ↦{fullShare} asV (exit4 W) c main_call0_v42_0) ∗ (((c : Thread nD τ).loc main_call0_v42_1) ↦{fullShare} asV (exit4 W) c main_call0_v42_1))
    rw [show asV (exit4 W) c main_call0_v41 = asV W c main_call0_v41 from exit4_in W c, show asV (exit4 W) c main_call0_v42_0 = (dat4 (asV W) c).arrAt 2 cfg4.N from exit4_out0 W c,
      show asV (exit4 W) c main_call0_v42_1 = (dat4 (asV W) c).arrAt 3 cfg4.N from exit4_out1 W c,
      (dat4 (asV W) c).arrAt_in 0 rfl cfg4.N, (dat4 (asV W) c).arrAt_in 1 rfl cfg4.N, A_eq4, A_eq4]
    have hjn : iprop((((c : Thread nD τ).loc main_call0_v41) ↦{fullShare.left} asV W c main_call0_v41) ∗ (((c : Thread nD τ).loc main_call0_v41) ↦{fullShare.right} asV W c main_call0_v41))
        ⊢ ((((c : Thread nD τ).loc main_call0_v41) ↦{fullShare} asV W c main_call0_v41) : sProp 𝕄) :=
      (pointsTo_share (PosShare.mem_left_op_right fullShare)).2
    iintro ⟨Ha, Hb, H2, H3⟩
    isplitl [Ha Hb]
    · iapply hjn
      isplitl [Ha]; · iexact Ha
      iexact Hb
    isplitl [H2]; · iexact H2
    iexact H3
  · unfold Pipeline.unscopedRest
    refine bigSep_congr fun b hb => ?_
    have hn : b ∉ Finset.univ.image (Pipeline.arrRef spec4) := (Finset.mem_sdiff.mp hb).2
    have h0 : b ≠ main_call0_v42_0 := fun e => hn (Finset.mem_image.mpr ⟨2, Finset.mem_univ _, e.symm⟩)
    have h1 : b ≠ main_call0_v42_1 := fun e => hn (Finset.mem_image.mpr ⟨3, Finset.mem_univ _, e.symm⟩)
    show (((c : Thread nD τ).loc b) ↦{fullShare} asV W c b : sProp 𝕄) = (((c : Thread nD τ).loc b) ↦{fullShare} asV (exit4 W) c b)
    rw [show asV (exit4 W) c b = asV W c b from exit4_of_ne W c b h0 h1]

end Cert.KernelIdeal.Fr

end
-- ==== Proof.KIChain.lean ====
/-
  The contents of a core's buffers at each boundary of the program, from the launch to the return: the launch
  memory, then alternately the fold of a stretch of host operations and what a region leaves (its two result arrays
  at what the write-backs left, everything else untouched).
-/
import proofs.«157342_j28784870817852_2_alg».proof.Proof.KIReg0
import proofs.«157342_j28784870817852_2_alg».proof.Proof.KIReg1
import proofs.«157342_j28784870817852_2_alg».proof.Proof.KIReg2
import proofs.«157342_j28784870817852_2_alg».proof.Proof.KIReg3
import proofs.«157342_j28784870817852_2_alg».proof.Proof.KIReg4

noncomputable section

namespace Cert.KernelIdeal.Fr

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- At launch. -/
abbrev W0 : Dev nD → Valuation τ sig (Elt F) := fun c b => m (c, b)
/-- After the first host stretch: the signal flattened and cut into rows (region 0's entry). -/
abbrev W1 : Dev nD → Valuation τ sig (Elt F) := fun c => StableHlo.after hostOps0 (W0 m c)
/-- After region 0. -/
def W2 : Dev nD → Valuation τ sig (Elt F) := fun c => exit0 (W1 m) c
/-- After the host stretch that interleaves region 0's results into the signal (region 1's entry). -/
abbrev W3 : Dev nD → Valuation τ sig (Elt F) := fun c => StableHlo.after hostOps1 (W2 m c)
/-- After region 1. -/
def W4 : Dev nD → Valuation τ sig (Elt F) := fun c => exit1 (W3 m) c
abbrev W5 : Dev nD → Valuation τ sig (Elt F) := fun c => StableHlo.after hostOps2 (W4 m c)
/-- After region 2. -/
def W6 : Dev nD → Valuation τ sig (Elt F) := fun c => exit2 (W5 m) c
abbrev W7 : Dev nD → Valuation τ sig (Elt F) := fun c => StableHlo.after hostOps3 (W6 m c)
/-- After region 3. -/
def W8 : Dev nD → Valuation τ sig (Elt F) := fun c => exit3 (W7 m) c
abbrev W9 : Dev nD → Valuation τ sig (Elt F) := fun c => StableHlo.after hostOps4 (W8 m c)
/-- After region 4. -/
def W10 : Dev nD → Valuation τ sig (Elt F) := fun c => exit4 (W9 m) c
/-- At the return. -/
abbrev W11 : Dev nD → Valuation τ sig (Elt F) := fun c => StableHlo.after hostOps5 (W10 m c)

end Cert.KernelIdeal.Fr

end
-- ==== Proof.KIRun.lean ====
/-
  The whole run of the program. @main is eleven items: six stretches of host operations and, between them, the five
  launches of the butterfly kernel. Each item takes the core from "every unscoped buffer whole at the boundary's
  contents, the generator register at some state, nothing owed" to the same at the next boundary's contents; a host
  stretch by the fold of its operations, a region by the pipeline's launch rule from the body obligation, its arrays
  split off the buffers at entry and joined back at exit. Chained from the launch, every weakly fair execution
  terminates without a fault and ends with every unscoped buffer at the last boundary's contents.
-/
import proofs.«157342_j28784870817852_2_alg».proof.Proof.KIChain
import proofs.«157342_j28784870817852_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pipeline has a prefetched table. -/
abbrev admF : (p : Fin 5) → (pcfgs (F := F) p).Adm := fun p => (cfgs p).toPCfg_adm
/-- Every pipeline's proof data, each at its region's entry contents. -/
def pdatsF : (p : Fin 5) → (c : Dev nD) → Dat τ (Elt F) Unit ℕ (UR sig nD τ) ℕ (Pipeline.pin (pcfgs (F := F)) admF p) c
  | ⟨0, _⟩ => fun c => dat0 (asV (W1 m)) c
  | ⟨1, _⟩ => fun c => dat1 (asV (W3 m)) c
  | ⟨2, _⟩ => fun c => dat2 (asV (W5 m)) c
  | ⟨3, _⟩ => fun c => dat3 (asV (W7 m)) c
  | ⟨4, _⟩ => fun c => dat4 (asV (W9 m)) c
abbrev 𝒱F : Variants := Variants.none
/-- No core owes another anything: no level is assigned. -/
abbrev LF : GSem nD τ sig → Finset Unit := fun _ => ∅
abbrev lvF : GSem nD τ sig → Unit → ℕ := fun _ _ => 0
/-- What rides beside the buffers through every item: the generator register at some state and nothing owed. -/
abbrev RF (c : Dev nD) : sProp 𝕄 := iprop((∃ r, prngReg c r) ∗ ∃ W, owes (c : Thread nD τ) (0 : CellTallies nD τ sig Unit) W)
/-- A host stretch as a segment, from the contents `W`. -/
abbrev hsegF (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱F LF lvF :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RF

-- the library's lemmas over a pinned configuration unify with the printed one only when unification may unfold plain
-- definitions in a metavariable's type
set_option backward.isDefEq.respectTransparency.types false in
/-- Region 0 over the thread state: entered with every unscoped buffer at the boundary's contents before it, left with
    them at the contents after it; its arrays split out at the entry and put back at the exit; the generator register
    into the body's invariant and out; nothing owed; no semaphore of the kernel's own. -/
def reg0 : Pipeline.RegionSeg (pcfgs (F := F)) admF (pdatsF m) () defs₀ 𝒱F LF lvF 0 where
  win := winFacts₀0
  block_pos := block_pos0
  stage_whole := stage_whole0
  K := PEmpty
  osem k := k.elim
  ho := Pipeline.OwnSemFacts.none _
  hbody c := (body_obligation0 (asV (W1 m)) c).loose
  hwaits := Pipeline.hwaits_of_owed_zero _ _ _ _ LF lvF 0 fun _ _ => rfl
  pre c := iprop(StableHlo.held (c : Thread nD τ) (Pipeline.ucRefs τ sig) (W1 m c) ∗ RF c)
  post c := iprop(StableHlo.held (c : Thread nD τ) (Pipeline.ucRefs τ sig) (W2 m c) ∗ RF c)
  X c := iprop(∃ r, prngReg c r)
  Y c := iprop(∃ r, prngReg c r)
  Z c := Pipeline.unscopedRest (Ix := Unit) (Name := ℕ) (U := UR sig nD τ) (Lvl := ℕ) spec0 c (asV (W1 m) c)
  hentry c := by
    rw [Pipeline.ownSems0_none]
    have hsplit := entry0 (W1 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsF m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0_held (W1 m) c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- the library's lemmas over a pinned configuration unify with the printed one only when unification may unfold plain
-- definitions in a metavariable's type
set_option backward.isDefEq.respectTransparency.types false in
/-- Region 1 over the thread state: entered with every unscoped buffer at the boundary's contents before it, left with
    them at the contents after it; its arrays split out at the entry and put back at the exit; the generator register
    into the body's invariant and out; nothing owed; no semaphore of the kernel's own. -/
def reg1 : Pipeline.RegionSeg (pcfgs (F := F)) admF (pdatsF m) () defs₀ 𝒱F LF lvF 1 where
  win := winFacts₀1
  block_pos := block_pos1
  stage_whole := stage_whole1
  K := PEmpty
  osem k := k.elim
  ho := Pipeline.OwnSemFacts.none _
  hbody c := (body_obligation1 (asV (W3 m)) c).loose
  hwaits := Pipeline.hwaits_of_owed_zero _ _ _ _ LF lvF 1 fun _ _ => rfl
  pre c := iprop(StableHlo.held (c : Thread nD τ) (Pipeline.ucRefs τ sig) (W3 m c) ∗ RF c)
  post c := iprop(StableHlo.held (c : Thread nD τ) (Pipeline.ucRefs τ sig) (W4 m c) ∗ RF c)
  X c := iprop(∃ r, prngReg c r)
  Y c := iprop(∃ r, prngReg c r)
  Z c := Pipeline.unscopedRest (Ix := Unit) (Name := ℕ) (U := UR sig nD τ) (Lvl := ℕ) spec1 c (asV (W3 m) c)
  hentry c := by
    rw [Pipeline.ownSems0_none]
    have hsplit := entry1 (W3 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsF m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1_held (W3 m) c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- the library's lemmas over a pinned configuration unify with the printed one only when unification may unfold plain
-- definitions in a metavariable's type
set_option backward.isDefEq.respectTransparency.types false in
/-- Region 2 over the thread state: entered with every unscoped buffer at the boundary's contents before it, left with
    them at the contents after it; its arrays split out at the entry and put back at the exit; the generator register
    into the body's invariant and out; nothing owed; no semaphore of the kernel's own. -/
def reg2 : Pipeline.RegionSeg (pcfgs (F := F)) admF (pdatsF m) () defs₀ 𝒱F LF lvF 2 where
  win := winFacts₀2
  block_pos := block_pos2
  stage_whole := stage_whole2
  K := PEmpty
  osem k := k.elim
  ho := Pipeline.OwnSemFacts.none _
  hbody c := (body_obligation2 (asV (W5 m)) c).loose
  hwaits := Pipeline.hwaits_of_owed_zero _ _ _ _ LF lvF 2 fun _ _ => rfl
  pre c := iprop(StableHlo.held (c : Thread nD τ) (Pipeline.ucRefs τ sig) (W5 m c) ∗ RF c)
  post c := iprop(StableHlo.held (c : Thread nD τ) (Pipeline.ucRefs τ sig) (W6 m c) ∗ RF c)
  X c := iprop(∃ r, prngReg c r)
  Y c := iprop(∃ r, prngReg c r)
  Z c := Pipeline.unscopedRest (Ix := Unit) (Name := ℕ) (U := UR sig nD τ) (Lvl := ℕ) spec2 c (asV (W5 m) c)
  hentry c := by
    rw [Pipeline.ownSems0_none]
    have hsplit := entry2 (W5 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsF m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2_held (W5 m) c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- the library's lemmas over a pinned configuration unify with the printed one only when unification may unfold plain
-- definitions in a metavariable's type
set_option backward.isDefEq.respectTransparency.types false in
/-- Region 3 over the thread state: entered with every unscoped buffer at the boundary's contents before it, left with
    them at the contents after it; its arrays split out at the entry and put back at the exit; the generator register
    into the body's invariant and out; nothing owed; no semaphore of the kernel's own. -/
def reg3 : Pipeline.RegionSeg (pcfgs (F := F)) admF (pdatsF m) () defs₀ 𝒱F LF lvF 3 where
  win := winFacts₀3
  block_pos := block_pos3
  stage_whole := stage_whole3
  K := PEmpty
  osem k := k.elim
  ho := Pipeline.OwnSemFacts.none _
  hbody c := (body_obligation3 (asV (W7 m)) c).loose
  hwaits := Pipeline.hwaits_of_owed_zero _ _ _ _ LF lvF 3 fun _ _ => rfl
  pre c := iprop(StableHlo.held (c : Thread nD τ) (Pipeline.ucRefs τ sig) (W7 m c) ∗ RF c)
  post c := iprop(StableHlo.held (c : Thread nD τ) (Pipeline.ucRefs τ sig) (W8 m c) ∗ RF c)
  X c := iprop(∃ r, prngReg c r)
  Y c := iprop(∃ r, prngReg c r)
  Z c := Pipeline.unscopedRest (Ix := Unit) (Name := ℕ) (U := UR sig nD τ) (Lvl := ℕ) spec3 c (asV (W7 m) c)
  hentry c := by
    rw [Pipeline.ownSems0_none]
    have hsplit := entry3 (W7 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsF m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := exit3_held (W7 m) c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- the library's lemmas over a pinned configuration unify with the printed one only when unification may unfold plain
-- definitions in a metavariable's type
set_option backward.isDefEq.respectTransparency.types false in
/-- Region 4 over the thread state: entered with every unscoped buffer at the boundary's contents before it, left with
    them at the contents after it; its arrays split out at the entry and put back at the exit; the generator register
    into the body's invariant and out; nothing owed; no semaphore of the kernel's own. -/
def reg4 : Pipeline.RegionSeg (pcfgs (F := F)) admF (pdatsF m) () defs₀ 𝒱F LF lvF 4 where
  win := winFacts₀4
  block_pos := block_pos4
  stage_whole := stage_whole4
  K := PEmpty
  osem k := k.elim
  ho := Pipeline.OwnSemFacts.none _
  hbody c := (body_obligation4 (asV (W9 m)) c).loose
  hwaits := Pipeline.hwaits_of_owed_zero _ _ _ _ LF lvF 4 fun _ _ => rfl
  pre c := iprop(StableHlo.held (c : Thread nD τ) (Pipeline.ucRefs τ sig) (W9 m c) ∗ RF c)
  post c := iprop(StableHlo.held (c : Thread nD τ) (Pipeline.ucRefs τ sig) (W10 m c) ∗ RF c)
  X c := iprop(∃ r, prngReg c r)
  Y c := iprop(∃ r, prngReg c r)
  Z c := Pipeline.unscopedRest (Ix := Unit) (Name := ℕ) (U := UR sig nD τ) (Lvl := ℕ) spec4 c (asV (W9 m) c)
  hentry c := by
    rw [Pipeline.ownSems0_none]
    have hsplit := entry4 (W9 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdatsF m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := exit4_held (W9 m) c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- @main's eleven segments in order. -/
abbrev segsF : List (Pipeline.Seg (pcfgs (F := F)) admF (pdatsF m) () defs₀ 𝒱F LF lvF) :=
  [ .host (hsegF hostOps0 hostOps0_sub hostOps0_fresh (W0 m)),
    .region (reg0 m),
    .host (hsegF hostOps1 hostOps1_sub hostOps1_fresh (W2 m)),
    .region (reg1 m),
    .host (hsegF hostOps2 hostOps2_sub hostOps2_fresh (W4 m)),
    .region (reg2 m),
    .host (hsegF hostOps3 hostOps3_sub hostOps3_fresh (W6 m)),
    .region (reg3 m),
    .host (hsegF hostOps4 hostOps4_sub hostOps4_fresh (W8 m)),
    .region (reg4 m),
    .host (hsegF hostOps5 hostOps5_sub hostOps5_fresh (W10 m)) ]

/-- @main is the run of the segments. -/
theorem main_runF (c : Dev nD) : main (F := F) c = Pipeline.Seg.run (segsF m) := (main_chain c).trans (by chain_rfl)

set_option backward.isDefEq.respectTransparency.types false in
/-- THE RUN: from any memory with zero counters, every weakly fair execution of @main on the TensorCores terminates,
    nothing faulting, and every final state has each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit (pcfgs (F := F)) admF (pdatsF m) () cellOf_inj emb₁ defs₀ 𝒱F LF lvF m ρ main (segsF m)
    (fun c Q => by rw [main_runF m c])
    (by simp only [segsF, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RF c))
    (Tₙ := fun c => iprop(StableHlo.held (c : Thread nD τ) (Pipeline.ucRefs τ sig) (W11 m c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W11 m c) ∗ (∃ r, prngReg c r) ∗ ∃ W, owes (c : Thread nD τ) (0 : CellTallies nD τ sig Unit) W)
          ⊢ iprop((StableHlo.held (c : Thread nD τ) (Pipeline.ucRefs τ sig) (W11 m c) ∗ ∃ r, prngReg c r) ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach LF lvF fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h => h)

end Cert.KernelIdeal.Fr

end
-- ==== Proof.KIArg.lean ====
/-
  The argument array at the return: no stretch of host operations writes it and no region changes it, so from the
  launch to the return each boundary's contents of it are the one before's.
-/
import proofs.«157342_j28784870817852_2_alg».proof.Proof.KIChain
import proofs.«157342_j28784870817852_2_alg».proof.Proof.Gen.KernelIdeal.Regions

noncomputable section

namespace Cert.KernelIdeal.Fr

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The argument array holds its launch contents at the return. -/
theorem W11_arg (c : Dev nD) : W11 m c (Proc.devRef .tc main_arg0) = m ((c : Thread nD τ).loc main_arg0) := by
  have h11 : W11 m c (Proc.devRef .tc main_arg0) = W10 m c (Proc.devRef .tc main_arg0) :=
    StableHlo.after_of_writes_sub hostOps5 _ hostOps5_writes (by decide)
  have h10 : W10 m c (Proc.devRef .tc main_arg0) = W9 m c (Proc.devRef .tc main_arg0) := by
    unfold W10; exact exit4_of_ne (W9 m) c main_arg0 (by decide) (by decide)
  have h9 : W9 m c (Proc.devRef .tc main_arg0) = W8 m c (Proc.devRef .tc main_arg0) :=
    StableHlo.after_of_writes_sub hostOps4 _ hostOps4_writes (by decide)
  have h8 : W8 m c (Proc.devRef .tc main_arg0) = W7 m c (Proc.devRef .tc main_arg0) := by
    unfold W8; exact exit3_of_ne (W7 m) c main_arg0 (by decide) (by decide)
  have h7 : W7 m c (Proc.devRef .tc main_arg0) = W6 m c (Proc.devRef .tc main_arg0) :=
    StableHlo.after_of_writes_sub hostOps3 _ hostOps3_writes (by decide)
  have h6 : W6 m c (Proc.devRef .tc main_arg0) = W5 m c (Proc.devRef .tc main_arg0) := by
    unfold W6; exact exit2_of_ne (W5 m) c main_arg0 (by decide) (by decide)
  have h5 : W5 m c (Proc.devRef .tc main_arg0) = W4 m c (Proc.devRef .tc main_arg0) :=
    StableHlo.after_of_writes_sub hostOps2 _ hostOps2_writes (by decide)
  have h4 : W4 m c (Proc.devRef .tc main_arg0) = W3 m c (Proc.devRef .tc main_arg0) := by
    unfold W4; exact exit1_of_ne (W3 m) c main_arg0 (by decide) (by decide)
  have h3 : W3 m c (Proc.devRef .tc main_arg0) = W2 m c (Proc.devRef .tc main_arg0) :=
    StableHlo.after_of_writes_sub hostOps1 _ hostOps1_writes (by decide)
  have h2 : W2 m c (Proc.devRef .tc main_arg0) = W1 m c (Proc.devRef .tc main_arg0) := by
    unfold W2; exact exit0_of_ne (W1 m) c main_arg0 (by decide) (by decide)
  have h1 : W1 m c (Proc.devRef .tc main_arg0) = W0 m c (Proc.devRef .tc main_arg0) :=
    StableHlo.after_of_writes_sub hostOps0 _ hostOps0_writes (by decide)
  exact h11.trans (h10.trans (h9.trans (h8.trans (h7.trans (h6.trans (h5.trans (h4.trans (h3.trans (h2.trans h1)))))))))

end Cert.KernelIdeal.Fr

end
-- ==== Proof.Spec.lean ====
/-
  The inverse Haar transform, five levels, as one function of the input signal.

  A level with half-length `h` replaces the first `2h` entries of a signal `x` of length 33554432 by the
  interleaved butterfly of its two halves: entry `2j` becomes `(x j + x (j+h)) · k` and entry `2j+1` becomes
  `(x j - x (j+h)) · k`, with `k` the binary32 value nearest to 1/sqrt 2; the entries from `2h` on are kept.
  The whole transform runs the levels h = 2^20, 2^21, 2^22, 2^23, 2^24 in that order.
-/
import Idealize.ShloMosaic.PureOps.Ideal
import Idealize.ShloMosaic.Lib.ValueIdx

noncomputable section

namespace Cert.Haar

open Idealize.ShloMosaic Idealize.ShloMosaic.ValueIdx

/-- The signal as a flat array, as a matrix of 128-entry rows, and with two leading unit axes. -/
abbrev SFlat : Shape := ⟨1, ![33554432]⟩
abbrev SRows : Shape := ⟨2, ![262144, 128]⟩
abbrev SUnit : Shape := ⟨3, ![1, 1, 33554432]⟩

/-- The scale of the butterfly: the binary32 number nearest to 1/sqrt 2, as an extended real. -/
def kc : Ideal .f32 := Ideal.ofBits .f32 0x3F3504F3#32

/-- A flat signal read at a natural number (zero past the end; never read there). -/
def rd (x : FVec Ideal SFlat .f32) (n : ℕ) : Ideal .f32 :=
  if h : n < 33554432 then x (ix1 ⟨n, h⟩) else 0

/-- One level with half-length `h`. -/
def lvl (h : ℕ) (x : FVec Ideal SFlat .f32) : FVec Ideal SFlat .f32 := fun i =>
  if (i 0).val < 2 * h then
    (if (i 0).val % 2 = 0 then (rd x ((i 0).val / 2) + rd x ((i 0).val / 2 + h)) * kc
     else (rd x ((i 0).val / 2) - rd x ((i 0).val / 2 + h)) * kc)
  else x i

/-- The two butterfly outputs of a level with half-length `128 · hr`, as arrays of `hr` rows of 128. -/
def sumHalf (hr : ℕ) (x : FVec Ideal SFlat .f32) : FVec Ideal ⟨2, ![hr, 128]⟩ .f32 := fun j =>
  (rd x (128 * (j 0).val + (j 1).val) + rd x (128 * (j 0).val + (j 1).val + 128 * hr)) * kc
def diffHalf (hr : ℕ) (x : FVec Ideal SFlat .f32) : FVec Ideal ⟨2, ![hr, 128]⟩ .f32 := fun j =>
  (rd x (128 * (j 0).val + (j 1).val) - rd x (128 * (j 0).val + (j 1).val + 128 * hr)) * kc

/-- A flat signal as rows of 128, a signal with unit axes as a flat one, and back. -/
def rows (x : FVec Ideal SFlat .f32) : FVec Ideal SRows .f32 := fun j => rd x (128 * (j 0).val + (j 1).val)
def flat (x : FVec Ideal SUnit .f32) : FVec Ideal SFlat .f32 := fun i => x (ix3 0 0 (i 0))
def unflat (y : FVec Ideal SFlat .f32) : FVec Ideal SUnit .f32 := fun j => y (ix1 (j 2))

/-- The five levels. -/
def G (x : FVec Ideal SUnit .f32) : FVec Ideal SUnit .f32 :=
  unflat (lvl 16777216 (lvl 8388608 (lvl 4194304 (lvl 2097152 (lvl 1048576 (flat x))))))

end Cert.Haar

end
-- ==== Proof.LibScatterWindow.lean ====
/-
  A window overwritten by a scatter. A left fold of overwrites over a list without repeats, the written positions pairwise
  distinct, leaves at each position the one value written there, or the starting value where nothing is written; and the
  scatter whose body returns the update, with ONE start index (r0, c0), both operand axes scattered and both update axes
  window axes, of an a × b update into an A × B operand with r0 + a ≤ A and c0 + b ≤ B, is the operand with the window
  [r0, r0 + a) × [c0, c0 + b) replaced by the update.
-/
import Idealize.ShloMosaic.PureOps.ShapeOps
import Idealize.ShloMosaic.Lib.ValueIdx

namespace Cert.LibScatterWindow

open Idealize.ShloMosaic
open Idealize.ShloMosaic.ValueIdx

/-- A left fold of overwrites leaves a position no step writes to unchanged. -/
theorem foldl_overwrite_miss {κ ι β : Type*} [DecidableEq ι] (g : κ → Option ι) (v : κ → β) (i' : ι) :
    ∀ (l : List κ) (x : ι → β), (∀ n ∈ l, g n ≠ some i') →
      (l.foldl (fun r n =>
        match g n with
        | some i => fun i' => if i' = i then (fun _ b => b) (r i) (v n) else r i'
        | none => r) x) i' = x i' := by
  intro l
  induction l with
  | nil => intro x _; rfl
  | cons m l ih =>
    intro x h
    rw [List.foldl_cons, ih _ fun n hn => h n (List.mem_cons_of_mem _ hn)]
    have hm := h m (List.mem_cons_self ..)
    cases hgm : g m with
    | none => rfl
    | some i =>
      have hne : i' ≠ i := fun e => hm (by rw [hgm, e])
      simp only [if_neg hne]

/-- A left fold of overwrites over a list without repeats, the written positions pairwise distinct: a position some step writes to holds that step's value. -/
theorem foldl_overwrite_hit {κ ι β : Type*} [DecidableEq ι] (g : κ → Option ι) (v : κ → β)
    (hg : ∀ a b, g a = g b → g a ≠ none → a = b) (n₀ : κ) (i' : ι) (h₀ : g n₀ = some i') :
    ∀ (l : List κ) (x : ι → β), l.Nodup → n₀ ∈ l →
      (l.foldl (fun r n =>
        match g n with
        | some i => fun i' => if i' = i then (fun _ b => b) (r i) (v n) else r i'
        | none => r) x) i' = v n₀ := by
  intro l
  induction l with
  | nil => intro x _ h; exact absurd h (List.not_mem_nil)
  | cons m l ih =>
    intro x hnd hmem
    rw [List.foldl_cons]
    have hnd' := List.nodup_cons.1 hnd
    rcases List.mem_cons.1 hmem with rfl | hl
    · rw [foldl_overwrite_miss g v i' l _ fun n hn e => hnd'.1 (by
        have := hg n n₀ (e.trans h₀.symm) (by rw [e]; exact Option.some_ne_none _)
        rw [← this]; exact hn)]
      simp only [h₀, if_true]
    · exact ih _ hnd'.2 hl

/-- Two step functions that agree everywhere give the same left fold. -/
theorem foldl_congr_step {σ κ : Type*} (f g : σ → κ → σ) (h : ∀ r n, f r n = g r n) (x : σ) (l : List κ) :
    l.foldl f x = l.foldl g x := by
  have e : f = g := funext fun r => funext fun n => h r n
  rw [e]

section Window

variable {A B a b w : Nat}

/-- With both operand axes in the start index map, in order, the window's start on axis 0 is the first entry of the start index vector, read signed … -/
theorem start_zero (wf) (idx : IVec (⟨1, ![2]⟩ : Shape) w) (j : (⟨2, ![a, b]⟩ : Shape).Idx) :
    ScatterDims.start (s := (⟨2, ![A, B]⟩ : Shape)) (si := (⟨1, ![2]⟩ : Shape)) (u := (⟨2, ![a, b]⟩ : Shape))
      ⟨[0, 1], [], [0, 1], 0, wf⟩ j idx 0 = (idx (ix1 0)).toInt := by
  unfold ScatterDims.start
  rw [dif_pos (List.mem_cons_self ..)]
  congr 2
  funext c
  match c with
  | ⟨0, _⟩ => rfl

/-- … and on axis 1 the second entry. -/
theorem start_one (wf) (idx : IVec (⟨1, ![2]⟩ : Shape) w) (j : (⟨2, ![a, b]⟩ : Shape).Idx) :
    ScatterDims.start (s := (⟨2, ![A, B]⟩ : Shape)) (si := (⟨1, ![2]⟩ : Shape)) (u := (⟨2, ![a, b]⟩ : Shape))
      ⟨[0, 1], [], [0, 1], 0, wf⟩ j idx 1 = (idx (ix1 1)).toInt := by
  unfold ScatterDims.start
  rw [dif_pos (List.mem_cons_of_mem _ (List.mem_cons_self ..))]
  congr 2
  funext c
  match c with
  | ⟨0, _⟩ => rfl

/-- With no inserted axis and both update axes window axes, in order, the window coordinate on axis 0 is the update index's coordinate 0 … -/
theorem window_zero (wf) (j : (⟨2, ![a, b]⟩ : Shape).Idx) :
    ScatterDims.window (s := (⟨2, ![A, B]⟩ : Shape)) (si := (⟨1, ![2]⟩ : Shape)) (u := (⟨2, ![a, b]⟩ : Shape))
      ⟨[0, 1], [], [0, 1], 0, wf⟩ j 0 = (j 0).val := by
  unfold ScatterDims.window
  split
  · rfl
  · rename_i h; exact absurd (List.mem_filter.2 ⟨List.mem_finRange _, by simp⟩) h

/-- … and on axis 1 its coordinate 1. -/
theorem window_one (wf) (j : (⟨2, ![a, b]⟩ : Shape).Idx) :
    ScatterDims.window (s := (⟨2, ![A, B]⟩ : Shape)) (si := (⟨1, ![2]⟩ : Shape)) (u := (⟨2, ![a, b]⟩ : Shape))
      ⟨[0, 1], [], [0, 1], 0, wf⟩ j 1 = (j 1).val := by
  unfold ScatterDims.window
  split
  · rfl
  · rename_i h; exact absurd (List.mem_filter.2 ⟨List.mem_finRange _, by simp⟩) h

/-- The update index (j0, j1) lands at the operand index (r0 + j0, c0 + j1), inside the operand when the window is. -/
theorem resultIdx_window2 (d : ScatterDims (⟨2, ![A, B]⟩ : Shape) (⟨1, ![2]⟩ : Shape) (⟨2, ![a, b]⟩ : Shape))
    (huw : d.updateWindowDims = [0, 1]) (hiw : d.insertedWindowDims = [])
    (hsd : d.scatterDimsToOperandDims = [0, 1]) (hiv : d.indexVectorDim = 0)
    (idx : IVec (⟨1, ![2]⟩ : Shape) w) (r0 c0 : Nat)
    (hr0 : (idx (ix1 0)).toInt = (r0 : ℤ)) (hc0 : (idx (ix1 1)).toInt = (c0 : ℤ))
    (hA : r0 + a ≤ A) (hB : c0 + b ≤ B) (j : (⟨2, ![a, b]⟩ : Shape).Idx) :
    d.resultIdx? j idx
      = some (ix2 ⟨r0 + (j 0).val, by have := idx2_lt0 j; omega⟩ ⟨c0 + (j 1).val, by have := idx2_lt1 j; omega⟩) := by
  have hj0 := idx2_lt0 j
  have hj1 := idx2_lt1 j
  obtain ⟨uw, iw, sd, iv, wf⟩ := d
  simp only at huw hiw hsd hiv
  subst huw hiw hsd hiv
  unfold ScatterDims.resultIdx?
  have h0 : ScatterDims.start (s := (⟨2, ![A, B]⟩ : Shape)) (si := (⟨1, ![2]⟩ : Shape)) (u := (⟨2, ![a, b]⟩ : Shape))
      ⟨[0, 1], [], [0, 1], 0, wf⟩ j idx 0
      + (ScatterDims.window (s := (⟨2, ![A, B]⟩ : Shape)) (si := (⟨1, ![2]⟩ : Shape)) (u := (⟨2, ![a, b]⟩ : Shape))
      ⟨[0, 1], [], [0, 1], 0, wf⟩ j 0 : ℕ) = ((r0 + (j 0).val : ℕ) : ℤ) := by
    rw [start_zero, window_zero, hr0]; push_cast; rfl
  have h1 : ScatterDims.start (s := (⟨2, ![A, B]⟩ : Shape)) (si := (⟨1, ![2]⟩ : Shape)) (u := (⟨2, ![a, b]⟩ : Shape))
      ⟨[0, 1], [], [0, 1], 0, wf⟩ j idx 1
      + (ScatterDims.window (s := (⟨2, ![A, B]⟩ : Shape)) (si := (⟨1, ![2]⟩ : Shape)) (u := (⟨2, ![a, b]⟩ : Shape))
      ⟨[0, 1], [], [0, 1], 0, wf⟩ j 1 : ℕ) = ((c0 + (j 1).val : ℕ) : ℤ) := by
    rw [start_one, window_one, hc0]; push_cast; rfl
  rw [dif_pos (Fin.forall_fin_two.2 ⟨by
      rw [h0]; exact ⟨by omega, by show ((r0 + (j 0).val : ℕ) : ℤ) < (A : ℤ); omega⟩, by
      rw [h1]; exact ⟨by omega, by show ((c0 + (j 1).val : ℕ) : ℤ) < (B : ℤ); omega⟩⟩)]
  refine congrArg some (funext (Fin.forall_fin_two.2 ⟨Fin.ext ?_, Fin.ext ?_⟩))
  · show (_ + _ : ℤ).toNat = r0 + (j 0).val
    rw [h0]; exact Int.toNat_natCast _
  · show (_ + _ : ℤ).toNat = c0 + (j 1).val
    rw [h1]; exact Int.toNat_natCast _

end Window

/-- The scatter whose body returns the update, one start index (r0, c0) (the length-2 index array's entries at `ix1 0` and `ix1 1`, read signed), an a × b update into an A × B operand, the window inside it: at (p, q) the result is the update at (p − r0, q − c0) when (p, q) is in [r0, r0 + a) × [c0, c0 + b), else the operand. -/
theorem scatter_window2_apply {α : Type} {A B a b w : Nat}
    (d : ScatterDims (⟨2, ![A, B]⟩ : Shape) (⟨1, ![2]⟩ : Shape) (⟨2, ![a, b]⟩ : Shape))
    (huw : d.updateWindowDims = [0, 1]) (hiw : d.insertedWindowDims = [])
    (hsd : d.scatterDimsToOperandDims = [0, 1]) (hiv : d.indexVectorDim = 0)
    (x : (⟨2, ![A, B]⟩ : Shape).Idx → α) (idx : IVec (⟨1, ![2]⟩ : Shape) w) (upd : (⟨2, ![a, b]⟩ : Shape).Idx → α)
    (r0 c0 : Nat) (hr0 : (idx (ix1 0)).toInt = (r0 : ℤ)) (hc0 : (idx (ix1 1)).toInt = (c0 : ℤ))
    (hA : r0 + a ≤ A) (hB : c0 + b ≤ B) (p : Fin A) (q : Fin B) :
    Host.scatter d (fun _ y => y) x idx upd (ix2 p q)
      = if h : r0 ≤ p.val ∧ p.val < r0 + a ∧ c0 ≤ q.val ∧ q.val < c0 + b then
          upd (ix2 ⟨p.val - r0, by omega⟩ ⟨q.val - c0, by omega⟩)
        else x (ix2 p q) := by
  have hres := resultIdx_window2 d huw hiw hsd hiv idx r0 c0 hr0 hc0 hA hB
  unfold Host.scatter
  by_cases h : r0 ≤ p.val ∧ p.val < r0 + a ∧ c0 ≤ q.val ∧ q.val < c0 + b
  · rw [dif_pos h]
    have hinj : ∀ n m : Fin (⟨2, ![a, b]⟩ : Shape).numel,
        (fun n => d.resultIdx? ((⟨2, ![a, b]⟩ : Shape).rowMajor.symm n) idx) n
          = (fun n => d.resultIdx? ((⟨2, ![a, b]⟩ : Shape).rowMajor.symm n) idx) m →
        (fun n => d.resultIdx? ((⟨2, ![a, b]⟩ : Shape).rowMajor.symm n) idx) n ≠ none → n = m := by
      intro n m hnm _
      simp only [hres] at hnm
      have e := Option.some.inj hnm
      have e0 : r0 + (((⟨2, ![a, b]⟩ : Shape).rowMajor.symm n) 0).val
          = r0 + (((⟨2, ![a, b]⟩ : Shape).rowMajor.symm m) 0).val := congrArg (fun f => (f 0).val) e
      have e1 : c0 + (((⟨2, ![a, b]⟩ : Shape).rowMajor.symm n) 1).val
          = c0 + (((⟨2, ![a, b]⟩ : Shape).rowMajor.symm m) 1).val := congrArg (fun f => (f 1).val) e
      apply (⟨2, ![a, b]⟩ : Shape).rowMajor.symm.injective
      rw [eq_ix2 ((⟨2, ![a, b]⟩ : Shape).rowMajor.symm n), eq_ix2 ((⟨2, ![a, b]⟩ : Shape).rowMajor.symm m)]
      congr 1 <;> exact Fin.ext (by omega)
    have key := foldl_overwrite_hit (fun n => d.resultIdx? ((⟨2, ![a, b]⟩ : Shape).rowMajor.symm n) idx)
      (fun n => upd ((⟨2, ![a, b]⟩ : Shape).rowMajor.symm n)) hinj
      ((⟨2, ![a, b]⟩ : Shape).rowMajor (ix2 ⟨p.val - r0, by omega⟩ ⟨q.val - c0, by omega⟩)) (ix2 p q)
      (by
        show d.resultIdx? ((⟨2, ![a, b]⟩ : Shape).rowMajor.symm _) idx = _
        rw [Equiv.symm_apply_apply, hres]
        refine congrArg some ?_
        rw [eq_ix2 (ix2 p q)]
        congr 1
        · exact Fin.ext (by show r0 + (p.val - r0) = p.val; omega)
        · exact Fin.ext (by show c0 + (q.val - c0) = q.val; omega))
      (List.finRange (⟨2, ![a, b]⟩ : Shape).numel) x (List.nodup_finRange _) (List.mem_finRange _)
    rw [Equiv.symm_apply_apply] at key
    refine (congrFun (foldl_congr_step _ _ (fun r n => ?_) x _) (ix2 p q)).trans key
    beta_reduce
    generalize d.resultIdx? ((⟨2, ![a, b]⟩ : Shape).rowMajor.symm n) idx = o
    cases o <;> rfl
  · rw [dif_neg h]
    have key := foldl_overwrite_miss (fun n => d.resultIdx? ((⟨2, ![a, b]⟩ : Shape).rowMajor.symm n) idx)
      (fun n => upd ((⟨2, ![a, b]⟩ : Shape).rowMajor.symm n)) (ix2 p q) (List.finRange (⟨2, ![a, b]⟩ : Shape).numel) x
      (by
        intro n _ e
        simp only [hres] at e
        have e' := Option.some.inj e
        have e0 : r0 + (((⟨2, ![a, b]⟩ : Shape).rowMajor.symm n) 0).val = p.val := congrArg (fun f => (f 0).val) e'
        have e1 : c0 + (((⟨2, ![a, b]⟩ : Shape).rowMajor.symm n) 1).val = q.val := congrArg (fun f => (f 1).val) e'
        have l0 := idx2_lt0 ((⟨2, ![a, b]⟩ : Shape).rowMajor.symm n)
        have l1 := idx2_lt1 ((⟨2, ![a, b]⟩ : Shape).rowMajor.symm n)
        exact h ⟨by omega, by omega, by omega, by omega⟩)
    refine (congrFun (foldl_congr_step _ _ (fun r n => ?_) x _) (ix2 p q)).trans key
    beta_reduce
    generalize d.resultIdx? ((⟨2, ![a, b]⟩ : Shape).rowMajor.symm n) idx = o
    cases o <;> rfl

end Cert.LibScatterWindow
-- ==== Proof.HostScatter.lean ====
/-
  A prefix of a vector overwritten by a scatter. The scatter whose body returns the update, the operand a vector of
  length A, the update a vector of length a ≤ A whose one axis is a window axis, no inserted axis, and every
  window starting at 0, is the operand with its first a entries replaced by the update. The start is 0 either
  because the one start index is the word 0, or because the start index vector is empty.
-/
import Idealize.ShloMosaic.PureOps.ShapeOps
import Idealize.ShloMosaic.Lib.ValueIdx
import proofs.«157342_j28784870817852_2_alg».proof.Proof.LibScatterWindow

namespace Cert.Haar.Host

open Idealize.ShloMosaic
open Idealize.ShloMosaic.ValueIdx
open Cert.LibScatterWindow

section Window

variable {A a k w : Nat}

/-- The one coordinate of a vector index is below the vector's length. -/
theorem idx1_lt {n : Nat} (j : (⟨1, ![n]⟩ : Shape).Idx) : (j 0).val < n := (j 0).isLt

/-- With no inserted axis and the update's one axis a window axis, the window coordinate is the update index's coordinate. -/
theorem window1 (sd iv wf) (j : (⟨1, ![a]⟩ : Shape).Idx) :
    ScatterDims.window (s := (⟨1, ![A]⟩ : Shape)) (si := (⟨1, ![k]⟩ : Shape)) (u := (⟨1, ![a]⟩ : Shape))
      ⟨[0], [], sd, iv, wf⟩ j 0 = (j 0).val := by
  unfold ScatterDims.window
  split
  · rfl
  · rename_i h; exact absurd (List.mem_filter.2 ⟨List.mem_finRange _, by simp⟩) h

/-- With the operand's axis in the start index map and one start index, the window's start is that index, read signed. -/
theorem start1_one (wf) (idx : IVec (⟨1, ![1]⟩ : Shape) w) (j : (⟨1, ![a]⟩ : Shape).Idx) :
    ScatterDims.start (s := (⟨1, ![A]⟩ : Shape)) (si := (⟨1, ![1]⟩ : Shape)) (u := (⟨1, ![a]⟩ : Shape))
      ⟨[0], [], [0], 0, wf⟩ j idx 0 = (idx (ix1 0)).toInt := by
  unfold ScatterDims.start
  rw [dif_pos (List.mem_cons_self ..)]
  congr 2
  funext c
  match c with
  | ⟨0, _⟩ => rfl

/-- With an empty start index map the window's start is 0. -/
theorem start1_none (iv wf) (idx : IVec (⟨1, ![k]⟩ : Shape) w) (j : (⟨1, ![a]⟩ : Shape).Idx) :
    ScatterDims.start (s := (⟨1, ![A]⟩ : Shape)) (si := (⟨1, ![k]⟩ : Shape)) (u := (⟨1, ![a]⟩ : Shape))
      ⟨[0], [], [], iv, wf⟩ j idx 0 = 0 := by
  unfold ScatterDims.start
  rw [dif_neg List.not_mem_nil]

/-- Every window starting at 0, the update index j lands at the operand index j. -/
theorem resultIdx_window1 (d : ScatterDims (⟨1, ![A]⟩ : Shape) (⟨1, ![k]⟩ : Shape) (⟨1, ![a]⟩ : Shape))
    (huw : d.updateWindowDims = [0]) (hiw : d.insertedWindowDims = [])
    (idx : IVec (⟨1, ![k]⟩ : Shape) w) (hstart : ∀ j, d.start j idx 0 = 0)
    (hA : a ≤ A) (j : (⟨1, ![a]⟩ : Shape).Idx) :
    d.resultIdx? j idx = some (ix1 ⟨(j 0).val, by have := idx1_lt j; omega⟩) := by
  have hj0 := idx1_lt j
  have hs := hstart j
  obtain ⟨uw, iw, sd, iv, wf⟩ := d
  simp only at huw hiw
  subst huw hiw
  unfold ScatterDims.resultIdx?
  have h0 : ScatterDims.start (s := (⟨1, ![A]⟩ : Shape)) (si := (⟨1, ![k]⟩ : Shape)) (u := (⟨1, ![a]⟩ : Shape))
      ⟨[0], [], sd, iv, wf⟩ j idx 0
      + (ScatterDims.window (s := (⟨1, ![A]⟩ : Shape)) (si := (⟨1, ![k]⟩ : Shape)) (u := (⟨1, ![a]⟩ : Shape))
      ⟨[0], [], sd, iv, wf⟩ j 0 : ℕ) = (((j 0).val : ℕ) : ℤ) := by
    rw [hs, window1, Int.zero_add]
  rw [dif_pos (Fin.forall_fin_one.2 (by
      rw [h0]; exact ⟨by omega, by show (((j 0).val : ℕ) : ℤ) < (A : ℤ); omega⟩))]
  refine congrArg some (funext (Fin.forall_fin_one.2 (Fin.ext ?_)))
  show (_ + _ : ℤ).toNat = (j 0).val
  rw [h0]; exact Int.toNat_natCast _

end Window

/-- The scatter whose body returns the update, an update of length a into an operand of length A ≥ a, every window
    starting at 0: at p the result is the update at p when p < a, else the operand. -/
theorem scatter_prefix_apply {α : Type} {A a k w : Nat}
    (d : ScatterDims (⟨1, ![A]⟩ : Shape) (⟨1, ![k]⟩ : Shape) (⟨1, ![a]⟩ : Shape))
    (huw : d.updateWindowDims = [0]) (hiw : d.insertedWindowDims = [])
    (x : (⟨1, ![A]⟩ : Shape).Idx → α) (idx : IVec (⟨1, ![k]⟩ : Shape) w) (upd : (⟨1, ![a]⟩ : Shape).Idx → α)
    (hstart : ∀ j, d.start j idx 0 = 0) (hA : a ≤ A) (p : Fin A) :
    Host.scatter d (fun _ y => y) x idx upd (ix1 p)
      = if h : p.val < a then upd (ix1 ⟨p.val, h⟩) else x (ix1 p) := by
  have hres := resultIdx_window1 d huw hiw idx hstart hA
  unfold Host.scatter
  by_cases h : p.val < a
  · rw [dif_pos h]
    have hinj : ∀ n m : Fin (⟨1, ![a]⟩ : Shape).numel,
        (fun n => d.resultIdx? ((⟨1, ![a]⟩ : Shape).rowMajor.symm n) idx) n
          = (fun n => d.resultIdx? ((⟨1, ![a]⟩ : Shape).rowMajor.symm n) idx) m →
        (fun n => d.resultIdx? ((⟨1, ![a]⟩ : Shape).rowMajor.symm n) idx) n ≠ none → n = m := by
      intro n m hnm _
      simp only [hres] at hnm
      have e := Option.some.inj hnm
      have e0 : (((⟨1, ![a]⟩ : Shape).rowMajor.symm n) 0).val
          = (((⟨1, ![a]⟩ : Shape).rowMajor.symm m) 0).val := congrArg (fun f => (f 0).val) e
      apply (⟨1, ![a]⟩ : Shape).rowMajor.symm.injective
      rw [eq_ix1 ((⟨1, ![a]⟩ : Shape).rowMajor.symm n), eq_ix1 ((⟨1, ![a]⟩ : Shape).rowMajor.symm m)]
      congr 1; exact Fin.ext e0
    have key := foldl_overwrite_hit (fun n => d.resultIdx? ((⟨1, ![a]⟩ : Shape).rowMajor.symm n) idx)
      (fun n => upd ((⟨1, ![a]⟩ : Shape).rowMajor.symm n)) hinj
      ((⟨1, ![a]⟩ : Shape).rowMajor (ix1 ⟨p.val, h⟩)) (ix1 p)
      (by
        show d.resultIdx? ((⟨1, ![a]⟩ : Shape).rowMajor.symm _) idx = _
        rw [Equiv.symm_apply_apply, hres]
        rfl)
      (List.finRange (⟨1, ![a]⟩ : Shape).numel) x (List.nodup_finRange _) (List.mem_finRange _)
    rw [Equiv.symm_apply_apply] at key
    refine (congrFun (foldl_congr_step _ _ (fun r n => ?_) x _) (ix1 p)).trans key
    beta_reduce
    generalize d.resultIdx? ((⟨1, ![a]⟩ : Shape).rowMajor.symm n) idx = o
    cases o <;> rfl
  · rw [dif_neg h]
    have key := foldl_overwrite_miss (fun n => d.resultIdx? ((⟨1, ![a]⟩ : Shape).rowMajor.symm n) idx)
      (fun n => upd ((⟨1, ![a]⟩ : Shape).rowMajor.symm n)) (ix1 p) (List.finRange (⟨1, ![a]⟩ : Shape).numel) x
      (by
        intro n _ e
        simp only [hres] at e
        have e' := Option.some.inj e
        have e0 : (((⟨1, ![a]⟩ : Shape).rowMajor.symm n) 0).val = p.val := congrArg (fun f => (f 0).val) e'
        have l0 := idx1_lt ((⟨1, ![a]⟩ : Shape).rowMajor.symm n)
        exact h (by omega))
    refine (congrFun (foldl_congr_step _ _ (fun r n => ?_) x _) (ix1 p)).trans key
    beta_reduce
    generalize d.resultIdx? ((⟨1, ![a]⟩ : Shape).rowMajor.symm n) idx = o
    cases o <;> rfl

end Cert.Haar.Host
-- ==== Proof.HostLevel.lean ====
/-
  One level's glue, as a value. Two vectors u, v of length h interleaved into a vector of length 2h (each made a
  column, the two columns set side by side, the h × 2 array read row by row) hold u at the even entries and v at the
  odd ones; a matrix of rows of 128 read row by row holds entry 128 r + c of the flat signal at (r, c). With u and v
  the two butterfly outputs of a level and the interleave written over the first 2h entries of the signal, the result is
  the level.
-/
import Idealize.ShloMosaic.Lib.Pipeline.Value
import Idealize.ShloMosaic.Lib.IdealHost
import proofs.«157342_j28784870817852_2_alg».proof.Proof.Spec
import proofs.«157342_j28784870817852_2_alg».proof.Proof.HostScatter

noncomputable section

namespace Cert.Haar.Host

open Idealize.ShloMosaic
open Idealize.ShloMosaic.ValueIdx
open Cert.Haar

/-- A matrix of hr rows of 128 read row by row as a vector of length h = 128 · hr: entry n is entry (n / 128, n % 128). -/
theorem unrows_apply {α : Type} {hr h : Nat} (hh : h = 128 * hr)
    (hc : (⟨2, ![hr, 128]⟩ : Shape).ShapeCasts ⟨1, ![h]⟩)
    (c : (⟨2, ![hr, 128]⟩ : Shape).Idx → α) (n : Fin h) :
    shapeCast ⟨1, ![h]⟩ c hc (ix1 n)
      = c (ix2 ⟨n.val / 128, by have := n.isLt; omega⟩ ⟨n.val % 128, Nat.mod_lt _ (by norm_num)⟩) := by
  refine shapeCast_apply c hc _ _ ?_
  rw [Shape.rowMajor_val_two, Shape.rowMajor_val_one]
  show n.val / 128 * 128 + n.val % 128 = n.val
  omega

/-- Two vectors of length h interleaved: entry q of the vector of length 2h is u at q / 2 when q is even, v at q / 2 when q is odd. -/
theorem interleave_apply {α : Type} {h h2 : Nat} (hh2 : h2 = 2 * h)
    (hb : (⟨1, ![h]⟩ : Shape).BroadcastsInDim ⟨2, ![h, 1]⟩ (![0] : Fin 1 → Fin 2))
    (hcat : Shape.Concatenates [(⟨2, ![h, 1]⟩ : Shape), ⟨2, ![h, 1]⟩] ⟨2, ![h, 2]⟩ 1)
    (hs : (⟨2, ![h, 2]⟩ : Shape).ShapeCasts ⟨1, ![h2]⟩)
    (u v : (⟨1, ![h]⟩ : Shape).Idx → α) (q : Fin h2) :
    shapeCast ⟨1, ![h2]⟩
        (concatenate ⟨2, ![h, 2]⟩ 1
          [⟨⟨2, ![h, 1]⟩, broadcastInDim ⟨2, ![h, 1]⟩ ![0] hb u⟩, ⟨⟨2, ![h, 1]⟩, broadcastInDim ⟨2, ![h, 1]⟩ ![0] hb v⟩] hcat)
        hs (ix1 q)
      = if q.val % 2 = 0 then u (ix1 ⟨q.val / 2, by have := q.isLt; omega⟩)
        else v (ix1 ⟨q.val / 2, by have := q.isLt; omega⟩) := by
  have hq := q.isLt
  have hq2 : q.val / 2 < h := by omega
  refine (shapeCast_apply _ hs (ix1 q) (ix2 ⟨q.val / 2, hq2⟩ ⟨q.val % 2, Nat.mod_lt _ (by norm_num)⟩) ?_).trans ?_
  · rw [Shape.rowMajor_val_two, Shape.rowMajor_val_one]
    show q.val / 2 * 2 + q.val % 2 = q.val
    omega
  · by_cases hpar : q.val % 2 = 0
    · rw [if_pos hpar]
      refine (concatenate_pair_apply_left (t := (⟨2, ![h, 2]⟩ : Shape)) (s₁ := (⟨2, ![h, 1]⟩ : Shape)) (s₂ := (⟨2, ![h, 1]⟩ : Shape))
        (1 : Fin 2) _ _ hcat _ rfl (ix2 ⟨q.val / 2, hq2⟩ (0 : Fin 1)) ?_).trans ?_
      · intro b
        match b with
        | ⟨0, _⟩ => rfl
        | ⟨1, _⟩ => show 0 = q.val % 2; omega
      · refine broadcastInDim_apply ![0] hb u _ (ix1 ⟨q.val / 2, hq2⟩) ?_
        intro a
        match a with
        | ⟨0, _⟩ =>
          show q.val / 2 = if h = 1 then 0 else q.val / 2
          split
          · omega
          · rfl
    · rw [if_neg hpar]
      refine (concatenate_pair_apply_right (t := (⟨2, ![h, 2]⟩ : Shape)) (s₁ := (⟨2, ![h, 1]⟩ : Shape)) (s₂ := (⟨2, ![h, 1]⟩ : Shape))
        (1 : Fin 2) _ _ hcat _ rfl rfl (ix2 ⟨q.val / 2, hq2⟩ (0 : Fin 1)) ?_ ?_).trans ?_
      · intro b hb1
        match b with
        | ⟨0, _⟩ => rfl
        | ⟨1, _⟩ => exact absurd rfl hb1
      · show 0 + 1 = q.val % 2
        omega
      · refine broadcastInDim_apply ![0] hb v _ (ix1 ⟨q.val / 2, hq2⟩) ?_
        intro a
        match a with
        | ⟨0, _⟩ =>
          show q.val / 2 = if h = 1 then 0 else q.val / 2
          split
          · omega
          · rfl

/-- The flat signal read at a position inside it. -/
theorem rd_lt (x : FVec Ideal SFlat .f32) (n : Nat) (hn : n < 33554432) : rd x n = x (ix1 ⟨n, hn⟩) := dif_pos hn

/-- The flat signal as rows of 128. -/
theorem rows_eq (h : SFlat.ShapeCasts SRows) (x : FVec Ideal SFlat .f32) : shapeCast SRows x h = rows x := by
  funext j
  have h0 := idx2_lt0 j
  have h1 := idx2_lt1 j
  have hn : 128 * (j 0).val + (j 1).val < 33554432 := by omega
  unfold rows
  rw [rd_lt x _ hn]
  refine shapeCast_apply x h j _ ?_
  rw [Shape.rowMajor_val_two, Shape.rowMajor_val_one]
  show 128 * (j 0).val + (j 1).val = (j 0).val * 128 + (j 1).val
  omega

/-- A signal with two leading unit axes as a flat one. -/
theorem flat_eq (h : SUnit.ShapeCasts SFlat) (x : FVec Ideal SUnit .f32) : shapeCast SFlat x h = flat x := by
  funext i
  unfold flat
  refine shapeCast_apply x h i _ ?_
  rw [Shape.rowMajor_val_three, Shape.rowMajor_val_one]
  show ((0 * 1 + 0) * 33554432 + (i 0).val) = (i 0).val
  omega

/-- A flat signal given two leading unit axes. -/
theorem unflat_eq (h : SFlat.ShapeCasts SUnit) (y : FVec Ideal SFlat .f32) : shapeCast SUnit y h = unflat y := by
  funext j
  unfold unflat
  refine shapeCast_apply y h j _ ?_
  have e0 : (j 0).val = 0 := by have := (j 0).isLt; change (j 0).val < 1 at this; omega
  have e1 : (j 1).val = 0 := by have := (j 1).isLt; change (j 1).val < 1 at this; omega
  rw [Shape.rowMajor_val_three, Shape.rowMajor_val_one]
  show (j 2).val = ((j 0).val * 1 + (j 1).val) * 33554432 + (j 2).val
  rw [e0, e1]
  omega

/-- One level: the interleave of the two butterfly outputs, written over the first 2h entries of the signal by a scatter
    whose windows all start at 0, is the level with half-length h = 128 · hr. -/
theorem level_eq {hr h h2 k w : Nat} (hh : h = 128 * hr) (hh2 : h2 = 2 * h) (hL : h2 ≤ 33554432)
    (d : ScatterDims SFlat (⟨1, ![k]⟩ : Shape) (⟨1, ![h2]⟩ : Shape))
    (huw : d.updateWindowDims = [0]) (hiw : d.insertedWindowDims = [])
    (idx : IVec (⟨1, ![k]⟩ : Shape) w) (hstart : ∀ j, d.start j idx 0 = 0)
    (hc : (⟨2, ![hr, 128]⟩ : Shape).ShapeCasts ⟨1, ![h]⟩)
    (hb : (⟨1, ![h]⟩ : Shape).BroadcastsInDim ⟨2, ![h, 1]⟩ (![0] : Fin 1 → Fin 2))
    (hcat : Shape.Concatenates [(⟨2, ![h, 1]⟩ : Shape), ⟨2, ![h, 1]⟩] ⟨2, ![h, 2]⟩ 1)
    (hs : (⟨2, ![h, 2]⟩ : Shape).ShapeCasts ⟨1, ![h2]⟩)
    (x : FVec Ideal SFlat .f32) :
    Host.scatter d (fun _ b => b) x idx
        (shapeCast ⟨1, ![h2]⟩
          (concatenate ⟨2, ![h, 2]⟩ 1
            [⟨⟨2, ![h, 1]⟩, broadcastInDim ⟨2, ![h, 1]⟩ ![0] hb (shapeCast ⟨1, ![h]⟩ (sumHalf hr x) hc)⟩,
             ⟨⟨2, ![h, 1]⟩, broadcastInDim ⟨2, ![h, 1]⟩ ![0] hb (shapeCast ⟨1, ![h]⟩ (diffHalf hr x) hc)⟩] hcat)
          hs)
      = lvl h x := by
  funext i
  rw [eq_ix1 i]
  generalize i 0 = p
  refine (scatter_prefix_apply d huw hiw x idx _ hstart hL p).trans ?_
  unfold lvl
  show _ = if p.val < 2 * h then _ else _
  by_cases hp : p.val < h2
  · rw [dif_pos hp, if_pos (by omega)]
    refine (interleave_apply hh2 hb hcat hs _ _ ⟨p.val, hp⟩).trans ?_
    show (if p.val % 2 = 0 then _ else _) = if p.val % 2 = 0 then _ else _
    have hp2 : p.val / 2 < h := by omega
    have e : 128 * (p.val / 2 / 128) + p.val / 2 % 128 = p.val / 2 := by omega
    by_cases hpar : p.val % 2 = 0
    · rw [if_pos hpar, if_pos hpar]
      refine (unrows_apply hh hc _ ⟨p.val / 2, hp2⟩).trans ?_
      show (rd x (128 * (p.val / 2 / 128) + p.val / 2 % 128) + rd x (128 * (p.val / 2 / 128) + p.val / 2 % 128 + 128 * hr)) * kc = _
      rw [e, ← hh]
    · rw [if_neg hpar, if_neg hpar]
      refine (unrows_apply hh hc _ ⟨p.val / 2, hp2⟩).trans ?_
      show (rd x (128 * (p.val / 2 / 128) + p.val / 2 % 128) - rd x (128 * (p.val / 2 / 128) + p.val / 2 % 128 + 128 * hr)) * kc = _
      rw [e, ← hh]
  · rw [dif_neg hp, if_neg (by omega)]
    rfl

end Cert.Haar.Host

end
-- ==== Proof.HostValue.lean ====
/-
  The array operations between the five butterfly stages, as values. From any contents of the buffers, the first
  stretch leaves the input signal flattened and cut into rows of 128; each later stretch, given the signal and the
  level's two butterfly outputs at the buffers it reads, leaves the level's output as a flat signal and as rows of 128;
  the last leaves it with the input's two leading unit axes.
-/
import proofs.«157342_j28784870817852_2_alg».proof.Proof.Gen.KernelIdeal.Launch
import proofs.«157342_j28784870817852_2_alg».proof.Proof.HostLevel

noncomputable section

namespace Cert.Haar.Host

open Idealize.ShloMosaic
open Idealize.ShloMosaic.ValueIdx
open Cert.KernelIdeal Cert.KernelIdeal.Facts₀
open Cert.Haar

/-- Contents of every buffer of the program, at the ideal instance. -/
abbrev Val : Type := Valuation Cert.KernelIdeal.τ Cert.KernelIdeal.sig (Elt Ideal)

/-- The start index vector of the first four levels' scatters holds the word 0. -/
theorem idx_zero (j : (⟨1, ![1]⟩ : Shape).Idx) :
    broadcastInDim S1 ![] bcast_S_S1 (constantI S_ 32 0#32) j = 0#32 :=
  broadcastInDim_scalar_apply bcast_S_S1 _ j

/-! ## The entry: the input flattened, and as rows -/

set_option maxRecDepth 8192 in
theorem H0_flat (W : Val) :
    (StableHlo.after (Gen.hostOps0 (F := Ideal)) W (Proc.devRef .tc main_call0_v0) : FVec Ideal SFlat .f32)
      = flat (W (Proc.devRef .tc main_arg0)) := by
  have e : (StableHlo.after (Gen.hostOps0 (F := Ideal)) W (Proc.devRef .tc main_call0_v0) : FVec Ideal SFlat .f32)
      = shapeCast S33554432 (W (Proc.devRef .tc main_arg0)) shapeCasts_S1x1x33554432_S33554432 := by
    dsimp only [Gen.hostOps0]; after_results; rfl
  rw [e]
  exact flat_eq _ _

set_option maxRecDepth 8192 in
theorem H0_rows (W : Val) :
    (StableHlo.after (Gen.hostOps0 (F := Ideal)) W (Proc.devRef .tc main_call0_v1) : FVec Ideal SRows .f32)
      = rows (flat (W (Proc.devRef .tc main_arg0))) := by
  have e : (StableHlo.after (Gen.hostOps0 (F := Ideal)) W (Proc.devRef .tc main_call0_v1) : FVec Ideal SRows .f32)
      = shapeCast S262144x128 (shapeCast S33554432 (W (Proc.devRef .tc main_arg0)) shapeCasts_S1x1x33554432_S33554432)
          shapeCasts_S33554432_S262144x128 := by
    dsimp only [Gen.hostOps0]; after_results; rfl
  rw [e, flat_eq]
  exact rows_eq _ _

/-! ## Level 1: half-length 1048576 -/

set_option maxRecDepth 8192 in
/-- The scatter's result as the operations' term of what the stretch reads. -/
theorem term1 (W : Val) :
    (StableHlo.after (Gen.hostOps1 (F := Ideal)) W (Proc.devRef .tc main_call0_v10) : FVec Ideal SFlat .f32)
      = Host.scatter scatter_S33554432_S1_S2097152_0_n_0_0 (fun _ b => b) (W (Proc.devRef .tc main_call0_v0))
          (broadcastInDim S1 ![] bcast_S_S1 (constantI S_ 32 0#32))
          (shapeCast S2097152
            (concatenate S1048576x2 1
              [⟨S1048576x1, broadcastInDim S1048576x1 ![0] bcast_S1048576_S1048576x1_0
                  (shapeCast S1048576 (W (Proc.devRef .tc main_call0_v2_0)) shapeCasts_S8192x128_S1048576)⟩,
               ⟨S1048576x1, broadcastInDim S1048576x1 ![0] bcast_S1048576_S1048576x1_0
                  (shapeCast S1048576 (W (Proc.devRef .tc main_call0_v2_1)) shapeCasts_S8192x128_S1048576)⟩]
              concatenates_S1048576x1_S1048576x1_S1048576x2_d1)
            shapeCasts_S1048576x2_S2097152) := by
  dsimp only [Gen.hostOps1]; after_results
  refine (cast_eq _ _).trans ?_
  refine congr (congr (congrArg (Host.scatter scatter_S33554432_S1_S2097152_0_n_0_0 (fun _ b => b)) ?_) ?_) ?_
  · rfl
  · rfl
  · rfl

/-- With the signal and the level's two butterfly outputs at the buffers the stretch reads, the scatter's result is the level. -/
theorem H1_flat (W : Val) (x : FVec Ideal SFlat .f32)
    (hx : W (Proc.devRef .tc main_call0_v0) = x)
    (hc : W (Proc.devRef .tc main_call0_v2_0) = sumHalf 8192 x)
    (hd : W (Proc.devRef .tc main_call0_v2_1) = diffHalf 8192 x) :
    (StableHlo.after (Gen.hostOps1 (F := Ideal)) W (Proc.devRef .tc main_call0_v10) : FVec Ideal SFlat .f32)
      = lvl 1048576 x := by
  rw [term1, hx, hc, hd]
  exact level_eq (hr := 8192) (h := 1048576) (h2 := 2097152) (by norm_num) (by norm_num) (by norm_num)
    scatter_S33554432_S1_S2097152_0_n_0_0 rfl rfl _
    (fun j => (start1_one _ _ j).trans (by rw [idx_zero]; rfl))
    shapeCasts_S8192x128_S1048576 bcast_S1048576_S1048576x1_0 concatenates_S1048576x1_S1048576x1_S1048576x2_d1
    shapeCasts_S1048576x2_S2097152 x

set_option maxRecDepth 8192 in
/-- The rows handed to the next level are the rows of the scatter's result. -/
theorem rowsTerm1 (W : Val) :
    (StableHlo.after (Gen.hostOps1 (F := Ideal)) W (Proc.devRef .tc main_call0_v11) : FVec Ideal SRows .f32)
      = shapeCast S262144x128 (StableHlo.after (Gen.hostOps1 (F := Ideal)) W (Proc.devRef .tc main_call0_v10) : FVec Ideal SFlat .f32)
          shapeCasts_S33554432_S262144x128 := by
  dsimp only [Gen.hostOps1]; after_results; rfl

theorem H1_rows (W : Val) (x : FVec Ideal SFlat .f32)
    (hx : W (Proc.devRef .tc main_call0_v0) = x)
    (hc : W (Proc.devRef .tc main_call0_v2_0) = sumHalf 8192 x)
    (hd : W (Proc.devRef .tc main_call0_v2_1) = diffHalf 8192 x) :
    (StableHlo.after (Gen.hostOps1 (F := Ideal)) W (Proc.devRef .tc main_call0_v11) : FVec Ideal SRows .f32)
      = rows (lvl 1048576 x) := by
  rw [rowsTerm1, H1_flat W x hx hc hd]
  exact rows_eq _ _

/-! ## Level 2: half-length 2097152 -/

set_option maxRecDepth 8192 in
/-- The scatter's result as the operations' term of what the stretch reads. -/
theorem term2 (W : Val) :
    (StableHlo.after (Gen.hostOps2 (F := Ideal)) W (Proc.devRef .tc main_call0_v20) : FVec Ideal SFlat .f32)
      = Host.scatter scatter_S33554432_S1_S4194304_0_n_0_0 (fun _ b => b) (W (Proc.devRef .tc main_call0_v10))
          (broadcastInDim S1 ![] bcast_S_S1 (constantI S_ 32 0#32))
          (shapeCast S4194304
            (concatenate S2097152x2 1
              [⟨S2097152x1, broadcastInDim S2097152x1 ![0] bcast_S2097152_S2097152x1_0
                  (shapeCast S2097152 (W (Proc.devRef .tc main_call0_v12_0)) shapeCasts_S16384x128_S2097152)⟩,
               ⟨S2097152x1, broadcastInDim S2097152x1 ![0] bcast_S2097152_S2097152x1_0
                  (shapeCast S2097152 (W (Proc.devRef .tc main_call0_v12_1)) shapeCasts_S16384x128_S2097152)⟩]
              concatenates_S2097152x1_S2097152x1_S2097152x2_d1)
            shapeCasts_S2097152x2_S4194304) := by
  dsimp only [Gen.hostOps2]; after_results
  refine (cast_eq _ _).trans ?_
  refine congr (congr (congrArg (Host.scatter scatter_S33554432_S1_S4194304_0_n_0_0 (fun _ b => b)) ?_) ?_) ?_
  · rfl
  · rfl
  · rfl

/-- With the signal and the level's two butterfly outputs at the buffers the stretch reads, the scatter's result is the level. -/
theorem H2_flat (W : Val) (x : FVec Ideal SFlat .f32)
    (hx : W (Proc.devRef .tc main_call0_v10) = x)
    (hc : W (Proc.devRef .tc main_call0_v12_0) = sumHalf 16384 x)
    (hd : W (Proc.devRef .tc main_call0_v12_1) = diffHalf 16384 x) :
    (StableHlo.after (Gen.hostOps2 (F := Ideal)) W (Proc.devRef .tc main_call0_v20) : FVec Ideal SFlat .f32)
      = lvl 2097152 x := by
  rw [term2, hx, hc, hd]
  exact level_eq (hr := 16384) (h := 2097152) (h2 := 4194304) (by norm_num) (by norm_num) (by norm_num)
    scatter_S33554432_S1_S4194304_0_n_0_0 rfl rfl _
    (fun j => (start1_one _ _ j).trans (by rw [idx_zero]; rfl))
    shapeCasts_S16384x128_S2097152 bcast_S2097152_S2097152x1_0 concatenates_S2097152x1_S2097152x1_S2097152x2_d1
    shapeCasts_S2097152x2_S4194304 x

set_option maxRecDepth 8192 in
/-- The rows handed to the next level are the rows of the scatter's result. -/
theorem rowsTerm2 (W : Val) :
    (StableHlo.after (Gen.hostOps2 (F := Ideal)) W (Proc.devRef .tc main_call0_v21) : FVec Ideal SRows .f32)
      = shapeCast S262144x128 (StableHlo.after (Gen.hostOps2 (F := Ideal)) W (Proc.devRef .tc main_call0_v20) : FVec Ideal SFlat .f32)
          shapeCasts_S33554432_S262144x128 := by
  dsimp only [Gen.hostOps2]; after_results; rfl

theorem H2_rows (W : Val) (x : FVec Ideal SFlat .f32)
    (hx : W (Proc.devRef .tc main_call0_v10) = x)
    (hc : W (Proc.devRef .tc main_call0_v12_0) = sumHalf 16384 x)
    (hd : W (Proc.devRef .tc main_call0_v12_1) = diffHalf 16384 x) :
    (StableHlo.after (Gen.hostOps2 (F := Ideal)) W (Proc.devRef .tc main_call0_v21) : FVec Ideal SRows .f32)
      = rows (lvl 2097152 x) := by
  rw [rowsTerm2, H2_flat W x hx hc hd]
  exact rows_eq _ _

/-! ## Level 3: half-length 4194304 -/

set_option maxRecDepth 8192 in
/-- The scatter's result as the operations' term of what the stretch reads. -/
theorem term3 (W : Val) :
    (StableHlo.after (Gen.hostOps3 (F := Ideal)) W (Proc.devRef .tc main_call0_v30) : FVec Ideal SFlat .f32)
      = Host.scatter scatter_S33554432_S1_S8388608_0_n_0_0 (fun _ b => b) (W (Proc.devRef .tc main_call0_v20))
          (broadcastInDim S1 ![] bcast_S_S1 (constantI S_ 32 0#32))
          (shapeCast S8388608
            (concatenate S4194304x2 1
              [⟨S4194304x1, broadcastInDim S4194304x1 ![0] bcast_S4194304_S4194304x1_0
                  (shapeCast S4194304 (W (Proc.devRef .tc main_call0_v22_0)) shapeCasts_S32768x128_S4194304)⟩,
               ⟨S4194304x1, broadcastInDim S4194304x1 ![0] bcast_S4194304_S4194304x1_0
                  (shapeCast S4194304 (W (Proc.devRef .tc main_call0_v22_1)) shapeCasts_S32768x128_S4194304)⟩]
              concatenates_S4194304x1_S4194304x1_S4194304x2_d1)
            shapeCasts_S4194304x2_S8388608) := by
  dsimp only [Gen.hostOps3]; after_results
  refine (cast_eq _ _).trans ?_
  refine congr (congr (congrArg (Host.scatter scatter_S33554432_S1_S8388608_0_n_0_0 (fun _ b => b)) ?_) ?_) ?_
  · rfl
  · rfl
  · rfl

/-- With the signal and the level's two butterfly outputs at the buffers the stretch reads, the scatter's result is the level. -/
theorem H3_flat (W : Val) (x : FVec Ideal SFlat .f32)
    (hx : W (Proc.devRef .tc main_call0_v20) = x)
    (hc : W (Proc.devRef .tc main_call0_v22_0) = sumHalf 32768 x)
    (hd : W (Proc.devRef .tc main_call0_v22_1) = diffHalf 32768 x) :
    (StableHlo.after (Gen.hostOps3 (F := Ideal)) W (Proc.devRef .tc main_call0_v30) : FVec Ideal SFlat .f32)
      = lvl 4194304 x := by
  rw [term3, hx, hc, hd]
  exact level_eq (hr := 32768) (h := 4194304) (h2 := 8388608) (by norm_num) (by norm_num) (by norm_num)
    scatter_S33554432_S1_S8388608_0_n_0_0 rfl rfl _
    (fun j => (start1_one _ _ j).trans (by rw [idx_zero]; rfl))
    shapeCasts_S32768x128_S4194304 bcast_S4194304_S4194304x1_0 concatenates_S4194304x1_S4194304x1_S4194304x2_d1
    shapeCasts_S4194304x2_S8388608 x

set_option maxRecDepth 8192 in
/-- The rows handed to the next level are the rows of the scatter's result. -/
theorem rowsTerm3 (W : Val) :
    (StableHlo.after (Gen.hostOps3 (F := Ideal)) W (Proc.devRef .tc main_call0_v31) : FVec Ideal SRows .f32)
      = shapeCast S262144x128 (StableHlo.after (Gen.hostOps3 (F := Ideal)) W (Proc.devRef .tc main_call0_v30) : FVec Ideal SFlat .f32)
          shapeCasts_S33554432_S262144x128 := by
  dsimp only [Gen.hostOps3]; after_results; rfl

theorem H3_rows (W : Val) (x : FVec Ideal SFlat .f32)
    (hx : W (Proc.devRef .tc main_call0_v20) = x)
    (hc : W (Proc.devRef .tc main_call0_v22_0) = sumHalf 32768 x)
    (hd : W (Proc.devRef .tc main_call0_v22_1) = diffHalf 32768 x) :
    (StableHlo.after (Gen.hostOps3 (F := Ideal)) W (Proc.devRef .tc main_call0_v31) : FVec Ideal SRows .f32)
      = rows (lvl 4194304 x) := by
  rw [rowsTerm3, H3_flat W x hx hc hd]
  exact rows_eq _ _

/-! ## Level 4: half-length 8388608 -/

set_option maxRecDepth 8192 in
/-- The scatter's result as the operations' term of what the stretch reads. -/
theorem term4 (W : Val) :
    (StableHlo.after (Gen.hostOps4 (F := Ideal)) W (Proc.devRef .tc main_call0_v40) : FVec Ideal SFlat .f32)
      = Host.scatter scatter_S33554432_S1_S16777216_0_n_0_0 (fun _ b => b) (W (Proc.devRef .tc main_call0_v30))
          (broadcastInDim S1 ![] bcast_S_S1 (constantI S_ 32 0#32))
          (shapeCast S16777216
            (concatenate S8388608x2 1
              [⟨S8388608x1, broadcastInDim S8388608x1 ![0] bcast_S8388608_S8388608x1_0
                  (shapeCast S8388608 (W (Proc.devRef .tc main_call0_v32_0)) shapeCasts_S65536x128_S8388608)⟩,
               ⟨S8388608x1, broadcastInDim S8388608x1 ![0] bcast_S8388608_S8388608x1_0
                  (shapeCast S8388608 (W (Proc.devRef .tc main_call0_v32_1)) shapeCasts_S65536x128_S8388608)⟩]
              concatenates_S8388608x1_S8388608x1_S8388608x2_d1)
            shapeCasts_S8388608x2_S16777216) := by
  dsimp only [Gen.hostOps4]; after_results
  refine (cast_eq _ _).trans ?_
  refine congr (congr (congrArg (Host.scatter scatter_S33554432_S1_S16777216_0_n_0_0 (fun _ b => b)) ?_) ?_) ?_
  · rfl
  · rfl
  · rfl

/-- With the signal and the level's two butterfly outputs at the buffers the stretch reads, the scatter's result is the level. -/
theorem H4_flat (W : Val) (x : FVec Ideal SFlat .f32)
    (hx : W (Proc.devRef .tc main_call0_v30) = x)
    (hc : W (Proc.devRef .tc main_call0_v32_0) = sumHalf 65536 x)
    (hd : W (Proc.devRef .tc main_call0_v32_1) = diffHalf 65536 x) :
    (StableHlo.after (Gen.hostOps4 (F := Ideal)) W (Proc.devRef .tc main_call0_v40) : FVec Ideal SFlat .f32)
      = lvl 8388608 x := by
  rw [term4, hx, hc, hd]
  exact level_eq (hr := 65536) (h := 8388608) (h2 := 16777216) (by norm_num) (by norm_num) (by norm_num)
    scatter_S33554432_S1_S16777216_0_n_0_0 rfl rfl _
    (fun j => (start1_one _ _ j).trans (by rw [idx_zero]; rfl))
    shapeCasts_S65536x128_S8388608 bcast_S8388608_S8388608x1_0 concatenates_S8388608x1_S8388608x1_S8388608x2_d1
    shapeCasts_S8388608x2_S16777216 x

set_option maxRecDepth 8192 in
/-- The rows handed to the next level are the rows of the scatter's result. -/
theorem rowsTerm4 (W : Val) :
    (StableHlo.after (Gen.hostOps4 (F := Ideal)) W (Proc.devRef .tc main_call0_v41) : FVec Ideal SRows .f32)
      = shapeCast S262144x128 (StableHlo.after (Gen.hostOps4 (F := Ideal)) W (Proc.devRef .tc main_call0_v40) : FVec Ideal SFlat .f32)
          shapeCasts_S33554432_S262144x128 := by
  dsimp only [Gen.hostOps4]; after_results; rfl

theorem H4_rows (W : Val) (x : FVec Ideal SFlat .f32)
    (hx : W (Proc.devRef .tc main_call0_v30) = x)
    (hc : W (Proc.devRef .tc main_call0_v32_0) = sumHalf 65536 x)
    (hd : W (Proc.devRef .tc main_call0_v32_1) = diffHalf 65536 x) :
    (StableHlo.after (Gen.hostOps4 (F := Ideal)) W (Proc.devRef .tc main_call0_v41) : FVec Ideal SRows .f32)
      = rows (lvl 8388608 x) := by
  rw [rowsTerm4, H4_flat W x hx hc hd]
  exact rows_eq _ _

/-! ## Level 5: half-length 16777216 -/

set_option maxRecDepth 8192 in
/-- The scatter's result as the operations' term of what the stretch reads. -/
theorem term5 (W : Val) :
    (StableHlo.after (Gen.hostOps5 (F := Ideal)) W (Proc.devRef .tc main_call0_v49) : FVec Ideal SFlat .f32)
      = Host.scatter scatter_S33554432_S0_S33554432_0_n_n_0 (fun _ b => b) (W (Proc.devRef .tc main_call0_v40))
          (W (Proc.devRef .tc main_call0_c))
          (shapeCast S33554432
            (concatenate S16777216x2 1
              [⟨S16777216x1, broadcastInDim S16777216x1 ![0] bcast_S16777216_S16777216x1_0
                  (shapeCast S16777216 (W (Proc.devRef .tc main_call0_v42_0)) shapeCasts_S131072x128_S16777216)⟩,
               ⟨S16777216x1, broadcastInDim S16777216x1 ![0] bcast_S16777216_S16777216x1_0
                  (shapeCast S16777216 (W (Proc.devRef .tc main_call0_v42_1)) shapeCasts_S131072x128_S16777216)⟩]
              concatenates_S16777216x1_S16777216x1_S16777216x2_d1)
            shapeCasts_S16777216x2_S33554432) := by
  dsimp only [Gen.hostOps5]; after_results
  refine (cast_eq _ _).trans ?_
  refine congr (congr (congrArg (Host.scatter scatter_S33554432_S0_S33554432_0_n_n_0 (fun _ b => b)) ?_) ?_) ?_
  · rfl
  · rfl
  · rfl

/-- With the signal and the level's two butterfly outputs at the buffers the stretch reads, the scatter's result is the level. -/
theorem H5_flat (W : Val) (x : FVec Ideal SFlat .f32)
    (hx : W (Proc.devRef .tc main_call0_v40) = x)
    (hc : W (Proc.devRef .tc main_call0_v42_0) = sumHalf 131072 x)
    (hd : W (Proc.devRef .tc main_call0_v42_1) = diffHalf 131072 x) :
    (StableHlo.after (Gen.hostOps5 (F := Ideal)) W (Proc.devRef .tc main_call0_v49) : FVec Ideal SFlat .f32)
      = lvl 16777216 x := by
  rw [term5, hx, hc, hd]
  exact level_eq (hr := 131072) (h := 16777216) (h2 := 33554432) (by norm_num) (by norm_num) (by norm_num)
    scatter_S33554432_S0_S33554432_0_n_n_0 rfl rfl _
    (fun j => start1_none _ _ _ j)
    shapeCasts_S131072x128_S16777216 bcast_S16777216_S16777216x1_0 concatenates_S16777216x1_S16777216x1_S16777216x2_d1
    shapeCasts_S16777216x2_S33554432 x

set_option maxRecDepth 8192 in
/-- The program's result is the scatter's result given two leading unit axes. -/
theorem outTerm5 (W : Val) :
    (StableHlo.after (Gen.hostOps5 (F := Ideal)) W (Proc.devRef .tc main_v0) : FVec Ideal SUnit .f32)
      = shapeCast S1x1x33554432 (StableHlo.after (Gen.hostOps5 (F := Ideal)) W (Proc.devRef .tc main_call0_v49) : FVec Ideal SFlat .f32)
          shapeCasts_S33554432_S1x1x33554432 := by
  dsimp only [Gen.hostOps5]; after_results; rfl

theorem H5_out (W : Val) (x : FVec Ideal SFlat .f32)
    (hx : W (Proc.devRef .tc main_call0_v40) = x)
    (hc : W (Proc.devRef .tc main_call0_v42_0) = sumHalf 131072 x)
    (hd : W (Proc.devRef .tc main_call0_v42_1) = diffHalf 131072 x) :
    (StableHlo.after (Gen.hostOps5 (F := Ideal)) W (Proc.devRef .tc main_v0) : FVec Ideal SUnit .f32)
      = unflat (lvl 16777216 x) := by
  rw [outTerm5, H5_flat W x hx hc hd]
  exact unflat_eq _ _

end Cert.Haar.Host

end
-- ==== Proof.KIVal0.lean ====
/-
  Region 0 of the program (the butterfly kernel's first launch) at the ideal instance: what the two result arrays hold
  when the region ends, as whole-array functions of the input array.

  The input array is 262144 rows of 128. Point t adds (and subtracts) its block t of 4096 rows and the block 2 further
  down, scales, and writes block t of each result array; the 2 points' blocks tile the 8192 rows of a result. So a
  result's entry (r, l) is the scaled sum (difference) of the input's entries (r, l) and (r + 8192, l). When the input
  array holds a flat signal as rows of 128, entry (r, l) is the signal's entry 128 r + l, and the results are the two
  butterfly outputs of the level with half-length 128 · 8192.
-/
import proofs.«157342_j28784870817852_2_alg».proof.Proof.KIBody0
import proofs.«157342_j28784870817852_2_alg».proof.Proof.Spec
import Idealize.ShloMosaic.Lib.Pipeline.Value
import Idealize.ShloMosaic.Lib.ValueIdx

noncomputable section

namespace Cert.KernelIdeal.FrVal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

/-- The zero offset of a whole-block rectangle. -/
theorem zoff0 : (![0, 0] : Fin 2 → Nat) = fun _ => 0 := funext fun a => by fin_cases a <;> rfl

/-- Row r of the first half of the rows, and the row 8192 below it. -/
def lo0 (i : S8192x128.Idx) : S262144x128.Idx :=
  ix2 ⟨(i 0).val, by have h : (i 0).val < 8192 := (i 0).isLt; omega⟩ ⟨(i 1).val, (i 1).isLt⟩
def hi0 (i : S8192x128.Idx) : S262144x128.Idx :=
  ix2 ⟨(i 0).val + 8192, by have h : (i 0).val < 8192 := (i 0).isLt; omega⟩ ⟨(i 1).val, (i 1).isLt⟩

/-- The scaled sum and the scaled difference of a row of the first 8192 rows and the row 8192 below it. -/
abbrev Gsum0 (a : S262144x128.Idx → Ideal .f32) : S8192x128.Idx → Ideal .f32 := fun i =>
  (a (lo0 i) + a (hi0 i)) * Ideal.ofBits .f32 0x3F3504F3#32
abbrev Gdiff0 (a : S262144x128.Idx → Ideal .f32) : S8192x128.Idx → Ideal .f32 := fun i =>
  (a (lo0 i) - a (hi0 i)) * Ideal.ofBits .f32 0x3F3504F3#32

/-- The index maps over the 2 points: the first input block and both result blocks are block t, the second input block
    is block t + 2, all in the one column of blocks. -/
theorem idx_facts0 : ∀ t : Fin cfg0.N, win0_0.index t (0 : Fin 2) = win0_2.index t (0 : Fin 2)
    ∧ win0_1.index t (0 : Fin 2) = win0_2.index t (0 : Fin 2) + 2
    ∧ win0_0.index t (1 : Fin 2) = 0 ∧ win0_1.index t (1 : Fin 2) = 0 ∧ win0_2.index t (1 : Fin 2) = 0
    ∧ win0_3.index t (0 : Fin 2) = win0_2.index t (0 : Fin 2) ∧ win0_3.index t (1 : Fin 2) = 0
    ∧ win0_2.index t (0 : Fin 2) = t.val ∧ win0_2.index t (0 : Fin 2) ≤ 1 :=
  (by decide +kernel : ∀ t : Fin grid0.N, _)

/-- What point t writes back to the first result array is block t of the scaled sum: the first input block's row r is
    the array's row 4096 t + r, the second's is row 4096 (t + 2) + r = 4096 t + r + 8192. -/
theorem flushed0_2_eq (c : Dev nD) (t : Fin cfg0.N) :
    (dat0 V c).flushed 2 t = ((cfg0.win 2).blk t).view.read (Elt Ideal) (Gsum0 (V c main_call0_v1)) := by
  show (cfg0.win 2).cut (grid0.coords t) ((dat0 V c).after 2 t) = _
  rw [after0_2]
  unfold out0_2
  rw [View.canon_unit_zero zoff0]
  simp only [View.ld_unit_zero (S := S4096x128) zoff0]
  unfold k0_pay3 k0_pay1 k0_pay2
  simp only [shapeCast_self]
  obtain ⟨e0, e1, e2, e3, e4, e5, e6, e7, e8⟩ := idx_facts0 t
  funext j
  let A : S262144x128.Idx → Ideal .f32 := V c main_call0_v1
  show (A (((cfg0.win 0).blk t).view.emb j) + A (((cfg0.win 1).blk t).view.emb j)) * Ideal.ofBits .f32 0x3F3504F3#32
    = (A (lo0 (((cfg0.win 2).blk t).view.emb j)) + A (hi0 (((cfg0.win 2).blk t).view.emb j))) * Ideal.ofBits .f32 0x3F3504F3#32
  have h0 : ((cfg0.win 0).blk t).view.emb j = lo0 (((cfg0.win 2).blk t).view.emb j) := by
    funext a; apply Fin.ext
    match a with
    | ⟨0, _⟩ => show win0_0.index t (0 : Fin 2) * 4096 + 1 * (j 0).val = win0_2.index t (0 : Fin 2) * 4096 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = hi0 (((cfg0.win 2).blk t).view.emb j) := by
    funext a; apply Fin.ext
    match a with
    | ⟨0, _⟩ => show win0_1.index t (0 : Fin 2) * 4096 + 1 * (j 0).val = win0_2.index t (0 : Fin 2) * 4096 + 1 * (j 0).val + 8192; omega
    | ⟨1, _⟩ => show win0_1.index t (1 : Fin 2) * 128 + 1 * (j 1).val = win0_2.index t (1 : Fin 2) * 128 + 1 * (j 1).val; omega
  rw [h0, h1]

/-- Likewise the second result array and the scaled difference. -/
theorem flushed0_3_eq (c : Dev nD) (t : Fin cfg0.N) :
    (dat0 V c).flushed 3 t = ((cfg0.win 3).blk t).view.read (Elt Ideal) (Gdiff0 (V c main_call0_v1)) := by
  show (cfg0.win 3).cut (grid0.coords t) ((dat0 V c).after 3 t) = _
  rw [after0_3]
  unfold out0_3
  rw [View.canon_unit_zero zoff0]
  simp only [View.ld_unit_zero (S := S4096x128) zoff0]
  unfold k0_pay4 k0_pay1 k0_pay2
  simp only [shapeCast_self]
  obtain ⟨e0, e1, e2, e3, e4, e5, e6, e7, e8⟩ := idx_facts0 t
  funext j
  let A : S262144x128.Idx → Ideal .f32 := V c main_call0_v1
  show (A (((cfg0.win 0).blk t).view.emb j) - A (((cfg0.win 1).blk t).view.emb j)) * Ideal.ofBits .f32 0x3F3504F3#32
    = (A (lo0 (((cfg0.win 3).blk t).view.emb j)) - A (hi0 (((cfg0.win 3).blk t).view.emb j))) * Ideal.ofBits .f32 0x3F3504F3#32
  have h0 : ((cfg0.win 0).blk t).view.emb j = lo0 (((cfg0.win 3).blk t).view.emb j) := by
    funext a; apply Fin.ext
    match a with
    | ⟨0, _⟩ => show win0_0.index t (0 : Fin 2) * 4096 + 1 * (j 0).val = win0_3.index t (0 : Fin 2) * 4096 + 1 * (j 0).val; omega
    | ⟨1, _⟩ => show win0_0.index t (1 : Fin 2) * 128 + 1 * (j 1).val = win0_3.index t (1 : Fin 2) * 128 + 1 * (j 1).val; omega
  have h1 : ((cfg0.win 1).blk t).view.emb j = hi0 (((cfg0.win 3).blk t).view.emb j) := by
    funext a; apply Fin.ext
    match a with
    | ⟨0, _⟩ => show win0_1.index t (0 : Fin 2) * 4096 + 1 * (j 0).val = win0_3.index t (0 : Fin 2) * 4096 + 1 * (j 0).val + 8192; omega
    | ⟨1, _⟩ => show win0_1.index t (1 : Fin 2) * 128 + 1 * (j 1).val = win0_3.index t (1 : Fin 2) * 128 + 1 * (j 1).val; omega
  rw [h0, h1]

/-- An index of a result array is in point t's block iff each coordinate is in the block's range on its axis. -/
theorem mem_blk0_2 (t : Fin cfg0.N) (i : S8192x128.Idx) :
    i ∈ ((cfg0.win 2).blk t).view.set ↔ ∀ a : Fin 2, win0_2.index t a * S4096x128.size a ≤ (i a).val ∧ (i a).val < win0_2.index t a * S4096x128.size a + S4096x128.size a := by
  show i ∈ ((View.whole main_call0_v2_0).slice (win0_2.rect t)).set ↔ _
  rw [View.set_slice_whole, Rect.mem_set_unit]
  exact Iff.rfl
theorem mem_blk0_3 (t : Fin cfg0.N) (i : S8192x128.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole main_call0_v2_1).slice (win0_3.rect t)).set ↔ _
  rw [View.set_slice_whole, Rect.mem_set_unit]
  exact Iff.rfl

/-- Every row of a result array is in the block of the point numbered by the row over 4096. -/
theorem covered0_2 (i : S8192x128.Idx) : ∃ t : Fin cfg0.N, (cfg0.win 2).flush t = true ∧ i ∈ ((cfg0.win 2).blk t).view.set := by
  have hrow : (i 0).val < 8192 := (i 0).isLt
  have hlane : (i 1).val < 128 := (i 1).isLt
  have hN : cfg0.N = 2 := N_0
  have ht : (i 0).val / 4096 < cfg0.N := by rw [hN]; omega
  obtain ⟨e0, e1, e2, e3, e4, e5, e6, e7, e8⟩ := idx_facts0 ⟨(i 0).val / 4096, ht⟩
  have e7' : win0_2.index ⟨(i 0).val / 4096, ht⟩ (0 : Fin 2) = (i 0).val / 4096 := e7
  refine ⟨⟨(i 0).val / 4096, ht⟩, flush0_2 _, ?_⟩
  rw [mem_blk0_2]
  intro a
  match a with
  | ⟨0, _⟩ => show win0_2.index ⟨(i 0).val / 4096, ht⟩ (0 : Fin 2) * 4096 ≤ (i 0).val ∧ (i 0).val < win0_2.index ⟨(i 0).val / 4096, ht⟩ (0 : Fin 2) * 4096 + 4096; omega
  | ⟨1, _⟩ => show win0_2.index ⟨(i 0).val / 4096, ht⟩ (1 : Fin 2) * 128 ≤ (i 1).val ∧ (i 1).val < win0_2.index ⟨(i 0).val / 4096, ht⟩ (1 : Fin 2) * 128 + 128; omega
theorem covered0_3 (i : S8192x128.Idx) : ∃ t : Fin cfg0.N, (cfg0.win 3).flush t = true ∧ i ∈ ((cfg0.win 3).blk t).view.set := by
  have hrow : (i 0).val < 8192 := (i 0).isLt
  have hlane : (i 1).val < 128 := (i 1).isLt
  have hN : cfg0.N = 2 := N_0
  have ht : (i 0).val / 4096 < cfg0.N := by rw [hN]; omega
  obtain ⟨e0, e1, e2, e3, e4, e5, e6, e7, e8⟩ := idx_facts0 ⟨(i 0).val / 4096, ht⟩
  have e7' : win0_2.index ⟨(i 0).val / 4096, ht⟩ (0 : Fin 2) = (i 0).val / 4096 := e7
  refine ⟨⟨(i 0).val / 4096, ht⟩, flush0_3 _, ?_⟩
  rw [mem_blk0_3]
  intro a
  match a with
  | ⟨0, _⟩ => show win0_3.index ⟨(i 0).val / 4096, ht⟩ (0 : Fin 2) * 4096 ≤ (i 0).val ∧ (i 0).val < win0_3.index ⟨(i 0).val / 4096, ht⟩ (0 : Fin 2) * 4096 + 4096; omega
  | ⟨1, _⟩ => show win0_3.index ⟨(i 0).val / 4096, ht⟩ (1 : Fin 2) * 128 ≤ (i 1).val ∧ (i 1).val < win0_3.index ⟨(i 0).val / 4096, ht⟩ (1 : Fin 2) * 128 + 128; omega

/-- The result arrays when the region ends: the scaled sum and difference of the two halves of the input array's rows. -/
theorem final0_2 (c : Dev nD) : (dat0 V c).arrAt 2 cfg0.N = Gsum0 (V c main_call0_v1) :=
  (dat0 V c).arrAt_eq_of_cover 2 (Gsum0 (V c main_call0_v1)) (fun t _ => flushed0_2_eq V c t) covered0_2
theorem final0_3 (c : Dev nD) : (dat0 V c).arrAt 3 cfg0.N = Gdiff0 (V c main_call0_v1) :=
  (dat0 V c).arrAt_eq_of_cover 3 (Gdiff0 (V c main_call0_v1)) (fun t _ => flushed0_3_eq V c t) covered0_3

/-- On a signal held as rows of 128: entry (r, l) of the first half is entry 128 r + l of the signal, and the row 8192
    below it is 128 · 8192 entries on. -/
theorem Gsum0_rows (x : FVec Ideal Cert.Haar.SFlat .f32) : Gsum0 (Cert.Haar.rows x) = Cert.Haar.sumHalf 8192 x := by
  funext i
  show (Cert.Haar.rd x (128 * (i 0).val + (i 1).val) + Cert.Haar.rd x (128 * ((i 0).val + 8192) + (i 1).val)) * Cert.Haar.kc
    = (Cert.Haar.rd x (128 * (i 0).val + (i 1).val) + Cert.Haar.rd x (128 * (i 0).val + (i 1).val + 128 * 8192)) * Cert.Haar.kc
  rw [show 128 * ((i 0).val + 8192) + (i 1).val = 128 * (i 0).val + (i 1).val + 128 * 8192 from by omega]
theorem Gdiff0_rows (x : FVec Ideal Cert.Haar.SFlat .f32) : Gdiff0 (Cert.Haar.rows x) = Cert.Haar.diffHalf 8192 x := by
  funext i
  show (Cert.Haar.rd x (128 * (i 0).val + (i 1).val) - Cert.Haar.rd x (128 * ((i 0).val + 8192) + (i 1).val)) * Cert.Haar.kc
    = (Cert.Haar.rd x (128 * (i 0).val + (i 1).val) - Cert.Haar.rd x (128 * (i 0).val + (i 1).val + 128 * 8192)) * Cert.Haar.kc
  rw [show 128 * ((i 0).val + 8192) + (i 1).val = 128 * (i 0).val + (i 1).val + 128 * 8192 from by omega]

/-- Region 0 on a signal held as rows: it leaves the two halves of one level's butterfly. -/
theorem vals0 (c : Dev nD) (x : FVec Ideal Cert.Haar.SFlat .f32) (hx : V c main_call0_v1 = Cert.Haar.rows x) :
    (dat0 V c).arrAt 2 cfg0.N = Cert.Haar.sumHalf 8192 x ∧ (dat0 V c).arrAt 3 cfg0.N = Cert.Haar.diffHalf 8192 x :=
  ⟨(final0_2 V c).trans ((congrArg Gsum0 hx).trans (Gsum0_rows x)),
   (final0_3 V c).trans ((congrArg Gdiff0 hx).trans (Gdiff0_rows x))⟩

end Cert.KernelIdeal.FrVal

end
-- ==== Proof.KIVal1.lean ====
/-
  Region 1 of the program (the butterfly kernel's second launch) at the ideal instance: what the two result arrays hold
  when the region ends, as whole-array functions of the input array.

  The input array is 262144 rows of 128. Point t adds (and subtracts) its block t of 4096 rows and the block 4 further
  down, scales, and writes block t of each result array; the 4 points' blocks tile the 16384 rows of a result. So a
  result's entry (r, l) is the scaled sum (difference) of the input's entries (r, l) and (r + 16384, l). When the input
  array holds a flat signal as rows of 128, entry (r, l) is the signal's entry 128 r + l, and the results are the two
  butterfly outputs of the level with half-length 128 · 16384.
-/
import proofs.«157342_j28784870817852_2_alg».proof.Proof.KIBody1
import proofs.«157342_j28784870817852_2_alg».proof.Proof.Spec
import Idealize.ShloMosaic.Lib.Pipeline.Value
import Idealize.ShloMosaic.Lib.ValueIdx

noncomputable section

namespace Cert.KernelIdeal.FrVal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

/-- The zero offset of a whole-block rectangle. -/
theorem zoff1 : (![0, 0] : Fin 2 → Nat) = fun _ => 0 := funext fun a => by fin_cases a <;> rfl

/-- Row r of the first half of the rows, and the row 16384 below it. -/
def lo1 (i : S16384x128.Idx) : S262144x128.Idx :=
  ix2 ⟨(i 0).val, by have h : (i 0).val < 16384 := (i 0).isLt; omega⟩ ⟨(i 1).val, (i 1).isLt⟩
def hi1 (i : S16384x128.Idx) : S262144x128.Idx :=
  ix2 ⟨(i 0).val + 16384, by have h : (i 0).val < 16384 := (i 0).isLt; omega⟩ ⟨(i 1).val, (i 1).isLt⟩

/-- The scaled sum and the scaled difference of a row of the first 16384 rows and the row 16384 below it. -/
abbrev Gsum1 (a : S262144x128.Idx → Ideal .f32) : S16384x128.Idx → Ideal .f32 := fun i =>
  (a (lo1 i) + a (hi1 i)) * Ideal.ofBits .f32 0x3F3504F3#32
abbrev Gdiff1 (a : S262144x128.Idx → Ideal .f32) : S16384x128.Idx → Ideal .f32 := fun i =>
  (a (lo1 i) - a (hi1 i)) * Ideal.ofBits .f32 0x3F3504F3#32

/-- The index maps over the 4 points: the first input block and both result blocks are block t, the second input block
    is block t + 4, all in the one column of blocks. -/
theorem idx_facts1 : ∀ t : Fin cfg1.N, win1_0.index t (0 : Fin 2) = win1_2.index t (0 : Fin 2)
    ∧ win1_1.index t (0 : Fin 2) = win1_2.index t (0 : Fin 2) + 4
    ∧ win1_0.index t (1 : Fin 2) = 0 ∧ win1_1.index t (1 : Fin 2) = 0 ∧ win1_2.index t (1 : Fin 2) = 0
    ∧ win1_3.index t (0 : Fin 2) = win1_2.index t (0 : Fin 2) ∧ win1_3.index t (1 : Fin 2) = 0
    ∧ win1_2.index t (0 : Fin 2) = t.val ∧ win1_2.index t (0 : Fin 2) ≤ 3 :=
  (by decide +kernel : ∀ t : Fin grid1.N, _)

/-- What point t writes back to the first result array is block t of the scaled sum: the first input block's row r is
    the array's row 4096 t + r, the second's is row 4096 (t + 4) + r = 4096 t + r + 16384. -/
theorem flushed1_2_eq (c : Dev nD) (t : Fin cfg1.N) :
    (dat1 V c).flushed 2 t = ((cfg1.win 2).blk t).view.read (Elt Ideal) (Gsum1 (V c main_call0_v11)) := by
  show (cfg1.win 2).cut (grid1.coords t) ((dat1 V c).after 2 t) = _
  rw [after1_2]
  unfold out1_2
  rw [View.canon_unit_zero zoff1]
  simp only [View.ld_unit_zero (S := S4096x128) zoff1]
  unfold k1_pay3 k1_pay1 k1_pay2
  simp only [shapeCast_self]
  obtain ⟨e0, e1, e2, e3, e4, e5, e6, e7, e8⟩ := idx_facts1 t
  funext j
  let A : S262144x128.Idx → Ideal .f32 := V c main_call0_v11
  show (A (((cfg1.win 0).blk t).view.emb j) + A (((cfg1.win 1).blk t).view.emb j)) * Ideal.ofBits .f32 0x3F3504F3#32
    = (A (lo1 (((cfg1.win 2).blk t).view.emb j)) + A (hi1 (((cfg1.win 2).blk t).view.emb j))) * Ideal.ofBits .f32 0x3F3504F3#32
  have h0 : ((cfg1.win 0).blk t).view.emb j = lo1 (((cfg1.win 2).blk t).view.emb j) := by
    funext a; apply Fin.ext
    match a with
    | ⟨0, _⟩ => show win1_0.index t (0 : Fin 2) * 4096 + 1 * (j 0).val = win1_2.index t (0 : Fin 2) * 4096 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb j = hi1 (((cfg1.win 2).blk t).view.emb j) := by
    funext a; apply Fin.ext
    match a with
    | ⟨0, _⟩ => show win1_1.index t (0 : Fin 2) * 4096 + 1 * (j 0).val = win1_2.index t (0 : Fin 2) * 4096 + 1 * (j 0).val + 16384; omega
    | ⟨1, _⟩ => show win1_1.index t (1 : Fin 2) * 128 + 1 * (j 1).val = win1_2.index t (1 : Fin 2) * 128 + 1 * (j 1).val; omega
  rw [h0, h1]

/-- Likewise the second result array and the scaled difference. -/
theorem flushed1_3_eq (c : Dev nD) (t : Fin cfg1.N) :
    (dat1 V c).flushed 3 t = ((cfg1.win 3).blk t).view.read (Elt Ideal) (Gdiff1 (V c main_call0_v11)) := by
  show (cfg1.win 3).cut (grid1.coords t) ((dat1 V c).after 3 t) = _
  rw [after1_3]
  unfold out1_3
  rw [View.canon_unit_zero zoff1]
  simp only [View.ld_unit_zero (S := S4096x128) zoff1]
  unfold k1_pay4 k1_pay1 k1_pay2
  simp only [shapeCast_self]
  obtain ⟨e0, e1, e2, e3, e4, e5, e6, e7, e8⟩ := idx_facts1 t
  funext j
  let A : S262144x128.Idx → Ideal .f32 := V c main_call0_v11
  show (A (((cfg1.win 0).blk t).view.emb j) - A (((cfg1.win 1).blk t).view.emb j)) * Ideal.ofBits .f32 0x3F3504F3#32
    = (A (lo1 (((cfg1.win 3).blk t).view.emb j)) - A (hi1 (((cfg1.win 3).blk t).view.emb j))) * Ideal.ofBits .f32 0x3F3504F3#32
  have h0 : ((cfg1.win 0).blk t).view.emb j = lo1 (((cfg1.win 3).blk t).view.emb j) := by
    funext a; apply Fin.ext
    match a with
    | ⟨0, _⟩ => show win1_0.index t (0 : Fin 2) * 4096 + 1 * (j 0).val = win1_3.index t (0 : Fin 2) * 4096 + 1 * (j 0).val; omega
    | ⟨1, _⟩ => show win1_0.index t (1 : Fin 2) * 128 + 1 * (j 1).val = win1_3.index t (1 : Fin 2) * 128 + 1 * (j 1).val; omega
  have h1 : ((cfg1.win 1).blk t).view.emb j = hi1 (((cfg1.win 3).blk t).view.emb j) := by
    funext a; apply Fin.ext
    match a with
    | ⟨0, _⟩ => show win1_1.index t (0 : Fin 2) * 4096 + 1 * (j 0).val = win1_3.index t (0 : Fin 2) * 4096 + 1 * (j 0).val + 16384; omega
    | ⟨1, _⟩ => show win1_1.index t (1 : Fin 2) * 128 + 1 * (j 1).val = win1_3.index t (1 : Fin 2) * 128 + 1 * (j 1).val; omega
  rw [h0, h1]

/-- An index of a result array is in point t's block iff each coordinate is in the block's range on its axis. -/
theorem mem_blk1_2 (t : Fin cfg1.N) (i : S16384x128.Idx) :
    i ∈ ((cfg1.win 2).blk t).view.set ↔ ∀ a : Fin 2, win1_2.index t a * S4096x128.size a ≤ (i a).val ∧ (i a).val < win1_2.index t a * S4096x128.size a + S4096x128.size a := by
  show i ∈ ((View.whole main_call0_v12_0).slice (win1_2.rect t)).set ↔ _
  rw [View.set_slice_whole, Rect.mem_set_unit]
  exact Iff.rfl
theorem mem_blk1_3 (t : Fin cfg1.N) (i : S16384x128.Idx) :
    i ∈ ((cfg1.win 3).blk t).view.set ↔ ∀ a : Fin 2, win1_3.index t a * S4096x128.size a ≤ (i a).val ∧ (i a).val < win1_3.index t a * S4096x128.size a + S4096x128.size a := by
  show i ∈ ((View.whole main_call0_v12_1).slice (win1_3.rect t)).set ↔ _
  rw [View.set_slice_whole, Rect.mem_set_unit]
  exact Iff.rfl

/-- Every row of a result array is in the block of the point numbered by the row over 4096. -/
theorem covered1_2 (i : S16384x128.Idx) : ∃ t : Fin cfg1.N, (cfg1.win 2).flush t = true ∧ i ∈ ((cfg1.win 2).blk t).view.set := by
  have hrow : (i 0).val < 16384 := (i 0).isLt
  have hlane : (i 1).val < 128 := (i 1).isLt
  have hN : cfg1.N = 4 := N_1
  have ht : (i 0).val / 4096 < cfg1.N := by rw [hN]; omega
  obtain ⟨e0, e1, e2, e3, e4, e5, e6, e7, e8⟩ := idx_facts1 ⟨(i 0).val / 4096, ht⟩
  have e7' : win1_2.index ⟨(i 0).val / 4096, ht⟩ (0 : Fin 2) = (i 0).val / 4096 := e7
  refine ⟨⟨(i 0).val / 4096, ht⟩, flush1_2 _, ?_⟩
  rw [mem_blk1_2]
  intro a
  match a with
  | ⟨0, _⟩ => show win1_2.index ⟨(i 0).val / 4096, ht⟩ (0 : Fin 2) * 4096 ≤ (i 0).val ∧ (i 0).val < win1_2.index ⟨(i 0).val / 4096, ht⟩ (0 : Fin 2) * 4096 + 4096; omega
  | ⟨1, _⟩ => show win1_2.index ⟨(i 0).val / 4096, ht⟩ (1 : Fin 2) * 128 ≤ (i 1).val ∧ (i 1).val < win1_2.index ⟨(i 0).val / 4096, ht⟩ (1 : Fin 2) * 128 + 128; omega
theorem covered1_3 (i : S16384x128.Idx) : ∃ t : Fin cfg1.N, (cfg1.win 3).flush t = true ∧ i ∈ ((cfg1.win 3).blk t).view.set := by
  have hrow : (i 0).val < 16384 := (i 0).isLt
  have hlane : (i 1).val < 128 := (i 1).isLt
  have hN : cfg1.N = 4 := N_1
  have ht : (i 0).val / 4096 < cfg1.N := by rw [hN]; omega
  obtain ⟨e0, e1, e2, e3, e4, e5, e6, e7, e8⟩ := idx_facts1 ⟨(i 0).val / 4096, ht⟩
  have e7' : win1_2.index ⟨(i 0).val / 4096, ht⟩ (0 : Fin 2) = (i 0).val / 4096 := e7
  refine ⟨⟨(i 0).val / 4096, ht⟩, flush1_3 _, ?_⟩
  rw [mem_blk1_3]
  intro a
  match a with
  | ⟨0, _⟩ => show win1_3.index ⟨(i 0).val / 4096, ht⟩ (0 : Fin 2) * 4096 ≤ (i 0).val ∧ (i 0).val < win1_3.index ⟨(i 0).val / 4096, ht⟩ (0 : Fin 2) * 4096 + 4096; omega
  | ⟨1, _⟩ => show win1_3.index ⟨(i 0).val / 4096, ht⟩ (1 : Fin 2) * 128 ≤ (i 1).val ∧ (i 1).val < win1_3.index ⟨(i 0).val / 4096, ht⟩ (1 : Fin 2) * 128 + 128; omega

/-- The result arrays when the region ends: the scaled sum and difference of the two halves of the input array's rows. -/
theorem final1_2 (c : Dev nD) : (dat1 V c).arrAt 2 cfg1.N = Gsum1 (V c main_call0_v11) :=
  (dat1 V c).arrAt_eq_of_cover 2 (Gsum1 (V c main_call0_v11)) (fun t _ => flushed1_2_eq V c t) covered1_2
theorem final1_3 (c : Dev nD) : (dat1 V c).arrAt 3 cfg1.N = Gdiff1 (V c main_call0_v11) :=
  (dat1 V c).arrAt_eq_of_cover 3 (Gdiff1 (V c main_call0_v11)) (fun t _ => flushed1_3_eq V c t) covered1_3

/-- On a signal held as rows of 128: entry (r, l) of the first half is entry 128 r + l of the signal, and the row 16384
    below it is 128 · 16384 entries on. -/
theorem Gsum1_rows (x : FVec Ideal Cert.Haar.SFlat .f32) : Gsum1 (Cert.Haar.rows x) = Cert.Haar.sumHalf 16384 x := by
  funext i
  show (Cert.Haar.rd x (128 * (i 0).val + (i 1).val) + Cert.Haar.rd x (128 * ((i 0).val + 16384) + (i 1).val)) * Cert.Haar.kc
    = (Cert.Haar.rd x (128 * (i 0).val + (i 1).val) + Cert.Haar.rd x (128 * (i 0).val + (i 1).val + 128 * 16384)) * Cert.Haar.kc
  rw [show 128 * ((i 0).val + 16384) + (i 1).val = 128 * (i 0).val + (i 1).val + 128 * 16384 from by omega]
theorem Gdiff1_rows (x : FVec Ideal Cert.Haar.SFlat .f32) : Gdiff1 (Cert.Haar.rows x) = Cert.Haar.diffHalf 16384 x := by
  funext i
  show (Cert.Haar.rd x (128 * (i 0).val + (i 1).val) - Cert.Haar.rd x (128 * ((i 0).val + 16384) + (i 1).val)) * Cert.Haar.kc
    = (Cert.Haar.rd x (128 * (i 0).val + (i 1).val) - Cert.Haar.rd x (128 * (i 0).val + (i 1).val + 128 * 16384)) * Cert.Haar.kc
  rw [show 128 * ((i 0).val + 16384) + (i 1).val = 128 * (i 0).val + (i 1).val + 128 * 16384 from by omega]

/-- Region 1 on a signal held as rows: it leaves the two halves of one level's butterfly. -/
theorem vals1 (c : Dev nD) (x : FVec Ideal Cert.Haar.SFlat .f32) (hx : V c main_call0_v11 = Cert.Haar.rows x) :
    (dat1 V c).arrAt 2 cfg1.N = Cert.Haar.sumHalf 16384 x ∧ (dat1 V c).arrAt 3 cfg1.N = Cert.Haar.diffHalf 16384 x :=
  ⟨(final1_2 V c).trans ((congrArg Gsum1 hx).trans (Gsum1_rows x)),
   (final1_3 V c).trans ((congrArg Gdiff1 hx).trans (Gdiff1_rows x))⟩

end Cert.KernelIdeal.FrVal

end
-- ==== Proof.KIVal2.lean ====
/-
  Region 2 of the program (the butterfly kernel's third launch) at the ideal instance: what the two result arrays hold
  when the region ends, as whole-array functions of the input array.

  The input array is 262144 rows of 128. Point t adds (and subtracts) its block t of 4096 rows and the block 8 further
  down, scales, and writes block t of each result array; the 8 points' blocks tile the 32768 rows of a result. So a
  result's entry (r, l) is the scaled sum (difference) of the input's entries (r, l) and (r + 32768, l). When the input
  array holds a flat signal as rows of 128, entry (r, l) is the signal's entry 128 r + l, and the results are the two
  butterfly outputs of the level with half-length 128 · 32768.
-/
import proofs.«157342_j28784870817852_2_alg».proof.Proof.KIBody2
import proofs.«157342_j28784870817852_2_alg».proof.Proof.Spec
import Idealize.ShloMosaic.Lib.Pipeline.Value
import Idealize.ShloMosaic.Lib.ValueIdx

noncomputable section

namespace Cert.KernelIdeal.FrVal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

/-- The zero offset of a whole-block rectangle. -/
theorem zoff2 : (![0, 0] : Fin 2 → Nat) = fun _ => 0 := funext fun a => by fin_cases a <;> rfl

/-- Row r of the first half of the rows, and the row 32768 below it. -/
def lo2 (i : S32768x128.Idx) : S262144x128.Idx :=
  ix2 ⟨(i 0).val, by have h : (i 0).val < 32768 := (i 0).isLt; omega⟩ ⟨(i 1).val, (i 1).isLt⟩
def hi2 (i : S32768x128.Idx) : S262144x128.Idx :=
  ix2 ⟨(i 0).val + 32768, by have h : (i 0).val < 32768 := (i 0).isLt; omega⟩ ⟨(i 1).val, (i 1).isLt⟩

/-- The scaled sum and the scaled difference of a row of the first 32768 rows and the row 32768 below it. -/
abbrev Gsum2 (a : S262144x128.Idx → Ideal .f32) : S32768x128.Idx → Ideal .f32 := fun i =>
  (a (lo2 i) + a (hi2 i)) * Ideal.ofBits .f32 0x3F3504F3#32
abbrev Gdiff2 (a : S262144x128.Idx → Ideal .f32) : S32768x128.Idx → Ideal .f32 := fun i =>
  (a (lo2 i) - a (hi2 i)) * Ideal.ofBits .f32 0x3F3504F3#32

/-- The index maps over the 8 points: the first input block and both result blocks are block t, the second input block
    is block t + 8, all in the one column of blocks. -/
theorem idx_facts2 : ∀ t : Fin cfg2.N, win2_0.index t (0 : Fin 2) = win2_2.index t (0 : Fin 2)
    ∧ win2_1.index t (0 : Fin 2) = win2_2.index t (0 : Fin 2) + 8
    ∧ win2_0.index t (1 : Fin 2) = 0 ∧ win2_1.index t (1 : Fin 2) = 0 ∧ win2_2.index t (1 : Fin 2) = 0
    ∧ win2_3.index t (0 : Fin 2) = win2_2.index t (0 : Fin 2) ∧ win2_3.index t (1 : Fin 2) = 0
    ∧ win2_2.index t (0 : Fin 2) = t.val ∧ win2_2.index t (0 : Fin 2) ≤ 7 :=
  (by decide +kernel : ∀ t : Fin grid2.N, _)

/-- What point t writes back to the first result array is block t of the scaled sum: the first input block's row r is
    the array's row 4096 t + r, the second's is row 4096 (t + 8) + r = 4096 t + r + 32768. -/
theorem flushed2_2_eq (c : Dev nD) (t : Fin cfg2.N) :
    (dat2 V c).flushed 2 t = ((cfg2.win 2).blk t).view.read (Elt Ideal) (Gsum2 (V c main_call0_v21)) := by
  show (cfg2.win 2).cut (grid2.coords t) ((dat2 V c).after 2 t) = _
  rw [after2_2]
  unfold out2_2
  rw [View.canon_unit_zero zoff2]
  simp only [View.ld_unit_zero (S := S4096x128) zoff2]
  unfold k2_pay3 k2_pay1 k2_pay2
  simp only [shapeCast_self]
  obtain ⟨e0, e1, e2, e3, e4, e5, e6, e7, e8⟩ := idx_facts2 t
  funext j
  let A : S262144x128.Idx → Ideal .f32 := V c main_call0_v21
  show (A (((cfg2.win 0).blk t).view.emb j) + A (((cfg2.win 1).blk t).view.emb j)) * Ideal.ofBits .f32 0x3F3504F3#32
    = (A (lo2 (((cfg2.win 2).blk t).view.emb j)) + A (hi2 (((cfg2.win 2).blk t).view.emb j))) * Ideal.ofBits .f32 0x3F3504F3#32
  have h0 : ((cfg2.win 0).blk t).view.emb j = lo2 (((cfg2.win 2).blk t).view.emb j) := by
    funext a; apply Fin.ext
    match a with
    | ⟨0, _⟩ => show win2_0.index t (0 : Fin 2) * 4096 + 1 * (j 0).val = win2_2.index t (0 : Fin 2) * 4096 + 1 * (j 0).val; omega
    | ⟨1, _⟩ => show win2_0.index t (1 : Fin 2) * 128 + 1 * (j 1).val = win2_2.index t (1 : Fin 2) * 128 + 1 * (j 1).val; omega
  have h1 : ((cfg2.win 1).blk t).view.emb j = hi2 (((cfg2.win 2).blk t).view.emb j) := by
    funext a; apply Fin.ext
    match a with
    | ⟨0, _⟩ => show win2_1.index t (0 : Fin 2) * 4096 + 1 * (j 0).val = win2_2.index t (0 : Fin 2) * 4096 + 1 * (j 0).val + 32768; omega
    | ⟨1, _⟩ => show win2_1.index t (1 : Fin 2) * 128 + 1 * (j 1).val = win2_2.index t (1 : Fin 2) * 128 + 1 * (j 1).val; omega
  rw [h0, h1]

/-- Likewise the second result array and the scaled difference. -/
theorem flushed2_3_eq (c : Dev nD) (t : Fin cfg2.N) :
    (dat2 V c).flushed 3 t = ((cfg2.win 3).blk t).view.read (Elt Ideal) (Gdiff2 (V c main_call0_v21)) := by
  show (cfg2.win 3).cut (grid2.coords t) ((dat2 V c).after 3 t) = _
  rw [after2_3]
  unfold out2_3
  rw [View.canon_unit_zero zoff2]
  simp only [View.ld_unit_zero (S := S4096x128) zoff2]
  unfold k2_pay4 k2_pay1 k2_pay2
  simp only [shapeCast_self]
  obtain ⟨e0, e1, e2, e3, e4, e5, e6, e7, e8⟩ := idx_facts2 t
  funext j
  let A : S262144x128.Idx → Ideal .f32 := V c main_call0_v21
  show (A (((cfg2.win 0).blk t).view.emb j) - A (((cfg2.win 1).blk t).view.emb j)) * Ideal.ofBits .f32 0x3F3504F3#32
    = (A (lo2 (((cfg2.win 3).blk t).view.emb j)) - A (hi2 (((cfg2.win 3).blk t).view.emb j))) * Ideal.ofBits .f32 0x3F3504F3#32
  have h0 : ((cfg2.win 0).blk t).view.emb j = lo2 (((cfg2.win 3).blk t).view.emb j) := by
    funext a; apply Fin.ext
    match a with
    | ⟨0, _⟩ => show win2_0.index t (0 : Fin 2) * 4096 + 1 * (j 0).val = win2_3.index t (0 : Fin 2) * 4096 + 1 * (j 0).val; omega
    | ⟨1, _⟩ => show win2_0.index t (1 : Fin 2) * 128 + 1 * (j 1).val = win2_3.index t (1 : Fin 2) * 128 + 1 * (j 1).val; omega
  have h1 : ((cfg2.win 1).blk t).view.emb j = hi2 (((cfg2.win 3).blk t).view.emb j) := by
    funext a; apply Fin.ext
    match a with
    | ⟨0, _⟩ => show win2_1.index t (0 : Fin 2) * 4096 + 1 * (j 0).val = win2_3.index t (0 : Fin 2) * 4096 + 1 * (j 0).val + 32768; omega
    | ⟨1, _⟩ => show win2_1.index t (1 : Fin 2) * 128 + 1 * (j 1).val = win2_3.index t (1 : Fin 2) * 128 + 1 * (j 1).val; omega
  rw [h0, h1]

/-- An index of a result array is in point t's block iff each coordinate is in the block's range on its axis. -/
theorem mem_blk2_2 (t : Fin cfg2.N) (i : S32768x128.Idx) :
    i ∈ ((cfg2.win 2).blk t).view.set ↔ ∀ a : Fin 2, win2_2.index t a * S4096x128.size a ≤ (i a).val ∧ (i a).val < win2_2.index t a * S4096x128.size a + S4096x128.size a := by
  show i ∈ ((View.whole main_call0_v22_0).slice (win2_2.rect t)).set ↔ _
  rw [View.set_slice_whole, Rect.mem_set_unit]
  exact Iff.rfl
theorem mem_blk2_3 (t : Fin cfg2.N) (i : S32768x128.Idx) :
    i ∈ ((cfg2.win 3).blk t).view.set ↔ ∀ a : Fin 2, win2_3.index t a * S4096x128.size a ≤ (i a).val ∧ (i a).val < win2_3.index t a * S4096x128.size a + S4096x128.size a := by
  show i ∈ ((View.whole main_call0_v22_1).slice (win2_3.rect t)).set ↔ _
  rw [View.set_slice_whole, Rect.mem_set_unit]
  exact Iff.rfl

/-- Every row of a result array is in the block of the point numbered by the row over 4096. -/
theorem covered2_2 (i : S32768x128.Idx) : ∃ t : Fin cfg2.N, (cfg2.win 2).flush t = true ∧ i ∈ ((cfg2.win 2).blk t).view.set := by
  have hrow : (i 0).val < 32768 := (i 0).isLt
  have hlane : (i 1).val < 128 := (i 1).isLt
  have hN : cfg2.N = 8 := N_2
  have ht : (i 0).val / 4096 < cfg2.N := by rw [hN]; omega
  obtain ⟨e0, e1, e2, e3, e4, e5, e6, e7, e8⟩ := idx_facts2 ⟨(i 0).val / 4096, ht⟩
  have e7' : win2_2.index ⟨(i 0).val / 4096, ht⟩ (0 : Fin 2) = (i 0).val / 4096 := e7
  refine ⟨⟨(i 0).val / 4096, ht⟩, flush2_2 _, ?_⟩
  rw [mem_blk2_2]
  intro a
  match a with
  | ⟨0, _⟩ => show win2_2.index ⟨(i 0).val / 4096, ht⟩ (0 : Fin 2) * 4096 ≤ (i 0).val ∧ (i 0).val < win2_2.index ⟨(i 0).val / 4096, ht⟩ (0 : Fin 2) * 4096 + 4096; omega
  | ⟨1, _⟩ => show win2_2.index ⟨(i 0).val / 4096, ht⟩ (1 : Fin 2) * 128 ≤ (i 1).val ∧ (i 1).val < win2_2.index ⟨(i 0).val / 4096, ht⟩ (1 : Fin 2) * 128 + 128; omega
theorem covered2_3 (i : S32768x128.Idx) : ∃ t : Fin cfg2.N, (cfg2.win 3).flush t = true ∧ i ∈ ((cfg2.win 3).blk t).view.set := by
  have hrow : (i 0).val < 32768 := (i 0).isLt
  have hlane : (i 1).val < 128 := (i 1).isLt
  have hN : cfg2.N = 8 := N_2
  have ht : (i 0).val / 4096 < cfg2.N := by rw [hN]; omega
  obtain ⟨e0, e1, e2, e3, e4, e5, e6, e7, e8⟩ := idx_facts2 ⟨(i 0).val / 4096, ht⟩
  have e7' : win2_2.index ⟨(i 0).val / 4096, ht⟩ (0 : Fin 2) = (i 0).val / 4096 := e7
  refine ⟨⟨(i 0).val / 4096, ht⟩, flush2_3 _, ?_⟩
  rw [mem_blk2_3]
  intro a
  match a with
  | ⟨0, _⟩ => show win2_3.index ⟨(i 0).val / 4096, ht⟩ (0 : Fin 2) * 4096 ≤ (i 0).val ∧ (i 0).val < win2_3.index ⟨(i 0).val / 4096, ht⟩ (0 : Fin 2) * 4096 + 4096; omega
  | ⟨1, _⟩ => show win2_3.index ⟨(i 0).val / 4096, ht⟩ (1 : Fin 2) * 128 ≤ (i 1).val ∧ (i 1).val < win2_3.index ⟨(i 0).val / 4096, ht⟩ (1 : Fin 2) * 128 + 128; omega

/-- The result arrays when the region ends: the scaled sum and difference of the two halves of the input array's rows. -/
theorem final2_2 (c : Dev nD) : (dat2 V c).arrAt 2 cfg2.N = Gsum2 (V c main_call0_v21) :=
  (dat2 V c).arrAt_eq_of_cover 2 (Gsum2 (V c main_call0_v21)) (fun t _ => flushed2_2_eq V c t) covered2_2
theorem final2_3 (c : Dev nD) : (dat2 V c).arrAt 3 cfg2.N = Gdiff2 (V c main_call0_v21) :=
  (dat2 V c).arrAt_eq_of_cover 3 (Gdiff2 (V c main_call0_v21)) (fun t _ => flushed2_3_eq V c t) covered2_3

/-- On a signal held as rows of 128: entry (r, l) of the first half is entry 128 r + l of the signal, and the row 32768
    below it is 128 · 32768 entries on. -/
theorem Gsum2_rows (x : FVec Ideal Cert.Haar.SFlat .f32) : Gsum2 (Cert.Haar.rows x) = Cert.Haar.sumHalf 32768 x := by
  funext i
  show (Cert.Haar.rd x (128 * (i 0).val + (i 1).val) + Cert.Haar.rd x (128 * ((i 0).val + 32768) + (i 1).val)) * Cert.Haar.kc
    = (Cert.Haar.rd x (128 * (i 0).val + (i 1).val) + Cert.Haar.rd x (128 * (i 0).val + (i 1).val + 128 * 32768)) * Cert.Haar.kc
  rw [show 128 * ((i 0).val + 32768) + (i 1).val = 128 * (i 0).val + (i 1).val + 128 * 32768 from by omega]
theorem Gdiff2_rows (x : FVec Ideal Cert.Haar.SFlat .f32) : Gdiff2 (Cert.Haar.rows x) = Cert.Haar.diffHalf 32768 x := by
  funext i
  show (Cert.Haar.rd x (128 * (i 0).val + (i 1).val) - Cert.Haar.rd x (128 * ((i 0).val + 32768) + (i 1).val)) * Cert.Haar.kc
    = (Cert.Haar.rd x (128 * (i 0).val + (i 1).val) - Cert.Haar.rd x (128 * (i 0).val + (i 1).val + 128 * 32768)) * Cert.Haar.kc
  rw [show 128 * ((i 0).val + 32768) + (i 1).val = 128 * (i 0).val + (i 1).val + 128 * 32768 from by omega]

/-- Region 2 on a signal held as rows: it leaves the two halves of one level's butterfly. -/
theorem vals2 (c : Dev nD) (x : FVec Ideal Cert.Haar.SFlat .f32) (hx : V c main_call0_v21 = Cert.Haar.rows x) :
    (dat2 V c).arrAt 2 cfg2.N = Cert.Haar.sumHalf 32768 x ∧ (dat2 V c).arrAt 3 cfg2.N = Cert.Haar.diffHalf 32768 x :=
  ⟨(final2_2 V c).trans ((congrArg Gsum2 hx).trans (Gsum2_rows x)),
   (final2_3 V c).trans ((congrArg Gdiff2 hx).trans (Gdiff2_rows x))⟩

end Cert.KernelIdeal.FrVal

end
-- ==== Proof.KIVal3.lean ====
/-
  Region 3 of the program (the butterfly kernel's fourth launch) at the ideal instance: what the two result arrays hold
  when the region ends, as whole-array functions of the input array.

  The input array is 262144 rows of 128. Point t adds (and subtracts) its block t of 4096 rows and the block 16 further
  down, scales, and writes block t of each result array; the 16 points' blocks tile the 65536 rows of a result. So a
  result's entry (r, l) is the scaled sum (difference) of the input's entries (r, l) and (r + 65536, l). When the input
  array holds a flat signal as rows of 128, entry (r, l) is the signal's entry 128 r + l, and the results are the two
  butterfly outputs of the level with half-length 128 · 65536.
-/
import proofs.«157342_j28784870817852_2_alg».proof.Proof.KIBody3
import proofs.«157342_j28784870817852_2_alg».proof.Proof.Spec
import Idealize.ShloMosaic.Lib.Pipeline.Value
import Idealize.ShloMosaic.Lib.ValueIdx

noncomputable section

namespace Cert.KernelIdeal.FrVal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

/-- The zero offset of a whole-block rectangle. -/
theorem zoff3 : (![0, 0] : Fin 2 → Nat) = fun _ => 0 := funext fun a => by fin_cases a <;> rfl

/-- Row r of the first half of the rows, and the row 65536 below it. -/
def lo3 (i : S65536x128.Idx) : S262144x128.Idx :=
  ix2 ⟨(i 0).val, by have h : (i 0).val < 65536 := (i 0).isLt; omega⟩ ⟨(i 1).val, (i 1).isLt⟩
def hi3 (i : S65536x128.Idx) : S262144x128.Idx :=
  ix2 ⟨(i 0).val + 65536, by have h : (i 0).val < 65536 := (i 0).isLt; omega⟩ ⟨(i 1).val, (i 1).isLt⟩

/-- The scaled sum and the scaled difference of a row of the first 65536 rows and the row 65536 below it. -/
abbrev Gsum3 (a : S262144x128.Idx → Ideal .f32) : S65536x128.Idx → Ideal .f32 := fun i =>
  (a (lo3 i) + a (hi3 i)) * Ideal.ofBits .f32 0x3F3504F3#32
abbrev Gdiff3 (a : S262144x128.Idx → Ideal .f32) : S65536x128.Idx → Ideal .f32 := fun i =>
  (a (lo3 i) - a (hi3 i)) * Ideal.ofBits .f32 0x3F3504F3#32

/-- The index maps over the 16 points: the first input block and both result blocks are block t, the second input block
    is block t + 16, all in the one column of blocks. -/
theorem idx_facts3 : ∀ t : Fin cfg3.N, win3_0.index t (0 : Fin 2) = win3_2.index t (0 : Fin 2)
    ∧ win3_1.index t (0 : Fin 2) = win3_2.index t (0 : Fin 2) + 16
    ∧ win3_0.index t (1 : Fin 2) = 0 ∧ win3_1.index t (1 : Fin 2) = 0 ∧ win3_2.index t (1 : Fin 2) = 0
    ∧ win3_3.index t (0 : Fin 2) = win3_2.index t (0 : Fin 2) ∧ win3_3.index t (1 : Fin 2) = 0
    ∧ win3_2.index t (0 : Fin 2) = t.val ∧ win3_2.index t (0 : Fin 2) ≤ 15 :=
  (by decide +kernel : ∀ t : Fin grid3.N, _)

/-- What point t writes back to the first result array is block t of the scaled sum: the first input block's row r is
    the array's row 4096 t + r, the second's is row 4096 (t + 16) + r = 4096 t + r + 65536. -/
theorem flushed3_2_eq (c : Dev nD) (t : Fin cfg3.N) :
    (dat3 V c).flushed 2 t = ((cfg3.win 2).blk t).view.read (Elt Ideal) (Gsum3 (V c main_call0_v31)) := by
  show (cfg3.win 2).cut (grid3.coords t) ((dat3 V c).after 2 t) = _
  rw [after3_2]
  unfold out3_2
  rw [View.canon_unit_zero zoff3]
  simp only [View.ld_unit_zero (S := S4096x128) zoff3]
  unfold k3_pay3 k3_pay1 k3_pay2
  simp only [shapeCast_self]
  obtain ⟨e0, e1, e2, e3, e4, e5, e6, e7, e8⟩ := idx_facts3 t
  funext j
  let A : S262144x128.Idx → Ideal .f32 := V c main_call0_v31
  show (A (((cfg3.win 0).blk t).view.emb j) + A (((cfg3.win 1).blk t).view.emb j)) * Ideal.ofBits .f32 0x3F3504F3#32
    = (A (lo3 (((cfg3.win 2).blk t).view.emb j)) + A (hi3 (((cfg3.win 2).blk t).view.emb j))) * Ideal.ofBits .f32 0x3F3504F3#32
  have h0 : ((cfg3.win 0).blk t).view.emb j = lo3 (((cfg3.win 2).blk t).view.emb j) := by
    funext a; apply Fin.ext
    match a with
    | ⟨0, _⟩ => show win3_0.index t (0 : Fin 2) * 4096 + 1 * (j 0).val = win3_2.index t (0 : Fin 2) * 4096 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb j = hi3 (((cfg3.win 2).blk t).view.emb j) := by
    funext a; apply Fin.ext
    match a with
    | ⟨0, _⟩ => show win3_1.index t (0 : Fin 2) * 4096 + 1 * (j 0).val = win3_2.index t (0 : Fin 2) * 4096 + 1 * (j 0).val + 65536; omega
    | ⟨1, _⟩ => show win3_1.index t (1 : Fin 2) * 128 + 1 * (j 1).val = win3_2.index t (1 : Fin 2) * 128 + 1 * (j 1).val; omega
  rw [h0, h1]

/-- Likewise the second result array and the scaled difference. -/
theorem flushed3_3_eq (c : Dev nD) (t : Fin cfg3.N) :
    (dat3 V c).flushed 3 t = ((cfg3.win 3).blk t).view.read (Elt Ideal) (Gdiff3 (V c main_call0_v31)) := by
  show (cfg3.win 3).cut (grid3.coords t) ((dat3 V c).after 3 t) = _
  rw [after3_3]
  unfold out3_3
  rw [View.canon_unit_zero zoff3]
  simp only [View.ld_unit_zero (S := S4096x128) zoff3]
  unfold k3_pay4 k3_pay1 k3_pay2
  simp only [shapeCast_self]
  obtain ⟨e0, e1, e2, e3, e4, e5, e6, e7, e8⟩ := idx_facts3 t
  funext j
  let A : S262144x128.Idx → Ideal .f32 := V c main_call0_v31
  show (A (((cfg3.win 0).blk t).view.emb j) - A (((cfg3.win 1).blk t).view.emb j)) * Ideal.ofBits .f32 0x3F3504F3#32
    = (A (lo3 (((cfg3.win 3).blk t).view.emb j)) - A (hi3 (((cfg3.win 3).blk t).view.emb j))) * Ideal.ofBits .f32 0x3F3504F3#32
  have h0 : ((cfg3.win 0).blk t).view.emb j = lo3 (((cfg3.win 3).blk t).view.emb j) := by
    funext a; apply Fin.ext
    match a with
    | ⟨0, _⟩ => show win3_0.index t (0 : Fin 2) * 4096 + 1 * (j 0).val = win3_3.index t (0 : Fin 2) * 4096 + 1 * (j 0).val; omega
    | ⟨1, _⟩ => show win3_0.index t (1 : Fin 2) * 128 + 1 * (j 1).val = win3_3.index t (1 : Fin 2) * 128 + 1 * (j 1).val; omega
  have h1 : ((cfg3.win 1).blk t).view.emb j = hi3 (((cfg3.win 3).blk t).view.emb j) := by
    funext a; apply Fin.ext
    match a with
    | ⟨0, _⟩ => show win3_1.index t (0 : Fin 2) * 4096 + 1 * (j 0).val = win3_3.index t (0 : Fin 2) * 4096 + 1 * (j 0).val + 65536; omega
    | ⟨1, _⟩ => show win3_1.index t (1 : Fin 2) * 128 + 1 * (j 1).val = win3_3.index t (1 : Fin 2) * 128 + 1 * (j 1).val; omega
  rw [h0, h1]

/-- An index of a result array is in point t's block iff each coordinate is in the block's range on its axis. -/
theorem mem_blk3_2 (t : Fin cfg3.N) (i : S65536x128.Idx) :
    i ∈ ((cfg3.win 2).blk t).view.set ↔ ∀ a : Fin 2, win3_2.index t a * S4096x128.size a ≤ (i a).val ∧ (i a).val < win3_2.index t a * S4096x128.size a + S4096x128.size a := by
  show i ∈ ((View.whole main_call0_v32_0).slice (win3_2.rect t)).set ↔ _
  rw [View.set_slice_whole, Rect.mem_set_unit]
  exact Iff.rfl
theorem mem_blk3_3 (t : Fin cfg3.N) (i : S65536x128.Idx) :
    i ∈ ((cfg3.win 3).blk t).view.set ↔ ∀ a : Fin 2, win3_3.index t a * S4096x128.size a ≤ (i a).val ∧ (i a).val < win3_3.index t a * S4096x128.size a + S4096x128.size a := by
  show i ∈ ((View.whole main_call0_v32_1).slice (win3_3.rect t)).set ↔ _
  rw [View.set_slice_whole, Rect.mem_set_unit]
  exact Iff.rfl

/-- Every row of a result array is in the block of the point numbered by the row over 4096. -/
theorem covered3_2 (i : S65536x128.Idx) : ∃ t : Fin cfg3.N, (cfg3.win 2).flush t = true ∧ i ∈ ((cfg3.win 2).blk t).view.set := by
  have hrow : (i 0).val < 65536 := (i 0).isLt
  have hlane : (i 1).val < 128 := (i 1).isLt
  have hN : cfg3.N = 16 := N_3
  have ht : (i 0).val / 4096 < cfg3.N := by rw [hN]; omega
  obtain ⟨e0, e1, e2, e3, e4, e5, e6, e7, e8⟩ := idx_facts3 ⟨(i 0).val / 4096, ht⟩
  have e7' : win3_2.index ⟨(i 0).val / 4096, ht⟩ (0 : Fin 2) = (i 0).val / 4096 := e7
  refine ⟨⟨(i 0).val / 4096, ht⟩, flush3_2 _, ?_⟩
  rw [mem_blk3_2]
  intro a
  match a with
  | ⟨0, _⟩ => show win3_2.index ⟨(i 0).val / 4096, ht⟩ (0 : Fin 2) * 4096 ≤ (i 0).val ∧ (i 0).val < win3_2.index ⟨(i 0).val / 4096, ht⟩ (0 : Fin 2) * 4096 + 4096; omega
  | ⟨1, _⟩ => show win3_2.index ⟨(i 0).val / 4096, ht⟩ (1 : Fin 2) * 128 ≤ (i 1).val ∧ (i 1).val < win3_2.index ⟨(i 0).val / 4096, ht⟩ (1 : Fin 2) * 128 + 128; omega
theorem covered3_3 (i : S65536x128.Idx) : ∃ t : Fin cfg3.N, (cfg3.win 3).flush t = true ∧ i ∈ ((cfg3.win 3).blk t).view.set := by
  have hrow : (i 0).val < 65536 := (i 0).isLt
  have hlane : (i 1).val < 128 := (i 1).isLt
  have hN : cfg3.N = 16 := N_3
  have ht : (i 0).val / 4096 < cfg3.N := by rw [hN]; omega
  obtain ⟨e0, e1, e2, e3, e4, e5, e6, e7, e8⟩ := idx_facts3 ⟨(i 0).val / 4096, ht⟩
  have e7' : win3_2.index ⟨(i 0).val / 4096, ht⟩ (0 : Fin 2) = (i 0).val / 4096 := e7
  refine ⟨⟨(i 0).val / 4096, ht⟩, flush3_3 _, ?_⟩
  rw [mem_blk3_3]
  intro a
  match a with
  | ⟨0, _⟩ => show win3_3.index ⟨(i 0).val / 4096, ht⟩ (0 : Fin 2) * 4096 ≤ (i 0).val ∧ (i 0).val < win3_3.index ⟨(i 0).val / 4096, ht⟩ (0 : Fin 2) * 4096 + 4096; omega
  | ⟨1, _⟩ => show win3_3.index ⟨(i 0).val / 4096, ht⟩ (1 : Fin 2) * 128 ≤ (i 1).val ∧ (i 1).val < win3_3.index ⟨(i 0).val / 4096, ht⟩ (1 : Fin 2) * 128 + 128; omega

/-- The result arrays when the region ends: the scaled sum and difference of the two halves of the input array's rows. -/
theorem final3_2 (c : Dev nD) : (dat3 V c).arrAt 2 cfg3.N = Gsum3 (V c main_call0_v31) :=
  (dat3 V c).arrAt_eq_of_cover 2 (Gsum3 (V c main_call0_v31)) (fun t _ => flushed3_2_eq V c t) covered3_2
theorem final3_3 (c : Dev nD) : (dat3 V c).arrAt 3 cfg3.N = Gdiff3 (V c main_call0_v31) :=
  (dat3 V c).arrAt_eq_of_cover 3 (Gdiff3 (V c main_call0_v31)) (fun t _ => flushed3_3_eq V c t) covered3_3

/-- On a signal held as rows of 128: entry (r, l) of the first half is entry 128 r + l of the signal, and the row 65536
    below it is 128 · 65536 entries on. -/
theorem Gsum3_rows (x : FVec Ideal Cert.Haar.SFlat .f32) : Gsum3 (Cert.Haar.rows x) = Cert.Haar.sumHalf 65536 x := by
  funext i
  show (Cert.Haar.rd x (128 * (i 0).val + (i 1).val) + Cert.Haar.rd x (128 * ((i 0).val + 65536) + (i 1).val)) * Cert.Haar.kc
    = (Cert.Haar.rd x (128 * (i 0).val + (i 1).val) + Cert.Haar.rd x (128 * (i 0).val + (i 1).val + 128 * 65536)) * Cert.Haar.kc
  rw [show 128 * ((i 0).val + 65536) + (i 1).val = 128 * (i 0).val + (i 1).val + 128 * 65536 from by omega]
theorem Gdiff3_rows (x : FVec Ideal Cert.Haar.SFlat .f32) : Gdiff3 (Cert.Haar.rows x) = Cert.Haar.diffHalf 65536 x := by
  funext i
  show (Cert.Haar.rd x (128 * (i 0).val + (i 1).val) - Cert.Haar.rd x (128 * ((i 0).val + 65536) + (i 1).val)) * Cert.Haar.kc
    = (Cert.Haar.rd x (128 * (i 0).val + (i 1).val) - Cert.Haar.rd x (128 * (i 0).val + (i 1).val + 128 * 65536)) * Cert.Haar.kc
  rw [show 128 * ((i 0).val + 65536) + (i 1).val = 128 * (i 0).val + (i 1).val + 128 * 65536 from by omega]

/-- Region 3 on a signal held as rows: it leaves the two halves of one level's butterfly. -/
theorem vals3 (c : Dev nD) (x : FVec Ideal Cert.Haar.SFlat .f32) (hx : V c main_call0_v31 = Cert.Haar.rows x) :
    (dat3 V c).arrAt 2 cfg3.N = Cert.Haar.sumHalf 65536 x ∧ (dat3 V c).arrAt 3 cfg3.N = Cert.Haar.diffHalf 65536 x :=
  ⟨(final3_2 V c).trans ((congrArg Gsum3 hx).trans (Gsum3_rows x)),
   (final3_3 V c).trans ((congrArg Gdiff3 hx).trans (Gdiff3_rows x))⟩

end Cert.KernelIdeal.FrVal

end
-- ==== Proof.KIVal4.lean ====
/-
  Region 4 of the program (the butterfly kernel's fifth launch) at the ideal instance: what the two result arrays hold
  when the region ends, as whole-array functions of the input array.

  The input array is 262144 rows of 128. Point t adds (and subtracts) its block t of 4096 rows and the block 32 further
  down, scales, and writes block t of each result array; the 32 points' blocks tile the 131072 rows of a result. So a
  result's entry (r, l) is the scaled sum (difference) of the input's entries (r, l) and (r + 131072, l). When the input
  array holds a flat signal as rows of 128, entry (r, l) is the signal's entry 128 r + l, and the results are the two
  butterfly outputs of the level with half-length 128 · 131072.
-/
import proofs.«157342_j28784870817852_2_alg».proof.Proof.KIBody4
import proofs.«157342_j28784870817852_2_alg».proof.Proof.Spec
import Idealize.ShloMosaic.Lib.Pipeline.Value
import Idealize.ShloMosaic.Lib.ValueIdx

noncomputable section

namespace Cert.KernelIdeal.FrVal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

/-- The zero offset of a whole-block rectangle. -/
theorem zoff4 : (![0, 0] : Fin 2 → Nat) = fun _ => 0 := funext fun a => by fin_cases a <;> rfl

/-- Row r of the first half of the rows, and the row 131072 below it. -/
def lo4 (i : S131072x128.Idx) : S262144x128.Idx :=
  ix2 ⟨(i 0).val, by have h : (i 0).val < 131072 := (i 0).isLt; omega⟩ ⟨(i 1).val, (i 1).isLt⟩
def hi4 (i : S131072x128.Idx) : S262144x128.Idx :=
  ix2 ⟨(i 0).val + 131072, by have h : (i 0).val < 131072 := (i 0).isLt; omega⟩ ⟨(i 1).val, (i 1).isLt⟩

/-- The scaled sum and the scaled difference of a row of the first 131072 rows and the row 131072 below it. -/
abbrev Gsum4 (a : S262144x128.Idx → Ideal .f32) : S131072x128.Idx → Ideal .f32 := fun i =>
  (a (lo4 i) + a (hi4 i)) * Ideal.ofBits .f32 0x3F3504F3#32
abbrev Gdiff4 (a : S262144x128.Idx → Ideal .f32) : S131072x128.Idx → Ideal .f32 := fun i =>
  (a (lo4 i) - a (hi4 i)) * Ideal.ofBits .f32 0x3F3504F3#32

/-- The index maps over the 32 points: the first input block and both result blocks are block t, the second input block
    is block t + 32, all in the one column of blocks. -/
theorem idx_facts4 : ∀ t : Fin cfg4.N, win4_0.index t (0 : Fin 2) = win4_2.index t (0 : Fin 2)
    ∧ win4_1.index t (0 : Fin 2) = win4_2.index t (0 : Fin 2) + 32
    ∧ win4_0.index t (1 : Fin 2) = 0 ∧ win4_1.index t (1 : Fin 2) = 0 ∧ win4_2.index t (1 : Fin 2) = 0
    ∧ win4_3.index t (0 : Fin 2) = win4_2.index t (0 : Fin 2) ∧ win4_3.index t (1 : Fin 2) = 0
    ∧ win4_2.index t (0 : Fin 2) = t.val ∧ win4_2.index t (0 : Fin 2) ≤ 31 :=
  (by decide +kernel : ∀ t : Fin grid4.N, _)

/-- What point t writes back to the first result array is block t of the scaled sum: the first input block's row r is
    the array's row 4096 t + r, the second's is row 4096 (t + 32) + r = 4096 t + r + 131072. -/
theorem flushed4_2_eq (c : Dev nD) (t : Fin cfg4.N) :
    (dat4 V c).flushed 2 t = ((cfg4.win 2).blk t).view.read (Elt Ideal) (Gsum4 (V c main_call0_v41)) := by
  show (cfg4.win 2).cut (grid4.coords t) ((dat4 V c).after 2 t) = _
  rw [after4_2]
  unfold out4_2
  rw [View.canon_unit_zero zoff4]
  simp only [View.ld_unit_zero (S := S4096x128) zoff4]
  unfold k4_pay3 k4_pay1 k4_pay2
  simp only [shapeCast_self]
  obtain ⟨e0, e1, e2, e3, e4, e5, e6, e7, e8⟩ := idx_facts4 t
  funext j
  let A : S262144x128.Idx → Ideal .f32 := V c main_call0_v41
  show (A (((cfg4.win 0).blk t).view.emb j) + A (((cfg4.win 1).blk t).view.emb j)) * Ideal.ofBits .f32 0x3F3504F3#32
    = (A (lo4 (((cfg4.win 2).blk t).view.emb j)) + A (hi4 (((cfg4.win 2).blk t).view.emb j))) * Ideal.ofBits .f32 0x3F3504F3#32
  have h0 : ((cfg4.win 0).blk t).view.emb j = lo4 (((cfg4.win 2).blk t).view.emb j) := by
    funext a; apply Fin.ext
    match a with
    | ⟨0, _⟩ => show win4_0.index t (0 : Fin 2) * 4096 + 1 * (j 0).val = win4_2.index t (0 : Fin 2) * 4096 + 1 * (j 0).val; omega
    | ⟨1, _⟩ => show win4_0.index t (1 : Fin 2) * 128 + 1 * (j 1).val = win4_2.index t (1 : Fin 2) * 128 + 1 * (j 1).val; omega
  have h1 : ((cfg4.win 1).blk t).view.emb j = hi4 (((cfg4.win 2).blk t).view.emb j) := by
    funext a; apply Fin.ext
    match a with
    | ⟨0, _⟩ => show win4_1.index t (0 : Fin 2) * 4096 + 1 * (j 0).val = win4_2.index t (0 : Fin 2) * 4096 + 1 * (j 0).val + 131072; omega
    | ⟨1, _⟩ => show win4_1.index t (1 : Fin 2) * 128 + 1 * (j 1).val = win4_2.index t (1 : Fin 2) * 128 + 1 * (j 1).val; omega
  rw [h0, h1]

/-- Likewise the second result array and the scaled difference. -/
theorem flushed4_3_eq (c : Dev nD) (t : Fin cfg4.N) :
    (dat4 V c).flushed 3 t = ((cfg4.win 3).blk t).view.read (Elt Ideal) (Gdiff4 (V c main_call0_v41)) := by
  show (cfg4.win 3).cut (grid4.coords t) ((dat4 V c).after 3 t) = _
  rw [after4_3]
  unfold out4_3
  rw [View.canon_unit_zero zoff4]
  simp only [View.ld_unit_zero (S := S4096x128) zoff4]
  unfold k4_pay4 k4_pay1 k4_pay2
  simp only [shapeCast_self]
  obtain ⟨e0, e1, e2, e3, e4, e5, e6, e7, e8⟩ := idx_facts4 t
  funext j
  let A : S262144x128.Idx → Ideal .f32 := V c main_call0_v41
  show (A (((cfg4.win 0).blk t).view.emb j) - A (((cfg4.win 1).blk t).view.emb j)) * Ideal.ofBits .f32 0x3F3504F3#32
    = (A (lo4 (((cfg4.win 3).blk t).view.emb j)) - A (hi4 (((cfg4.win 3).blk t).view.emb j))) * Ideal.ofBits .f32 0x3F3504F3#32
  have h0 : ((cfg4.win 0).blk t).view.emb j = lo4 (((cfg4.win 3).blk t).view.emb j) := by
    funext a; apply Fin.ext
    match a with
    | ⟨0, _⟩ => show win4_0.index t (0 : Fin 2) * 4096 + 1 * (j 0).val = win4_3.index t (0 : Fin 2) * 4096 + 1 * (j 0).val; omega
    | ⟨1, _⟩ => show win4_0.index t (1 : Fin 2) * 128 + 1 * (j 1).val = win4_3.index t (1 : Fin 2) * 128 + 1 * (j 1).val; omega
  have h1 : ((cfg4.win 1).blk t).view.emb j = hi4 (((cfg4.win 3).blk t).view.emb j) := by
    funext a; apply Fin.ext
    match a with
    | ⟨0, _⟩ => show win4_1.index t (0 : Fin 2) * 4096 + 1 * (j 0).val = win4_3.index t (0 : Fin 2) * 4096 + 1 * (j 0).val + 131072; omega
    | ⟨1, _⟩ => show win4_1.index t (1 : Fin 2) * 128 + 1 * (j 1).val = win4_3.index t (1 : Fin 2) * 128 + 1 * (j 1).val; omega
  rw [h0, h1]

/-- An index of a result array is in point t's block iff each coordinate is in the block's range on its axis. -/
theorem mem_blk4_2 (t : Fin cfg4.N) (i : S131072x128.Idx) :
    i ∈ ((cfg4.win 2).blk t).view.set ↔ ∀ a : Fin 2, win4_2.index t a * S4096x128.size a ≤ (i a).val ∧ (i a).val < win4_2.index t a * S4096x128.size a + S4096x128.size a := by
  show i ∈ ((View.whole main_call0_v42_0).slice (win4_2.rect t)).set ↔ _
  rw [View.set_slice_whole, Rect.mem_set_unit]
  exact Iff.rfl
theorem mem_blk4_3 (t : Fin cfg4.N) (i : S131072x128.Idx) :
    i ∈ ((cfg4.win 3).blk t).view.set ↔ ∀ a : Fin 2, win4_3.index t a * S4096x128.size a ≤ (i a).val ∧ (i a).val < win4_3.index t a * S4096x128.size a + S4096x128.size a := by
  show i ∈ ((View.whole main_call0_v42_1).slice (win4_3.rect t)).set ↔ _
  rw [View.set_slice_whole, Rect.mem_set_unit]
  exact Iff.rfl

/-- Every row of a result array is in the block of the point numbered by the row over 4096. -/
theorem covered4_2 (i : S131072x128.Idx) : ∃ t : Fin cfg4.N, (cfg4.win 2).flush t = true ∧ i ∈ ((cfg4.win 2).blk t).view.set := by
  have hrow : (i 0).val < 131072 := (i 0).isLt
  have hlane : (i 1).val < 128 := (i 1).isLt
  have hN : cfg4.N = 32 := N_4
  have ht : (i 0).val / 4096 < cfg4.N := by rw [hN]; omega
  obtain ⟨e0, e1, e2, e3, e4, e5, e6, e7, e8⟩ := idx_facts4 ⟨(i 0).val / 4096, ht⟩
  have e7' : win4_2.index ⟨(i 0).val / 4096, ht⟩ (0 : Fin 2) = (i 0).val / 4096 := e7
  refine ⟨⟨(i 0).val / 4096, ht⟩, flush4_2 _, ?_⟩
  rw [mem_blk4_2]
  intro a
  match a with
  | ⟨0, _⟩ => show win4_2.index ⟨(i 0).val / 4096, ht⟩ (0 : Fin 2) * 4096 ≤ (i 0).val ∧ (i 0).val < win4_2.index ⟨(i 0).val / 4096, ht⟩ (0 : Fin 2) * 4096 + 4096; omega
  | ⟨1, _⟩ => show win4_2.index ⟨(i 0).val / 4096, ht⟩ (1 : Fin 2) * 128 ≤ (i 1).val ∧ (i 1).val < win4_2.index ⟨(i 0).val / 4096, ht⟩ (1 : Fin 2) * 128 + 128; omega
theorem covered4_3 (i : S131072x128.Idx) : ∃ t : Fin cfg4.N, (cfg4.win 3).flush t = true ∧ i ∈ ((cfg4.win 3).blk t).view.set := by
  have hrow : (i 0).val < 131072 := (i 0).isLt
  have hlane : (i 1).val < 128 := (i 1).isLt
  have hN : cfg4.N = 32 := N_4
  have ht : (i 0).val / 4096 < cfg4.N := by rw [hN]; omega
  obtain ⟨e0, e1, e2, e3, e4, e5, e6, e7, e8⟩ := idx_facts4 ⟨(i 0).val / 4096, ht⟩
  have e7' : win4_2.index ⟨(i 0).val / 4096, ht⟩ (0 : Fin 2) = (i 0).val / 4096 := e7
  refine ⟨⟨(i 0).val / 4096, ht⟩, flush4_3 _, ?_⟩
  rw [mem_blk4_3]
  intro a
  match a with
  | ⟨0, _⟩ => show win4_3.index ⟨(i 0).val / 4096, ht⟩ (0 : Fin 2) * 4096 ≤ (i 0).val ∧ (i 0).val < win4_3.index ⟨(i 0).val / 4096, ht⟩ (0 : Fin 2) * 4096 + 4096; omega
  | ⟨1, _⟩ => show win4_3.index ⟨(i 0).val / 4096, ht⟩ (1 : Fin 2) * 128 ≤ (i 1).val ∧ (i 1).val < win4_3.index ⟨(i 0).val / 4096, ht⟩ (1 : Fin 2) * 128 + 128; omega

/-- The result arrays when the region ends: the scaled sum and difference of the two halves of the input array's rows. -/
theorem final4_2 (c : Dev nD) : (dat4 V c).arrAt 2 cfg4.N = Gsum4 (V c main_call0_v41) :=
  (dat4 V c).arrAt_eq_of_cover 2 (Gsum4 (V c main_call0_v41)) (fun t _ => flushed4_2_eq V c t) covered4_2
theorem final4_3 (c : Dev nD) : (dat4 V c).arrAt 3 cfg4.N = Gdiff4 (V c main_call0_v41) :=
  (dat4 V c).arrAt_eq_of_cover 3 (Gdiff4 (V c main_call0_v41)) (fun t _ => flushed4_3_eq V c t) covered4_3

/-- On a signal held as rows of 128: entry (r, l) of the first half is entry 128 r + l of the signal, and the row 131072
    below it is 128 · 131072 entries on. -/
theorem Gsum4_rows (x : FVec Ideal Cert.Haar.SFlat .f32) : Gsum4 (Cert.Haar.rows x) = Cert.Haar.sumHalf 131072 x := by
  funext i
  show (Cert.Haar.rd x (128 * (i 0).val + (i 1).val) + Cert.Haar.rd x (128 * ((i 0).val + 131072) + (i 1).val)) * Cert.Haar.kc
    = (Cert.Haar.rd x (128 * (i 0).val + (i 1).val) + Cert.Haar.rd x (128 * (i 0).val + (i 1).val + 128 * 131072)) * Cert.Haar.kc
  rw [show 128 * ((i 0).val + 131072) + (i 1).val = 128 * (i 0).val + (i 1).val + 128 * 131072 from by omega]
theorem Gdiff4_rows (x : FVec Ideal Cert.Haar.SFlat .f32) : Gdiff4 (Cert.Haar.rows x) = Cert.Haar.diffHalf 131072 x := by
  funext i
  show (Cert.Haar.rd x (128 * (i 0).val + (i 1).val) - Cert.Haar.rd x (128 * ((i 0).val + 131072) + (i 1).val)) * Cert.Haar.kc
    = (Cert.Haar.rd x (128 * (i 0).val + (i 1).val) - Cert.Haar.rd x (128 * (i 0).val + (i 1).val + 128 * 131072)) * Cert.Haar.kc
  rw [show 128 * ((i 0).val + 131072) + (i 1).val = 128 * (i 0).val + (i 1).val + 128 * 131072 from by omega]

/-- Region 4 on a signal held as rows: it leaves the two halves of one level's butterfly. -/
theorem vals4 (c : Dev nD) (x : FVec Ideal Cert.Haar.SFlat .f32) (hx : V c main_call0_v41 = Cert.Haar.rows x) :
    (dat4 V c).arrAt 2 cfg4.N = Cert.Haar.sumHalf 131072 x ∧ (dat4 V c).arrAt 3 cfg4.N = Cert.Haar.diffHalf 131072 x :=
  ⟨(final4_2 V c).trans ((congrArg Gsum4 hx).trans (Gsum4_rows x)),
   (final4_3 V c).trans ((congrArg Gdiff4 hx).trans (Gdiff4_rows x))⟩

end Cert.KernelIdeal.FrVal

end
-- ==== Proof.KIValue.lean ====
/-
  The kernel program's result at the return, as a value: the five levels of the transform applied to the argument.
  Between the launch and the return the buffers' contents pass through twelve boundaries; at each, the flat signal so
  far and its rows, or the two butterfly outputs a region computed from the rows, are read off the one before.
-/
import proofs.«157342_j28784870817852_2_alg».proof.Proof.KIChain
import proofs.«157342_j28784870817852_2_alg».proof.Proof.Spec
import proofs.«157342_j28784870817852_2_alg».proof.Proof.HostValue
import proofs.«157342_j28784870817852_2_alg».proof.Proof.KIVal0
import proofs.«157342_j28784870817852_2_alg».proof.Proof.KIVal1
import proofs.«157342_j28784870817852_2_alg».proof.Proof.KIVal2
import proofs.«157342_j28784870817852_2_alg».proof.Proof.KIVal3
import proofs.«157342_j28784870817852_2_alg».proof.Proof.KIVal4

noncomputable section

namespace Cert.KernelIdeal.FrVal

open Idealize.ShloMosaic Idealize.ShloMosaic.TcCoe Idealize.SL.Sem
open Cert.KernelIdeal Cert.KernelIdeal.Gen Cert.KernelIdeal.Fr
open Cert.Haar

/-- The chain of boundaries, given what each host stretch and each region computes. -/
theorem W11_value_of
    (H0f : ∀ W : Valuation τ sig (Elt Ideal), (StableHlo.after (hostOps0 (F := Ideal)) W (Proc.devRef .tc main_call0_v0) : FVec Ideal SFlat .f32) = flat (W (Proc.devRef .tc main_arg0)))
    (H0r : ∀ W : Valuation τ sig (Elt Ideal), (StableHlo.after (hostOps0 (F := Ideal)) W (Proc.devRef .tc main_call0_v1) : FVec Ideal SRows .f32) = rows (flat (W (Proc.devRef .tc main_arg0))))
    (H1f : ∀ (W : Valuation τ sig (Elt Ideal)) (x : FVec Ideal SFlat .f32), W (Proc.devRef .tc main_call0_v0) = x → W (Proc.devRef .tc main_call0_v2_0) = sumHalf 8192 x → W (Proc.devRef .tc main_call0_v2_1) = diffHalf 8192 x →
      (StableHlo.after (hostOps1 (F := Ideal)) W (Proc.devRef .tc main_call0_v10) : FVec Ideal SFlat .f32) = lvl 1048576 x)
    (H1r : ∀ (W : Valuation τ sig (Elt Ideal)) (x : FVec Ideal SFlat .f32), W (Proc.devRef .tc main_call0_v0) = x → W (Proc.devRef .tc main_call0_v2_0) = sumHalf 8192 x → W (Proc.devRef .tc main_call0_v2_1) = diffHalf 8192 x →
      (StableHlo.after (hostOps1 (F := Ideal)) W (Proc.devRef .tc main_call0_v11) : FVec Ideal SRows .f32) = rows (lvl 1048576 x))
    (H2f : ∀ (W : Valuation τ sig (Elt Ideal)) (x : FVec Ideal SFlat .f32), W (Proc.devRef .tc main_call0_v10) = x → W (Proc.devRef .tc main_call0_v12_0) = sumHalf 16384 x → W (Proc.devRef .tc main_call0_v12_1) = diffHalf 16384 x →
      (StableHlo.after (hostOps2 (F := Ideal)) W (Proc.devRef .tc main_call0_v20) : FVec Ideal SFlat .f32) = lvl 2097152 x)
    (H2r : ∀ (W : Valuation τ sig (Elt Ideal)) (x : FVec Ideal SFlat .f32), W (Proc.devRef .tc main_call0_v10) = x → W (Proc.devRef .tc main_call0_v12_0) = sumHalf 16384 x → W (Proc.devRef .tc main_call0_v12_1) = diffHalf 16384 x →
      (StableHlo.after (hostOps2 (F := Ideal)) W (Proc.devRef .tc main_call0_v21) : FVec Ideal SRows .f32) = rows (lvl 2097152 x))
    (H3f : ∀ (W : Valuation τ sig (Elt Ideal)) (x : FVec Ideal SFlat .f32), W (Proc.devRef .tc main_call0_v20) = x → W (Proc.devRef .tc main_call0_v22_0) = sumHalf 32768 x → W (Proc.devRef .tc main_call0_v22_1) = diffHalf 32768 x →
      (StableHlo.after (hostOps3 (F := Ideal)) W (Proc.devRef .tc main_call0_v30) : FVec Ideal SFlat .f32) = lvl 4194304 x)
    (H3r : ∀ (W : Valuation τ sig (Elt Ideal)) (x : FVec Ideal SFlat .f32), W (Proc.devRef .tc main_call0_v20) = x → W (Proc.devRef .tc main_call0_v22_0) = sumHalf 32768 x → W (Proc.devRef .tc main_call0_v22_1) = diffHalf 32768 x →
      (StableHlo.after (hostOps3 (F := Ideal)) W (Proc.devRef .tc main_call0_v31) : FVec Ideal SRows .f32) = rows (lvl 4194304 x))
    (H4f : ∀ (W : Valuation τ sig (Elt Ideal)) (x : FVec Ideal SFlat .f32), W (Proc.devRef .tc main_call0_v30) = x → W (Proc.devRef .tc main_call0_v32_0) = sumHalf 65536 x → W (Proc.devRef .tc main_call0_v32_1) = diffHalf 65536 x →
      (StableHlo.after (hostOps4 (F := Ideal)) W (Proc.devRef .tc main_call0_v40) : FVec Ideal SFlat .f32) = lvl 8388608 x)
    (H4r : ∀ (W : Valuation τ sig (Elt Ideal)) (x : FVec Ideal SFlat .f32), W (Proc.devRef .tc main_call0_v30) = x → W (Proc.devRef .tc main_call0_v32_0) = sumHalf 65536 x → W (Proc.devRef .tc main_call0_v32_1) = diffHalf 65536 x →
      (StableHlo.after (hostOps4 (F := Ideal)) W (Proc.devRef .tc main_call0_v41) : FVec Ideal SRows .f32) = rows (lvl 8388608 x))
    (H5 : ∀ (W : Valuation τ sig (Elt Ideal)) (x : FVec Ideal SFlat .f32), W (Proc.devRef .tc main_call0_v40) = x → W (Proc.devRef .tc main_call0_v42_0) = sumHalf 131072 x → W (Proc.devRef .tc main_call0_v42_1) = diffHalf 131072 x →
      (StableHlo.after (hostOps5 (F := Ideal)) W (Proc.devRef .tc main_v0) : FVec Ideal SUnit .f32) = unflat (lvl 16777216 x))
    (vals0 : ∀ (V : (c : Dev nD) → (b : Ref sig .tc) → Buf (Elt Ideal) ((c : Thread nD τ).loc b)) (c : Dev nD) (x : FVec Ideal SFlat .f32), V c main_call0_v1 = rows x →
      (dat0 V c).arrAt 2 cfg0.N = sumHalf 8192 x ∧ (dat0 V c).arrAt 3 cfg0.N = diffHalf 8192 x)
    (vals1 : ∀ (V : (c : Dev nD) → (b : Ref sig .tc) → Buf (Elt Ideal) ((c : Thread nD τ).loc b)) (c : Dev nD) (x : FVec Ideal SFlat .f32), V c main_call0_v11 = rows x →
      (dat1 V c).arrAt 2 cfg1.N = sumHalf 16384 x ∧ (dat1 V c).arrAt 3 cfg1.N = diffHalf 16384 x)
    (vals2 : ∀ (V : (c : Dev nD) → (b : Ref sig .tc) → Buf (Elt Ideal) ((c : Thread nD τ).loc b)) (c : Dev nD) (x : FVec Ideal SFlat .f32), V c main_call0_v21 = rows x →
      (dat2 V c).arrAt 2 cfg2.N = sumHalf 32768 x ∧ (dat2 V c).arrAt 3 cfg2.N = diffHalf 32768 x)
    (vals3 : ∀ (V : (c : Dev nD) → (b : Ref sig .tc) → Buf (Elt Ideal) ((c : Thread nD τ).loc b)) (c : Dev nD) (x : FVec Ideal SFlat .f32), V c main_call0_v31 = rows x →
      (dat3 V c).arrAt 2 cfg3.N = sumHalf 65536 x ∧ (dat3 V c).arrAt 3 cfg3.N = diffHalf 65536 x)
    (vals4 : ∀ (V : (c : Dev nD) → (b : Ref sig .tc) → Buf (Elt Ideal) ((c : Thread nD τ).loc b)) (c : Dev nD) (x : FVec Ideal SFlat .f32), V c main_call0_v41 = rows x →
      (dat4 V c).arrAt 2 cfg4.N = sumHalf 131072 x ∧ (dat4 V c).arrAt 3 cfg4.N = diffHalf 131072 x)
    (m : (ℓ : Loc nD τ sig) → Buf (Elt Ideal) ℓ) (c : Dev nD) :
    (W11 (F := Ideal) m c (Proc.devRef .tc main_v0) : FVec Ideal SUnit .f32) = G (m ((c : Thread nD τ).loc main_arg0)) := by
  show _ = unflat (lvl 16777216 (lvl 8388608 (lvl 4194304 (lvl 2097152 (lvl 1048576 (flat (m ((c : Thread nD τ).loc main_arg0))))))))
  generalize hx0 : flat (m ((c : Thread nD τ).loc main_arg0)) = x0
  -- the flat signal and its rows after the first host stretch
  have a0 : (W1 m c (Proc.devRef .tc main_call0_v0) : FVec Ideal SFlat .f32) = x0 := (H0f (W0 m c)).trans hx0
  have r0 : (W1 m c (Proc.devRef .tc main_call0_v1) : FVec Ideal SRows .f32) = rows x0 := (H0r (W0 m c)).trans (congrArg rows hx0)
  -- region 0: the two butterfly outputs of the signal before level 1; the signal itself is kept
  have v0 := vals0 (asV (W1 m)) c x0 r0
  have s0 : W2 m c (Proc.devRef .tc main_call0_v2_0) = sumHalf 8192 x0 := by
    unfold W2; exact (exit0_out0 (W1 m) c).trans v0.1
  have d0 : W2 m c (Proc.devRef .tc main_call0_v2_1) = diffHalf 8192 x0 := by
    unfold W2; exact (exit0_out1 (W1 m) c).trans v0.2
  have k0 : W2 m c (Proc.devRef .tc main_call0_v0) = x0 := by
    unfold W2; exact (exit0_of_ne (W1 m) c main_call0_v0 (by decide) (by decide)).trans a0
  -- the host stretch after it: level 1, flat and as rows
  have a1 : (W3 m c (Proc.devRef .tc main_call0_v10) : FVec Ideal SFlat .f32) = lvl 1048576 x0 := H1f (W2 m c) x0 k0 s0 d0
  have r1 : (W3 m c (Proc.devRef .tc main_call0_v11) : FVec Ideal SRows .f32) = rows (lvl 1048576 x0) := H1r (W2 m c) x0 k0 s0 d0
  clear v0 s0 d0 k0 a0 r0
  -- region 1: the two butterfly outputs of the signal before level 2; the signal itself is kept
  have v1 := vals1 (asV (W3 m)) c (lvl 1048576 x0) r1
  have s1 : W4 m c (Proc.devRef .tc main_call0_v12_0) = sumHalf 16384 (lvl 1048576 x0) := by
    unfold W4; exact (exit1_out0 (W3 m) c).trans v1.1
  have d1 : W4 m c (Proc.devRef .tc main_call0_v12_1) = diffHalf 16384 (lvl 1048576 x0) := by
    unfold W4; exact (exit1_out1 (W3 m) c).trans v1.2
  have k1 : W4 m c (Proc.devRef .tc main_call0_v10) = (lvl 1048576 x0) := by
    unfold W4; exact (exit1_of_ne (W3 m) c main_call0_v10 (by decide) (by decide)).trans a1
  -- the host stretch after it: level 2, flat and as rows
  have a2 : (W5 m c (Proc.devRef .tc main_call0_v20) : FVec Ideal SFlat .f32) = lvl 2097152 (lvl 1048576 x0) := H2f (W4 m c) (lvl 1048576 x0) k1 s1 d1
  have r2 : (W5 m c (Proc.devRef .tc main_call0_v21) : FVec Ideal SRows .f32) = rows (lvl 2097152 (lvl 1048576 x0)) := H2r (W4 m c) (lvl 1048576 x0) k1 s1 d1
  clear v1 s1 d1 k1 a1 r1
  -- region 2: the two butterfly outputs of the signal before level 3; the signal itself is kept
  have v2 := vals2 (asV (W5 m)) c (lvl 2097152 (lvl 1048576 x0)) r2
  have s2 : W6 m c (Proc.devRef .tc main_call0_v22_0) = sumHalf 32768 (lvl 2097152 (lvl 1048576 x0)) := by
    unfold W6; exact (exit2_out0 (W5 m) c).trans v2.1
  have d2 : W6 m c (Proc.devRef .tc main_call0_v22_1) = diffHalf 32768 (lvl 2097152 (lvl 1048576 x0)) := by
    unfold W6; exact (exit2_out1 (W5 m) c).trans v2.2
  have k2 : W6 m c (Proc.devRef .tc main_call0_v20) = (lvl 2097152 (lvl 1048576 x0)) := by
    unfold W6; exact (exit2_of_ne (W5 m) c main_call0_v20 (by decide) (by decide)).trans a2
  -- the host stretch after it: level 3, flat and as rows
  have a3 : (W7 m c (Proc.devRef .tc main_call0_v30) : FVec Ideal SFlat .f32) = lvl 4194304 (lvl 2097152 (lvl 1048576 x0)) := H3f (W6 m c) (lvl 2097152 (lvl 1048576 x0)) k2 s2 d2
  have r3 : (W7 m c (Proc.devRef .tc main_call0_v31) : FVec Ideal SRows .f32) = rows (lvl 4194304 (lvl 2097152 (lvl 1048576 x0))) := H3r (W6 m c) (lvl 2097152 (lvl 1048576 x0)) k2 s2 d2
  clear v2 s2 d2 k2 a2 r2
  -- region 3: the two butterfly outputs of the signal before level 4; the signal itself is kept
  have v3 := vals3 (asV (W7 m)) c (lvl 4194304 (lvl 2097152 (lvl 1048576 x0))) r3
  have s3 : W8 m c (Proc.devRef .tc main_call0_v32_0) = sumHalf 65536 (lvl 4194304 (lvl 2097152 (lvl 1048576 x0))) := by
    unfold W8; exact (exit3_out0 (W7 m) c).trans v3.1
  have d3 : W8 m c (Proc.devRef .tc main_call0_v32_1) = diffHalf 65536 (lvl 4194304 (lvl 2097152 (lvl 1048576 x0))) := by
    unfold W8; exact (exit3_out1 (W7 m) c).trans v3.2
  have k3 : W8 m c (Proc.devRef .tc main_call0_v30) = (lvl 4194304 (lvl 2097152 (lvl 1048576 x0))) := by
    unfold W8; exact (exit3_of_ne (W7 m) c main_call0_v30 (by decide) (by decide)).trans a3
  -- the host stretch after it: level 4, flat and as rows
  have a4 : (W9 m c (Proc.devRef .tc main_call0_v40) : FVec Ideal SFlat .f32) = lvl 8388608 (lvl 4194304 (lvl 2097152 (lvl 1048576 x0))) := H4f (W8 m c) (lvl 4194304 (lvl 2097152 (lvl 1048576 x0))) k3 s3 d3
  have r4 : (W9 m c (Proc.devRef .tc main_call0_v41) : FVec Ideal SRows .f32) = rows (lvl 8388608 (lvl 4194304 (lvl 2097152 (lvl 1048576 x0)))) := H4r (W8 m c) (lvl 4194304 (lvl 2097152 (lvl 1048576 x0))) k3 s3 d3
  clear v3 s3 d3 k3 a3 r3
  -- region 4: the two butterfly outputs of the signal before level 5; the signal itself is kept
  have v4 := vals4 (asV (W9 m)) c (lvl 8388608 (lvl 4194304 (lvl 2097152 (lvl 1048576 x0)))) r4
  have s4 : W10 m c (Proc.devRef .tc main_call0_v42_0) = sumHalf 131072 (lvl 8388608 (lvl 4194304 (lvl 2097152 (lvl 1048576 x0)))) := by
    unfold W10; exact (exit4_out0 (W9 m) c).trans v4.1
  have d4 : W10 m c (Proc.devRef .tc main_call0_v42_1) = diffHalf 131072 (lvl 8388608 (lvl 4194304 (lvl 2097152 (lvl 1048576 x0)))) := by
    unfold W10; exact (exit4_out1 (W9 m) c).trans v4.2
  have k4 : W10 m c (Proc.devRef .tc main_call0_v40) = (lvl 8388608 (lvl 4194304 (lvl 2097152 (lvl 1048576 x0)))) := by
    unfold W10; exact (exit4_of_ne (W9 m) c main_call0_v40 (by decide) (by decide)).trans a4
  -- the last host stretch: level 5, with the unit axes put back
  exact H5 (W10 m c) (lvl 8388608 (lvl 4194304 (lvl 2097152 (lvl 1048576 x0)))) k4 s4 d4

/-- The program's result at the return is the five levels of the transform applied to the argument. -/
theorem W11_value (m : (ℓ : Loc nD τ sig) → Buf (Elt Ideal) ℓ) (c : Dev nD) :
    (W11 (F := Ideal) m c (Proc.devRef .tc main_v0) : FVec Ideal SUnit .f32) = G (m ((c : Thread nD τ).loc main_arg0)) :=
  W11_value_of Host.H0_flat Host.H0_rows Host.H1_flat Host.H1_rows Host.H2_flat Host.H2_rows Host.H3_flat Host.H3_rows
    Host.H4_flat Host.H4_rows Host.H5_out vals0 vals1 vals2 vals3 vals4 m c

end Cert.KernelIdeal.FrVal

end
-- ==== Proof.RefFrame.lean ====
/-
  The reference's run and frame. The reference program is a straight line of 88 host operations; every weakly fair
  execution of it terminates without a fault, and each buffer ends at the fold of the operations' results over the
  launch contents. No operation writes the argument array, so it ends as launched: that is the reference's frame.
-/
import proofs.«157342_j28784870817852_2_alg».proof.Defs
import proofs.«157342_j28784870817852_2_alg».proof.Proof.RefRun
import proofs.«157342_j28784870817852_2_alg».proof.Proof.Gen.Pre_finite_inputs

noncomputable section

namespace Cert.Proof.RefFrame

open Idealize.ShloMosaic Idealize.ShloMosaic.TcCoe Idealize.SL.Sem Idealize.ShloMosaic.StableHlo
open Cert.ReferenceIdeal Cert.ReferenceIdeal.Gen Cert.ReferenceIdeal.ValueP

variable {F : FTy → Type} [FloatOps F]

/-- Every weakly fair execution of the reference terminates, each buffer at the operations' fold over the launch
    contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (ops (F := F)) (launchContents m c) (Proc.devRef .tc b) :=
  run_seq scopedRefs_eq scopedSems_eq defs main (fun _ => ops) main_eq (fun _ => ops_sub) m ρ

set_option maxRecDepth 8192 in
/-- No operation of the reference writes its argument. -/
theorem arg_kept (V0 : Valuation τ sig (Elt F)) :
    after (ops (F := F)) V0 (Proc.devRef .tc main_arg0) = V0 (Proc.devRef .tc main_arg0) := by
  after_results_simp

/-- The reference's frame. -/
theorem frame : Cert.frame_ReferenceIdeal := fun m ρ _ =>
  (θ_run Cert.ReferenceIdeal.defs _ _).mono (fun _ h c => (h c main_arg0).trans (arg_kept _)) (run_after (F := Ideal) m ρ)

end Cert.Proof.RefFrame

end
-- ==== Proof.RefScatter.lean ====
/-
  A scatter whose body returns the update, all of whose update indices land inside the operand at pairwise distinct
  places: the result holds the update where an update index lands and the operand elsewhere. Two instances: one
  window of a [1, 1, W] update written at start 0 of the last axis of a [1, 1, L] operand (the first W entries are
  replaced), and a whole [1, 1, L] update written with an empty start index (every entry is replaced).
-/
import Idealize.ShloMosaic.PureOps.ShapeOps
import Idealize.ShloMosaic.Lib.ValueIdx
import proofs.«157342_j28784870817852_2_alg».proof.Proof.LibScatterWindow

namespace Cert.Haar.Ref

open Idealize.ShloMosaic
open Idealize.ShloMosaic.ValueIdx
open Cert.LibScatterWindow

section Generic

variable {α : Type} {s si u : Shape} {w : Nat}

/-- Every update index lands at `emb j`, and `emb` is injective: at `emb j` the result is the update at `j`. -/
theorem scatter_hit (d : ScatterDims s si u) (x : s.Idx → α) (idx : IVec si w) (upd : u.Idx → α)
    (emb : u.Idx → s.Idx) (hres : ∀ j, d.resultIdx? j idx = some (emb j)) (hinj : Function.Injective emb) (j : u.Idx) :
    Host.scatter d (fun _ y => y) x idx upd (emb j) = upd j := by
  unfold Host.scatter
  have hinj' : ∀ n m : Fin u.numel,
      (fun n => d.resultIdx? (u.rowMajor.symm n) idx) n = (fun n => d.resultIdx? (u.rowMajor.symm n) idx) m →
      (fun n => d.resultIdx? (u.rowMajor.symm n) idx) n ≠ none → n = m := by
    intro n m hnm _
    simp only [hres] at hnm
    exact u.rowMajor.symm.injective (hinj (Option.some.inj hnm))
  have key := foldl_overwrite_hit (fun n => d.resultIdx? (u.rowMajor.symm n) idx)
    (fun n => upd (u.rowMajor.symm n)) hinj' (u.rowMajor j) (emb j)
    (by show d.resultIdx? (u.rowMajor.symm _) idx = _; rw [Equiv.symm_apply_apply, hres])
    (List.finRange u.numel) x (List.nodup_finRange _) (List.mem_finRange _)
  rw [Equiv.symm_apply_apply] at key
  refine (congrFun (foldl_congr_step _ _ (fun r n => ?_) x _) (emb j)).trans key
  beta_reduce
  generalize d.resultIdx? (u.rowMajor.symm n) idx = o
  cases o <;> rfl

/-- Every update index lands at `emb j`: at an index no update index lands at, the result is the operand. -/
theorem scatter_miss (d : ScatterDims s si u) (x : s.Idx → α) (idx : IVec si w) (upd : u.Idx → α)
    (emb : u.Idx → s.Idx) (hres : ∀ j, d.resultIdx? j idx = some (emb j)) (i : s.Idx) (hi : ∀ j, emb j ≠ i) :
    Host.scatter d (fun _ y => y) x idx upd i = x i := by
  unfold Host.scatter
  have key := foldl_overwrite_miss (fun n => d.resultIdx? (u.rowMajor.symm n) idx)
    (fun n => upd (u.rowMajor.symm n)) i (List.finRange u.numel) x
    (by
      intro n _ e
      simp only [hres] at e
      exact hi _ (Option.some.inj e))
  refine (congrFun (foldl_congr_step _ _ (fun r n => ?_) x _) i).trans key
  beta_reduce
  generalize d.resultIdx? (u.rowMajor.symm n) idx = o
  cases o <;> rfl

end Generic

section Prefix

variable {L W w : Nat}

/-- With the last operand axis alone in the start index map, the window starts at 0 on the two leading axes … -/
theorem start_lead (wf) (idx : IVec (⟨1, ![1]⟩ : Shape) w) (j : (⟨3, ![1, 1, W]⟩ : Shape).Idx) (a : Fin 3) (ha : a ≠ 2) :
    ScatterDims.start (s := (⟨3, ![1, 1, L]⟩ : Shape)) (si := (⟨1, ![1]⟩ : Shape)) (u := (⟨3, ![1, 1, W]⟩ : Shape))
      ⟨[0, 1, 2], [], [2], 0, wf⟩ j idx a = 0 := by
  unfold ScatterDims.start
  rw [dif_neg (by simpa using ha)]

/-- … and on the last axis at the one entry of the start index vector, read signed. -/
theorem start_last (wf) (idx : IVec (⟨1, ![1]⟩ : Shape) w) (j : (⟨3, ![1, 1, W]⟩ : Shape).Idx) :
    ScatterDims.start (s := (⟨3, ![1, 1, L]⟩ : Shape)) (si := (⟨1, ![1]⟩ : Shape)) (u := (⟨3, ![1, 1, W]⟩ : Shape))
      ⟨[0, 1, 2], [], [2], 0, wf⟩ j idx 2 = (idx (ix1 0)).toInt := by
  unfold ScatterDims.start
  rw [dif_pos (List.mem_cons_self ..)]
  congr 2
  funext c
  match c with
  | ⟨0, _⟩ => rfl

/-- With no inserted axis and the three update axes window axes, in order, the window coordinate on each axis is the
    update index's coordinate on it. -/
theorem window_axis (wf) (j : (⟨3, ![1, 1, W]⟩ : Shape).Idx) (a : Fin 3) :
    ScatterDims.window (s := (⟨3, ![1, 1, L]⟩ : Shape)) (si := (⟨1, ![1]⟩ : Shape)) (u := (⟨3, ![1, 1, W]⟩ : Shape))
      ⟨[0, 1, 2], [], [2], 0, wf⟩ j a = (j a).val := by
  unfold ScatterDims.window
  split
  · match a with
    | ⟨0, _⟩ => rfl
    | ⟨1, _⟩ => rfl
    | ⟨2, _⟩ => rfl
  · rename_i h; exact absurd (List.mem_filter.2 ⟨List.mem_finRange _, by simp⟩) h

/-- The update index (0, 0, q) lands at the operand index (0, 0, q) when the start index is 0 and W ≤ L. -/
theorem resultIdx_prefix (d : ScatterDims (⟨3, ![1, 1, L]⟩ : Shape) (⟨1, ![1]⟩ : Shape) (⟨3, ![1, 1, W]⟩ : Shape))
    (huw : d.updateWindowDims = [0, 1, 2]) (hiw : d.insertedWindowDims = [])
    (hsd : d.scatterDimsToOperandDims = [2]) (hiv : d.indexVectorDim = 0)
    (idx : IVec (⟨1, ![1]⟩ : Shape) w) (h0 : (idx (ix1 0)).toInt = 0) (hW : W ≤ L)
    (j : (⟨3, ![1, 1, W]⟩ : Shape).Idx) :
    d.resultIdx? j idx = some (ix3 0 0 ⟨(j 2).val, lt_of_lt_of_le (j 2).isLt hW⟩) := by
  have hj0 : (j 0).val = 0 := by have h : (j 0).val < 1 := (j 0).isLt; omega
  have hj1 : (j 1).val = 0 := by have h : (j 1).val < 1 := (j 1).isLt; omega
  have hj2 : (j 2).val < W := (j 2).isLt
  obtain ⟨uw, iw, sd, iv, wf⟩ := d
  simp only at huw hiw hsd hiv
  subst huw hiw hsd hiv
  unfold ScatterDims.resultIdx?
  have hsum : ∀ a : Fin 3, ScatterDims.start (s := (⟨3, ![1, 1, L]⟩ : Shape)) (si := (⟨1, ![1]⟩ : Shape)) (u := (⟨3, ![1, 1, W]⟩ : Shape))
      ⟨[0, 1, 2], [], [2], 0, wf⟩ j idx a
      + (ScatterDims.window (s := (⟨3, ![1, 1, L]⟩ : Shape)) (si := (⟨1, ![1]⟩ : Shape)) (u := (⟨3, ![1, 1, W]⟩ : Shape))
      ⟨[0, 1, 2], [], [2], 0, wf⟩ j a : ℕ) = (((j a).val : ℕ) : ℤ) := by
    have e0 := start_lead (L := L) wf idx j 0 (by decide)
    have e1 := start_lead (L := L) wf idx j 1 (by decide)
    have e2 := start_last (L := L) wf idx j
    intro a
    rw [window_axis]
    match a with
    | ⟨0, _⟩ => exact (congrArg (· + (((j 0).val : ℕ) : ℤ)) e0).trans (zero_add _)
    | ⟨1, _⟩ => exact (congrArg (· + (((j 1).val : ℕ) : ℤ)) e1).trans (zero_add _)
    | ⟨2, _⟩ => exact (congrArg (· + (((j 2).val : ℕ) : ℤ)) (e2.trans h0)).trans (zero_add _)
  rw [dif_pos (fun a => by
    rw [hsum a]
    refine ⟨by omega, ?_⟩
    match a with
    | ⟨0, _⟩ => show (((j 0).val : ℕ) : ℤ) < ((1 : ℕ) : ℤ); omega
    | ⟨1, _⟩ => show (((j 1).val : ℕ) : ℤ) < ((1 : ℕ) : ℤ); omega
    | ⟨2, _⟩ => show (((j 2).val : ℕ) : ℤ) < ((L : ℕ) : ℤ); omega)]
  refine congrArg some (funext fun a => Fin.ext ?_)
  refine ((congrArg Int.toNat (hsum a)).trans (Int.toNat_natCast _)).trans ?_
  match a with
  | ⟨0, _⟩ => exact hj0
  | ⟨1, _⟩ => exact hj1
  | ⟨2, _⟩ => rfl

/-- One [1, 1, W] window written at start 0 of the last axis of a [1, 1, L] operand, the body returning the update:
    the first W entries are the update's, the rest the operand's. -/
theorem scatter_prefix_apply {α : Type}
    (d : ScatterDims (⟨3, ![1, 1, L]⟩ : Shape) (⟨1, ![1]⟩ : Shape) (⟨3, ![1, 1, W]⟩ : Shape))
    (huw : d.updateWindowDims = [0, 1, 2]) (hiw : d.insertedWindowDims = [])
    (hsd : d.scatterDimsToOperandDims = [2]) (hiv : d.indexVectorDim = 0)
    (x : (⟨3, ![1, 1, L]⟩ : Shape).Idx → α) (idx : IVec (⟨1, ![1]⟩ : Shape) w) (upd : (⟨3, ![1, 1, W]⟩ : Shape).Idx → α)
    (h0 : (idx (ix1 0)).toInt = 0) (hW : W ≤ L) (p : Fin L) :
    Host.scatter d (fun _ y => y) x idx upd (ix3 0 0 p)
      = if h : p.val < W then upd (ix3 0 0 ⟨p.val, h⟩) else x (ix3 0 0 p) := by
  have hres := resultIdx_prefix d huw hiw hsd hiv idx h0 hW
  by_cases h : p.val < W
  · rw [dif_pos h]
    have := scatter_hit d x idx upd _ hres (fun j j' e => by
      have e2 : (j 2).val = (j' 2).val := congrArg (fun f => (f 2).val) e
      rw [eq_ix3 j, eq_ix3 j']
      congr 1
      · exact Fin.ext (by have h1 : (j 0).val < 1 := (j 0).isLt; have h2 : (j' 0).val < 1 := (j' 0).isLt; omega)
      · exact Fin.ext (by have h1 : (j 1).val < 1 := (j 1).isLt; have h2 : (j' 1).val < 1 := (j' 1).isLt; omega)
      · exact Fin.ext e2) (ix3 0 0 ⟨p.val, h⟩)
    exact this
  · rw [dif_neg h]
    refine scatter_miss d x idx upd _ hres _ fun j e => h ?_
    have e2 : (j 2).val = p.val := congrArg (fun f => (f 2).val) e
    rw [← e2]; exact (j 2).isLt

end Prefix

section Whole

variable {L w : Nat}

/-- With an empty start index map every window starts at 0 on every axis. -/
theorem start_whole (wf) (idx : IVec (⟨1, ![0]⟩ : Shape) w) (j : (⟨3, ![1, 1, L]⟩ : Shape).Idx) (a : Fin 3) :
    ScatterDims.start (s := (⟨3, ![1, 1, L]⟩ : Shape)) (si := (⟨1, ![0]⟩ : Shape)) (u := (⟨3, ![1, 1, L]⟩ : Shape))
      ⟨[0, 1, 2], [], [], 0, wf⟩ j idx a = 0 := by
  unfold ScatterDims.start
  rw [dif_neg (by simp)]

theorem window_whole (wf) (j : (⟨3, ![1, 1, L]⟩ : Shape).Idx) (a : Fin 3) :
    ScatterDims.window (s := (⟨3, ![1, 1, L]⟩ : Shape)) (si := (⟨1, ![0]⟩ : Shape)) (u := (⟨3, ![1, 1, L]⟩ : Shape))
      ⟨[0, 1, 2], [], [], 0, wf⟩ j a = (j a).val := by
  unfold ScatterDims.window
  split
  · match a with
    | ⟨0, _⟩ => rfl
    | ⟨1, _⟩ => rfl
    | ⟨2, _⟩ => rfl
  · rename_i h; exact absurd (List.mem_filter.2 ⟨List.mem_finRange _, by simp⟩) h

/-- Every update index lands at itself. -/
theorem resultIdx_whole (d : ScatterDims (⟨3, ![1, 1, L]⟩ : Shape) (⟨1, ![0]⟩ : Shape) (⟨3, ![1, 1, L]⟩ : Shape))
    (huw : d.updateWindowDims = [0, 1, 2]) (hiw : d.insertedWindowDims = [])
    (hsd : d.scatterDimsToOperandDims = []) (hiv : d.indexVectorDim = 0)
    (idx : IVec (⟨1, ![0]⟩ : Shape) w) (j : (⟨3, ![1, 1, L]⟩ : Shape).Idx) :
    d.resultIdx? j idx = some j := by
  obtain ⟨uw, iw, sd, iv, wf⟩ := d
  simp only at huw hiw hsd hiv
  subst huw hiw hsd hiv
  unfold ScatterDims.resultIdx?
  have hsum : ∀ a : Fin 3, ScatterDims.start (s := (⟨3, ![1, 1, L]⟩ : Shape)) (si := (⟨1, ![0]⟩ : Shape)) (u := (⟨3, ![1, 1, L]⟩ : Shape))
      ⟨[0, 1, 2], [], [], 0, wf⟩ j idx a
      + (ScatterDims.window (s := (⟨3, ![1, 1, L]⟩ : Shape)) (si := (⟨1, ![0]⟩ : Shape)) (u := (⟨3, ![1, 1, L]⟩ : Shape))
      ⟨[0, 1, 2], [], [], 0, wf⟩ j a : ℕ) = (((j a).val : ℕ) : ℤ) := by
    intro a
    rw [window_whole, start_whole]; simp
  rw [dif_pos (fun a => by
    rw [hsum a]
    exact ⟨by omega, by exact_mod_cast (j a).isLt⟩)]
  exact congrArg some (funext fun a => Fin.ext ((congrArg Int.toNat (hsum a)).trans (Int.toNat_natCast _)))

/-- A whole [1, 1, L] update written with an empty start index, the body returning the update: the update. -/
theorem scatter_whole {α : Type}
    (d : ScatterDims (⟨3, ![1, 1, L]⟩ : Shape) (⟨1, ![0]⟩ : Shape) (⟨3, ![1, 1, L]⟩ : Shape))
    (huw : d.updateWindowDims = [0, 1, 2]) (hiw : d.insertedWindowDims = [])
    (hsd : d.scatterDimsToOperandDims = []) (hiv : d.indexVectorDim = 0)
    (x : (⟨3, ![1, 1, L]⟩ : Shape).Idx → α) (idx : IVec (⟨1, ![0]⟩ : Shape) w) (upd : (⟨3, ![1, 1, L]⟩ : Shape).Idx → α) :
    Host.scatter d (fun _ y => y) x idx upd = upd :=
  funext fun j => scatter_hit d x idx upd id (resultIdx_whole d huw hiw hsd hiv idx) Function.injective_id j

end Whole

end Cert.Haar.Ref
-- ==== Proof.RefLevel.lean ====
/-
  One level of the transform as the reference computes it, read entry by entry. The two butterfly outputs of the two
  halves a, b of the first 2h entries are each given a trailing unit axis, laid side by side along it, and the
  [1, 1, h, 2] array is read in row-major order as [1, 1, 2h]: entry 2q is the first output at q and entry 2q + 1 the
  second. Written over the first 2h entries of the signal, this is the level `lvl h`.
-/
import proofs.«157342_j28784870817852_2_alg».proof.Proof.Spec
import proofs.«157342_j28784870817852_2_alg».proof.Proof.RefScatter
import Idealize.ShloMosaic.Lib.Pipeline.Value
import Idealize.ShloMosaic.Lib.IdealHost

noncomputable section

namespace Cert.Haar.Ref

open Idealize.ShloMosaic
open Idealize.ShloMosaic.ValueIdx

section Interleave

variable {α : Type} {h W : Nat}

/-- Two [1, 1, h] arrays with a trailing unit axis added, laid side by side along it and read as [1, 1, 2h]: the even
    entries are the first array's, the odd entries the second's. -/
theorem interleave_apply (A B : (⟨3, ![1, 1, h]⟩ : Shape).Idx → α)
    (hb : (⟨3, ![1, 1, h]⟩ : Shape).BroadcastsInDim (⟨4, ![1, 1, h, 1]⟩ : Shape) ![0, 1, 2])
    (hc : Shape.Concatenates [(⟨4, ![1, 1, h, 1]⟩ : Shape), (⟨4, ![1, 1, h, 1]⟩ : Shape)] (⟨4, ![1, 1, h, 2]⟩ : Shape) 3)
    (hs : (⟨4, ![1, 1, h, 2]⟩ : Shape).ShapeCasts (⟨3, ![1, 1, W]⟩ : Shape)) (hW : W = 2 * h) (p : Fin W) :
    shapeCast (⟨3, ![1, 1, W]⟩ : Shape)
        (concatenate (⟨4, ![1, 1, h, 2]⟩ : Shape) 3
          [⟨(⟨4, ![1, 1, h, 1]⟩ : Shape), broadcastInDim (⟨4, ![1, 1, h, 1]⟩ : Shape) ![0, 1, 2] hb A⟩,
           ⟨(⟨4, ![1, 1, h, 1]⟩ : Shape), broadcastInDim (⟨4, ![1, 1, h, 1]⟩ : Shape) ![0, 1, 2] hb B⟩] hc) hs (ix3 0 0 p)
      = if p.val % 2 = 0 then A (ix3 0 0 ⟨p.val / 2, by have := p.isLt; omega⟩)
        else B (ix3 0 0 ⟨p.val / 2, by have := p.isLt; omega⟩) := by
  have hp := p.isLt
  have hq : p.val / 2 < h := by omega
  have hr : p.val % 2 < 2 := Nat.mod_lt _ (by decide)
  -- the shape cast reads the [1, 1, h, 2] array at (0, 0, p / 2, p % 2)
  refine (shapeCast_apply _ hs (ix3 0 0 p) (ix4 0 0 ⟨p.val / 2, hq⟩ ⟨p.val % 2, hr⟩) ?_).trans ?_
  · rw [Shape.rowMajor_val_four, Shape.rowMajor_val_three]
    show ((0 * 1 + 0) * h + p.val / 2) * 2 + p.val % 2 = (0 * 1 + 0) * W + p.val
    omega
  by_cases h0 : p.val % 2 = 0
  · rw [if_pos h0]
    refine (concatenate_pair_apply_left 3 _ _ hc _ rfl (ix4 0 0 ⟨p.val / 2, hq⟩ 0) ?_).trans ?_
    · intro b
      match b with
      | ⟨0, _⟩ => rfl
      | ⟨1, _⟩ => rfl
      | ⟨2, _⟩ => rfl
      | ⟨3, _⟩ => exact h0.symm
    refine broadcastInDim_apply _ hb A _ _ ?_
    intro a
    match a with
    | ⟨0, _⟩ => rfl
    | ⟨1, _⟩ => rfl
    | ⟨2, _⟩ =>
      show p.val / 2 = if h = 1 then 0 else p.val / 2
      split <;> omega
  · rw [if_neg h0]
    refine (concatenate_pair_apply_right 3 _ _ hc _ rfl rfl (ix4 0 0 ⟨p.val / 2, hq⟩ 0) ?_ ?_).trans ?_
    · intro b hb3
      match b with
      | ⟨0, _⟩ => rfl
      | ⟨1, _⟩ => rfl
      | ⟨2, _⟩ => rfl
      | ⟨3, _⟩ => exact absurd rfl hb3
    · show 0 + 1 = p.val % 2
      omega
    refine broadcastInDim_apply _ hb B _ _ ?_
    intro a
    match a with
    | ⟨0, _⟩ => rfl
    | ⟨1, _⟩ => rfl
    | ⟨2, _⟩ =>
      show p.val / 2 = if h = 1 then 0 else p.val / 2
      split <;> omega

end Interleave

section Slices

variable {α : Type} {n m : Nat}

/-- A slice of the last axis of a [1, 1, n] array from offset `o`, read at entry `q`: the array at `o + q`. -/
theorem slice3_apply (o : Nat) (x : (⟨3, ![1, 1, n]⟩ : Shape).Idx → α)
    (hsl : (⟨3, ![1, 1, n]⟩ : Shape).Slices ![0, 0, o] (⟨3, ![1, 1, m]⟩ : Shape)) (q : Fin m) (hq : o + q.val < n) :
    extractStridedSlice (⟨3, ![1, 1, m]⟩ : Shape) ![0, 0, o] x hsl (ix3 0 0 q) = x (ix3 0 0 ⟨o + q.val, hq⟩) := by
  refine extractStridedSlice_apply _ x hsl _ _ ?_
  intro a
  match a with
  | ⟨0, _⟩ => rfl
  | ⟨1, _⟩ => rfl
  | ⟨2, _⟩ => rfl

end Slices

section Butterfly

variable {h W : Nat}

/-- The update of a level with halves `A`, `B`: entry 2q is (A q + B q) · k and entry 2q + 1 is (A q − B q) · k. -/
theorem butterfly_apply (A B : FVec Ideal (⟨3, ![1, 1, h]⟩ : Shape) .f32)
    (hk : (⟨0, ![]⟩ : Shape).BroadcastsInDim (⟨3, ![1, 1, h]⟩ : Shape) ![])
    (hb : (⟨3, ![1, 1, h]⟩ : Shape).BroadcastsInDim (⟨4, ![1, 1, h, 1]⟩ : Shape) ![0, 1, 2])
    (hc : Shape.Concatenates [(⟨4, ![1, 1, h, 1]⟩ : Shape), (⟨4, ![1, 1, h, 1]⟩ : Shape)] (⟨4, ![1, 1, h, 2]⟩ : Shape) 3)
    (hs : (⟨4, ![1, 1, h, 2]⟩ : Shape).ShapeCasts (⟨3, ![1, 1, W]⟩ : Shape)) (hW : W = 2 * h) (p : Fin W) :
    shapeCast (⟨3, ![1, 1, W]⟩ : Shape)
        (concatenate (⟨4, ![1, 1, h, 2]⟩ : Shape) 3
          [⟨(⟨4, ![1, 1, h, 1]⟩ : Shape), broadcastInDim (⟨4, ![1, 1, h, 1]⟩ : Shape) ![0, 1, 2] hb
              (mulf (addf A B) (broadcastInDim (⟨3, ![1, 1, h]⟩ : Shape) ![] hk (constant (F := Ideal) (⟨0, ![]⟩ : Shape) .f32 0x3F3504F3#32)))⟩,
           ⟨(⟨4, ![1, 1, h, 1]⟩ : Shape), broadcastInDim (⟨4, ![1, 1, h, 1]⟩ : Shape) ![0, 1, 2] hb
              (mulf (subf A B) (broadcastInDim (⟨3, ![1, 1, h]⟩ : Shape) ![] hk (constant (F := Ideal) (⟨0, ![]⟩ : Shape) .f32 0x3F3504F3#32)))⟩] hc) hs
        (ix3 0 0 p)
      = if p.val % 2 = 0 then
          (A (ix3 0 0 ⟨p.val / 2, by have := p.isLt; omega⟩) + B (ix3 0 0 ⟨p.val / 2, by have := p.isLt; omega⟩)) * kc
        else (A (ix3 0 0 ⟨p.val / 2, by have := p.isLt; omega⟩) - B (ix3 0 0 ⟨p.val / 2, by have := p.isLt; omega⟩)) * kc := by
  refine (interleave_apply _ _ hb hc hs hW p).trans ?_
  by_cases h0 : p.val % 2 = 0
  · rw [if_pos h0, if_pos h0, mulf_apply, addf_apply, broadcastInDim_scalar_apply, constant_apply]; rfl
  · rw [if_neg h0, if_neg h0, mulf_apply, subf_apply, broadcastInDim_scalar_apply, constant_apply]; rfl

end Butterfly

section Level

/-- A slice of the signal's last axis from offset `o`, read at entry `q`: the flat signal at `o + q`. -/
theorem slice_rd (x : FVec Ideal SUnit .f32) {m : Nat} (o : Nat)
    (hsl : SUnit.Slices ![0, 0, o] (⟨3, ![1, 1, m]⟩ : Shape)) (q : Fin m) (n : Nat) (hn : o + q.val = n) (hq : n < 33554432) :
    extractStridedSlice (⟨3, ![1, 1, m]⟩ : Shape) ![0, 0, o] x hsl (ix3 0 0 q) = rd (flat x) n := by
  subst hn
  rw [rd, dif_pos hq]
  exact slice3_apply o x hsl q hq

/-- The same through a first slice from offset 0. -/
theorem slice_slice_rd (x : FVec Ideal SUnit .f32) {W m : Nat} (o : Nat)
    (hsl : SUnit.Slices ![0, 0, 0] (⟨3, ![1, 1, W]⟩ : Shape))
    (hs2 : (⟨3, ![1, 1, W]⟩ : Shape).Slices ![0, 0, o] (⟨3, ![1, 1, m]⟩ : Shape)) (q : Fin m) (n : Nat) (hn : o + q.val = n)
    (hq1 : n < W) (hq : n < 33554432) :
    extractStridedSlice (⟨3, ![1, 1, m]⟩ : Shape) ![0, 0, o] (extractStridedSlice (⟨3, ![1, 1, W]⟩ : Shape) ![0, 0, 0] x hsl) hs2 (ix3 0 0 q)
      = rd (flat x) n := by
  subst hn
  refine (slice3_apply o _ hs2 q hq1).trans ?_
  exact slice_rd x 0 hsl ⟨o + q.val, hq1⟩ _ (Nat.zero_add _) hq

/-- Every index of a [1, 1, n] array is (0, 0, p). -/
theorem idx3_eq {n : Nat} (j : (⟨3, ![1, 1, n]⟩ : Shape).Idx) : j = ix3 0 0 (j 2) :=
  funext fun a => match a with
    | ⟨0, _⟩ => Fin.ext (by have h1 : (j 0).val < 1 := (j 0).isLt; show (j 0).val = 0; omega)
    | ⟨1, _⟩ => Fin.ext (by have h1 : (j 1).val < 1 := (j 1).isLt; show (j 1).val = 0; omega)
    | ⟨2, _⟩ => rfl

variable {h W : Nat}

/-- A level whose update covers the first W = 2h entries, written by a one-window scatter at start 0. -/
theorem level_prefix (hW : W = 2 * h) (hWL : W ≤ 33554432) (x : FVec Ideal SUnit .f32)
    (d : ScatterDims SUnit (⟨1, ![1]⟩ : Shape) (⟨3, ![1, 1, W]⟩ : Shape))
    (huw : d.updateWindowDims = [0, 1, 2]) (hiw : d.insertedWindowDims = [])
    (hsd : d.scatterDimsToOperandDims = [2]) (hiv : d.indexVectorDim = 0)
    (idx : IVec (⟨1, ![1]⟩ : Shape) 32) (h0 : (idx (ix1 0)).toInt = 0)
    (hsl : SUnit.Slices ![0, 0, 0] (⟨3, ![1, 1, W]⟩ : Shape))
    (hsa : (⟨3, ![1, 1, W]⟩ : Shape).Slices ![0, 0, 0] (⟨3, ![1, 1, h]⟩ : Shape))
    (hsb : (⟨3, ![1, 1, W]⟩ : Shape).Slices ![0, 0, h] (⟨3, ![1, 1, h]⟩ : Shape))
    (hk : (⟨0, ![]⟩ : Shape).BroadcastsInDim (⟨3, ![1, 1, h]⟩ : Shape) ![])
    (hb : (⟨3, ![1, 1, h]⟩ : Shape).BroadcastsInDim (⟨4, ![1, 1, h, 1]⟩ : Shape) ![0, 1, 2])
    (hc : Shape.Concatenates [(⟨4, ![1, 1, h, 1]⟩ : Shape), (⟨4, ![1, 1, h, 1]⟩ : Shape)] (⟨4, ![1, 1, h, 2]⟩ : Shape) 3)
    (hs : (⟨4, ![1, 1, h, 2]⟩ : Shape).ShapeCasts (⟨3, ![1, 1, W]⟩ : Shape)) :
    Host.scatter d (fun _ b => b) x idx
        (shapeCast (⟨3, ![1, 1, W]⟩ : Shape)
          (concatenate (⟨4, ![1, 1, h, 2]⟩ : Shape) 3
            [⟨(⟨4, ![1, 1, h, 1]⟩ : Shape), broadcastInDim (⟨4, ![1, 1, h, 1]⟩ : Shape) ![0, 1, 2] hb
                (mulf (addf (extractStridedSlice (⟨3, ![1, 1, h]⟩ : Shape) ![0, 0, 0] (extractStridedSlice (⟨3, ![1, 1, W]⟩ : Shape) ![0, 0, 0] x hsl) hsa)
                            (extractStridedSlice (⟨3, ![1, 1, h]⟩ : Shape) ![0, 0, h] (extractStridedSlice (⟨3, ![1, 1, W]⟩ : Shape) ![0, 0, 0] x hsl) hsb))
                  (broadcastInDim (⟨3, ![1, 1, h]⟩ : Shape) ![] hk (constant (F := Ideal) (⟨0, ![]⟩ : Shape) .f32 0x3F3504F3#32)))⟩,
             ⟨(⟨4, ![1, 1, h, 1]⟩ : Shape), broadcastInDim (⟨4, ![1, 1, h, 1]⟩ : Shape) ![0, 1, 2] hb
                (mulf (subf (extractStridedSlice (⟨3, ![1, 1, h]⟩ : Shape) ![0, 0, 0] (extractStridedSlice (⟨3, ![1, 1, W]⟩ : Shape) ![0, 0, 0] x hsl) hsa)
                            (extractStridedSlice (⟨3, ![1, 1, h]⟩ : Shape) ![0, 0, h] (extractStridedSlice (⟨3, ![1, 1, W]⟩ : Shape) ![0, 0, 0] x hsl) hsb))
                  (broadcastInDim (⟨3, ![1, 1, h]⟩ : Shape) ![] hk (constant (F := Ideal) (⟨0, ![]⟩ : Shape) .f32 0x3F3504F3#32)))⟩] hc) hs)
      = unflat (lvl h (flat x)) := by
  funext j
  obtain ⟨p, rfl⟩ : ∃ p, j = ix3 0 0 p := ⟨j 2, idx3_eq j⟩
  have hp : p.val < 33554432 := p.isLt
  refine (scatter_prefix_apply d huw hiw hsd hiv x idx _ h0 hWL p).trans ?_
  show _ = if p.val < 2 * h then
      (if p.val % 2 = 0 then (rd (flat x) (p.val / 2) + rd (flat x) (p.val / 2 + h)) * kc
       else (rd (flat x) (p.val / 2) - rd (flat x) (p.val / 2 + h)) * kc)
    else x (ix3 0 0 p)
  by_cases hpW : p.val < W
  · rw [dif_pos hpW, if_pos (by omega)]
    refine (butterfly_apply _ _ hk hb hc hs hW ⟨p.val, hpW⟩).trans ?_
    have hq : p.val / 2 < h := by omega
    rw [slice_slice_rd x 0 hsl hsa ⟨p.val / 2, hq⟩ (p.val / 2) (Nat.zero_add _) (by omega) (by omega),
      slice_slice_rd x h hsl hsb ⟨p.val / 2, hq⟩ (p.val / 2 + h) (Nat.add_comm _ _) (by omega) (by omega)]
  · rw [dif_neg hpW, if_neg (by omega)]

/-- The level whose update covers the whole signal, written by a scatter with an empty start index. -/
theorem level_whole (hW : 33554432 = 2 * h) (x : FVec Ideal SUnit .f32)
    (d : ScatterDims SUnit (⟨1, ![0]⟩ : Shape) SUnit)
    (huw : d.updateWindowDims = [0, 1, 2]) (hiw : d.insertedWindowDims = [])
    (hsd : d.scatterDimsToOperandDims = []) (hiv : d.indexVectorDim = 0)
    (idx : IVec (⟨1, ![0]⟩ : Shape) 32)
    (hsa : SUnit.Slices ![0, 0, 0] (⟨3, ![1, 1, h]⟩ : Shape))
    (hsb : SUnit.Slices ![0, 0, h] (⟨3, ![1, 1, h]⟩ : Shape))
    (hk : (⟨0, ![]⟩ : Shape).BroadcastsInDim (⟨3, ![1, 1, h]⟩ : Shape) ![])
    (hb : (⟨3, ![1, 1, h]⟩ : Shape).BroadcastsInDim (⟨4, ![1, 1, h, 1]⟩ : Shape) ![0, 1, 2])
    (hc : Shape.Concatenates [(⟨4, ![1, 1, h, 1]⟩ : Shape), (⟨4, ![1, 1, h, 1]⟩ : Shape)] (⟨4, ![1, 1, h, 2]⟩ : Shape) 3)
    (hs : (⟨4, ![1, 1, h, 2]⟩ : Shape).ShapeCasts SUnit) :
    Host.scatter d (fun _ b => b) x idx
        (shapeCast SUnit
          (concatenate (⟨4, ![1, 1, h, 2]⟩ : Shape) 3
            [⟨(⟨4, ![1, 1, h, 1]⟩ : Shape), broadcastInDim (⟨4, ![1, 1, h, 1]⟩ : Shape) ![0, 1, 2] hb
                (mulf (addf (extractStridedSlice (⟨3, ![1, 1, h]⟩ : Shape) ![0, 0, 0] x hsa)
                            (extractStridedSlice (⟨3, ![1, 1, h]⟩ : Shape) ![0, 0, h] x hsb))
                  (broadcastInDim (⟨3, ![1, 1, h]⟩ : Shape) ![] hk (constant (F := Ideal) (⟨0, ![]⟩ : Shape) .f32 0x3F3504F3#32)))⟩,
             ⟨(⟨4, ![1, 1, h, 1]⟩ : Shape), broadcastInDim (⟨4, ![1, 1, h, 1]⟩ : Shape) ![0, 1, 2] hb
                (mulf (subf (extractStridedSlice (⟨3, ![1, 1, h]⟩ : Shape) ![0, 0, 0] x hsa)
                            (extractStridedSlice (⟨3, ![1, 1, h]⟩ : Shape) ![0, 0, h] x hsb))
                  (broadcastInDim (⟨3, ![1, 1, h]⟩ : Shape) ![] hk (constant (F := Ideal) (⟨0, ![]⟩ : Shape) .f32 0x3F3504F3#32)))⟩] hc) hs)
      = unflat (lvl h (flat x)) := by
  rw [scatter_whole d huw hiw hsd hiv]
  funext j
  obtain ⟨p, rfl⟩ : ∃ p, j = ix3 0 0 p := ⟨j 2, idx3_eq j⟩
  have hp : p.val < 33554432 := p.isLt
  show _ = if p.val < 2 * h then
      (if p.val % 2 = 0 then (rd (flat x) (p.val / 2) + rd (flat x) (p.val / 2 + h)) * kc
       else (rd (flat x) (p.val / 2) - rd (flat x) (p.val / 2 + h)) * kc)
    else x (ix3 0 0 p)
  rw [if_pos (by omega)]
  refine (butterfly_apply _ _ hk hb hc hs hW p).trans ?_
  have hq : p.val / 2 < h := by omega
  rw [slice_rd x 0 hsa ⟨p.val / 2, hq⟩ (p.val / 2) (Nat.zero_add _) (by omega),
    slice_rd x h hsb ⟨p.val / 2, hq⟩ (p.val / 2 + h) (Nat.add_comm _ _) (by omega)]

end Level

end Cert.Haar.Ref

end
-- ==== Proof.RefValue.lean ====
/-
  The reference program's result buffer, after its 88 host operations, holds the five levels of the transform applied
  to the argument. The operations are cut into the five levels' lines; each line, run from any contents, leaves its
  result buffer at one level of the contents of the buffer it reads.
-/
import proofs.«157342_j28784870817852_2_alg».proof.Proof.RefRun
import proofs.«157342_j28784870817852_2_alg».proof.Proof.RefLevel

noncomputable section

namespace Cert.Haar.Ref

open Cert.ReferenceIdeal Cert.ReferenceIdeal.Gen Cert.ReferenceIdeal.ValueP
open Idealize.ShloMosaic Idealize.ShloMosaic.TcCoe Idealize.SL.Sem Idealize.ShloMosaic.StableHlo
open Idealize.ShloMosaic.ValueIdx

section Lines

variable {F : FTy → Type} [FloatOps F]

/-- The operations of level 1, in order. -/
abbrev ops1 : List (HloOp τ sig (Elt F)) :=
  [ nullary main_c (emptyVec S0 hz_S0),
    unary main_arg0 main_v0 ((extractStridedSlice S1x1x2097152 ![0, 0, 0] · slices_S1x1x33554432_S1x1x2097152_0_0_0) : (⟨S1x1x33554432, .f32⟩ : BufTy).Contents (Elt F) → (⟨S1x1x2097152, .f32⟩ : BufTy).Contents (Elt F)),
    unary main_v0 main_v1 ((extractStridedSlice S1x1x1048576 ![0, 0, 0] · slices_S1x1x2097152_S1x1x1048576_0_0_0) : (⟨S1x1x2097152, .f32⟩ : BufTy).Contents (Elt F) → (⟨S1x1x1048576, .f32⟩ : BufTy).Contents (Elt F)),
    unary main_v0 main_v2 ((extractStridedSlice S1x1x1048576 ![0, 0, 1048576] · slices_S1x1x2097152_S1x1x1048576_0_0_1048576) : (⟨S1x1x2097152, .f32⟩ : BufTy).Contents (Elt F) → (⟨S1x1x1048576, .f32⟩ : BufTy).Contents (Elt F)),
    binary main_v1 main_v2 main_v3 (addf : (⟨S1x1x1048576, .f32⟩ : BufTy).Contents (Elt F) → (⟨S1x1x1048576, .f32⟩ : BufTy).Contents (Elt F) → (⟨S1x1x1048576, .f32⟩ : BufTy).Contents (Elt F)),
    nullary main_cst (constant S_ .f32 0x3F3504F3#32),
    unary main_cst main_v4 (broadcastInDim S1x1x1048576 ![] bcast_S_S1x1x1048576 : (⟨S_, .f32⟩ : BufTy).Contents (Elt F) → (⟨S1x1x1048576, .f32⟩ : BufTy).Contents (Elt F)),
    binary main_v3 main_v4 main_v5 (mulf : (⟨S1x1x1048576, .f32⟩ : BufTy).Contents (Elt F) → (⟨S1x1x1048576, .f32⟩ : BufTy).Contents (Elt F) → (⟨S1x1x1048576, .f32⟩ : BufTy).Contents (Elt F)),
    binary main_v1 main_v2 main_v6 (subf : (⟨S1x1x1048576, .f32⟩ : BufTy).Contents (Elt F) → (⟨S1x1x1048576, .f32⟩ : BufTy).Contents (Elt F) → (⟨S1x1x1048576, .f32⟩ : BufTy).Contents (Elt F)),
    nullary main_cst_0 (constant S_ .f32 0x3F3504F3#32),
    unary main_cst_0 main_v7 (broadcastInDim S1x1x1048576 ![] bcast_S_S1x1x1048576 : (⟨S_, .f32⟩ : BufTy).Contents (Elt F) → (⟨S1x1x1048576, .f32⟩ : BufTy).Contents (Elt F)),
    binary main_v6 main_v7 main_v8 (mulf : (⟨S1x1x1048576, .f32⟩ : BufTy).Contents (Elt F) → (⟨S1x1x1048576, .f32⟩ : BufTy).Contents (Elt F) → (⟨S1x1x1048576, .f32⟩ : BufTy).Contents (Elt F)),
    unary main_v5 main_v9 (broadcastInDim S1x1x1048576x1 ![0, 1, 2] bcast_S1x1x1048576_S1x1x1048576x1_0_1_2 : (⟨S1x1x1048576, .f32⟩ : BufTy).Contents (Elt F) → (⟨S1x1x1048576x1, .f32⟩ : BufTy).Contents (Elt F)),
    unary main_v8 main_v10 (broadcastInDim S1x1x1048576x1 ![0, 1, 2] bcast_S1x1x1048576_S1x1x1048576x1_0_1_2 : (⟨S1x1x1048576, .f32⟩ : BufTy).Contents (Elt F) → (⟨S1x1x1048576x1, .f32⟩ : BufTy).Contents (Elt F)),
    binary main_v9 main_v10 main_v11 ((fun a b => concatenate S1x1x1048576x2 3 [⟨S1x1x1048576x1, a⟩, ⟨S1x1x1048576x1, b⟩] concatenates_S1x1x1048576x1_S1x1x1048576x1_S1x1x1048576x2_d3) : (⟨S1x1x1048576x1, .f32⟩ : BufTy).Contents (Elt F) → (⟨S1x1x1048576x1, .f32⟩ : BufTy).Contents (Elt F) → (⟨S1x1x1048576x2, .f32⟩ : BufTy).Contents (Elt F)),
    reshape main_v11 main_v12 rfl shapeCasts_S1x1x1048576x2_S1x1x2097152,
    nullary main_c_1 (constantI S_ 32 0#32),
    unary main_c_1 main_v13 (broadcastInDim S1 ![] bcast_S_S1 : (⟨S_, .i32⟩ : BufTy).Contents (Elt F) → (⟨S1, .i32⟩ : BufTy).Contents (Elt F)),
    ternary main_arg0 main_v13 main_v12 main_v14 ((fun x i u => Host.scatter scatter_S1x1x33554432_S1_S1x1x2097152_012_n_2_0 (fun _ b => b) x i u) : (⟨S1x1x33554432, .f32⟩ : BufTy).Contents (Elt F) → (⟨S1, .i32⟩ : BufTy).Contents (Elt F) → (⟨S1x1x2097152, .f32⟩ : BufTy).Contents (Elt F) → (⟨S1x1x33554432, .f32⟩ : BufTy).Contents (Elt F)) ]

/-- The operations of level 2, in order. -/
abbrev ops2 : List (HloOp τ sig (Elt F)) :=
  [ unary main_v14 main_v15 ((extractStridedSlice S1x1x4194304 ![0, 0, 0] · slices_S1x1x33554432_S1x1x4194304_0_0_0) : (⟨S1x1x33554432, .f32⟩ : BufTy).Contents (Elt F) → (⟨S1x1x4194304, .f32⟩ : BufTy).Contents (Elt F)),
    unary main_v15 main_v16 ((extractStridedSlice S1x1x2097152 ![0, 0, 0] · slices_S1x1x4194304_S1x1x2097152_0_0_0) : (⟨S1x1x4194304, .f32⟩ : BufTy).Contents (Elt F) → (⟨S1x1x2097152, .f32⟩ : BufTy).Contents (Elt F)),
    unary main_v15 main_v17 ((extractStridedSlice S1x1x2097152 ![0, 0, 2097152] · slices_S1x1x4194304_S1x1x2097152_0_0_2097152) : (⟨S1x1x4194304, .f32⟩ : BufTy).Contents (Elt F) → (⟨S1x1x2097152, .f32⟩ : BufTy).Contents (Elt F)),
    binary main_v16 main_v17 main_v18 (addf : (⟨S1x1x2097152, .f32⟩ : BufTy).Contents (Elt F) → (⟨S1x1x2097152, .f32⟩ : BufTy).Contents (Elt F) → (⟨S1x1x2097152, .f32⟩ : BufTy).Contents (Elt F)),
    nullary main_cst_2 (constant S_ .f32 0x3F3504F3#32),
    unary main_cst_2 main_v19 (broadcastInDim S1x1x2097152 ![] bcast_S_S1x1x2097152 : (⟨S_, .f32⟩ : BufTy).Contents (Elt F) → (⟨S1x1x2097152, .f32⟩ : BufTy).Contents (Elt F)),
    binary main_v18 main_v19 main_v20 (mulf : (⟨S1x1x2097152, .f32⟩ : BufTy).Contents (Elt F) → (⟨S1x1x2097152, .f32⟩ : BufTy).Contents (Elt F) → (⟨S1x1x2097152, .f32⟩ : BufTy).Contents (Elt F)),
    binary main_v16 main_v17 main_v21 (subf : (⟨S1x1x2097152, .f32⟩ : BufTy).Contents (Elt F) → (⟨S1x1x2097152, .f32⟩ : BufTy).Contents (Elt F) → (⟨S1x1x2097152, .f32⟩ : BufTy).Contents (Elt F)),
    nullary main_cst_3 (constant S_ .f32 0x3F3504F3#32),
    unary main_cst_3 main_v22 (broadcastInDim S1x1x2097152 ![] bcast_S_S1x1x2097152 : (⟨S_, .f32⟩ : BufTy).Contents (Elt F) → (⟨S1x1x2097152, .f32⟩ : BufTy).Contents (Elt F)),
    binary main_v21 main_v22 main_v23 (mulf : (⟨S1x1x2097152, .f32⟩ : BufTy).Contents (Elt F) → (⟨S1x1x2097152, .f32⟩ : BufTy).Contents (Elt F) → (⟨S1x1x2097152, .f32⟩ : BufTy).Contents (Elt F)),
    unary main_v20 main_v24 (broadcastInDim S1x1x2097152x1 ![0, 1, 2] bcast_S1x1x2097152_S1x1x2097152x1_0_1_2 : (⟨S1x1x2097152, .f32⟩ : BufTy).Contents (Elt F) → (⟨S1x1x2097152x1, .f32⟩ : BufTy).Contents (Elt F)),
    unary main_v23 main_v25 (broadcastInDim S1x1x2097152x1 ![0, 1, 2] bcast_S1x1x2097152_S1x1x2097152x1_0_1_2 : (⟨S1x1x2097152, .f32⟩ : BufTy).Contents (Elt F) → (⟨S1x1x2097152x1, .f32⟩ : BufTy).Contents (Elt F)),
    binary main_v24 main_v25 main_v26 ((fun a b => concatenate S1x1x2097152x2 3 [⟨S1x1x2097152x1, a⟩, ⟨S1x1x2097152x1, b⟩] concatenates_S1x1x2097152x1_S1x1x2097152x1_S1x1x2097152x2_d3) : (⟨S1x1x2097152x1, .f32⟩ : BufTy).Contents (Elt F) → (⟨S1x1x2097152x1, .f32⟩ : BufTy).Contents (Elt F) → (⟨S1x1x2097152x2, .f32⟩ : BufTy).Contents (Elt F)),
    reshape main_v26 main_v27 rfl shapeCasts_S1x1x2097152x2_S1x1x4194304,
    nullary main_c_4 (constantI S_ 32 0#32),
    unary main_c_4 main_v28 (broadcastInDim S1 ![] bcast_S_S1 : (⟨S_, .i32⟩ : BufTy).Contents (Elt F) → (⟨S1, .i32⟩ : BufTy).Contents (Elt F)),
    ternary main_v14 main_v28 main_v27 main_v29 ((fun x i u => Host.scatter scatter_S1x1x33554432_S1_S1x1x4194304_012_n_2_0 (fun _ b => b) x i u) : (⟨S1x1x33554432, .f32⟩ : BufTy).Contents (Elt F) → (⟨S1, .i32⟩ : BufTy).Contents (Elt F) → (⟨S1x1x4194304, .f32⟩ : BufTy).Contents (Elt F) → (⟨S1x1x33554432, .f32⟩ : BufTy).Contents (Elt F)) ]

/-- The operations of level 3, in order. -/
abbrev ops3 : List (HloOp τ sig (Elt F)) :=
  [ unary main_v29 main_v30 ((extractStridedSlice S1x1x8388608 ![0, 0, 0] · slices_S1x1x33554432_S1x1x8388608_0_0_0) : (⟨S1x1x33554432, .f32⟩ : BufTy).Contents (Elt F) → (⟨S1x1x8388608, .f32⟩ : BufTy).Contents (Elt F)),
    unary main_v30 main_v31 ((extractStridedSlice S1x1x4194304 ![0, 0, 0] · slices_S1x1x8388608_S1x1x4194304_0_0_0) : (⟨S1x1x8388608, .f32⟩ : BufTy).Contents (Elt F) → (⟨S1x1x4194304, .f32⟩ : BufTy).Contents (Elt F)),
    unary main_v30 main_v32 ((extractStridedSlice S1x1x4194304 ![0, 0, 4194304] · slices_S1x1x8388608_S1x1x4194304_0_0_4194304) : (⟨S1x1x8388608, .f32⟩ : BufTy).Contents (Elt F) → (⟨S1x1x4194304, .f32⟩ : BufTy).Contents (Elt F)),
    binary main_v31 main_v32 main_v33 (addf : (⟨S1x1x4194304, .f32⟩ : BufTy).Contents (Elt F) → (⟨S1x1x4194304, .f32⟩ : BufTy).Contents (Elt F) → (⟨S1x1x4194304, .f32⟩ : BufTy).Contents (Elt F)),
    nullary main_cst_5 (constant S_ .f32 0x3F3504F3#32),
    unary main_cst_5 main_v34 (broadcastInDim S1x1x4194304 ![] bcast_S_S1x1x4194304 : (⟨S_, .f32⟩ : BufTy).Contents (Elt F) → (⟨S1x1x4194304, .f32⟩ : BufTy).Contents (Elt F)),
    binary main_v33 main_v34 main_v35 (mulf : (⟨S1x1x4194304, .f32⟩ : BufTy).Contents (Elt F) → (⟨S1x1x4194304, .f32⟩ : BufTy).Contents (Elt F) → (⟨S1x1x4194304, .f32⟩ : BufTy).Contents (Elt F)),
    binary main_v31 main_v32 main_v36 (subf : (⟨S1x1x4194304, .f32⟩ : BufTy).Contents (Elt F) → (⟨S1x1x4194304, .f32⟩ : BufTy).Contents (Elt F) → (⟨S1x1x4194304, .f32⟩ : BufTy).Contents (Elt F)),
    nullary main_cst_6 (constant S_ .f32 0x3F3504F3#32),
    unary main_cst_6 main_v37 (broadcastInDim S1x1x4194304 ![] bcast_S_S1x1x4194304 : (⟨S_, .f32⟩ : BufTy).Contents (Elt F) → (⟨S1x1x4194304, .f32⟩ : BufTy).Contents (Elt F)),
    binary main_v36 main_v37 main_v38 (mulf : (⟨S1x1x4194304, .f32⟩ : BufTy).Contents (Elt F) → (⟨S1x1x4194304, .f32⟩ : BufTy).Contents (Elt F) → (⟨S1x1x4194304, .f32⟩ : BufTy).Contents (Elt F)),
    unary main_v35 main_v39 (broadcastInDim S1x1x4194304x1 ![0, 1, 2] bcast_S1x1x4194304_S1x1x4194304x1_0_1_2 : (⟨S1x1x4194304, .f32⟩ : BufTy).Contents (Elt F) → (⟨S1x1x4194304x1, .f32⟩ : BufTy).Contents (Elt F)),
    unary main_v38 main_v40 (broadcastInDim S1x1x4194304x1 ![0, 1, 2] bcast_S1x1x4194304_S1x1x4194304x1_0_1_2 : (⟨S1x1x4194304, .f32⟩ : BufTy).Contents (Elt F) → (⟨S1x1x4194304x1, .f32⟩ : BufTy).Contents (Elt F)),
    binary main_v39 main_v40 main_v41 ((fun a b => concatenate S1x1x4194304x2 3 [⟨S1x1x4194304x1, a⟩, ⟨S1x1x4194304x1, b⟩] concatenates_S1x1x4194304x1_S1x1x4194304x1_S1x1x4194304x2_d3) : (⟨S1x1x4194304x1, .f32⟩ : BufTy).Contents (Elt F) → (⟨S1x1x4194304x1, .f32⟩ : BufTy).Contents (Elt F) → (⟨S1x1x4194304x2, .f32⟩ : BufTy).Contents (Elt F)),
    reshape main_v41 main_v42 rfl shapeCasts_S1x1x4194304x2_S1x1x8388608,
    nullary main_c_7 (constantI S_ 32 0#32),
    unary main_c_7 main_v43 (broadcastInDim S1 ![] bcast_S_S1 : (⟨S_, .i32⟩ : BufTy).Contents (Elt F) → (⟨S1, .i32⟩ : BufTy).Contents (Elt F)),
    ternary main_v29 main_v43 main_v42 main_v44 ((fun x i u => Host.scatter scatter_S1x1x33554432_S1_S1x1x8388608_012_n_2_0 (fun _ b => b) x i u) : (⟨S1x1x33554432, .f32⟩ : BufTy).Contents (Elt F) → (⟨S1, .i32⟩ : BufTy).Contents (Elt F) → (⟨S1x1x8388608, .f32⟩ : BufTy).Contents (Elt F) → (⟨S1x1x33554432, .f32⟩ : BufTy).Contents (Elt F)) ]

/-- The operations of level 4, in order. -/
abbrev ops4 : List (HloOp τ sig (Elt F)) :=
  [ unary main_v44 main_v45 ((extractStridedSlice S1x1x16777216 ![0, 0, 0] · slices_S1x1x33554432_S1x1x16777216_0_0_0) : (⟨S1x1x33554432, .f32⟩ : BufTy).Contents (Elt F) → (⟨S1x1x16777216, .f32⟩ : BufTy).Contents (Elt F)),
    unary main_v45 main_v46 ((extractStridedSlice S1x1x8388608 ![0, 0, 0] · slices_S1x1x16777216_S1x1x8388608_0_0_0) : (⟨S1x1x16777216, .f32⟩ : BufTy).Contents (Elt F) → (⟨S1x1x8388608, .f32⟩ : BufTy).Contents (Elt F)),
    unary main_v45 main_v47 ((extractStridedSlice S1x1x8388608 ![0, 0, 8388608] · slices_S1x1x16777216_S1x1x8388608_0_0_8388608) : (⟨S1x1x16777216, .f32⟩ : BufTy).Contents (Elt F) → (⟨S1x1x8388608, .f32⟩ : BufTy).Contents (Elt F)),
    binary main_v46 main_v47 main_v48 (addf : (⟨S1x1x8388608, .f32⟩ : BufTy).Contents (Elt F) → (⟨S1x1x8388608, .f32⟩ : BufTy).Contents (Elt F) → (⟨S1x1x8388608, .f32⟩ : BufTy).Contents (Elt F)),
    nullary main_cst_8 (constant S_ .f32 0x3F3504F3#32),
    unary main_cst_8 main_v49 (broadcastInDim S1x1x8388608 ![] bcast_S_S1x1x8388608 : (⟨S_, .f32⟩ : BufTy).Contents (Elt F) → (⟨S1x1x8388608, .f32⟩ : BufTy).Contents (Elt F)),
    binary main_v48 main_v49 main_v50 (mulf : (⟨S1x1x8388608, .f32⟩ : BufTy).Contents (Elt F) → (⟨S1x1x8388608, .f32⟩ : BufTy).Contents (Elt F) → (⟨S1x1x8388608, .f32⟩ : BufTy).Contents (Elt F)),
    binary main_v46 main_v47 main_v51 (subf : (⟨S1x1x8388608, .f32⟩ : BufTy).Contents (Elt F) → (⟨S1x1x8388608, .f32⟩ : BufTy).Contents (Elt F) → (⟨S1x1x8388608, .f32⟩ : BufTy).Contents (Elt F)),
    nullary main_cst_9 (constant S_ .f32 0x3F3504F3#32),
    unary main_cst_9 main_v52 (broadcastInDim S1x1x8388608 ![] bcast_S_S1x1x8388608 : (⟨S_, .f32⟩ : BufTy).Contents (Elt F) → (⟨S1x1x8388608, .f32⟩ : BufTy).Contents (Elt F)),
    binary main_v51 main_v52 main_v53 (mulf : (⟨S1x1x8388608, .f32⟩ : BufTy).Contents (Elt F) → (⟨S1x1x8388608, .f32⟩ : BufTy).Contents (Elt F) → (⟨S1x1x8388608, .f32⟩ : BufTy).Contents (Elt F)),
    unary main_v50 main_v54 (broadcastInDim S1x1x8388608x1 ![0, 1, 2] bcast_S1x1x8388608_S1x1x8388608x1_0_1_2 : (⟨S1x1x8388608, .f32⟩ : BufTy).Contents (Elt F) → (⟨S1x1x8388608x1, .f32⟩ : BufTy).Contents (Elt F)),
    unary main_v53 main_v55 (broadcastInDim S1x1x8388608x1 ![0, 1, 2] bcast_S1x1x8388608_S1x1x8388608x1_0_1_2 : (⟨S1x1x8388608, .f32⟩ : BufTy).Contents (Elt F) → (⟨S1x1x8388608x1, .f32⟩ : BufTy).Contents (Elt F)),
    binary main_v54 main_v55 main_v56 ((fun a b => concatenate S1x1x8388608x2 3 [⟨S1x1x8388608x1, a⟩, ⟨S1x1x8388608x1, b⟩] concatenates_S1x1x8388608x1_S1x1x8388608x1_S1x1x8388608x2_d3) : (⟨S1x1x8388608x1, .f32⟩ : BufTy).Contents (Elt F) → (⟨S1x1x8388608x1, .f32⟩ : BufTy).Contents (Elt F) → (⟨S1x1x8388608x2, .f32⟩ : BufTy).Contents (Elt F)),
    reshape main_v56 main_v57 rfl shapeCasts_S1x1x8388608x2_S1x1x16777216,
    nullary main_c_10 (constantI S_ 32 0#32),
    unary main_c_10 main_v58 (broadcastInDim S1 ![] bcast_S_S1 : (⟨S_, .i32⟩ : BufTy).Contents (Elt F) → (⟨S1, .i32⟩ : BufTy).Contents (Elt F)),
    ternary main_v44 main_v58 main_v57 main_v59 ((fun x i u => Host.scatter scatter_S1x1x33554432_S1_S1x1x16777216_012_n_2_0 (fun _ b => b) x i u) : (⟨S1x1x33554432, .f32⟩ : BufTy).Contents (Elt F) → (⟨S1, .i32⟩ : BufTy).Contents (Elt F) → (⟨S1x1x16777216, .f32⟩ : BufTy).Contents (Elt F) → (⟨S1x1x33554432, .f32⟩ : BufTy).Contents (Elt F)) ]

/-- The operations of level 5, in order. -/
abbrev ops5 : List (HloOp τ sig (Elt F)) :=
  [ unary main_v59 main_v60 ((extractStridedSlice S1x1x16777216 ![0, 0, 0] · slices_S1x1x33554432_S1x1x16777216_0_0_0) : (⟨S1x1x33554432, .f32⟩ : BufTy).Contents (Elt F) → (⟨S1x1x16777216, .f32⟩ : BufTy).Contents (Elt F)),
    unary main_v59 main_v61 ((extractStridedSlice S1x1x16777216 ![0, 0, 16777216] · slices_S1x1x33554432_S1x1x16777216_0_0_16777216) : (⟨S1x1x33554432, .f32⟩ : BufTy).Contents (Elt F) → (⟨S1x1x16777216, .f32⟩ : BufTy).Contents (Elt F)),
    binary main_v60 main_v61 main_v62 (addf : (⟨S1x1x16777216, .f32⟩ : BufTy).Contents (Elt F) → (⟨S1x1x16777216, .f32⟩ : BufTy).Contents (Elt F) → (⟨S1x1x16777216, .f32⟩ : BufTy).Contents (Elt F)),
    nullary main_cst_11 (constant S_ .f32 0x3F3504F3#32),
    unary main_cst_11 main_v63 (broadcastInDim S1x1x16777216 ![] bcast_S_S1x1x16777216 : (⟨S_, .f32⟩ : BufTy).Contents (Elt F) → (⟨S1x1x16777216, .f32⟩ : BufTy).Contents (Elt F)),
    binary main_v62 main_v63 main_v64 (mulf : (⟨S1x1x16777216, .f32⟩ : BufTy).Contents (Elt F) → (⟨S1x1x16777216, .f32⟩ : BufTy).Contents (Elt F) → (⟨S1x1x16777216, .f32⟩ : BufTy).Contents (Elt F)),
    binary main_v60 main_v61 main_v65 (subf : (⟨S1x1x16777216, .f32⟩ : BufTy).Contents (Elt F) → (⟨S1x1x16777216, .f32⟩ : BufTy).Contents (Elt F) → (⟨S1x1x16777216, .f32⟩ : BufTy).Contents (Elt F)),
    nullary main_cst_12 (constant S_ .f32 0x3F3504F3#32),
    unary main_cst_12 main_v66 (broadcastInDim S1x1x16777216 ![] bcast_S_S1x1x16777216 : (⟨S_, .f32⟩ : BufTy).Contents (Elt F) → (⟨S1x1x16777216, .f32⟩ : BufTy).Contents (Elt F)),
    binary main_v65 main_v66 main_v67 (mulf : (⟨S1x1x16777216, .f32⟩ : BufTy).Contents (Elt F) → (⟨S1x1x16777216, .f32⟩ : BufTy).Contents (Elt F) → (⟨S1x1x16777216, .f32⟩ : BufTy).Contents (Elt F)),
    unary main_v64 main_v68 (broadcastInDim S1x1x16777216x1 ![0, 1, 2] bcast_S1x1x16777216_S1x1x16777216x1_0_1_2 : (⟨S1x1x16777216, .f32⟩ : BufTy).Contents (Elt F) → (⟨S1x1x16777216x1, .f32⟩ : BufTy).Contents (Elt F)),
    unary main_v67 main_v69 (broadcastInDim S1x1x16777216x1 ![0, 1, 2] bcast_S1x1x16777216_S1x1x16777216x1_0_1_2 : (⟨S1x1x16777216, .f32⟩ : BufTy).Contents (Elt F) → (⟨S1x1x16777216x1, .f32⟩ : BufTy).Contents (Elt F)),
    binary main_v68 main_v69 main_v70 ((fun a b => concatenate S1x1x16777216x2 3 [⟨S1x1x16777216x1, a⟩, ⟨S1x1x16777216x1, b⟩] concatenates_S1x1x16777216x1_S1x1x16777216x1_S1x1x16777216x2_d3) : (⟨S1x1x16777216x1, .f32⟩ : BufTy).Contents (Elt F) → (⟨S1x1x16777216x1, .f32⟩ : BufTy).Contents (Elt F) → (⟨S1x1x16777216x2, .f32⟩ : BufTy).Contents (Elt F)),
    reshape main_v70 main_v71 rfl shapeCasts_S1x1x16777216x2_S1x1x33554432,
    ternary main_v59 main_c main_v71 main_v72 ((fun x i u => Host.scatter scatter_S1x1x33554432_S0_S1x1x33554432_012_n_n_0 (fun _ b => b) x i u) : (⟨S1x1x33554432, .f32⟩ : BufTy).Contents (Elt F) → (⟨S0, .i32⟩ : BufTy).Contents (Elt F) → (⟨S1x1x33554432, .f32⟩ : BufTy).Contents (Elt F) → (⟨S1x1x33554432, .f32⟩ : BufTy).Contents (Elt F)) ]

set_option maxRecDepth 8192 in
set_option maxHeartbeats 4000000 in
/-- The program's operations are the five levels' lines one after the other. -/
theorem ops_split : (ops : List (HloOp τ sig (Elt F))) = ops1 ++ ops2 ++ ops3 ++ ops4 ++ ops5 := rfl

end Lines

/-- The start index of the four one-window scatters is the word 0. -/
theorem idx_zero : ((broadcastInDim S1 ![] bcast_S_S1 (constantI S_ 32 0#32) : IVec S1 32) (ix1 0)).toInt = 0 := by
  rw [broadcastInDim_scalar_apply]; rfl

/-- A flat signal given unit axes and flattened again is itself. -/
theorem flat_unflat (y : FVec Ideal SFlat .f32) : flat (unflat y) = y := by
  funext i
  rw [eq_ix1 i]
  rfl

set_option maxRecDepth 8192 in
/-- Level 1 (half-length 1048576), run from any contents. -/
theorem line1 (V : Valuation τ sig (Elt Ideal)) :
    after (ops1 (F := Ideal)) V (Proc.devRef .tc main_v14)
      = unflat (lvl 1048576 (flat (V (Proc.devRef .tc main_arg0)))) := by
  refine Eq.trans ?_ (level_prefix (h := 1048576) (W := 2097152) (by norm_num) (by norm_num) (V (Proc.devRef .tc main_arg0))
    scatter_S1x1x33554432_S1_S1x1x2097152_012_n_2_0 rfl rfl rfl rfl (broadcastInDim S1 ![] bcast_S_S1 (constantI S_ 32 0#32)) idx_zero
    slices_S1x1x33554432_S1x1x2097152_0_0_0 slices_S1x1x2097152_S1x1x1048576_0_0_0 slices_S1x1x2097152_S1x1x1048576_0_0_1048576
    bcast_S_S1x1x1048576 bcast_S1x1x1048576_S1x1x1048576x1_0_1_2 concatenates_S1x1x1048576x1_S1x1x1048576x1_S1x1x1048576x2_d3
    shapeCasts_S1x1x1048576x2_S1x1x2097152)
  after_results_simp
  rfl

set_option maxRecDepth 8192 in
/-- Level 2 (half-length 2097152), run from any contents. -/
theorem line2 (V : Valuation τ sig (Elt Ideal)) :
    after (ops2 (F := Ideal)) V (Proc.devRef .tc main_v29)
      = unflat (lvl 2097152 (flat (V (Proc.devRef .tc main_v14)))) := by
  refine Eq.trans ?_ (level_prefix (h := 2097152) (W := 4194304) (by norm_num) (by norm_num) (V (Proc.devRef .tc main_v14))
    scatter_S1x1x33554432_S1_S1x1x4194304_012_n_2_0 rfl rfl rfl rfl (broadcastInDim S1 ![] bcast_S_S1 (constantI S_ 32 0#32)) idx_zero
    slices_S1x1x33554432_S1x1x4194304_0_0_0 slices_S1x1x4194304_S1x1x2097152_0_0_0 slices_S1x1x4194304_S1x1x2097152_0_0_2097152
    bcast_S_S1x1x2097152 bcast_S1x1x2097152_S1x1x2097152x1_0_1_2 concatenates_S1x1x2097152x1_S1x1x2097152x1_S1x1x2097152x2_d3
    shapeCasts_S1x1x2097152x2_S1x1x4194304)
  after_results_simp
  rfl

set_option maxRecDepth 8192 in
/-- Level 3 (half-length 4194304), run from any contents. -/
theorem line3 (V : Valuation τ sig (Elt Ideal)) :
    after (ops3 (F := Ideal)) V (Proc.devRef .tc main_v44)
      = unflat (lvl 4194304 (flat (V (Proc.devRef .tc main_v29)))) := by
  refine Eq.trans ?_ (level_prefix (h := 4194304) (W := 8388608) (by norm_num) (by norm_num) (V (Proc.devRef .tc main_v29))
    scatter_S1x1x33554432_S1_S1x1x8388608_012_n_2_0 rfl rfl rfl rfl (broadcastInDim S1 ![] bcast_S_S1 (constantI S_ 32 0#32)) idx_zero
    slices_S1x1x33554432_S1x1x8388608_0_0_0 slices_S1x1x8388608_S1x1x4194304_0_0_0 slices_S1x1x8388608_S1x1x4194304_0_0_4194304
    bcast_S_S1x1x4194304 bcast_S1x1x4194304_S1x1x4194304x1_0_1_2 concatenates_S1x1x4194304x1_S1x1x4194304x1_S1x1x4194304x2_d3
    shapeCasts_S1x1x4194304x2_S1x1x8388608)
  after_results_simp
  rfl

set_option maxRecDepth 8192 in
/-- Level 4 (half-length 8388608), run from any contents. -/
theorem line4 (V : Valuation τ sig (Elt Ideal)) :
    after (ops4 (F := Ideal)) V (Proc.devRef .tc main_v59)
      = unflat (lvl 8388608 (flat (V (Proc.devRef .tc main_v44)))) := by
  refine Eq.trans ?_ (level_prefix (h := 8388608) (W := 16777216) (by norm_num) (by norm_num) (V (Proc.devRef .tc main_v44))
    scatter_S1x1x33554432_S1_S1x1x16777216_012_n_2_0 rfl rfl rfl rfl (broadcastInDim S1 ![] bcast_S_S1 (constantI S_ 32 0#32)) idx_zero
    slices_S1x1x33554432_S1x1x16777216_0_0_0 slices_S1x1x16777216_S1x1x8388608_0_0_0 slices_S1x1x16777216_S1x1x8388608_0_0_8388608
    bcast_S_S1x1x8388608 bcast_S1x1x8388608_S1x1x8388608x1_0_1_2 concatenates_S1x1x8388608x1_S1x1x8388608x1_S1x1x8388608x2_d3
    shapeCasts_S1x1x8388608x2_S1x1x16777216)
  after_results_simp
  rfl

set_option maxRecDepth 8192 in
/-- Level 5 (half-length 16777216), run from any contents: the whole signal is replaced. -/
theorem line5 (V : Valuation τ sig (Elt Ideal)) :
    after (ops5 (F := Ideal)) V (Proc.devRef .tc main_v72)
      = unflat (lvl 16777216 (flat (V (Proc.devRef .tc main_v59)))) := by
  refine Eq.trans ?_ (level_whole (h := 16777216) (by norm_num) (V (Proc.devRef .tc main_v59))
    scatter_S1x1x33554432_S0_S1x1x33554432_012_n_n_0 rfl rfl rfl rfl (V (Proc.devRef .tc main_c))
    slices_S1x1x33554432_S1x1x16777216_0_0_0 slices_S1x1x33554432_S1x1x16777216_0_0_16777216
    bcast_S_S1x1x16777216 bcast_S1x1x16777216_S1x1x16777216x1_0_1_2 concatenates_S1x1x16777216x1_S1x1x16777216x1_S1x1x16777216x2_d3
    shapeCasts_S1x1x16777216x2_S1x1x33554432)
  after_results_simp
  rfl

/-- The reference's result buffer after its operations is the five levels of the argument. -/
theorem result_eq (V0 : Valuation τ sig (Elt Ideal)) :
    after (ops (F := Ideal)) V0 (Proc.devRef .tc main_v72) = G (V0 (Proc.devRef .tc main_arg0)) := by
  rw [ops_split, after_append, after_append, after_append, after_append,
    line5, line4, flat_unflat, line3, flat_unflat, line2, flat_unflat, line1, flat_unflat]
  rfl

end Cert.Haar.Ref

end
-- ==== Proof.lean ====
/-
  The certificate of the five-level inverse Haar transform.

  The kernel program flattens the signal (33554432 entries), and for the half-lengths h = 2^20, …, 2^24 in turn
  launches the butterfly kernel on the first 2h entries seen as rows of 128 — each grid point reads block t of the
  first half and block t of the second half of ONE array and writes block t of the scaled sum and of the scaled
  difference —, then interleaves the two results and puts them back over the first 2h entries. The reference does
  the same level with slices, one sum, one difference, two products by the same binary32 constant, an interleave and
  an update of the first 2h entries. At the ideal instance both are the function `Cert.Haar.G`: no law beyond the
  definitions is needed (the two sides apply the same operations to the same entries), so the precondition is never
  opened.

  The three frames: each kernel program's run (Proof/KRun.lean, Proof/KIRun.lean: every item of @main takes the
  core's unscoped buffers from one boundary's contents to the next) ends with every unscoped buffer at the last
  boundary's contents, and the argument array's contents never change along the boundaries (Proof/KArg.lean,
  Proof/KIArg.lean); the reference is a straight line of host operations none of which writes the argument
  (Proof/RefFrame.lean). The idealization rewrote nothing, so `preserves` is `True`. The value claim: the idealized
  kernel's result buffer at the last boundary is `G` of the argument (Proof/KIValue.lean, over the host stretches
  read level by level, Proof/HostValue.lean, and the regions' result arrays, Proof/KIVal0.lean … KIVal4.lean), and so
  is the fold of the reference's operations (Proof/RefValue.lean).
-/
import proofs.«157342_j28784870817852_2_alg».proof.Defs
import proofs.«157342_j28784870817852_2_alg».proof.Proof.Gen.Kernel
import proofs.«157342_j28784870817852_2_alg».proof.Proof.Gen.KernelIdeal
import proofs.«157342_j28784870817852_2_alg».proof.Proof.Gen.ReferenceIdeal
import proofs.«157342_j28784870817852_2_alg».proof.Proof.Gen.Pre_finite_inputs
import proofs.«157342_j28784870817852_2_alg».proof.Proof.KRun
import proofs.«157342_j28784870817852_2_alg».proof.Proof.KArg
import proofs.«157342_j28784870817852_2_alg».proof.Proof.KIRun
import proofs.«157342_j28784870817852_2_alg».proof.Proof.KIArg
import proofs.«157342_j28784870817852_2_alg».proof.Proof.KIValue
import proofs.«157342_j28784870817852_2_alg».proof.Proof.RefFrame
import proofs.«157342_j28784870817852_2_alg».proof.Proof.RefValue
import Idealize.ShloMosaic.Adequacy
import Idealize.ShloMosaic.Init

noncomputable section

namespace Cert.Proof

open Idealize.ShloMosaic Idealize.ShloMosaic.TcCoe Idealize.SL.Sem

/-- The kernel program's frame: its run ends with every unscoped buffer at the last boundary's contents, and the
    argument's contents there are the launch's. -/
theorem frame_k : Cert.frame_Kernel := fun m ρ _ =>
  (θ_run Cert.Kernel.defs _ _).mono
    (fun r h c => (h c _ (Finset.mem_filter.mpr ⟨StableHlo.devRef_mem_tcRefs Cert.Kernel.main_arg0, by decide⟩)).trans (Cert.Kernel.Fr.W11_arg m c))
    (Cert.Kernel.Fr.run_all (F := Bits) m ρ)

/-- The idealized kernel program's frame, the same way. -/
theorem frame_ki : Cert.frame_KernelIdeal := fun m ρ _ =>
  (θ_run Cert.KernelIdeal.defs _ _).mono
    (fun r h c => (h c _ (Finset.mem_filter.mpr ⟨StableHlo.devRef_mem_tcRefs Cert.KernelIdeal.main_arg0, by decide⟩)).trans (Cert.KernelIdeal.Fr.W11_arg m c))
    (Cert.KernelIdeal.Fr.run_all (F := Ideal) m ρ)

/-- The two idealized programs end with the same result: the five-level transform of the argument. -/
theorem algebraic : Cert.algebraic_KernelIdeal_ReferenceIdeal := by
  intro m ρ m' ρ' _ hagree
  refine ⟨fun c => Cert.Haar.G (m ((c.tc : Thread Cert.KernelIdeal.nD Cert.KernelIdeal.τ).loc Cert.KernelIdeal.main_arg0)), ?_, ?_⟩
  · exact (θ_run Cert.KernelIdeal.defs _ _).mono
      (fun r h c => ⟨(h c _ (Finset.mem_filter.mpr ⟨StableHlo.devRef_mem_tcRefs Cert.KernelIdeal.main_v0, by decide⟩)).trans (Cert.KernelIdeal.FrVal.W11_value m c),
        (h c _ (Finset.mem_filter.mpr ⟨StableHlo.devRef_mem_tcRefs Cert.KernelIdeal.main_arg0, by decide⟩)).trans (Cert.KernelIdeal.Fr.W11_arg m c)⟩)
      (Cert.KernelIdeal.Fr.run_all (F := Ideal) m ρ)
  · refine (θ_run Cert.ReferenceIdeal.defs _ _).mono (fun r h c => ⟨?_, (h c Cert.ReferenceIdeal.main_arg0).trans (RefFrame.arg_kept _)⟩)
      (RefFrame.run_after (F := Ideal) m' ρ')
    refine (h c Cert.ReferenceIdeal.main_v72).trans ((Cert.Haar.Ref.result_eq _).trans ?_)
    exact congrArg Cert.Haar.G (hagree c)

theorem claim : Cert.Claim :=
  ⟨Cert.Kernel.Gen.facts, Cert.KernelIdeal.Gen.facts, Cert.ReferenceIdeal.Gen.facts, Cert.Pre_finite_inputs.Gen.facts,
    frame_k, frame_ki, RefFrame.frame, trivial, algebraic⟩

end Cert.Proof

end
